-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x1024x2048 : Shape := ⟨3, ![2, 1024, 2048]⟩
abbrev S2x8x2048x64 : Shape := ⟨4, ![2, 8, 2048, 64]⟩
abbrev S1024x32 : Shape := ⟨2, ![1024, 32]⟩
abbrev S2048x2048 : Shape := ⟨2, ![2048, 2048]⟩
abbrev S512x2048 : Shape := ⟨2, ![512, 2048]⟩
abbrev S64 : Shape := ⟨1, ![64]⟩
abbrev S_ : Shape := ⟨0, ![]⟩

class Facts : Prop where
  bcast_S_S2x1024x2048 : S_.BroadcastsInDim S2x1024x2048 (![] : Fin 0 → Fin S2x1024x2048.rank)
  reducesTo_S2x1024x2048_S_d0_1_2 : S2x1024x2048.ReducesTo [0, 1, 2] S_
  h_S_ : 0 < S_.numel
  bcast_S_S2x8x2048x64 : S_.BroadcastsInDim S2x8x2048x64 (![] : Fin 0 → Fin S2x8x2048x64.rank)
  reducesTo_S2x8x2048x64_S_d0_1_2_3 : S2x8x2048x64.ReducesTo [0, 1, 2, 3] S_
  bcast_S_S1024x32 : S_.BroadcastsInDim S1024x32 (![] : Fin 0 → Fin S1024x32.rank)
  reducesTo_S1024x32_S_d0_1 : S1024x32.ReducesTo [0, 1] S_
  bcast_S_S2048x2048 : S_.BroadcastsInDim S2048x2048 (![] : Fin 0 → Fin S2048x2048.rank)
  reducesTo_S2048x2048_S_d0_1 : S2048x2048.ReducesTo [0, 1] S_
  bcast_S_S512x2048 : S_.BroadcastsInDim S512x2048 (![] : Fin 0 → Fin S512x2048.rank)
  reducesTo_S512x2048_S_d0_1 : S512x2048.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  main_v53

def fn_part2 {F : FTy → Type} [FloatOps F] (main_arg7 : FVec F S512x2048 .f32) (main_arg8 : FVec F S2048x2048 .f32) (main_arg9 : FVec F S64 .f32) (main_arg10 : FVec F S64 .f32) (main_v33 : IVec S_ 1) : IVec S_ 1 :=
  let main_v34 : FVec F S512x2048 .f32 := Host.absf main_arg7
  let main_cst_12 : FVec F S_ .f32 := constant S_ .f32 0x7F800000#32
  let main_v35 : FVec F S512x2048 .f32 := broadcastInDim S512x2048 ![] bcast_S_S512x2048 main_cst_12
  let main_v36 : IVec S512x2048 1 := cmpf .olt main_v34 main_v35
  let main_c_13 : IVec S_ 1 := constantI S_ 1 1#1
  let main_v37 : IVec S_ 1 := (fun x v => Host.reduce IntOp.andi x v reducesTo_S512x2048_S_d0_1 h_S_) main_v36 main_c_13
  let main_v38 : IVec S_ 1 := andi main_v33 main_v37
  let main_v39 : FVec F S2048x2048 .f32 := Host.absf main_arg8
  let main_cst_14 : FVec F S_ .f32 := constant S_ .f32 0x7F800000#32
  let main_v40 : FVec F S2048x2048 .f32 := broadcastInDim S2048x2048 ![] bcast_S_S2048x2048 main_cst_14
  let main_v41 : IVec S2048x2048 1 := cmpf .olt main_v39 main_v40
  let main_c_15 : IVec S_ 1 := constantI S_ 1 1#1
  let main_v42 : IVec S_ 1 := (fun x v => Host.reduce IntOp.andi x v reducesTo_S2048x2048_S_d0_1 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64 .f32 := Host.absf main_arg10
  let main_cst_18 : FVec F S_ .f32 := constant S_ .f32 0x7F800000#32
  let main_v50 : FVec F S64 .f32 := broadcastInDim S64 ![] bcast_S_S64 main_cst_18
  fn_part3 (F := F) main_v48 main_v49 main_v50

def fn_part1 {F : FTy → Type} [FloatOps F] (main_arg4 : FVec F S1024x32 .f32) (main_arg5 : FVec F S2048x2048 .f32) (main_arg6 : FVec F S512x2048 .f32) (main_arg7 : FVec F S512x2048 .f32) (main_arg8 : FVec F S2048x2048 .f32) (main_arg9 : FVec F S64 .f32) (main_arg10 : FVec F S64 .f32) (main_v13 : IVec S_ 1) (main_v16 : IVec S1024x32 1) : IVec S_ 1 :=
  let main_c_5 : IVec S_ 1 := constantI S_ 1 1#1
  let main_v17 : IVec S_ 1 := (fun x v => Host.reduce IntOp.andi x v reducesTo_S1024x32_S_d0_1 h_S_) main_v16 main_c_5
  let main_v18 : IVec S_ 1 := andi main_v13 main_v17
  let main_v19 : FVec F S1024x32 .f32 := Host.absf main_arg4
  let main_cst_6 : FVec F S_ .f32 := constant S_ .f32 0x7F800000#32
  let main_v20 : FVec F S1024x32 .f32 := broadcastInDim S1024x32 ![] bcast_S_S1024x32 main_cst_6
  let main_v21 : IVec S1024x32 1 := cmpf .olt main_v19 main_v20
  let main_c_7 : IVec S_ 1 := constantI S_ 1 1#1
  let main_v22 : IVec S_ 1 := (fun x v => Host.reduce IntOp.andi x v reducesTo_S1024x32_S_d0_1 h_S_) main_v21 main_c_7
  let main_v23 : IVec S_ 1 := andi main_v18 main_v22
  let main_v24 : FVec F S2048x2048 .f32 := Host.absf main_arg5
  let main_cst_8 : FVec F S_ .f32 := constant S_ .f32 0x7F800000#32
  let main_v25 : FVec F S2048x2048 .f32 := broadcastInDim S2048x2048 ![] bcast_S_S2048x2048 main_cst_8
  let main_v26 : IVec S2048x2048 1 := cmpf .olt main_v24 main_v25
  let main_c_9 : IVec S_ 1 := constantI S_ 1 1#1
  let main_v27 : IVec S_ 1 := (fun x v => Host.reduce IntOp.andi x v reducesTo_S2048x2048_S_d0_1 h_S_) main_v26 main_c_9
  let main_v28 : IVec S_ 1 := andi main_v23 main_v27
  let main_v29 : FVec F S512x2048 .f32 := Host.absf main_arg6
  let main_cst_10 : FVec F S_ .f32 := constant S_ .f32 0x7F800000#32
  let main_v30 : FVec F S512x2048 .f32 := broadcastInDim S512x2048 ![] bcast_S_S512x2048 main_cst_10
  let main_v31 : IVec S512x2048 1 := cmpf .olt main_v29 main_v30
  let main_c_11 : IVec S_ 1 := constantI S_ 1 1#1
  let main_v32 : IVec S_ 1 := (fun x v => Host.reduce IntOp.andi x v reducesTo_S512x2048_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S2x1024x2048 .f32) (main_arg1 : FVec F S2x8x2048x64 .f32) (main_arg2 : FVec F S2x8x2048x64 .f32) (main_arg3 : FVec F S1024x32 .f32) (main_arg4 : FVec F S1024x32 .f32) (main_arg5 : FVec F S2048x2048 .f32) (main_arg6 : FVec F S512x2048 .f32) (main_arg7 : FVec F S512x2048 .f32) (main_arg8 : FVec F S2048x2048 .f32) (main_arg9 : FVec F S64 .f32) (main_arg10 : FVec F S64 .f32) : IVec S_ 1 :=
  let main_v0 : FVec F S2x1024x2048 .f32 := Host.absf main_arg0
  let main_cst : FVec F S_ .f32 := constant S_ .f32 0x7F800000#32
  let main_v1 : FVec F S2x1024x2048 .f32 := broadcastInDim S2x1024x2048 ![] bcast_S_S2x1024x2048 main_cst
  let main_v2 : IVec S2x1024x2048 1 := cmpf .olt main_v0 main_v1
  let main_c : IVec S_ 1 := constantI S_ 1 1#1
  let main_v3 : IVec S_ 1 := (fun x v => Host.reduce IntOp.andi x v reducesTo_S2x1024x2048_S_d0_1_2 h_S_) main_v2 main_c
  let main_v4 : FVec F S2x8x2048x64 .f32 := Host.absf main_arg1
  let main_cst_0 : FVec F S_ .f32 := constant S_ .f32 0x7F800000#32
  let main_v5 : FVec F S2x8x2048x64 .f32 := broadcastInDim S2x8x2048x64 ![] bcast_S_S2x8x2048x64 main_cst_0
  let main_v6 : IVec S2x8x2048x64 1 := cmpf .olt main_v4 main_v5
  let main_c_1 : IVec S_ 1 := constantI S_ 1 1#1
  let main_v7 : IVec S_ 1 := (fun x v => Host.reduce IntOp.andi x v reducesTo_S2x8x2048x64_S_d0_1_2_3 h_S_) main_v6 main_c_1
  let main_v8 : IVec S_ 1 := andi main_v3 main_v7
  let main_v9 : FVec F S2x8x2048x64 .f32 := Host.absf main_arg2
  let main_cst_2 : FVec F S_ .f32 := constant S_ .f32 0x7F800000#32
  let main_v10 : FVec F S2x8x2048x64 .f32 := broadcastInDim S2x8x2048x64 ![] bcast_S_S2x8x2048x64 main_cst_2
  let main_v11 : IVec S2x8x2048x64 1 := cmpf .olt main_v9 main_v10
  let main_c_3 : IVec S_ 1 := constantI S_ 1 1#1
  let main_v12 : IVec S_ 1 := (fun x v => Host.reduce IntOp.andi x v reducesTo_S2x8x2048x64_S_d0_1_2_3 h_S_) main_v11 main_c_3
  let main_v13 : IVec S_ 1 := andi main_v8 main_v12
  let main_v14 : FVec F S1024x32 .f32 := Host.absf main_arg3
  let main_cst_4 : FVec F S_ .f32 := constant S_ .f32 0x7F800000#32
  let main_v15 : FVec F S1024x32 .f32 := broadcastInDim S1024x32 ![] bcast_S_S1024x32 main_cst_4
  let main_v16 : IVec S1024x32 1 := cmpf .olt main_v14 main_v15
  fn_part1 (F := F) main_arg4 main_arg5 main_arg6 main_arg7 main_arg8 main_arg9 main_arg10 main_v13 main_v16
-- ==== Kernel.lean ====
abbrev S2x1024x2048 : Shape := ⟨3, ![2, 1024, 2048]⟩
abbrev S2x8x2048x64 : Shape := ⟨4, ![2, 8, 2048, 64]⟩
abbrev S1024x32 : Shape := ⟨2, ![1024, 32]⟩
abbrev S2048x2048 : Shape := ⟨2, ![2048, 2048]⟩
abbrev S512x2048 : Shape := ⟨2, ![512, 2048]⟩
abbrev S64 : Shape := ⟨1, ![64]⟩
abbrev S3072x2048 : Shape := ⟨2, ![3072, 2048]⟩
abbrev S2048x3072 : Shape := ⟨2, ![2048, 3072]⟩
abbrev S512x512 : Shape := ⟨2, ![512, 512]⟩
abbrev S1024x512 : Shape := ⟨2, ![1024, 512]⟩
abbrev S512x1024 : Shape := ⟨2, ![512, 1024]⟩
abbrev S2x1024x3072 : Shape := ⟨3, ![2, 1024, 3072]⟩
abbrev S2x1024x32x64 : Shape := ⟨4, ![2, 1024, 32, 64]⟩
abbrev S2x1024x512 : Shape := ⟨3, ![2, 1024, 512]⟩
abbrev S2x1024x8x64 : Shape := ⟨4, ![2, 1024, 8, 64]⟩
abbrev S2x32x1024x64 : Shape := ⟨4, ![2, 32, 1024, 64]⟩
abbrev S2x8x1024x64 : Shape := ⟨4, ![2, 8, 1024, 64]⟩
abbrev S1x64 : Shape := ⟨2, ![1, 64]⟩
abbrev S1x1x1024x64 : Shape := ⟨4, ![1, 1, 1024, 64]⟩
abbrev S1024x64 : Shape := ⟨2, ![1024, 64]⟩
abbrev S1024 : Shape := ⟨1, ![1024]⟩
abbrev S1024x1 : Shape := ⟨2, ![1024, 1]⟩
abbrev S2x8x4x1024x64 : Shape := ⟨5, ![2, 8, 4, 1024, 64]⟩
abbrev S1x1x4x256x64 : Shape := ⟨5, ![1, 1, 4, 256, 64]⟩
abbrev S1x1x2048x64 : Shape := ⟨4, ![1, 1, 2048, 64]⟩
abbrev S2048x64 : Shape := ⟨2, ![2048, 64]⟩
abbrev S3072x64 : Shape := ⟨2, ![3072, 64]⟩
abbrev S1x1x1x256x64 : Shape := ⟨5, ![1, 1, 1, 256, 64]⟩
abbrev S256x64 : Shape := ⟨2, ![256, 64]⟩
abbrev S256x3072 : Shape := ⟨2, ![256, 3072]⟩
abbrev S256 : Shape := ⟨1, ![256]⟩
abbrev S256x1 : Shape := ⟨2, ![256, 1]⟩

abbrev nBuf : Space → Nat
  | .hbm => 38
  | .vmem => 40
  | .smem => 0
  | _ => 0

abbrev bufTy : (tb : Table) → Fin (tcTables nBuf tb) → BufTy
  | .hbm, ⟨0, _⟩ => ⟨S2x1024x2048, .f32⟩
  | .hbm, ⟨1, _⟩ => ⟨S2x8x2048x64, .f32⟩
  | .hbm, ⟨2, _⟩ => ⟨S2x8x2048x64, .f32⟩
  | .hbm, ⟨3, _⟩ => ⟨S1024x32, .f32⟩
  | .hbm, ⟨4, _⟩ => ⟨S1024x32, .f32⟩
  | .hbm, ⟨5, _⟩ => ⟨S2048x2048, .f32⟩
  | .hbm, ⟨6, _⟩ => ⟨S512x2048, .f32⟩
  | .hbm, ⟨7, _⟩ => ⟨S512x2048, .f32⟩
  | .hbm, ⟨8, _⟩ => ⟨S2048x2048, .f32⟩
  | .hbm, ⟨9, _⟩ => ⟨S64, .f32⟩
  | .hbm, ⟨10, _⟩ => ⟨S64, .f32⟩
  | .hbm, ⟨11, _⟩ => ⟨S3072x2048, .f32⟩
  | .hbm, ⟨12, _⟩ => ⟨S2x1024x2048, .bf16⟩
  | .hbm, ⟨13, _⟩ => ⟨S3072x2048, .bf16⟩
  | .hbm, ⟨14, _⟩ => ⟨S2048x2048, .bf16⟩
  | .hbm, ⟨15, _⟩ => ⟨S2048x3072, .bf16⟩
  | .hbm, ⟨16, _⟩ => ⟨S2x1024x3072, .bf16⟩
  | .hbm, ⟨17, _⟩ => ⟨S2x1024x2048, .bf16⟩
  | .hbm, ⟨18, _⟩ => ⟨S2x1024x32x64, .bf16⟩
  | .hbm, ⟨19, _⟩ => ⟨S2x1024x512, .bf16⟩
  | .hbm, ⟨20, _⟩ => ⟨S2x1024x8x64, .bf16⟩
  | .hbm, ⟨21, _⟩ => ⟨S2x1024x512, .bf16⟩
  | .hbm, ⟨22, _⟩ => ⟨S2x1024x8x64, .bf16⟩
  | .hbm, ⟨23, _⟩ => ⟨S2x32x1024x64, .bf16⟩
  | .hbm, ⟨24, _⟩ => ⟨S2x8x1024x64, .bf16⟩
  | .hbm, ⟨25, _⟩ => ⟨S2x8x1024x64, .bf16⟩
  | .hbm, ⟨26, _⟩ => ⟨S1x64, .f32⟩
  | .hbm, ⟨27, _⟩ => ⟨S2x32x1024x64, .bf16⟩
  | .hbm, ⟨28, _⟩ => ⟨S1x64, .f32⟩
  | .hbm, ⟨29, _⟩ => ⟨S2x8x1024x64, .bf16⟩
  | .hbm, ⟨30, _⟩ => ⟨S2x8x4x1024x64, .bf16⟩
  | .hbm, ⟨31, _⟩ => ⟨S2x8x4x1024x64, .bf16⟩
  | .hbm, ⟨32, _⟩ => ⟨S2x32x1024x64, .bf16⟩
  | .hbm, ⟨33, _⟩ => ⟨S2x1024x32x64, .bf16⟩
  | .hbm, ⟨34, _⟩ => ⟨S2048x2048, .bf16⟩
  | .hbm, ⟨35, _⟩ => ⟨S2048x2048, .bf16⟩
  | .hbm, ⟨36, _⟩ => ⟨S2048x2048, .f32⟩
  | .hbm, ⟨37, _⟩ => ⟨S2x1024x2048, .f32⟩
  | .local _ .vmem, ⟨0, _⟩ => ⟨S512x512, .bf16⟩
  | .local _ .vmem, ⟨1, _⟩ => ⟨S512x512, .bf16⟩
  | .local _ .vmem, ⟨2, _⟩ => ⟨S1024x512, .bf16⟩
  | .local _ .vmem, ⟨3, _⟩ => ⟨S1024x512, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S1x1x1024x64, .bf16⟩
  | .local _ .vmem, ⟨8, _⟩ => ⟨S1x1x1024x64, .bf16⟩
  | .local _ .vmem, ⟨9, _⟩ => ⟨S1024x32, .f32⟩
  | .local _ .vmem, ⟨10, _⟩ => ⟨S1024x32, .f32⟩
  | .local _ .vmem, ⟨11, _⟩ => ⟨S1x64, .f32⟩
  | .local _ .vmem, ⟨12, _⟩ => ⟨S1x1x1024x64, .bf16⟩
  | .local _ .vmem, ⟨13, _⟩ => ⟨S1x1x1024x64, .bf16⟩
  | .local _ .vmem, ⟨14, _⟩ => ⟨S1x1x1024x64, .bf16⟩
  | .local _ .vmem, ⟨15, _⟩ => ⟨S1x1x1024x64, .bf16⟩
  | .local _ .vmem, ⟨16, _⟩ => ⟨S1024x32, .f32⟩
  | .local _ .vmem, ⟨17, _⟩ => ⟨S1024x32, .f32⟩
  | .local _ .vmem, ⟨18, _⟩ => ⟨S1x64, .f32⟩
  | .local _ .vmem, ⟨19, _⟩ => ⟨S1x1x1024x64, .bf16⟩
  | .local _ .vmem, ⟨20, _⟩ => ⟨S1x1x1024x64, .bf16⟩
  | .local _ .vmem, ⟨21, _⟩ => ⟨S1x1x4x256x64, .bf16⟩
  | .local _ .vmem, ⟨22, _⟩ => ⟨S1x1x4x256x64, .bf16⟩
  | .local _ .vmem, ⟨23, _⟩ => ⟨S1x1x2048x64, .f32⟩
  | .local _ .vmem, ⟨24, _⟩ => ⟨S1x1x2048x64, .f32⟩
  | .local _ .vmem, ⟨25, _⟩ => ⟨S1x1x2048x64, .f32⟩
  | .local _ .vmem, ⟨26, _⟩ => ⟨S1x1x2048x64, .f32⟩
  | .local _ .vmem, ⟨27, _⟩ => ⟨S1x1x1024x64, .bf16⟩
  | .local _ .vmem, ⟨28, _⟩ => ⟨S1x1x1024x64, .bf16⟩
  | .local _ .vmem, ⟨29, _⟩ => ⟨S1x1x1024x64, .bf16⟩
  | .local _ .vmem, ⟨30, _⟩ => ⟨S1x1x1024x64, .bf16⟩
  | .local _ .vmem, ⟨31, _⟩ => ⟨S1x1x4x256x64, .bf16⟩
  | .local _ .vmem, ⟨32, _⟩ => ⟨S1x1x4x256x64, .bf16⟩
  | .local _ .vmem, ⟨33, _⟩ => ⟨S512x512, .bf16⟩
  | .local _ .vmem, ⟨34, _⟩ => ⟨S512x512, .bf16⟩
  | .local _ .vmem, ⟨35, _⟩ => ⟨S1024x512, .bf16⟩
  | .local _ .vmem, ⟨36, _⟩ => ⟨S1024x512, .bf16⟩
  | .local _ .vmem, ⟨37, _⟩ => ⟨S512x1024, .f32⟩
  | .local _ .vmem, ⟨38, _⟩ => ⟨S512x1024, .f32⟩
  | .local _ .vmem, ⟨39, _⟩ => ⟨S512x1024, .f32⟩
  | _, _ => ⟨S2x1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg4_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg2_1 : Ref sig .tc := ⟨.vmem, 26, rfl⟩
abbrev cc3_stg3_0 : Ref sig .tc := ⟨.vmem, 27, rfl⟩
abbrev cc3_stg3_1 : Ref sig .tc := ⟨.vmem, 28, rfl⟩
abbrev cc3_stg4_0 : Ref sig .tc := ⟨.vmem, 29, rfl⟩
abbrev cc3_stg4_1 : Ref sig .tc := ⟨.vmem, 30, rfl⟩
abbrev cc3_stg5_0 : Ref sig .tc := ⟨.vmem, 31, rfl⟩
abbrev cc3_stg5_1 : Ref sig .tc := ⟨.vmem, 32, rfl⟩
abbrev cc4_stg0_0 : Ref sig .tc := ⟨.vmem, 33, rfl⟩
abbrev cc4_stg0_1 : Ref sig .tc := ⟨.vmem, 34, rfl⟩
abbrev cc4_stg1_0 : Ref sig .tc := ⟨.vmem, 35, rfl⟩
abbrev cc4_stg1_1 : Ref sig .tc := ⟨.vmem, 36, rfl⟩
abbrev cc4_stg2_0 : Ref sig .tc := ⟨.vmem, 37, rfl⟩
abbrev cc4_stg2_1 : Ref sig .tc := ⟨.vmem, 38, rfl⟩
abbrev cc4_scratch0 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem4_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem3_0 : DmaSem sig := 17
abbrev cc2_sem4_0 : DmaSem sig := 18
abbrev cc2_sem4_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem2_1 : DmaSem sig := 25
abbrev cc3_sem3_0 : DmaSem sig := 26
abbrev cc3_sem3_1 : DmaSem sig := 27
abbrev cc3_sem4_0 : DmaSem sig := 28
abbrev cc3_sem4_1 : DmaSem sig := 29
abbrev cc3_sem5_0 : DmaSem sig := 30
abbrev cc3_sem5_1 : DmaSem sig := 31
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36
abbrev cc4_sem2_1 : DmaSem sig := 37

abbrev nD : Nat := 1
abbrev τ : Topo := Topo.v7x

variable {F : FTy → Type} [FloatOps F]

abbrev grid0 : Pipeline.Grid := ⟨3, ![4, 3, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨2, ![2, 32], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x1x1024x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1024x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1024x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1x1x1024x64 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev grid2 : Pipeline.Grid := ⟨2, ![2, 8], ![false, false]⟩

def cc2_transform_0 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage2_0 : Fin 2 → Memref sig .tc .vmem S1x1x1024x64 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S1024x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .vmem S1024x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 2 → Memref sig .tc .vmem S1x1x1024x64 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev grid3 : Pipeline.Grid := ⟨3, ![2, 8, 4], ![false, false, false]⟩

def cc3_transform_0 (i : grid3.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, arg2.toNat, c0_i32_0.toNat]

def cc3_transform_1 (i : grid3.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc3_transform_2 (i : grid3.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc3_transform_3 (i : grid3.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc3_transform_4 (i : grid3.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc3_transform_5 (i : grid3.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, arg2.toNat, c0_i32_0.toNat]

abbrev stage3_0 : Fin 2 → Memref sig .tc .vmem S1x1x4x256x64 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true, true]

abbrev stage3_1 : Fin 2 → Memref sig .tc .vmem S1x1x2048x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true, false]

abbrev stage3_2 : Fin 2 → Memref sig .tc .vmem S1x1x2048x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev stage3_3 : Fin 2 → Memref sig .tc .vmem S1x1x1024x64 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, false]

abbrev stage3_4 : Fin 2 → Memref sig .tc .vmem S1x1x1024x64 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true, false]

abbrev stage3_5 : Fin 2 → Memref sig .tc .vmem S1x1x4x256x64 .bf16 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true, true]

abbrev grid4 : Pipeline.Grid := ⟨3, ![4, 2, 4], ![false, false, false]⟩

def k4_cond2 (i : grid4.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S512x512 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 2 → Memref sig .tc .vmem S1024x512 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S512x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

class Facts₀ : Prop where
  concatenates_S2048x2048_S512x2048_S512x2048_S3072x2048_d0 : Shape.Concatenates [S2048x2048, S512x2048, S512x2048] S3072x2048 0
  bitsLt_bf16_f32 : FTy.bits .bf16 < FTy.bits .f32
  shapeCasts_S2x1024x2048_S2048x2048 : S2x1024x2048.ShapeCasts S2048x2048
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  packedbf16_S512x1024_S512x1024_0_0 : (Rect.unit (s := S512x1024) ![0, 0] S512x1024.size inb_S512x1024_S512x1024_0_0).PackedRows (EltTy.packing .bf16)
  shapeCasts_S2048x3072_S2x1024x3072 : S2048x3072.ShapeCasts S2x1024x3072
  slices_S2x1024x3072_S2x1024x2048_0_0_0 : S2x1024x3072.Slices ![0, 0, 0] S2x1024x2048
  shapeCasts_S2x1024x2048_S2x1024x32x64 : S2x1024x2048.ShapeCasts S2x1024x32x64
  slices_S2x1024x3072_S2x1024x512_0_0_2048 : S2x1024x3072.Slices ![0, 0, 2048] S2x1024x512
  shapeCasts_S2x1024x512_S2x1024x8x64 : S2x1024x512.ShapeCasts S2x1024x8x64
  slices_S2x1024x3072_S2x1024x512_0_0_2560 : S2x1024x3072.Slices ![0, 0, 2560] S2x1024x512
  transposes_S2x1024x32x64_S2x32x1024x64_0_2_1_3 : S2x1024x32x64.Transposes [0, 2, 1, 3] S2x32x1024x64
  transposes_S2x1024x8x64_S2x8x1024x64_0_2_1_3 : S2x1024x8x64.Transposes [0, 2, 1, 3] S2x8x1024x64
  shapeCasts_S64_S1x64 : S64.ShapeCasts S1x64
  inb_S1x1x1024x64_S1x1x1024x64_0_0_0_0 : ∀ a, (![0, 0, 0, 0] : Fin 4 → Nat) a + S1x1x1024x64.size a ≤ S1x1x1024x64.size a
  h_S1x1x1024x64 : 0 < S1x1x1024x64.numel
  shapeCasts_S1x1x1024x64_S1024x64 : S1x1x1024x64.ShapeCasts S1024x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  reduces_S1024x64_S1024 : S1024x64.Reduces [1] S1024
  shapeCasts_S1024_S1024x1 : S1024.ShapeCasts S1024x1
  broadcasts_S1024x1_S1024x64 : S1024x1.Broadcasts S1024x64
  broadcasts_S1x64_S1024x64 : S1x64.Broadcasts S1024x64
  slices_S1024x64_o0_0_S1024x32 : S1024x64.Slices ![0, 0] S1024x32
  slices_S1024x64_o0_32_S1024x32 : S1024x64.Slices ![0, 32] S1024x32
  inb_S1024x32_S1024x32_0_0 : ∀ a, (![0, 0] : Fin 2 → Nat) a + S1024x32.size a ≤ S1024x32.size a
  h_S1024x32 : 0 < S1024x32.numel
  concatenates_S1024x32_S1024x32_S1024x64_d1 : Shape.Concatenates [S1024x32, S1024x32] S1024x64 1
  shapeCasts_S1024x64_S1x1x1024x64 : S1024x64.ShapeCasts S1x1x1024x64
  packedbf16_S1x1x1024x64_S1x1x1024x64_0_0_0_0 : (Rect.unit (s := S1x1x1024x64) ![0, 0, 0, 0] S1x1x1024x64.size inb_S1x1x1024x64_S1x1x1024x64_0_0_0_0).PackedRows (EltTy.packing .bf16)
  shapeCasts_S2x32x1024x64_S2x8x4x1024x64 : S2x32x1024x64.ShapeCasts S2x8x4x1024x64
  inb_S1x1x2048x64_S1x1x2048x64_0_0_0_0 : ∀ a, (![0, 0, 0, 0] : Fin 4 → Nat) a + S1x1x2048x64.size a ≤ S1x1x2048x64.size a
  h_S1x1x2048x64 : 0 < S1x1x2048x64.numel
  shapeCasts_S1x1x2048x64_S2048x64 : S1x1x2048x64.ShapeCasts S2048x64
  concatenates_S2048x64_S1024x64_S3072x64_d0 : Shape.Concatenates [S2048x64, S1024x64] S3072x64 0
  inb_S1x1x4x256x64_S1x1x1x256x64_0_0_0_0_0 : ∀ a, (![0, 0, 0, 0, 0] : Fin 5 → Nat) a + S1x1x1x256x64.size a ≤ S1x1x4x256x64.size a
  h_S1x1x1x256x64 : 0 < S1x1x1x256x64.numel
  shapeCasts_S1x1x1x256x64_S256x64 : S1x1x1x256x64.ShapeCasts S256x64
  reduces_S256x3072_S256 : S256x3072.Reduces [1] S256
  shapeCasts_S256_S256x1 : S256.ShapeCasts S256x1
  broadcasts_S256x1_S256x3072 : S256x1.Broadcasts S256x3072
  shapeCasts_S256x64_S1x1x1x256x64 : S256x64.ShapeCasts S1x1x1x256x64
  packedbf16_S1x1x4x256x64_S1x1x1x256x64_0_0_0_0_0 : (Rect.unit (s := S1x1x4x256x64) ![0, 0, 0, 0, 0] S1x1x1x256x64.size inb_S1x1x4x256x64_S1x1x1x256x64_0_0_0_0_0).PackedRows (EltTy.packing .bf16)
  inb_S1x1x4x256x64_S1x1x1x256x64_0_0_1_0_0 : ∀ a, (![0, 0, 1, 0, 0] : Fin 5 → Nat) a + S1x1x1x256x64.size a ≤ S1x1x4x256x64.size a
  packedbf16_S1x1x4x256x64_S1x1x1x256x64_0_0_1_0_0 : (Rect.unit (s := S1x1x4x256x64) ![0, 0, 1, 0, 0] S1x1x1x256x64.size inb_S1x1x4x256x64_S1x1x1x256x64_0_0_1_0_0).PackedRows (EltTy.packing .bf16)
  inb_S1x1x4x256x64_S1x1x1x256x64_0_0_2_0_0 : ∀ a, (![0, 0, 2, 0, 0] : Fin 5 → Nat) a + S1x1x1x256x64.size a ≤ S1x1x4x256x64.size a
  packedbf16_S1x1x4x256x64_S1x1x1x256x64_0_0_2_0_0 : (Rect.unit (s := S1x1x4x256x64) ![0, 0, 2, 0, 0] S1x1x1x256x64.size inb_S1x1x4x256x64_S1x1x1x256x64_0_0_2_0_0).PackedRows (EltTy.packing .bf16)
  inb_S1x1x4x256x64_S1x1x1x256x64_0_0_3_0_0 : ∀ a, (![0, 0, 3, 0, 0] : Fin 5 → Nat) a + S1x1x1x256x64.size a ≤ S1x1x4x256x64.size a
  packedbf16_S1x1x4x256x64_S1x1x1x256x64_0_0_3_0_0 : (Rect.unit (s := S1x1x4x256x64) ![0, 0, 3, 0, 0] S1x1x1x256x64.size inb_S1x1x4x256x64_S1x1x1x256x64_0_0_3_0_0).PackedRows (EltTy.packing .bf16)
  shapeCasts_S2x8x4x1024x64_S2x32x1024x64 : S2x8x4x1024x64.ShapeCasts S2x32x1024x64
  transposes_S2x32x1024x64_S2x1024x32x64_0_2_1_3 : S2x32x1024x64.Transposes [0, 2, 1, 3] S2x1024x32x64
  shapeCasts_S2x1024x32x64_S2048x2048 : S2x1024x32x64.ShapeCasts S2048x2048
  shapeCasts_S2048x2048_S2x1024x2048 : S2048x2048.ShapeCasts S2x1024x2048
  dot_S512x512_S1024x512_S512x1024_1_1_0_0_n_n_wf : DotDims.WF S512x512 S1024x512 S512x1024 [1] [1] [0] [0] [] []
  dot_S256x64_S3072x64_S256x3072_1_1_0_0_n_n_wf : DotDims.WF S256x64 S3072x64 S256x3072 [1] [1] [0] [0] [] []
  dot_S256x3072_S3072x64_S256x64_1_0_0_1_n_n_wf : DotDims.WF S256x3072 S3072x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S2048x2048.size a
  hwx0_0 : ∀ i : grid0.Coords, EltTy.bits .bf16 = 32 ∨ (Rect.block (s := S2048x2048) S512x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S3072x2048.size a
  hwx0_1 : ∀ i : grid0.Coords, EltTy.bits .bf16 = 32 ∨ (Rect.block (s := S3072x2048) S1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S2048x3072.size a
  hwx0_2 : ∀ i : grid0.Coords, EltTy.bits .bf16 = 32 ∨ (Rect.block (s := S2048x3072) S512x1024.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1x1024x64.size a ≤ S2x32x1024x64.size a
  hwx1_0 : ∀ i : grid1.Coords, EltTy.bits .bf16 = 32 ∨ (Rect.block (s := S2x32x1024x64) S1x1x1024x64.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x32.size a ≤ S1024x32.size a
  hwx1_1 : ∀ i : grid1.Coords, EltTy.bits .f32 = 32 ∨ (Rect.block (s := S1024x32) S1024x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024x32.size a ≤ S1024x32.size a
  hwx1_2 : ∀ i : grid1.Coords, EltTy.bits .f32 = 32 ∨ (Rect.block (s := S1024x32) S1024x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1x1024x64.size a ≤ S2x32x1024x64.size a
  hwx1_4 : ∀ i : grid1.Coords, EltTy.bits .bf16 = 32 ∨ (Rect.block (s := S2x32x1024x64) S1x1x1024x64.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x1x1024x64.size a ≤ S2x8x1024x64.size a
  hwx2_0 : ∀ i : grid2.Coords, EltTy.bits .bf16 = 32 ∨ (Rect.block (s := S2x8x1024x64) S1x1x1024x64.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x32.size a ≤ S1024x32.size a
  hwx2_1 : ∀ i : grid2.Coords, EltTy.bits .f32 = 32 ∨ (Rect.block (s := S1024x32) S1024x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1024x32.size a ≤ S1024x32.size a
  hwx2_2 : ∀ i : grid2.Coords, EltTy.bits .f32 = 32 ∨ (Rect.block (s := S1024x32) S1024x32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x1x1024x64.size a ≤ S2x8x1024x64.size a
  hwx2_4 : ∀ i : grid2.Coords, EltTy.bits .bf16 = 32 ∨ (Rect.block (s := S2x8x1024x64) S1x1x1024x64.size (cc2_transform_4 i) (hinb2_4 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x1x4x256x64.size a ≤ S2x8x4x1024x64.size a
  hwx3_0 : ∀ i : grid3.Coords, EltTy.bits .bf16 = 32 ∨ (Rect.block (s := S2x8x4x1024x64) S1x1x4x256x64.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x1x2048x64.size a ≤ S2x8x2048x64.size a
  hwx3_1 : ∀ i : grid3.Coords, EltTy.bits .f32 = 32 ∨ (Rect.block (s := S2x8x2048x64) S1x1x2048x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x1x2048x64.size a ≤ S2x8x2048x64.size a
  hwx3_2 : ∀ i : grid3.Coords, EltTy.bits .f32 = 32 ∨ (Rect.block (s := S2x8x2048x64) S1x1x2048x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x1x1024x64.size a ≤ S2x8x1024x64.size a
  hwx3_3 : ∀ i : grid3.Coords, EltTy.bits .bf16 = 32 ∨ (Rect.block (s := S2x8x1024x64) S1x1x1024x64.size (cc3_transform_3 i) (hinb3_3 i)).WholeWords (EltTy.packing .bf16)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1x1x1024x64.size a ≤ S2x8x1024x64.size a
  hwx3_4 : ∀ i : grid3.Coords, EltTy.bits .bf16 = 32 ∨ (Rect.block (s := S2x8x1024x64) S1x1x1024x64.size (cc3_transform_4 i) (hinb3_4 i)).WholeWords (EltTy.packing .bf16)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S1x1x4x256x64.size a ≤ S2x8x4x1024x64.size a
  hwx3_5 : ∀ i : grid3.Coords, EltTy.bits .bf16 = 32 ∨ (Rect.block (s := S2x8x4x1024x64) S1x1x4x256x64.size (cc3_transform_5 i) (hinb3_5 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S512x512.size a ≤ S2048x2048.size a
  hwx4_0 : ∀ i : grid4.Coords, EltTy.bits .bf16 = 32 ∨ (Rect.block (s := S2048x2048) S512x512.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1024x512.size a ≤ S2048x2048.size a
  hwx4_1 : ∀ i : grid4.Coords, EltTy.bits .bf16 = 32 ∨ (Rect.block (s := S2048x2048) S1024x512.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S512x1024.size a ≤ S2048x2048.size a
  hwx4_2 : ∀ i : grid4.Coords, EltTy.bits .f32 = 32 ∨ (Rect.block (s := S2048x2048) S512x1024.size (cc4_transform_2 i) (hinb4_2 i)).WholeWords (EltTy.packing .f32)

variable [Facts₀]

def dot_S512x512_S1024x512_S512x1024_1_1_0_0_n_n : DotDims S512x512 S1024x512 S512x1024 where
  lhsContracting := [1]
  rhsContracting := [1]
  lhsNonContracting := [0]
  rhsNonContracting := [0]
  lhsBatch := []
  rhsBatch := []
  wf := dot_S512x512_S1024x512_S512x1024_1_1_0_0_n_n_wf
def dot_S256x64_S3072x64_S256x3072_1_1_0_0_n_n : DotDims S256x64 S3072x64 S256x3072 where
  lhsContracting := [1]
  rhsContracting := [1]
  lhsNonContracting := [0]
  rhsNonContracting := [0]
  lhsBatch := []
  rhsBatch := []
  wf := dot_S256x64_S3072x64_S256x3072_1_1_0_0_n_n_wf
def dot_S256x3072_S3072x64_S256x64_1_0_0_1_n_n : DotDims S256x3072 S3072x64 S256x64 where
  lhsContracting := [1]
  rhsContracting := [0]
  lhsNonContracting := [0]
  rhsNonContracting := [1]
  lhsBatch := []
  rhsBatch := []
  wf := dot_S256x3072_S3072x64_S256x64_1_0_0_1_n_n_wf

abbrev win0_0 : Pipeline.Window sig grid0 :=
  Pipeline.Window.ofSpec (Memref.whole main_v3) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S512x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v12) S1x1x1024x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S1024x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S1024x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v15) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v16) S1x1x1024x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v13) S1x1x1024x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S1024x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg4) S1024x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v17) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v18) S1x1x1024x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v19) S1x1x4x256x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg1) S1x1x2048x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg2) S1x1x2048x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v18) S1x1x1024x64.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v14) S1x1x1024x64.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v20) S1x1x4x256x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v23) S512x512.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v24) S1024x512.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v25) S512x1024.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev idle4 : Fin 3 → grid4.Coords → Bool := fun | 0 => fun _ => false | 1 => fun _ => false | 2 => fun i => !(k4_cond2 i == 1#1) | ⟨_ + 3, h⟩ => absurd h (Nat.not_lt.2 (Nat.le_add_left _ _))

class Facts : Prop extends Facts₀ where

variable [Facts]
-- ==== ReferenceIdeal.lean ====
abbrev S2x1024x2048 : Shape := ⟨3, ![2, 1024, 2048]⟩
abbrev S2x8x2048x64 : Shape := ⟨4, ![2, 8, 2048, 64]⟩
abbrev S1024x32 : Shape := ⟨2, ![1024, 32]⟩
abbrev S2048x2048 : Shape := ⟨2, ![2048, 2048]⟩
abbrev S512x2048 : Shape := ⟨2, ![512, 2048]⟩
abbrev S64 : Shape := ⟨1, ![64]⟩
abbrev S2x1024x32x64 : Shape := ⟨4, ![2, 1024, 32, 64]⟩
abbrev S2x32x1024x64 : Shape := ⟨4, ![2, 32, 1024, 64]⟩
abbrev S2x1024x512 : Shape := ⟨3, ![2, 1024, 512]⟩
abbrev S2x1024x8x64 : Shape := ⟨4, ![2, 1024, 8, 64]⟩
abbrev S2x8x1024x64 : Shape := ⟨4, ![2, 8, 1024, 64]⟩
abbrev S_ : Shape := ⟨0, ![]⟩
abbrev S2x32x1024 : Shape := ⟨3, ![2, 32, 1024]⟩
abbrev S2x32x1024x1 : Shape := ⟨4, ![2, 32, 1024, 1]⟩
abbrev S1x1x1x64 : Shape := ⟨4, ![1, 1, 1, 64]⟩
abbrev S2x8x1024 : Shape := ⟨3, ![2, 8, 1024]⟩
abbrev S2x8x1024x1 : Shape := ⟨4, ![2, 8, 1024, 1]⟩
abbrev S2x32x1024x32 : Shape := ⟨4, ![2, 32, 1024, 32]⟩
abbrev S1x1x1024x32 : Shape := ⟨4, ![1, 1, 1024, 32]⟩
abbrev S2x8x1024x32 : Shape := ⟨4, ![2, 8, 1024, 32]⟩
abbrev S2x8x3072x64 : Shape := ⟨4, ![2, 8, 3072, 64]⟩
abbrev S2x8x4x3072x64 : Shape := ⟨5, ![2, 8, 4, 3072, 64]⟩
abbrev S2x32x3072x64 : Shape := ⟨4, ![2, 32, 3072, 64]⟩
abbrev S2x32x1024x3072 : Shape := ⟨4, ![2, 32, 1024, 3072]⟩

abbrev nBuf : Space → Nat
  | .hbm => 110
  | .vmem => 0
  | .smem => 0
  | _ => 0

abbrev bufTy : (tb : Table) → Fin (tcTables nBuf tb) → BufTy
  | .hbm, ⟨0, _⟩ => ⟨S2x1024x2048, .f32⟩
  | .hbm, ⟨1, _⟩ => ⟨S2x8x2048x64, .f32⟩
  | .hbm, ⟨2, _⟩ => ⟨S2x8x2048x64, .f32⟩
  | .hbm, ⟨3, _⟩ => ⟨S1024x32, .f32⟩
  | .hbm, ⟨4, _⟩ => ⟨S1024x32, .f32⟩
  | .hbm, ⟨5, _⟩ => ⟨S2048x2048, .f32⟩
  | .hbm, ⟨6, _⟩ => ⟨S512x2048, .f32⟩
  | .hbm, ⟨7, _⟩ => ⟨S512x2048, .f32⟩
  | .hbm, ⟨8, _⟩ => ⟨S2048x2048, .f32⟩
  | .hbm, ⟨9, _⟩ => ⟨S64, .f32⟩
  | .hbm, ⟨10, _⟩ => ⟨S64, .f32⟩
  | .hbm, ⟨11, _⟩ => ⟨S2x1024x2048, .f32⟩
  | .hbm, ⟨12, _⟩ => ⟨S2x1024x32x64, .f32⟩
  | .hbm, ⟨13, _⟩ => ⟨S2x32x1024x64, .f32⟩
  | .hbm, ⟨14, _⟩ => ⟨S2x1024x512, .f32⟩
  | .hbm, ⟨15, _⟩ => ⟨S2x1024x8x64, .f32⟩
  | .hbm, ⟨16, _⟩ => ⟨S2x8x1024x64, .f32⟩
  | .hbm, ⟨17, _⟩ => ⟨S2x1024x512, .f32⟩
  | .hbm, ⟨18, _⟩ => ⟨S2x1024x8x64, .f32⟩
  | .hbm, ⟨19, _⟩ => ⟨S2x8x1024x64, .f32⟩
  | .hbm, ⟨20, _⟩ => ⟨S2x32x1024x64, .f32⟩
  | .hbm, ⟨21, _⟩ => ⟨S_, .f32⟩
  | .hbm, ⟨22, _⟩ => ⟨S2x32x1024, .f32⟩
  | .hbm, ⟨23, _⟩ => ⟨S2x32x1024x1, .f32⟩
  | .hbm, ⟨24, _⟩ => ⟨S_, .f32⟩
  | .hbm, ⟨25, _⟩ => ⟨S2x32x1024x1, .f32⟩
  | .hbm, ⟨26, _⟩ => ⟨S2x32x1024x1, .f32⟩
  | .hbm, ⟨27, _⟩ => ⟨S_, .f32⟩
  | .hbm, ⟨28, _⟩ => ⟨S2x32x1024x1, .f32⟩
  | .hbm, ⟨29, _⟩ => ⟨S2x32x1024x1, .f32⟩
  | .hbm, ⟨30, _⟩ => ⟨S2x32x1024x1, .f32⟩
  | .hbm, ⟨31, _⟩ => ⟨S2x32x1024x64, .f32⟩
  | .hbm, ⟨32, _⟩ => ⟨S2x32x1024x64, .f32⟩
  | .hbm, ⟨33, _⟩ => ⟨S1x1x1x64, .f32⟩
  | .hbm, ⟨34, _⟩ => ⟨S2x32x1024x64, .f32⟩
  | .hbm, ⟨35, _⟩ => ⟨S2x32x1024x64, .f32⟩
  | .hbm, ⟨36, _⟩ => ⟨S2x8x1024x64, .f32⟩
  | .hbm, ⟨37, _⟩ => ⟨S_, .f32⟩
  | .hbm, ⟨38, _⟩ => ⟨S2x8x1024, .f32⟩
  | .hbm, ⟨39, _⟩ => ⟨S2x8x1024x1, .f32⟩
  | .hbm, ⟨40, _⟩ => ⟨S_, .f32⟩
  | .hbm, ⟨41, _⟩ => ⟨S2x8x1024x1, .f32⟩
  | .hbm, ⟨42, _⟩ => ⟨S2x8x1024x1, .f32⟩
  | .hbm, ⟨43, _⟩ => ⟨S_, .f32⟩
  | .hbm, ⟨44, _⟩ => ⟨S2x8x1024x1, .f32⟩
  | .hbm, ⟨45, _⟩ => ⟨S2x8x1024x1, .f32⟩
  | .hbm, ⟨46, _⟩ => ⟨S2x8x1024x1, .f32⟩
  | .hbm, ⟨47, _⟩ => ⟨S2x8x1024x64, .f32⟩
  | .hbm, ⟨48, _⟩ => ⟨S2x8x1024x64, .f32⟩
  | .hbm, ⟨49, _⟩ => ⟨S1x1x1x64, .f32⟩
  | .hbm, ⟨50, _⟩ => ⟨S2x8x1024x64, .f32⟩
  | .hbm, ⟨51, _⟩ => ⟨S2x8x1024x64, .f32⟩
  | .hbm, ⟨52, _⟩ => ⟨S2x32x1024x32, .f32⟩
  | .hbm, ⟨53, _⟩ => ⟨S2x32x1024x32, .f32⟩
  | .hbm, ⟨54, _⟩ => ⟨S1x1x1024x32, .f32⟩
  | .hbm, ⟨55, _⟩ => ⟨S1x1x1024x32, .f32⟩
  | .hbm, ⟨56, _⟩ => ⟨S2x32x1024x32, .f32⟩
  | .hbm, ⟨57, _⟩ => ⟨S2x32x1024x32, .f32⟩
  | .hbm, ⟨58, _⟩ => ⟨S2x32x1024x32, .f32⟩
  | .hbm, ⟨59, _⟩ => ⟨S2x32x1024x32, .f32⟩
  | .hbm, ⟨60, _⟩ => ⟨S2x32x1024x32, .f32⟩
  | .hbm, ⟨61, _⟩ => ⟨S2x32x1024x32, .f32⟩
  | .hbm, ⟨62, _⟩ => ⟨S2x32x1024x32, .f32⟩
  | .hbm, ⟨63, _⟩ => ⟨S2x32x1024x32, .f32⟩
  | .hbm, ⟨64, _⟩ => ⟨S2x32x1024x32, .f32⟩
  | .hbm, ⟨65, _⟩ => ⟨S2x32x1024x32, .f32⟩
  | .hbm, ⟨66, _⟩ => ⟨S2x32x1024x64, .f32⟩
  | .hbm, ⟨67, _⟩ => ⟨S2x8x1024x32, .f32⟩
  | .hbm, ⟨68, _⟩ => ⟨S2x8x1024x32, .f32⟩
  | .hbm, ⟨69, _⟩ => ⟨S1x1x1024x32, .f32⟩
  | .hbm, ⟨70, _⟩ => ⟨S1x1x1024x32, .f32⟩
  | .hbm, ⟨71, _⟩ => ⟨S2x8x1024x32, .f32⟩
  | .hbm, ⟨72, _⟩ => ⟨S2x8x1024x32, .f32⟩
  | .hbm, ⟨73, _⟩ => ⟨S2x8x1024x32, .f32⟩
  | .hbm, ⟨74, _⟩ => ⟨S2x8x1024x32, .f32⟩
  | .hbm, ⟨75, _⟩ => ⟨S2x8x1024x32, .f32⟩
  | .hbm, ⟨76, _⟩ => ⟨S2x8x1024x32, .f32⟩
  | .hbm, ⟨77, _⟩ => ⟨S2x8x1024x32, .f32⟩
  | .hbm, ⟨78, _⟩ => ⟨S2x8x1024x32, .f32⟩
  | .hbm, ⟨79, _⟩ => ⟨S2x8x1024x32, .f32⟩
  | .hbm, ⟨80, _⟩ => ⟨S2x8x1024x32, .f32⟩
  | .hbm, ⟨81, _⟩ => ⟨S2x8x1024x64, .f32⟩
  | .hbm, ⟨82, _⟩ => ⟨S2x8x3072x64, .f32⟩
  | .hbm, ⟨83, _⟩ => ⟨S2x8x3072x64, .f32⟩
  | .hbm, ⟨84, _⟩ => ⟨S2x8x4x3072x64, .f32⟩
  | .hbm, ⟨85, _⟩ => ⟨S2x32x3072x64, .f32⟩
  | .hbm, ⟨86, _⟩ => ⟨S2x8x4x3072x64, .f32⟩
  | .hbm, ⟨87, _⟩ => ⟨S2x32x3072x64, .f32⟩
  | .hbm, ⟨88, _⟩ => ⟨S2x32x1024x3072, .f32⟩
  | .hbm, ⟨89, _⟩ => ⟨S_, .f32⟩
  | .hbm, ⟨90, _⟩ => ⟨S2x32x1024x3072, .f32⟩
  | .hbm, ⟨91, _⟩ => ⟨S2x32x1024x3072, .f32⟩
  | .hbm, ⟨92, _⟩ => ⟨S_, .f32⟩
  | .hbm, ⟨93, _⟩ => ⟨S2x32x1024, .f32⟩
  | .hbm, ⟨94, _⟩ => ⟨S_, .f32⟩
  | .hbm, ⟨95, _⟩ => ⟨S2x32x1024, .f32⟩
  | .hbm, ⟨96, _⟩ => ⟨S2x32x1024, .f32⟩
  | .hbm, ⟨97, _⟩ => ⟨S2x32x1024x1, .f32⟩
  | .hbm, ⟨98, _⟩ => ⟨S2x32x1024x3072, .f32⟩
  | .hbm, ⟨99, _⟩ => ⟨S2x32x1024x3072, .f32⟩
  | .hbm, ⟨100, _⟩ => ⟨S2x32x1024x3072, .f32⟩
  | .hbm, ⟨101, _⟩ => ⟨S_, .f32⟩
  | .hbm, ⟨102, _⟩ => ⟨S2x32x1024, .f32⟩
  | .hbm, ⟨103, _⟩ => ⟨S2x32x1024x1, .f32⟩
  | .hbm, ⟨104, _⟩ => ⟨S2x32x1024x3072, .f32⟩
  | .hbm, ⟨105, _⟩ => ⟨S2x32x1024x3072, .f32⟩
  | .hbm, ⟨106, _⟩ => ⟨S2x32x1024x64, .f32⟩
  | .hbm, ⟨107, _⟩ => ⟨S2x1024x32x64, .f32⟩
  | .hbm, ⟨108, _⟩ => ⟨S2x1024x2048, .f32⟩
  | .hbm, ⟨109, _⟩ => ⟨S2x1024x2048, .f32⟩
  | _, _ => ⟨S2x1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst : Ref sig .tc := ⟨.hbm, 21, rfl⟩
abbrev main_v10 : Ref sig .tc := ⟨.hbm, 22, rfl⟩
abbrev main_v11 : Ref sig .tc := ⟨.hbm, 23, rfl⟩
abbrev main_cst_0 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_2 : Ref sig .tc := ⟨.hbm, 37, rfl⟩
abbrev main_v23 : Ref sig .tc := ⟨.hbm, 38, rfl⟩
abbrev main_v24 : Ref sig .tc := ⟨.hbm, 39, rfl⟩
abbrev main_cst_3 : Ref sig .tc := ⟨.hbm, 40, rfl⟩
abbrev main_v25 : Ref sig .tc := ⟨.hbm, 41, rfl⟩
abbrev main_v26 : Ref sig .tc := ⟨.hbm, 42, rfl⟩
abbrev main_cst_4 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_cst_5 : Ref sig .tc := ⟨.hbm, 89, rfl⟩
abbrev main_v72 : Ref sig .tc := ⟨.hbm, 90, rfl⟩
abbrev main_v73 : Ref sig .tc := ⟨.hbm, 91, rfl⟩
abbrev main_cst_6 : Ref sig .tc := ⟨.hbm, 92, rfl⟩
abbrev main_v74 : Ref sig .tc := ⟨.hbm, 93, rfl⟩
abbrev main_cst_7 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_cst_8 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩

abbrev nD : Nat := 1
abbrev τ : Topo := Topo.v7x

variable {F : FTy → Type} [FloatOps F]

class Facts₀ : Prop where
  shapeCasts_S2x1024x2048_S2x1024x32x64 : S2x1024x2048.ShapeCasts S2x1024x32x64
  transposes_S2x1024x32x64_S2x32x1024x64_0_2_1_3 : S2x1024x32x64.Transposes [0, 2, 1, 3] S2x32x1024x64
  shapeCasts_S2x1024x512_S2x1024x8x64 : S2x1024x512.ShapeCasts S2x1024x8x64
  transposes_S2x1024x8x64_S2x8x1024x64_0_2_1_3 : S2x1024x8x64.Transposes [0, 2, 1, 3] S2x8x1024x64
  reducesTo_S2x32x1024x64_S2x32x1024_d3 : S2x32x1024x64.ReducesTo [3] S2x32x1024
  h_S_ : 0 < S_.numel
  bcast_S2x32x1024_S2x32x1024x1_0_1_2 : S2x32x1024.BroadcastsInDim S2x32x1024x1 (![0, 1, 2] : Fin 3 → Fin S2x32x1024x1.rank)
  bcast_S_S2x32x1024x1 : S_.BroadcastsInDim S2x32x1024x1 (![] : Fin 0 → Fin S2x32x1024x1.rank)
  bcast_S2x32x1024x1_S2x32x1024x64_0_1_2_3 : S2x32x1024x1.BroadcastsInDim S2x32x1024x64 (![0, 1, 2, 3] : Fin 4 → Fin S2x32x1024x64.rank)
  bcast_S64_S1x1x1x64_3 : S64.BroadcastsInDim S1x1x1x64 (![3] : Fin 1 → Fin S1x1x1x64.rank)
  bcast_S1x1x1x64_S2x32x1024x64_0_1_2_3 : S1x1x1x64.BroadcastsInDim S2x32x1024x64 (![0, 1, 2, 3] : Fin 4 → Fin S2x32x1024x64.rank)
  reducesTo_S2x8x1024x64_S2x8x1024_d3 : S2x8x1024x64.ReducesTo [3] S2x8x1024
  bcast_S2x8x1024_S2x8x1024x1_0_1_2 : S2x8x1024.BroadcastsInDim S2x8x1024x1 (![0, 1, 2] : Fin 3 → Fin S2x8x1024x1.rank)
  bcast_S_S2x8x1024x1 : S_.BroadcastsInDim S2x8x1024x1 (![] : Fin 0 → Fin S2x8x1024x1.rank)
  bcast_S2x8x1024x1_S2x8x1024x64_0_1_2_3 : S2x8x1024x1.BroadcastsInDim S2x8x1024x64 (![0, 1, 2, 3] : Fin 4 → Fin S2x8x1024x64.rank)
  bcast_S1x1x1x64_S2x8x1024x64_0_1_2_3 : S1x1x1x64.BroadcastsInDim S2x8x1024x64 (![0, 1, 2, 3] : Fin 4 → Fin S2x8x1024x64.rank)
  slices_S2x32x1024x64_S2x32x1024x32_0_0_0_0 : S2x32x1024x64.Slices ![0, 0, 0, 0] S2x32x1024x32
  slices_S2x32x1024x64_S2x32x1024x32_0_0_0_32 : S2x32x1024x64.Slices ![0, 0, 0, 32] S2x32x1024x32
  bcast_S1024x32_S1x1x1024x32_2_3 : S1024x32.BroadcastsInDim S1x1x1024x32 (![2, 3] : Fin 2 → Fin S1x1x1024x32.rank)
  bcast_S1x1x1024x32_S2x32x1024x32_0_1_2_3 : S1x1x1024x32.BroadcastsInDim S2x32x1024x32 (![0, 1, 2, 3] : Fin 4 → Fin S2x32x1024x32.rank)
  concatenates_S2x32x1024x32_S2x32x1024x32_S2x32x1024x64_d3 : Shape.Concatenates [S2x32x1024x32, S2x32x1024x32] S2x32x1024x64 3
  slices_S2x8x1024x64_S2x8x1024x32_0_0_0_0 : S2x8x1024x64.Slices ![0, 0, 0, 0] S2x8x1024x32
  slices_S2x8x1024x64_S2x8x1024x32_0_0_0_32 : S2x8x1024x64.Slices ![0, 0, 0, 32] S2x8x1024x32
  bcast_S1x1x1024x32_S2x8x1024x32_0_1_2_3 : S1x1x1024x32.BroadcastsInDim S2x8x1024x32 (![0, 1, 2, 3] : Fin 4 → Fin S2x8x1024x32.rank)
  concatenates_S2x8x1024x32_S2x8x1024x32_S2x8x1024x64_d3 : Shape.Concatenates [S2x8x1024x32, S2x8x1024x32] S2x8x1024x64 3
  concatenates_S2x8x2048x64_S2x8x1024x64_S2x8x3072x64_d2 : Shape.Concatenates [S2x8x2048x64, S2x8x1024x64] S2x8x3072x64 2
  bcast_S2x8x3072x64_S2x8x4x3072x64_0_1_3_4 : S2x8x3072x64.BroadcastsInDim S2x8x4x3072x64 (![0, 1, 3, 4] : Fin 4 → Fin S2x8x4x3072x64.rank)
  shapeCasts_S2x8x4x3072x64_S2x32x3072x64 : S2x8x4x3072x64.ShapeCasts S2x32x3072x64
  bcast_S_S2x32x1024x3072 : S_.BroadcastsInDim S2x32x1024x3072 (![] : Fin 0 → Fin S2x32x1024x3072.rank)
  reducesTo_S2x32x1024x3072_S2x32x1024_d3 : S2x32x1024x3072.ReducesTo [3] S2x32x1024
  bcast_S_S2x32x1024 : S_.BroadcastsInDim S2x32x1024 (![] : Fin 0 → Fin S2x32x1024.rank)
  bcast_S2x32x1024x1_S2x32x1024x3072_0_1_2_3 : S2x32x1024x1.BroadcastsInDim S2x32x1024x3072 (![0, 1, 2, 3] : Fin 4 → Fin S2x32x1024x3072.rank)
  transposes_S2x32x1024x64_S2x1024x32x64_0_2_1_3 : S2x32x1024x64.Transposes [0, 2, 1, 3] S2x1024x32x64
  shapeCasts_S2x1024x32x64_S2x1024x2048 : S2x1024x32x64.ShapeCasts S2x1024x2048
  dot_S2x1024x2048_S2048x2048_S2x1024x2048_2_1_01_0_n_n_wf : DotDims.WF S2x1024x2048 S2048x2048 S2x1024x2048 [2] [1] [0, 1] [0] [] []
  dot_S2x1024x2048_S512x2048_S2x1024x512_2_1_01_0_n_n_wf : DotDims.WF S2x1024x2048 S512x2048 S2x1024x512 [2] [1] [0, 1] [0] [] []
  dot_S2x32x1024x64_S2x32x3072x64_S2x32x1024x3072_3_3_2_2_01_01_wf : DotDims.WF S2x32x1024x64 S2x32x3072x64 S2x32x1024x3072 [3] [3] [2] [2] [0, 1] [0, 1]
  dot_S2x32x1024x3072_S2x32x3072x64_S2x32x1024x64_3_2_2_3_01_01_wf : DotDims.WF S2x32x1024x3072 S2x32x3072x64 S2x32x1024x64 [3] [2] [2] [3] [0, 1] [0, 1]

variable [Facts₀]

def dot_S2x1024x2048_S2048x2048_S2x1024x2048_2_1_01_0_n_n : DotDims S2x1024x2048 S2048x2048 S2x1024x2048 where
  lhsContracting := [2]
  rhsContracting := [1]
  lhsNonContracting := [0, 1]
  rhsNonContracting := [0]
  lhsBatch := []
  rhsBatch := []
  wf := dot_S2x1024x2048_S2048x2048_S2x1024x2048_2_1_01_0_n_n_wf
def dot_S2x1024x2048_S512x2048_S2x1024x512_2_1_01_0_n_n : DotDims S2x1024x2048 S512x2048 S2x1024x512 where
  lhsContracting := [2]
  rhsContracting := [1]
  lhsNonContracting := [0, 1]
  rhsNonContracting := [0]
  lhsBatch := []
  rhsBatch := []
  wf := dot_S2x1024x2048_S512x2048_S2x1024x512_2_1_01_0_n_n_wf
def dot_S2x32x1024x64_S2x32x3072x64_S2x32x1024x3072_3_3_2_2_01_01 : DotDims S2x32x1024x64 S2x32x3072x64 S2x32x1024x3072 where
  lhsContracting := [3]
  rhsContracting := [3]
  lhsNonContracting := [2]
  rhsNonContracting := [2]
  lhsBatch := [0, 1]
  rhsBatch := [0, 1]
  wf := dot_S2x32x1024x64_S2x32x3072x64_S2x32x1024x3072_3_3_2_2_01_01_wf
def dot_S2x32x1024x3072_S2x32x3072x64_S2x32x1024x64_3_2_2_3_01_01 : DotDims S2x32x1024x3072 S2x32x3072x64 S2x32x1024x64 where
  lhsContracting := [3]
  rhsContracting := [2]
  lhsNonContracting := [2]
  rhsNonContracting := [3]
  lhsBatch := [0, 1]
  rhsBatch := [0, 1]
  wf := dot_S2x32x1024x3072_S2x32x3072x64_S2x32x1024x64_3_2_2_3_01_01_wf

class Facts : Prop extends Facts₀ where

variable [Facts]
-- ==== Proof.WordRegionQkvShared.lean ====
/-
  Region 0 of the program, the fused query/key/value projection: activations [2048, 2048] against the stacked weights [3072, 2048], as a blocked matrix product. A grid point is a (row block, column block,
  contraction block) triple with the contraction block innermost, four to a pair: the body adds the product of a
  [512, 512] block of the left operand and a [1024, 512] block of the right operand (contracted along their second
  axes) into a [512, 1024] accumulator that lives in scratch memory across the four points of a pair — zeroed first at
  the first of them, copied to the output block after the last. So the body has three cases, by the contraction block:
  first, middle, last. This module holds what the three cases share.
-/
import proofs.«125955_j22462678958488_2_alg».proof.Proof.Gen.Kernel.Launch
import proofs.«125955_j22462678958488_2_alg».proof.Proof.Gen.Kernel.Skeleton
import proofs.«125955_j22462678958488_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- "This is the first contraction block": the condition of the body's first branch, from the grid coordinates. -/
abbrev cond0_0 (i : grid0.Coords) : Prop := (Scalar.cmpi .ne (Scalar.extui (Scalar.cmpi .eq (BitVec.ofNat 32 (i 2).val) 0#32)) 0#32) = 1#1
/-- It holds at the points ≡ 0 (mod 4) — decided over the grid. -/
theorem hcond0_0 : ∀ t : Fin cfg0.N, cond0_0 (grid0.coords t) ↔ t.val % 4 = 0 :=
  (by decide +kernel : ∀ t : Fin grid0.N, cond0_0 (grid0.coords t) ↔ t.val % 4 = 0)
/-- "This is the last contraction block": the condition of the body's second branch. -/
abbrev cond0_1 (i : grid0.Coords) : Prop := k0_cond2 i = 1#1
/-- It holds at the points ≡ 3 (mod 4) — decided over the grid. -/
theorem hcond0_1 : ∀ t : Fin cfg0.N, cond0_1 (grid0.coords t) ↔ t.val % 4 = 3 :=
  (by decide +kernel : ∀ t : Fin grid0.N, cond0_1 (grid0.coords t) ↔ t.val % 4 = 3)

/-- The inputs are never idle; the output is idle, and not written back, except at a last contraction block. -/
theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2_A : ∀ t : Fin cfg0.N, cond0_0 (grid0.coords t) → ¬cond0_1 (grid0.coords t) → cfg0.idle 2 (grid0.coords t) = true := by decide +kernel
theorem noFlush0_2_A : ∀ t : Fin cfg0.N, cond0_0 (grid0.coords t) → ¬cond0_1 (grid0.coords t) → (cfg0.win 2).flush t = false := by decide +kernel
theorem idleAt0_2_B : ∀ t : Fin cfg0.N, ¬cond0_0 (grid0.coords t) → ¬cond0_1 (grid0.coords t) → cfg0.idle 2 (grid0.coords t) = true := by decide +kernel
theorem noFlush0_2_B : ∀ t : Fin cfg0.N, ¬cond0_0 (grid0.coords t) → ¬cond0_1 (grid0.coords t) → (cfg0.win 2).flush t = false := by decide +kernel
theorem liveAt0_2_C : ∀ t : Fin cfg0.N, ¬cond0_0 (grid0.coords t) → cond0_1 (grid0.coords t) → cfg0.idle 2 (grid0.coords t) = false := by decide +kernel

/-- One staging buffer of the output window, through which its contents are stated. -/
abbrev VO0_2 : View sig .tc .vmem S512x1024 .bf16 := (Memref.whole cc0_stg2_0 : Memref sig .tc .vmem S512x1024 .bf16).view
/-- Each window's current staging buffer at point `t`, as the pipeline passes it to the body, and its wholeness. -/
abbrev ms0_0 (t : Fin cfg0.N) : Memref sig .tc .vmem S512x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1024 .bf16 := win0_2.stage (cfg0.slots t 2)
abbrev hs0_2 (t : Fin cfg0.N) : (ms0_2 t).IsWhole := hstage0_2 ((cfg0.slots t 2).cast nbuf0_2)
/-- The accumulator: a whole scratch buffer of the kernel's own, and the view its contents are stated through. -/
abbrev scM0_0 : Memref sig .tc .vmem S512x1024 .f32 := Memref.whole cc0_scratch0
abbrev VS0_0 : View sig .tc .vmem S512x1024 .f32 := scM0_0.view

/-- The scoped buffers this region does not stage, with the accumulator split off and owned at some contents. -/
theorem PhiA0_eq (c : Dev nD) :
    (Pipeline.ΦA spec0 c : sProp 𝕄)
      = iprop(iprop((∃ d, owns (c : Thread nD τ) scM0_0 fullShare d) ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0_0, owns_whole]; try rfl

end Cert.Kernel.Frm

end
-- ==== Proof.WordRegionQkvFirst.lean ====
/-
  Region 0, the body's run at a first contraction block: the stores it leaves in the accumulator (and, at a last block, in the output
  block), found by running the body symbolically.
-/
import proofs.«125955_j22462678958488_2_alg».proof.Proof.WordRegionQkvShared

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 2000000 in
/-- At a first contraction block: the accumulator, at anything, is zeroed and then holds zero plus the product of the two
    input blocks; the output block is handed back untouched. The pieces are the witness the run finds. -/
noncomputable def kernelRun0_A (c : Dev nD) (i : grid0.Coords) (arg3 : Memref sig .tc .vmem S512x512 .bf16) (harg3 : arg3.IsWhole) (arg4 : Memref sig .tc .vmem S1024x512 .bf16) (harg4 : arg4.IsWhole) (arg5 : Memref sig .tc .vmem S512x1024 .bf16) (harg5 : arg5.IsWhole) (arg6 : Memref sig .tc .vmem S512x1024 .f32) (harg6 : arg6.IsWhole) (hc0 : cond0_0 i) (hc1 : ¬cond0_1 i)
    (x0 : Vec F S512x512 .bf16) (x1 : Vec F S1024x512 .bf16) :
    Σ' (L2 : List (View.Piece (Elt F) S512x1024 .bf16)), { LS0 : List (View.Piece (Elt F) S512x1024 .f32) //
      ∀ (xi2 : Vec F S512x1024 .bf16) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2
                ∗ (∃ f, arg6.view.loc (c : Thread nD τ) ↦[arg6.view.set]{fullShare} arg6.view.writes (Elt F) f LS0)) -∗ K ⟨⟩))
          ⊢ wp frame (wpE (defs₀ (F := F)) Variants.none c none) E (cc0__linear_kernel i arg3 harg3 arg4 harg4 arg5 harg5 arg6 harg6) K } := by
  refine ⟨[], ?_, fun xi2 E K => ?run⟩
  case run =>
    simp only [cc0__linear_kernel_eq_skeleton]; unfold cc0__linear_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.Kernel.Frm

end
-- ==== Proof.WordRegionQkvMiddle.lean ====
/-
  Region 0, the body's run at a middle contraction block: the stores it leaves in the accumulator (and, at a last block, in the output
  block), found by running the body symbolically.
-/
import proofs.«125955_j22462678958488_2_alg».proof.Proof.WordRegionQkvFirst

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 2000000 in
/-- At a middle contraction block: the accumulator, at what the point before left, gains the product of the two input
    blocks; the output block is handed back untouched. -/
noncomputable def kernelRun0_B (c : Dev nD) (i : grid0.Coords) (arg3 : Memref sig .tc .vmem S512x512 .bf16) (harg3 : arg3.IsWhole) (arg4 : Memref sig .tc .vmem S1024x512 .bf16) (harg4 : arg4.IsWhole) (arg5 : Memref sig .tc .vmem S512x1024 .bf16) (harg5 : arg5.IsWhole) (arg6 : Memref sig .tc .vmem S512x1024 .f32) (harg6 : arg6.IsWhole) (hc0 : ¬cond0_0 i) (hc1 : ¬cond0_1 i)
    (x0 : Vec F S512x512 .bf16) (x1 : Vec F S1024x512 .bf16) (xs0 : Vec F S512x1024 .f32) :
    Σ' (L2 : List (View.Piece (Elt F) S512x1024 .bf16)), { LS0 : List (View.Piece (Elt F) S512x1024 .f32) //
      ∀ (xi2 : Vec F S512x1024 .bf16) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0
            ∗ (iprop(owns (c : Thread nD τ) arg3 fullShare x0 ∗ owns (c : Thread nD τ) arg4 fullShare x1 ∗ owns (c : Thread nD τ) arg5 fullShare xi2
                ∗ (∃ f, arg6.view.loc (c : Thread nD τ) ↦[arg6.view.set]{fullShare} arg6.view.writes (Elt F) f LS0)) -∗ K ⟨⟩))
          ⊢ wp frame (wpE (defs₀ (F := F)) Variants.none c none) E (cc0__linear_kernel i arg3 harg3 arg4 harg4 arg5 harg5 arg6 harg6) K } := by
  refine ⟨[], ?_, fun xi2 E K => ?run⟩
  case run =>
    simp only [cc0__linear_kernel_eq_skeleton]; unfold cc0__linear_kernel_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.Kernel.Frm

end
-- ==== Proof.WordRegionQkvLast.lean ====
/-
  Region 0, the body's run at a last contraction block: the stores it leaves in the accumulator (and, at a last block, in the output
  block), found by running the body symbolically.
-/
import proofs.«125955_j22462678958488_2_alg».proof.Proof.WordRegionQkvMiddle

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 2000000 in
/-- At a last contraction block: the accumulator, at what the point before left, gains the product of the two input
    blocks, and the output block, at anything, is overwritten with the accumulator's contents. -/
noncomputable def kernelRun0_C (c : Dev nD) (i : grid0.Coords) (arg3 : Memref sig .tc .vmem S512x512 .bf16) (harg3 : arg3.IsWhole) (arg4 : Memref sig .tc .vmem S1024x512 .bf16) (harg4 : arg4.IsWhole) (arg5 : Memref sig .tc .vmem S512x1024 .bf16) (harg5 : arg5.IsWhole) (arg6 : Memref sig .tc .vmem S512x1024 .f32) (harg6 : arg6.IsWhole) (hc0 : ¬cond0_0 i) (hc1 : cond0_1 i)
    (x0 : Vec F S512x512 .bf16) (x1 : Vec F S1024x512 .bf16) (xs0 : Vec F S512x1024 .f32) :
    Σ' (L2 : List (View.Piece (Elt F) S512x1024 .bf16)), { LS0 : List (View.Piece (Elt F) S512x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L2)
                ∗ (∃ f, arg6.view.loc (c : Thread nD τ) ↦[arg6.view.set]{fullShare} arg6.view.writes (Elt F) f LS0)) -∗ K ⟨⟩))
          ⊢ wp frame (wpE (defs₀ (F := F)) Variants.none c none) E (cc0__linear_kernel i arg3 harg3 arg4 harg4 arg5 harg5 arg6 harg6) K } := by
  refine ⟨?_, ?_, fun E K => ?run⟩
  case run =>
    simp only [cc0__linear_kernel_eq_skeleton]; unfold cc0__linear_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.Kernel.Frm

end
-- ==== Proof.WordRegionQkv.lean ====
/-
  Region 0: what the accumulator and the output block hold after each grid point, the region's invariant (the
  accumulator at what the point before left), its proof data and its body obligation.
-/
import proofs.«125955_j22462678958488_2_alg».proof.Proof.WordRegionQkvLast

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What case A leaves in the output's staging buffer: its pieces read back (none: a placeholder nothing consults, the window being idle and not written back there). -/
def out0_A_2 (c : Dev nD) (i : grid0.Coords) (arg3 : Memref sig .tc .vmem S512x512 .bf16) (harg3 : arg3.IsWhole) (arg4 : Memref sig .tc .vmem S1024x512 .bf16) (harg4 : arg4.IsWhole) (arg5 : Memref sig .tc .vmem S512x1024 .bf16) (harg5 : arg5.IsWhole) (arg6 : Memref sig .tc .vmem S512x1024 .f32) (harg6 : arg6.IsWhole) (hc0 : cond0_0 i) (hc1 : ¬cond0_1 i)
    (x0 : Vec F S512x512 .bf16) (x1 : Vec F S1024x512 .bf16) : Vec F S512x1024 .bf16 :=
  VO0_2.read (Elt F) (VO0_2.writes (Elt F) VO0_2.junk (kernelRun0_A c i arg3 harg3 arg4 harg4 arg5 harg5 arg6 harg6 hc0 hc1 x0 x1).1)

/-- Case A's stores into the accumulator cover it. -/
theorem scover0_A_0 (c : Dev nD) (i : grid0.Coords) (arg3 : Memref sig .tc .vmem S512x512 .bf16) (harg3 : arg3.IsWhole) (arg4 : Memref sig .tc .vmem S1024x512 .bf16) (harg4 : arg4.IsWhole) (arg5 : Memref sig .tc .vmem S512x1024 .bf16) (harg5 : arg5.IsWhole) (arg6 : Memref sig .tc .vmem S512x1024 .f32) (harg6 : arg6.IsWhole) (hc0 : cond0_0 i) (hc1 : ¬cond0_1 i)
    (x0 : Vec F S512x512 .bf16) (x1 : Vec F S1024x512 .bf16) (y : S512x1024.Idx) :
    ∃ pc ∈ (kernelRun0_A c i arg3 harg3 arg4 harg4 arg5 harg5 arg6 harg6 hc0 hc1 x0 x1).2.1, y ∈ pc.1.set :=
  View.cover_of_tiledL (kernelRun0_A c i arg3 harg3 arg4 harg4 arg5 harg5 arg6 harg6 hc0 hc1 x0 x1).2.1 S512x1024.size (by sl_kernel_rfl) y

/-- What case A leaves in the accumulator: its pieces read back. -/
def sout0_A_0 (c : Dev nD) (i : grid0.Coords) (arg3 : Memref sig .tc .vmem S512x512 .bf16) (harg3 : arg3.IsWhole) (arg4 : Memref sig .tc .vmem S1024x512 .bf16) (harg4 : arg4.IsWhole) (arg5 : Memref sig .tc .vmem S512x1024 .bf16) (harg5 : arg5.IsWhole) (arg6 : Memref sig .tc .vmem S512x1024 .f32) (harg6 : arg6.IsWhole) (hc0 : cond0_0 i) (hc1 : ¬cond0_1 i)
    (x0 : Vec F S512x512 .bf16) (x1 : Vec F S1024x512 .bf16) : Vec F S512x1024 .f32 :=
  VS0_0.read (Elt F) (VS0_0.writes (Elt F) VS0_0.junk (kernelRun0_A c i arg3 harg3 arg4 harg4 arg5 harg5 arg6 harg6 hc0 hc1 x0 x1).2.1)

/-- What case B leaves in the output's staging buffer: its pieces read back (none: a placeholder nothing consults, the window being idle and not written back there). -/
def out0_B_2 (c : Dev nD) (i : grid0.Coords) (arg3 : Memref sig .tc .vmem S512x512 .bf16) (harg3 : arg3.IsWhole) (arg4 : Memref sig .tc .vmem S1024x512 .bf16) (harg4 : arg4.IsWhole) (arg5 : Memref sig .tc .vmem S512x1024 .bf16) (harg5 : arg5.IsWhole) (arg6 : Memref sig .tc .vmem S512x1024 .f32) (harg6 : arg6.IsWhole) (hc0 : ¬cond0_0 i) (hc1 : ¬cond0_1 i)
    (x0 : Vec F S512x512 .bf16) (x1 : Vec F S1024x512 .bf16) (xs0 : Vec F S512x1024 .f32) : Vec F S512x1024 .bf16 :=
  VO0_2.read (Elt F) (VO0_2.writes (Elt F) VO0_2.junk (kernelRun0_B c i arg3 harg3 arg4 harg4 arg5 harg5 arg6 harg6 hc0 hc1 x0 x1 xs0).1)

/-- Case B's stores into the accumulator cover it. -/
theorem scover0_B_0 (c : Dev nD) (i : grid0.Coords) (arg3 : Memref sig .tc .vmem S512x512 .bf16) (harg3 : arg3.IsWhole) (arg4 : Memref sig .tc .vmem S1024x512 .bf16) (harg4 : arg4.IsWhole) (arg5 : Memref sig .tc .vmem S512x1024 .bf16) (harg5 : arg5.IsWhole) (arg6 : Memref sig .tc .vmem S512x1024 .f32) (harg6 : arg6.IsWhole) (hc0 : ¬cond0_0 i) (hc1 : ¬cond0_1 i)
    (x0 : Vec F S512x512 .bf16) (x1 : Vec F S1024x512 .bf16) (xs0 : Vec F S512x1024 .f32) (y : S512x1024.Idx) :
    ∃ pc ∈ (kernelRun0_B c i arg3 harg3 arg4 harg4 arg5 harg5 arg6 harg6 hc0 hc1 x0 x1 xs0).2.1, y ∈ pc.1.set :=
  View.cover_of_tiledL (kernelRun0_B c i arg3 harg3 arg4 harg4 arg5 harg5 arg6 harg6 hc0 hc1 x0 x1 xs0).2.1 S512x1024.size (by sl_kernel_rfl) y

/-- What case B leaves in the accumulator: its pieces read back. -/
def sout0_B_0 (c : Dev nD) (i : grid0.Coords) (arg3 : Memref sig .tc .vmem S512x512 .bf16) (harg3 : arg3.IsWhole) (arg4 : Memref sig .tc .vmem S1024x512 .bf16) (harg4 : arg4.IsWhole) (arg5 : Memref sig .tc .vmem S512x1024 .bf16) (harg5 : arg5.IsWhole) (arg6 : Memref sig .tc .vmem S512x1024 .f32) (harg6 : arg6.IsWhole) (hc0 : ¬cond0_0 i) (hc1 : ¬cond0_1 i)
    (x0 : Vec F S512x512 .bf16) (x1 : Vec F S1024x512 .bf16) (xs0 : Vec F S512x1024 .f32) : Vec F S512x1024 .f32 :=
  VS0_0.read (Elt F) (VS0_0.writes (Elt F) VS0_0.junk (kernelRun0_B c i arg3 harg3 arg4 harg4 arg5 harg5 arg6 harg6 hc0 hc1 x0 x1 xs0).2.1)

/-- At a last block the one store into the output covers its block. -/
theorem cover0_C_2 (c : Dev nD) (i : grid0.Coords) (arg3 : Memref sig .tc .vmem S512x512 .bf16) (harg3 : arg3.IsWhole) (arg4 : Memref sig .tc .vmem S1024x512 .bf16) (harg4 : arg4.IsWhole) (arg5 : Memref sig .tc .vmem S512x1024 .bf16) (harg5 : arg5.IsWhole) (arg6 : Memref sig .tc .vmem S512x1024 .f32) (harg6 : arg6.IsWhole) (hc0 : ¬cond0_0 i) (hc1 : cond0_1 i)
    (x0 : Vec F S512x512 .bf16) (x1 : Vec F S1024x512 .bf16) (xs0 : Vec F S512x1024 .f32) (y : S512x1024.Idx) :
    ∃ pc ∈ (kernelRun0_C c i arg3 harg3 arg4 harg4 arg5 harg5 arg6 harg6 hc0 hc1 x0 x1 xs0).1, y ∈ pc.1.set :=
  View.cover_of_tiledL (kernelRun0_C c i arg3 harg3 arg4 harg4 arg5 harg5 arg6 harg6 hc0 hc1 x0 x1 xs0).1 S512x1024.size (by sl_kernel_rfl) y

/-- What case C leaves in the output's staging buffer: its pieces read back. -/
def out0_C_2 (c : Dev nD) (i : grid0.Coords) (arg3 : Memref sig .tc .vmem S512x512 .bf16) (harg3 : arg3.IsWhole) (arg4 : Memref sig .tc .vmem S1024x512 .bf16) (harg4 : arg4.IsWhole) (arg5 : Memref sig .tc .vmem S512x1024 .bf16) (harg5 : arg5.IsWhole) (arg6 : Memref sig .tc .vmem S512x1024 .f32) (harg6 : arg6.IsWhole) (hc0 : ¬cond0_0 i) (hc1 : cond0_1 i)
    (x0 : Vec F S512x512 .bf16) (x1 : Vec F S1024x512 .bf16) (xs0 : Vec F S512x1024 .f32) : Vec F S512x1024 .bf16 :=
  VO0_2.read (Elt F) (VO0_2.writes (Elt F) VO0_2.junk (kernelRun0_C c i arg3 harg3 arg4 harg4 arg5 harg5 arg6 harg6 hc0 hc1 x0 x1 xs0).1)

/-- Case C's stores into the accumulator cover it. -/
theorem scover0_C_0 (c : Dev nD) (i : grid0.Coords) (arg3 : Memref sig .tc .vmem S512x512 .bf16) (harg3 : arg3.IsWhole) (arg4 : Memref sig .tc .vmem S1024x512 .bf16) (harg4 : arg4.IsWhole) (arg5 : Memref sig .tc .vmem S512x1024 .bf16) (harg5 : arg5.IsWhole) (arg6 : Memref sig .tc .vmem S512x1024 .f32) (harg6 : arg6.IsWhole) (hc0 : ¬cond0_0 i) (hc1 : cond0_1 i)
    (x0 : Vec F S512x512 .bf16) (x1 : Vec F S1024x512 .bf16) (xs0 : Vec F S512x1024 .f32) (y : S512x1024.Idx) :
    ∃ pc ∈ (kernelRun0_C c i arg3 harg3 arg4 harg4 arg5 harg5 arg6 harg6 hc0 hc1 x0 x1 xs0).2.1, y ∈ pc.1.set :=
  View.cover_of_tiledL (kernelRun0_C c i arg3 harg3 arg4 harg4 arg5 harg5 arg6 harg6 hc0 hc1 x0 x1 xs0).2.1 S512x1024.size (by sl_kernel_rfl) y

/-- What case C leaves in the accumulator: its pieces read back. -/
def sout0_C_0 (c : Dev nD) (i : grid0.Coords) (arg3 : Memref sig .tc .vmem S512x512 .bf16) (harg3 : arg3.IsWhole) (arg4 : Memref sig .tc .vmem S1024x512 .bf16) (harg4 : arg4.IsWhole) (arg5 : Memref sig .tc .vmem S512x1024 .bf16) (harg5 : arg5.IsWhole) (arg6 : Memref sig .tc .vmem S512x1024 .f32) (harg6 : arg6.IsWhole) (hc0 : ¬cond0_0 i) (hc1 : cond0_1 i)
    (x0 : Vec F S512x512 .bf16) (x1 : Vec F S1024x512 .bf16) (xs0 : Vec F S512x1024 .f32) : Vec F S512x1024 .f32 :=
  VS0_0.read (Elt F) (VS0_0.writes (Elt F) VS0_0.junk (kernelRun0_C c i arg3 harg3 arg4 harg4 arg5 harg5 arg6 harg6 hc0 hc1 x0 x1 xs0).2.1)

/-- What the output's staging buffer and the accumulator hold after the body at position `n`: the case the position
    selects, run at the point's buffers and input blocks, the accumulator read at what position `n - 1` left. -/
def outsAt0 (c : Dev nD) : (n : ℕ) → n < cfg0.N → Vec F S512x1024 .bf16 × Vec F S512x1024 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 4 = 0 then
      if h1 : (n + 1) % 4 = 3 then
        False.elim (by omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      if h1 : (n + 1) % 4 = 3 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2)

theorem outsAt0_A (c : Dev nD) (t : Fin cfg0.N) (h0 : t.val % 4 = 0) (h1 : ¬t.val % 4 = 3) :
    outsAt0 V c t.val t.isLt = (out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t), sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 V c t.val t.isLt = (out0_B_2 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 V c t.val t.isLt = (out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point every scoped buffer at anything; afterwards the
    accumulator at what the point before left, the other scoped buffers at anything, the generator register at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ Pipeline.scopedRestBut (Ix := Unit) (Name := ℕ) (U := UR sig nD τ) (Lvl := ℕ) (Val := Elt F) spec0 c [cc0_scratch0]) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2) ∗ Pipeline.scopedRestBut (Ix := Unit) (Name := ℕ) (U := UR sig nD τ) (Lvl := ℕ) (Val := Elt F) spec0 c [cc0_scratch0]) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-- The proof data of this pipeline on core `c`: the arrays as the region finds them; after the body at a point each
    input's buffer at its block and the output's at `outsAt0`; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the inputs' buffers hold their blocks; the position says which case the point is in; the
    invariant hands the body the accumulator at what the point before left (at anything at the very first point) and
    takes it back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  by_cases h0 : t.val % 4 = 0
  · have h1 : ¬t.val % 4 = 3 := by omega
    rw [show (dat0 V c).leavesExact 0 t = owns (c : Thread nD τ) (ms0_0 t) fullShare ((dat0 V c).after 0 t) from by
        unfold Dat.leavesExact; rw [liveAt0_0 t], after0_0]
    rw [show (dat0 V c).leavesExact 1 t = owns (c : Thread nD τ) (ms0_1 t) fullShare ((dat0 V c).after 1 t) from by
        unfold Dat.leavesExact; rw [liveAt0_1 t], after0_1]
    rw [Dat.leavesExact_idle (dat0 V c) 2 t (idleAt0_2_A t ((hcond0_0 t).mpr h0) (fun h => h1 ((hcond0_1 t).mp h))) (noFlush0_2_A t ((hcond0_0 t).mpr h0) (fun h => h1 ((hcond0_1 t).mp h)))]
    rw [outsAt0_A V c t h0 h1]
    unfold sout0_A_0; (try dsimp only)
    by_cases hz : t.val = 0
    · rw [PhiS0_castSucc V c t, PhiS0_zero V c _ _ hz, PhiA0_eq]
      iintro ⟨⟨⟨HS0, Hb⟩, Hg⟩, Ho, ⟨%d0, H0⟩, ⟨%d1, H1⟩, ⟨%d2, H2⟩⟩
      iapply ((kernelRun0_A c (grid0.coords t) _ _ _ _ _ _ _ _ ((hcond0_0 t).mpr h0) (fun h => h1 ((hcond0_1 t).mp h)) (iblk0 V c 0 t) (iblk0 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hb Hg]
      · isplitl [HS0 Hb]
        · isplitl [HS0]
          · unfold owns; iexists _; isplitr
            swap; · iexact HS0
            ipureintro; exact View.read_writes_of_cover _ _ _ _ _ (scover0_A_0 c _ _ _ _ _ _ _ _ _ _ _ _ _ )
          iexact Hb
        iexact Hg
      isplitl [Ho]; · iexact Ho
      isplitl [H0]; · iexact H0
      isplitl [H1]; · iexact H1
      iexists _; iexact H2
    · rw [PhiS0_castSucc V c t, PhiS0_pos V c _ _ hz]
      iintro ⟨⟨⟨HS0, Hb⟩, Hg⟩, Ho, ⟨%d0, H0⟩, ⟨%d1, H1⟩, ⟨%d2, H2⟩⟩
      iapply ((kernelRun0_A c (grid0.coords t) _ _ _ _ _ _ _ _ ((hcond0_0 t).mpr h0) (fun h => h1 ((hcond0_1 t).mp h)) (iblk0 V c 0 t) (iblk0 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hb Hg]
      · isplitl [HS0 Hb]
        · isplitl [HS0]
          · unfold owns; iexists _; isplitr
            swap; · iexact HS0
            ipureintro; exact View.read_writes_of_cover _ _ _ _ _ (scover0_A_0 c _ _ _ _ _ _ _ _ _ _ _ _ _ )
          iexact Hb
        iexact Hg
      isplitl [Ho]; · iexact Ho
      isplitl [H0]; · iexact H0
      isplitl [H1]; · iexact H1
      iexists _; iexact H2
  · have hz : t.val ≠ 0 := fun e => h0 (by rw [e])
    by_cases h1 : t.val % 4 = 3
    · rw [show (dat0 V c).leavesExact 0 t = owns (c : Thread nD τ) (ms0_0 t) fullShare ((dat0 V c).after 0 t) from by
          unfold Dat.leavesExact; rw [liveAt0_0 t], after0_0]
      rw [show (dat0 V c).leavesExact 1 t = owns (c : Thread nD τ) (ms0_1 t) fullShare ((dat0 V c).after 1 t) from by
          unfold Dat.leavesExact; rw [liveAt0_1 t], after0_1]
      rw [show (dat0 V c).leavesExact 2 t = owns (c : Thread nD τ) (ms0_2 t) fullShare ((dat0 V c).after 2 t) from by
          unfold Dat.leavesExact; rw [liveAt0_2_C t (fun h => h0 ((hcond0_0 t).mp h)) ((hcond0_1 t).mpr h1)], after0_2]
      rw [outsAt0_C V c t h0 h1]
      unfold out0_C_2 sout0_C_0; (try dsimp only)
      rw [PhiS0_castSucc V c t, PhiS0_pos V c _ _ hz]
      iintro ⟨⟨⟨HS0, Hb⟩, Hg⟩, Ho, ⟨%d0, H0⟩, ⟨%d1, H1⟩, ⟨%d2, H2⟩⟩
      iapply ((kernelRun0_C c (grid0.coords t) _ _ _ _ _ _ _ _ (fun h => h0 ((hcond0_0 t).mp h)) ((hcond0_1 t).mpr h1) (iblk0 V c 0 t) (iblk0 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hb Hg]
      · isplitl [HS0 Hb]
        · isplitl [HS0]
          · unfold owns; iexists _; isplitr
            swap; · iexact HS0
            ipureintro; exact View.read_writes_of_cover _ _ _ _ _ (scover0_C_0 c _ _ _ _ _ _ _ _ _ _ _ _ _ _ )
          iexact Hb
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _ )
    · rw [show (dat0 V c).leavesExact 0 t = owns (c : Thread nD τ) (ms0_0 t) fullShare ((dat0 V c).after 0 t) from by
          unfold Dat.leavesExact; rw [liveAt0_0 t], after0_0]
      rw [show (dat0 V c).leavesExact 1 t = owns (c : Thread nD τ) (ms0_1 t) fullShare ((dat0 V c).after 1 t) from by
          unfold Dat.leavesExact; rw [liveAt0_1 t], after0_1]
      rw [Dat.leavesExact_idle (dat0 V c) 2 t (idleAt0_2_B t (fun h => h0 ((hcond0_0 t).mp h)) (fun h => h1 ((hcond0_1 t).mp h))) (noFlush0_2_B t (fun h => h0 ((hcond0_0 t).mp h)) (fun h => h1 ((hcond0_1 t).mp h)))]
      rw [outsAt0_B V c t h0 h1]
      unfold sout0_B_0; (try dsimp only)
      rw [PhiS0_castSucc V c t, PhiS0_pos V c _ _ hz]
      iintro ⟨⟨⟨HS0, Hb⟩, Hg⟩, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk0 V c 0 t) (iblk0 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hb Hg]
      · isplitl [HS0 Hb]
        · isplitl [HS0]
          · unfold owns; iexists _; isplitr
            swap; · iexact HS0
            ipureintro; exact View.read_writes_of_cover _ _ _ _ _ (scover0_B_0 c _ _ _ _ _ _ _ _ _ _ _ _ _ _ )
          iexact Hb
        iexact Hg
      isplitl [Ho]; · iexact Ho
      isplitl [H0]; · iexact H0
      isplitl [H1]; · iexact H1
      iexists _; iexact H2

/-- The body obligation, at every point. -/
theorem body_obligation0 (c : Dev nD) : BodyObligation (dat0 (F := F) V c) (defs₀ (F := F)) Variants.none () Set.univ := fun t => by
  rw [bigSep_W0, bigSep_W0]
  exact sound_body0 V c t

/-- What the region is entered with is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives every scoped buffer back at anything. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, Hb⟩, Hg⟩
  isplitl [HS0 Hb]
  · isplitl [HS0]
    · iexists _; iexact HS0
    iexact Hb
  iexact Hg

theorem hout0 (c : Dev nD) : (dat0 V c).Φ (Fin.last cfg0.N) ⊢ Pipeline.ΦA spec0 c :=
  Phi_out0 V c _ (by rw [Fin.val_last]; have : cfg0.N = 48 := N_0; omega)

end Cert.Kernel.Frm

end
-- ==== Proof.WordRegionNormQ.lean ====
/-
  Region 1 of the program: the per-head RMS normalisation followed by the rotary embedding, applied to the
  query projections, one (batch, head) pair per grid point. The block of the activations at a point is a whole
  [1024, 64] slab; the cosine and sine tables and the weight row are the same whole arrays at every point. The body
  reads its four input blocks and overwrites the output block with one store, so what the output's staging buffer
  holds after the body is a function of the four input blocks alone.
-/
import proofs.«125955_j22462678958488_2_alg».proof.Proof.Gen.Kernel.Launch
import proofs.«125955_j22462678958488_2_alg».proof.Proof.Gen.Kernel.Skeleton
import proofs.«125955_j22462678958488_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The whole rectangle of each buffer the body touches. -/
abbrev rX1 : Rect S1x1x1024x64 := Rect.unit (s := S1x1x1024x64) ![0, 0, 0, 0] S1x1x1024x64.size inb_S1x1x1024x64_S1x1x1024x64_0_0_0_0
abbrev rT1 : Rect S1024x32 := Rect.unit (s := S1024x32) ![0, 0] S1024x32.size inb_S1024x32_S1024x32_0_0
abbrev rW1 : Rect S1x64 := Rect.unit (s := S1x64) ![0, 0] S1x64.size inb_S1x64_S1x64_0_0

/-- The output block after the body, from the four input blocks: the body's one store as a piece. -/
def out1_4 (x0 : Vec F S1x1x1024x64 .bf16) (x1 : Vec F S1024x32 .f32) (x2 : Vec F S1024x32 .f32) (x3 : Vec F S1x64 .f32) : Vec F S1x1x1024x64 .bf16 :=
  View.canon [⟨rX1, k1_pay1 (View.ld x0 rX1) (View.ld x3 rW1) (View.ld x1 rT1) (View.ld x2 rT1)⟩]

/-- The one store covers the whole block. -/
theorem cover1_4 (p0 : Vec F S1x1x1024x64 .bf16) (y : S1x1x1024x64.Idx) :
    ∃ pc ∈ ([⟨rX1, p0⟩] : List (View.Piece (Elt F) S1x1x1024x64 .bf16)), y ∈ pc.1.set :=
  View.cover_of_tiled [⟨rX1, p0⟩] S1x1x1024x64.size (by rfl) y

set_option maxHeartbeats 1000000 in
/-- The body on whole staging buffers — the inputs' at the contents read, the output's at anything — runs to its
    return with the inputs' as they were and the output's at `out1_4` of the inputs'. -/
theorem sound_kernel1 (c : Dev nD) (E : Set ℕ) (i : grid1.Coords)
    (arg2 : Memref sig .tc .vmem S1x1x1024x64 .bf16) (harg2 : arg2.IsWhole) (arg3 : Memref sig .tc .vmem S1024x32 .f32) (harg3 : arg3.IsWhole)
    (arg4 : Memref sig .tc .vmem S1024x32 .f32) (harg4 : arg4.IsWhole) (arg5 : Memref sig .tc .vmem S1x64 .f32) (harg5 : arg5.IsWhole)
    (arg6 : Memref sig .tc .vmem S1x1x1024x64 .bf16) (harg6 : arg6.IsWhole)
    (x0 : Vec F S1x1x1024x64 .bf16) (x1 : Vec F S1024x32 .f32) (x2 : Vec F S1024x32 .f32) (x3 : Vec F S1x64 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (out1_4 x0 x1 x2 x3)) -∗ K ⟨⟩))
      ⊢ wp frame (wpE (defs₀ (F := F)) Variants.none c none) E (cc1__rmsnorm_rope_kernel i arg2 harg2 arg3 harg3 arg4 harg4 arg5 harg5 arg6 harg6) K := by
  simp only [cc1__rmsnorm_rope_kernel_eq_skeleton]; unfold cc1__rmsnorm_rope_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-- The proof data of this pipeline on core `c`: the arrays as the region finds them; after the body at a point each
    input's buffer at its block and the output's at `out1_4` of the input blocks; the scoped rest and the generator
    register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' buffers hold their blocks, so `sound_kernel1` applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Frm

end
-- ==== Proof.WordRegionNormK.lean ====
/-
  Region 2 of the program: the per-head RMS normalisation followed by the rotary embedding, applied to the
  key projections, one (batch, head) pair per grid point. The block of the activations at a point is a whole
  [1024, 64] slab; the cosine and sine tables and the weight row are the same whole arrays at every point. The body
  reads its four input blocks and overwrites the output block with one store, so what the output's staging buffer
  holds after the body is a function of the four input blocks alone.
-/
import proofs.«125955_j22462678958488_2_alg».proof.Proof.Gen.Kernel.Launch
import proofs.«125955_j22462678958488_2_alg».proof.Proof.Gen.Kernel.Skeleton
import proofs.«125955_j22462678958488_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- The whole rectangle of each buffer the body touches. -/
abbrev rX2 : Rect S1x1x1024x64 := Rect.unit (s := S1x1x1024x64) ![0, 0, 0, 0] S1x1x1024x64.size inb_S1x1x1024x64_S1x1x1024x64_0_0_0_0
abbrev rT2 : Rect S1024x32 := Rect.unit (s := S1024x32) ![0, 0] S1024x32.size inb_S1024x32_S1024x32_0_0
abbrev rW2 : Rect S1x64 := Rect.unit (s := S1x64) ![0, 0] S1x64.size inb_S1x64_S1x64_0_0

/-- The output block after the body, from the four input blocks: the body's one store as a piece. -/
def out2_4 (x0 : Vec F S1x1x1024x64 .bf16) (x1 : Vec F S1024x32 .f32) (x2 : Vec F S1024x32 .f32) (x3 : Vec F S1x64 .f32) : Vec F S1x1x1024x64 .bf16 :=
  View.canon [⟨rX2, k2_pay1 (View.ld x0 rX2) (View.ld x3 rW2) (View.ld x1 rT2) (View.ld x2 rT2)⟩]

/-- The one store covers the whole block. -/
theorem cover2_4 (p0 : Vec F S1x1x1024x64 .bf16) (y : S1x1x1024x64.Idx) :
    ∃ pc ∈ ([⟨rX2, p0⟩] : List (View.Piece (Elt F) S1x1x1024x64 .bf16)), y ∈ pc.1.set :=
  View.cover_of_tiled [⟨rX2, p0⟩] S1x1x1024x64.size (by rfl) y

set_option maxHeartbeats 1000000 in
/-- The body on whole staging buffers — the inputs' at the contents read, the output's at anything — runs to its
    return with the inputs' as they were and the output's at `out2_4` of the inputs'. -/
theorem sound_kernel2 (c : Dev nD) (E : Set ℕ) (i : grid2.Coords)
    (arg2 : Memref sig .tc .vmem S1x1x1024x64 .bf16) (harg2 : arg2.IsWhole) (arg3 : Memref sig .tc .vmem S1024x32 .f32) (harg3 : arg3.IsWhole)
    (arg4 : Memref sig .tc .vmem S1024x32 .f32) (harg4 : arg4.IsWhole) (arg5 : Memref sig .tc .vmem S1x64 .f32) (harg5 : arg5.IsWhole)
    (arg6 : Memref sig .tc .vmem S1x1x1024x64 .bf16) (harg6 : arg6.IsWhole)
    (x0 : Vec F S1x1x1024x64 .bf16) (x1 : Vec F S1024x32 .f32) (x2 : Vec F S1024x32 .f32) (x3 : Vec F S1x64 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (out2_4 x0 x1 x2 x3)) -∗ K ⟨⟩))
      ⊢ wp frame (wpE (defs₀ (F := F)) Variants.none c none) E (cc2__rmsnorm_rope_kernel i arg2 harg2 arg3 harg3 arg4 harg4 arg5 harg5 arg6 harg6) K := by
  simp only [cc2__rmsnorm_rope_kernel_eq_skeleton]; unfold cc2__rmsnorm_rope_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

/-- The proof data of this pipeline on core `c`: the arrays as the region finds them; after the body at a point each
    input's buffer at its block and the output's at `out2_4` of the input blocks; the scoped rest and the generator
    register untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) :
    (dat2 V c).after 4 t = out2_4 (iblk2 V c 0 t) (iblk2 V c 1 t) (iblk2 V c 2 t) (iblk2 V c 3 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' buffers hold their blocks, so `sound_kernel2` applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Frm

end
-- ==== Proof.WordRegionAttn.lean ====
/-
  Region 3 of the program: grouped-query attention. A grid point is a (batch, key/value head, block of 256 query
  rows) triple; its input blocks are the four query heads of the group at those rows, the whole cached key and value
  slabs of the head (2048 rows) and the whole current key and value slabs (1024 rows). The body stacks cache and
  current rows into 3072 keys and values once, and for each of the four query heads writes one [256, 64] tile of the
  output block: the scores against all keys scaled by 1/8, their row-wise softmax, and the weighted sum of the
  values. The four tiles cover the output block, so what the output's staging buffer holds after the body is a
  function of the five input blocks alone.
-/
import proofs.«125955_j22462678958488_2_alg».proof.Proof.Gen.Kernel.Launch
import proofs.«125955_j22462678958488_2_alg».proof.Proof.Gen.Kernel.Skeleton
import proofs.«125955_j22462678958488_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point, fetched there or not. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- The rectangles the body touches: the whole cache and current slabs, and the tile of one query head. -/
abbrev rC3 : Rect S1x1x2048x64 := Rect.unit (s := S1x1x2048x64) ![0, 0, 0, 0] S1x1x2048x64.size inb_S1x1x2048x64_S1x1x2048x64_0_0_0_0
abbrev rU3 : Rect S1x1x1024x64 := Rect.unit (s := S1x1x1024x64) ![0, 0, 0, 0] S1x1x1024x64.size inb_S1x1x1024x64_S1x1x1024x64_0_0_0_0
abbrev rH3_0 : Rect S1x1x4x256x64 := Rect.unit (s := S1x1x4x256x64) ![0, 0, 0, 0, 0] S1x1x1x256x64.size inb_S1x1x4x256x64_S1x1x1x256x64_0_0_0_0_0
abbrev rH3_1 : Rect S1x1x4x256x64 := Rect.unit (s := S1x1x4x256x64) ![0, 0, 1, 0, 0] S1x1x1x256x64.size inb_S1x1x4x256x64_S1x1x1x256x64_0_0_1_0_0
abbrev rH3_2 : Rect S1x1x4x256x64 := Rect.unit (s := S1x1x4x256x64) ![0, 0, 2, 0, 0] S1x1x1x256x64.size inb_S1x1x4x256x64_S1x1x1x256x64_0_0_2_0_0
abbrev rH3_3 : Rect S1x1x4x256x64 := Rect.unit (s := S1x1x4x256x64) ![0, 0, 3, 0, 0] S1x1x1x256x64.size inb_S1x1x4x256x64_S1x1x1x256x64_0_0_3_0_0

/-- The stacked keys and the stacked values, from the cache and current slabs. -/
def keys3 (x1 : Vec F S1x1x2048x64 .f32) (x3 : Vec F S1x1x1024x64 .bf16) : FVec F S3072x64 .bf16 := k3_pay3 (View.ld x1 rC3) (View.ld x3 rU3)
def vals3 (x2 : Vec F S1x1x2048x64 .f32) (x4 : Vec F S1x1x1024x64 .bf16) : FVec F S3072x64 .bf16 := k3_pay4 (View.ld x2 rC3) (View.ld x4 rU3)

/-- The output block after the body, from the five input blocks: the body's four stores as pieces, last first. -/
def out3_5 (x0 : Vec F S1x1x4x256x64 .bf16) (x1 : Vec F S1x1x2048x64 .f32) (x2 : Vec F S1x1x2048x64 .f32) (x3 : Vec F S1x1x1024x64 .bf16) (x4 : Vec F S1x1x1024x64 .bf16) :
    Vec F S1x1x4x256x64 .bf16 :=
  View.canon [⟨rH3_3, k3_pay2 (keys3 x1 x3) (vals3 x2 x4) (View.ld x0 rH3_3)⟩,
    ⟨rH3_2, k3_pay1 (vals3 x2 x4) (k3_pay8 (keys3 x1 x3) (View.ld x0 rH3_2))⟩,
    ⟨rH3_1, k3_pay7 (keys3 x1 x3) (vals3 x2 x4) (View.ld x0 rH3_1)⟩,
    ⟨rH3_0, k3_pay6 (k3_pay5 (View.ld x1 rC3) (View.ld x2 rC3) (View.ld x3 rU3) (View.ld x4 rU3) (View.ld x0 rH3_0))⟩]

/-- The four tiles cover the block. -/
theorem cover3_5 (p3 p2 p1 p0 : Vec F S1x1x1x256x64 .bf16) (y : S1x1x4x256x64.Idx) :
    ∃ pc ∈ ([⟨rH3_3, p3⟩, ⟨rH3_2, p2⟩, ⟨rH3_1, p1⟩, ⟨rH3_0, p0⟩] : List (View.Piece (Elt F) S1x1x4x256x64 .bf16)), y ∈ pc.1.set :=
  View.cover_of_tiledL [⟨rH3_3, p3⟩, ⟨rH3_2, p2⟩, ⟨rH3_1, p1⟩, ⟨rH3_0, p0⟩] S1x1x1x256x64.size (by sl_kernel_rfl) y

set_option maxHeartbeats 4000000 in
/-- The body on whole staging buffers — the inputs' at the contents read, the output's at anything — runs to its
    return with the inputs' as they were and the output's at `out3_5` of the inputs'. -/
theorem sound_kernel3 (c : Dev nD) (E : Set ℕ) (i : grid3.Coords)
    (arg3 : Memref sig .tc .vmem S1x1x4x256x64 .bf16) (harg3 : arg3.IsWhole) (arg4 : Memref sig .tc .vmem S1x1x2048x64 .f32) (harg4 : arg4.IsWhole)
    (arg5 : Memref sig .tc .vmem S1x1x2048x64 .f32) (harg5 : arg5.IsWhole) (arg6 : Memref sig .tc .vmem S1x1x1024x64 .bf16) (harg6 : arg6.IsWhole)
    (arg7 : Memref sig .tc .vmem S1x1x1024x64 .bf16) (harg7 : arg7.IsWhole) (arg8 : Memref sig .tc .vmem S1x1x4x256x64 .bf16) (harg8 : arg8.IsWhole)
    (x0 : Vec F S1x1x4x256x64 .bf16) (x1 : Vec F S1x1x2048x64 .f32) (x2 : Vec F S1x1x2048x64 .f32) (x3 : Vec F S1x1x1024x64 .bf16) (x4 : Vec F S1x1x1024x64 .bf16)
    (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ (∃ d, owns (c : Thread nD τ) arg8 fullShare d)
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4
            ∗ owns (c : Thread nD τ) arg8 fullShare (out3_5 x0 x1 x2 x3 x4)) -∗ K ⟨⟩))
      ⊢ wp frame (wpE (defs₀ (F := F)) Variants.none c none) E (cc3__attn_kernel i arg3 harg3 arg4 harg4 arg5 harg5 arg6 harg6 arg7 harg7 arg8 harg8) K := by
  simp only [cc3__attn_kernel_eq_skeleton]; unfold cc3__attn_kernel_skel
  simp only [k3_part1_eq_skeleton, k3_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _ _ _ _)

/-- The proof data of this pipeline on core `c`: the arrays as the region finds them; after the body at a point each
    input's buffer at its block and the output's at `out3_5` of the input blocks; the scoped rest and the generator
    register untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) :
    (dat3 V c).after 5 t = out3_5 (iblk3 V c 0 t) (iblk3 V c 1 t) (iblk3 V c 2 t) (iblk3 V c 3 t) (iblk3 V c 4 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' buffers hold their blocks, so `sound_kernel3` applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Frm

end
-- ==== Proof.WordRegionOutProjShared.lean ====
/-
  Region 4 of the program, the output projection: attention rows [2048, 2048] against the weights [2048, 2048], as a blocked matrix product. A grid point is a (row block, column block,
  contraction block) triple with the contraction block innermost, four to a pair: the body adds the product of a
  [512, 512] block of the left operand and a [1024, 512] block of the right operand (contracted along their second
  axes) into a [512, 1024] accumulator that lives in scratch memory across the four points of a pair — zeroed first at
  the first of them, copied to the output block after the last. So the body has three cases, by the contraction block:
  first, middle, last. This module holds what the three cases share.
-/
import proofs.«125955_j22462678958488_2_alg».proof.Proof.Gen.Kernel.Launch
import proofs.«125955_j22462678958488_2_alg».proof.Proof.Gen.Kernel.Skeleton
import proofs.«125955_j22462678958488_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- "This is the first contraction block": the condition of the body's first branch, from the grid coordinates. -/
abbrev cond4_0 (i : grid4.Coords) : Prop := (Scalar.cmpi .ne (Scalar.extui (Scalar.cmpi .eq (BitVec.ofNat 32 (i 2).val) 0#32)) 0#32) = 1#1
/-- It holds at the points ≡ 0 (mod 4) — decided over the grid. -/
theorem hcond4_0 : ∀ t : Fin cfg4.N, cond4_0 (grid4.coords t) ↔ t.val % 4 = 0 :=
  (by decide +kernel : ∀ t : Fin grid4.N, cond4_0 (grid4.coords t) ↔ t.val % 4 = 0)
/-- "This is the last contraction block": the condition of the body's second branch. -/
abbrev cond4_1 (i : grid4.Coords) : Prop := k4_cond2 i = 1#1
/-- It holds at the points ≡ 3 (mod 4) — decided over the grid. -/
theorem hcond4_1 : ∀ t : Fin cfg4.N, cond4_1 (grid4.coords t) ↔ t.val % 4 = 3 :=
  (by decide +kernel : ∀ t : Fin grid4.N, cond4_1 (grid4.coords t) ↔ t.val % 4 = 3)

/-- The inputs are never idle; the output is idle, and not written back, except at a last contraction block. -/
theorem liveAt4_0 : ∀ t : Fin cfg4.N, cfg4.idle 0 (grid4.coords t) = false := by decide +kernel
theorem liveAt4_1 : ∀ t : Fin cfg4.N, cfg4.idle 1 (grid4.coords t) = false := by decide +kernel
theorem idleAt4_2_A : ∀ t : Fin cfg4.N, cond4_0 (grid4.coords t) → ¬cond4_1 (grid4.coords t) → cfg4.idle 2 (grid4.coords t) = true := by decide +kernel
theorem noFlush4_2_A : ∀ t : Fin cfg4.N, cond4_0 (grid4.coords t) → ¬cond4_1 (grid4.coords t) → (cfg4.win 2).flush t = false := by decide +kernel
theorem idleAt4_2_B : ∀ t : Fin cfg4.N, ¬cond4_0 (grid4.coords t) → ¬cond4_1 (grid4.coords t) → cfg4.idle 2 (grid4.coords t) = true := by decide +kernel
theorem noFlush4_2_B : ∀ t : Fin cfg4.N, ¬cond4_0 (grid4.coords t) → ¬cond4_1 (grid4.coords t) → (cfg4.win 2).flush t = false := by decide +kernel
theorem liveAt4_2_C : ∀ t : Fin cfg4.N, ¬cond4_0 (grid4.coords t) → cond4_1 (grid4.coords t) → cfg4.idle 2 (grid4.coords t) = false := by decide +kernel

/-- One staging buffer of the output window, through which its contents are stated. -/
abbrev VO4_2 : View sig .tc .vmem S512x1024 .f32 := (Memref.whole cc4_stg2_0 : Memref sig .tc .vmem S512x1024 .f32).view
/-- Each window's current staging buffer at point `t`, as the pipeline passes it to the body, and its wholeness. -/
abbrev ms4_0 (t : Fin cfg4.N) : Memref sig .tc .vmem S512x512 .bf16 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1024x512 .bf16 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S512x1024 .f32 := win4_2.stage (cfg4.slots t 2)
abbrev hs4_2 (t : Fin cfg4.N) : (ms4_2 t).IsWhole := hstage4_2 ((cfg4.slots t 2).cast nbuf4_2)
/-- The accumulator: a whole scratch buffer of the kernel's own, and the view its contents are stated through. -/
abbrev scM4_0 : Memref sig .tc .vmem S512x1024 .f32 := Memref.whole cc4_scratch0
abbrev VS4_0 : View sig .tc .vmem S512x1024 .f32 := scM4_0.view

/-- The scoped buffers this region does not stage, with the accumulator split off and owned at some contents. -/
theorem PhiA4_eq (c : Dev nD) :
    (Pipeline.ΦA spec4 c : sProp 𝕄)
      = iprop(iprop((∃ d, owns (c : Thread nD τ) scM4_0 fullShare d) ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [scM4_0, owns_whole]; try rfl

end Cert.Kernel.Frm

end
-- ==== Proof.WordRegionOutProjFirst.lean ====
/-
  Region 4, the body's run at a first contraction block: the stores it leaves in the accumulator (and, at a last block, in the output
  block), found by running the body symbolically.
-/
import proofs.«125955_j22462678958488_2_alg».proof.Proof.WordRegionOutProjShared

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 2000000 in
/-- At a first contraction block: the accumulator, at anything, is zeroed and then holds zero plus the product of the two
    input blocks; the output block is handed back untouched. The pieces are the witness the run finds. -/
noncomputable def kernelRun4_A (c : Dev nD) (i : grid4.Coords) (arg3 : Memref sig .tc .vmem S512x512 .bf16) (harg3 : arg3.IsWhole) (arg4 : Memref sig .tc .vmem S1024x512 .bf16) (harg4 : arg4.IsWhole) (arg5 : Memref sig .tc .vmem S512x1024 .f32) (harg5 : arg5.IsWhole) (arg6 : Memref sig .tc .vmem S512x1024 .f32) (harg6 : arg6.IsWhole) (hc0 : cond4_0 i) (hc1 : ¬cond4_1 i)
    (x0 : Vec F S512x512 .bf16) (x1 : Vec F S1024x512 .bf16) :
    Σ' (L2 : List (View.Piece (Elt F) S512x1024 .f32)), { LS0 : List (View.Piece (Elt F) S512x1024 .f32) //
      ∀ (xi2 : Vec F S512x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2
                ∗ (∃ f, arg6.view.loc (c : Thread nD τ) ↦[arg6.view.set]{fullShare} arg6.view.writes (Elt F) f LS0)) -∗ K ⟨⟩))
          ⊢ wp frame (wpE (defs₀ (F := F)) Variants.none c none) E (cc4__linear_kernel i arg3 harg3 arg4 harg4 arg5 harg5 arg6 harg6) K } := by
  refine ⟨[], ?_, fun xi2 E K => ?run⟩
  case run =>
    simp only [cc4__linear_kernel_eq_skeleton]; unfold cc4__linear_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.Kernel.Frm

end
-- ==== Proof.WordRegionOutProjMiddle.lean ====
/-
  Region 4, the body's run at a middle contraction block: the stores it leaves in the accumulator (and, at a last block, in the output
  block), found by running the body symbolically.
-/
import proofs.«125955_j22462678958488_2_alg».proof.Proof.WordRegionOutProjFirst

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 2000000 in
/-- At a middle contraction block: the accumulator, at what the point before left, gains the product of the two input
    blocks; the output block is handed back untouched. -/
noncomputable def kernelRun4_B (c : Dev nD) (i : grid4.Coords) (arg3 : Memref sig .tc .vmem S512x512 .bf16) (harg3 : arg3.IsWhole) (arg4 : Memref sig .tc .vmem S1024x512 .bf16) (harg4 : arg4.IsWhole) (arg5 : Memref sig .tc .vmem S512x1024 .f32) (harg5 : arg5.IsWhole) (arg6 : Memref sig .tc .vmem S512x1024 .f32) (harg6 : arg6.IsWhole) (hc0 : ¬cond4_0 i) (hc1 : ¬cond4_1 i)
    (x0 : Vec F S512x512 .bf16) (x1 : Vec F S1024x512 .bf16) (xs0 : Vec F S512x1024 .f32) :
    Σ' (L2 : List (View.Piece (Elt F) S512x1024 .f32)), { LS0 : List (View.Piece (Elt F) S512x1024 .f32) //
      ∀ (xi2 : Vec F S512x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0
            ∗ (iprop(owns (c : Thread nD τ) arg3 fullShare x0 ∗ owns (c : Thread nD τ) arg4 fullShare x1 ∗ owns (c : Thread nD τ) arg5 fullShare xi2
                ∗ (∃ f, arg6.view.loc (c : Thread nD τ) ↦[arg6.view.set]{fullShare} arg6.view.writes (Elt F) f LS0)) -∗ K ⟨⟩))
          ⊢ wp frame (wpE (defs₀ (F := F)) Variants.none c none) E (cc4__linear_kernel i arg3 harg3 arg4 harg4 arg5 harg5 arg6 harg6) K } := by
  refine ⟨[], ?_, fun xi2 E K => ?run⟩
  case run =>
    simp only [cc4__linear_kernel_eq_skeleton]; unfold cc4__linear_kernel_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.Kernel.Frm

end
-- ==== Proof.WordRegionOutProjLast.lean ====
/-
  Region 4, the body's run at a last contraction block: the stores it leaves in the accumulator (and, at a last block, in the output
  block), found by running the body symbolically.
-/
import proofs.«125955_j22462678958488_2_alg».proof.Proof.WordRegionOutProjMiddle

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 2000000 in
/-- At a last contraction block: the accumulator, at what the point before left, gains the product of the two input
    blocks, and the output block, at anything, is overwritten with the accumulator's contents. -/
noncomputable def kernelRun4_C (c : Dev nD) (i : grid4.Coords) (arg3 : Memref sig .tc .vmem S512x512 .bf16) (harg3 : arg3.IsWhole) (arg4 : Memref sig .tc .vmem S1024x512 .bf16) (harg4 : arg4.IsWhole) (arg5 : Memref sig .tc .vmem S512x1024 .f32) (harg5 : arg5.IsWhole) (arg6 : Memref sig .tc .vmem S512x1024 .f32) (harg6 : arg6.IsWhole) (hc0 : ¬cond4_0 i) (hc1 : cond4_1 i)
    (x0 : Vec F S512x512 .bf16) (x1 : Vec F S1024x512 .bf16) (xs0 : Vec F S512x1024 .f32) :
    Σ' (L2 : List (View.Piece (Elt F) S512x1024 .f32)), { LS0 : List (View.Piece (Elt F) S512x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L2)
                ∗ (∃ f, arg6.view.loc (c : Thread nD τ) ↦[arg6.view.set]{fullShare} arg6.view.writes (Elt F) f LS0)) -∗ K ⟨⟩))
          ⊢ wp frame (wpE (defs₀ (F := F)) Variants.none c none) E (cc4__linear_kernel i arg3 harg3 arg4 harg4 arg5 harg5 arg6 harg6) K } := by
  refine ⟨?_, ?_, fun E K => ?run⟩
  case run =>
    simp only [cc4__linear_kernel_eq_skeleton]; unfold cc4__linear_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.Kernel.Frm

end
-- ==== Proof.WordRegionOutProj.lean ====
/-
  Region 4: what the accumulator and the output block hold after each grid point, the region's invariant (the
  accumulator at what the point before left), its proof data and its body obligation.
-/
import proofs.«125955_j22462678958488_2_alg».proof.Proof.WordRegionOutProjLast

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What case A leaves in the output's staging buffer: its pieces read back (none: a placeholder nothing consults, the window being idle and not written back there). -/
def out4_A_2 (c : Dev nD) (i : grid4.Coords) (arg3 : Memref sig .tc .vmem S512x512 .bf16) (harg3 : arg3.IsWhole) (arg4 : Memref sig .tc .vmem S1024x512 .bf16) (harg4 : arg4.IsWhole) (arg5 : Memref sig .tc .vmem S512x1024 .f32) (harg5 : arg5.IsWhole) (arg6 : Memref sig .tc .vmem S512x1024 .f32) (harg6 : arg6.IsWhole) (hc0 : cond4_0 i) (hc1 : ¬cond4_1 i)
    (x0 : Vec F S512x512 .bf16) (x1 : Vec F S1024x512 .bf16) : Vec F S512x1024 .f32 :=
  VO4_2.read (Elt F) (VO4_2.writes (Elt F) VO4_2.junk (kernelRun4_A c i arg3 harg3 arg4 harg4 arg5 harg5 arg6 harg6 hc0 hc1 x0 x1).1)

/-- Case A's stores into the accumulator cover it. -/
theorem scover4_A_0 (c : Dev nD) (i : grid4.Coords) (arg3 : Memref sig .tc .vmem S512x512 .bf16) (harg3 : arg3.IsWhole) (arg4 : Memref sig .tc .vmem S1024x512 .bf16) (harg4 : arg4.IsWhole) (arg5 : Memref sig .tc .vmem S512x1024 .f32) (harg5 : arg5.IsWhole) (arg6 : Memref sig .tc .vmem S512x1024 .f32) (harg6 : arg6.IsWhole) (hc0 : cond4_0 i) (hc1 : ¬cond4_1 i)
    (x0 : Vec F S512x512 .bf16) (x1 : Vec F S1024x512 .bf16) (y : S512x1024.Idx) :
    ∃ pc ∈ (kernelRun4_A c i arg3 harg3 arg4 harg4 arg5 harg5 arg6 harg6 hc0 hc1 x0 x1).2.1, y ∈ pc.1.set :=
  View.cover_of_tiledL (kernelRun4_A c i arg3 harg3 arg4 harg4 arg5 harg5 arg6 harg6 hc0 hc1 x0 x1).2.1 S512x1024.size (by sl_kernel_rfl) y

/-- What case A leaves in the accumulator: its pieces read back. -/
def sout4_A_0 (c : Dev nD) (i : grid4.Coords) (arg3 : Memref sig .tc .vmem S512x512 .bf16) (harg3 : arg3.IsWhole) (arg4 : Memref sig .tc .vmem S1024x512 .bf16) (harg4 : arg4.IsWhole) (arg5 : Memref sig .tc .vmem S512x1024 .f32) (harg5 : arg5.IsWhole) (arg6 : Memref sig .tc .vmem S512x1024 .f32) (harg6 : arg6.IsWhole) (hc0 : cond4_0 i) (hc1 : ¬cond4_1 i)
    (x0 : Vec F S512x512 .bf16) (x1 : Vec F S1024x512 .bf16) : Vec F S512x1024 .f32 :=
  VS4_0.read (Elt F) (VS4_0.writes (Elt F) VS4_0.junk (kernelRun4_A c i arg3 harg3 arg4 harg4 arg5 harg5 arg6 harg6 hc0 hc1 x0 x1).2.1)

/-- What case B leaves in the output's staging buffer: its pieces read back (none: a placeholder nothing consults, the window being idle and not written back there). -/
def out4_B_2 (c : Dev nD) (i : grid4.Coords) (arg3 : Memref sig .tc .vmem S512x512 .bf16) (harg3 : arg3.IsWhole) (arg4 : Memref sig .tc .vmem S1024x512 .bf16) (harg4 : arg4.IsWhole) (arg5 : Memref sig .tc .vmem S512x1024 .f32) (harg5 : arg5.IsWhole) (arg6 : Memref sig .tc .vmem S512x1024 .f32) (harg6 : arg6.IsWhole) (hc0 : ¬cond4_0 i) (hc1 : ¬cond4_1 i)
    (x0 : Vec F S512x512 .bf16) (x1 : Vec F S1024x512 .bf16) (xs0 : Vec F S512x1024 .f32) : Vec F S512x1024 .f32 :=
  VO4_2.read (Elt F) (VO4_2.writes (Elt F) VO4_2.junk (kernelRun4_B c i arg3 harg3 arg4 harg4 arg5 harg5 arg6 harg6 hc0 hc1 x0 x1 xs0).1)

/-- Case B's stores into the accumulator cover it. -/
theorem scover4_B_0 (c : Dev nD) (i : grid4.Coords) (arg3 : Memref sig .tc .vmem S512x512 .bf16) (harg3 : arg3.IsWhole) (arg4 : Memref sig .tc .vmem S1024x512 .bf16) (harg4 : arg4.IsWhole) (arg5 : Memref sig .tc .vmem S512x1024 .f32) (harg5 : arg5.IsWhole) (arg6 : Memref sig .tc .vmem S512x1024 .f32) (harg6 : arg6.IsWhole) (hc0 : ¬cond4_0 i) (hc1 : ¬cond4_1 i)
    (x0 : Vec F S512x512 .bf16) (x1 : Vec F S1024x512 .bf16) (xs0 : Vec F S512x1024 .f32) (y : S512x1024.Idx) :
    ∃ pc ∈ (kernelRun4_B c i arg3 harg3 arg4 harg4 arg5 harg5 arg6 harg6 hc0 hc1 x0 x1 xs0).2.1, y ∈ pc.1.set :=
  View.cover_of_tiledL (kernelRun4_B c i arg3 harg3 arg4 harg4 arg5 harg5 arg6 harg6 hc0 hc1 x0 x1 xs0).2.1 S512x1024.size (by sl_kernel_rfl) y

/-- What case B leaves in the accumulator: its pieces read back. -/
def sout4_B_0 (c : Dev nD) (i : grid4.Coords) (arg3 : Memref sig .tc .vmem S512x512 .bf16) (harg3 : arg3.IsWhole) (arg4 : Memref sig .tc .vmem S1024x512 .bf16) (harg4 : arg4.IsWhole) (arg5 : Memref sig .tc .vmem S512x1024 .f32) (harg5 : arg5.IsWhole) (arg6 : Memref sig .tc .vmem S512x1024 .f32) (harg6 : arg6.IsWhole) (hc0 : ¬cond4_0 i) (hc1 : ¬cond4_1 i)
    (x0 : Vec F S512x512 .bf16) (x1 : Vec F S1024x512 .bf16) (xs0 : Vec F S512x1024 .f32) : Vec F S512x1024 .f32 :=
  VS4_0.read (Elt F) (VS4_0.writes (Elt F) VS4_0.junk (kernelRun4_B c i arg3 harg3 arg4 harg4 arg5 harg5 arg6 harg6 hc0 hc1 x0 x1 xs0).2.1)

/-- At a last block the one store into the output covers its block. -/
theorem cover4_C_2 (c : Dev nD) (i : grid4.Coords) (arg3 : Memref sig .tc .vmem S512x512 .bf16) (harg3 : arg3.IsWhole) (arg4 : Memref sig .tc .vmem S1024x512 .bf16) (harg4 : arg4.IsWhole) (arg5 : Memref sig .tc .vmem S512x1024 .f32) (harg5 : arg5.IsWhole) (arg6 : Memref sig .tc .vmem S512x1024 .f32) (harg6 : arg6.IsWhole) (hc0 : ¬cond4_0 i) (hc1 : cond4_1 i)
    (x0 : Vec F S512x512 .bf16) (x1 : Vec F S1024x512 .bf16) (xs0 : Vec F S512x1024 .f32) (y : S512x1024.Idx) :
    ∃ pc ∈ (kernelRun4_C c i arg3 harg3 arg4 harg4 arg5 harg5 arg6 harg6 hc0 hc1 x0 x1 xs0).1, y ∈ pc.1.set :=
  View.cover_of_tiledL (kernelRun4_C c i arg3 harg3 arg4 harg4 arg5 harg5 arg6 harg6 hc0 hc1 x0 x1 xs0).1 S512x1024.size (by sl_kernel_rfl) y

/-- What case C leaves in the output's staging buffer: its pieces read back. -/
def out4_C_2 (c : Dev nD) (i : grid4.Coords) (arg3 : Memref sig .tc .vmem S512x512 .bf16) (harg3 : arg3.IsWhole) (arg4 : Memref sig .tc .vmem S1024x512 .bf16) (harg4 : arg4.IsWhole) (arg5 : Memref sig .tc .vmem S512x1024 .f32) (harg5 : arg5.IsWhole) (arg6 : Memref sig .tc .vmem S512x1024 .f32) (harg6 : arg6.IsWhole) (hc0 : ¬cond4_0 i) (hc1 : cond4_1 i)
    (x0 : Vec F S512x512 .bf16) (x1 : Vec F S1024x512 .bf16) (xs0 : Vec F S512x1024 .f32) : Vec F S512x1024 .f32 :=
  VO4_2.read (Elt F) (VO4_2.writes (Elt F) VO4_2.junk (kernelRun4_C c i arg3 harg3 arg4 harg4 arg5 harg5 arg6 harg6 hc0 hc1 x0 x1 xs0).1)

/-- Case C's stores into the accumulator cover it. -/
theorem scover4_C_0 (c : Dev nD) (i : grid4.Coords) (arg3 : Memref sig .tc .vmem S512x512 .bf16) (harg3 : arg3.IsWhole) (arg4 : Memref sig .tc .vmem S1024x512 .bf16) (harg4 : arg4.IsWhole) (arg5 : Memref sig .tc .vmem S512x1024 .f32) (harg5 : arg5.IsWhole) (arg6 : Memref sig .tc .vmem S512x1024 .f32) (harg6 : arg6.IsWhole) (hc0 : ¬cond4_0 i) (hc1 : cond4_1 i)
    (x0 : Vec F S512x512 .bf16) (x1 : Vec F S1024x512 .bf16) (xs0 : Vec F S512x1024 .f32) (y : S512x1024.Idx) :
    ∃ pc ∈ (kernelRun4_C c i arg3 harg3 arg4 harg4 arg5 harg5 arg6 harg6 hc0 hc1 x0 x1 xs0).2.1, y ∈ pc.1.set :=
  View.cover_of_tiledL (kernelRun4_C c i arg3 harg3 arg4 harg4 arg5 harg5 arg6 harg6 hc0 hc1 x0 x1 xs0).2.1 S512x1024.size (by sl_kernel_rfl) y

/-- What case C leaves in the accumulator: its pieces read back. -/
def sout4_C_0 (c : Dev nD) (i : grid4.Coords) (arg3 : Memref sig .tc .vmem S512x512 .bf16) (harg3 : arg3.IsWhole) (arg4 : Memref sig .tc .vmem S1024x512 .bf16) (harg4 : arg4.IsWhole) (arg5 : Memref sig .tc .vmem S512x1024 .f32) (harg5 : arg5.IsWhole) (arg6 : Memref sig .tc .vmem S512x1024 .f32) (harg6 : arg6.IsWhole) (hc0 : ¬cond4_0 i) (hc1 : cond4_1 i)
    (x0 : Vec F S512x512 .bf16) (x1 : Vec F S1024x512 .bf16) (xs0 : Vec F S512x1024 .f32) : Vec F S512x1024 .f32 :=
  VS4_0.read (Elt F) (VS4_0.writes (Elt F) VS4_0.junk (kernelRun4_C c i arg3 harg3 arg4 harg4 arg5 harg5 arg6 harg6 hc0 hc1 x0 x1 xs0).2.1)

/-- What the output's staging buffer and the accumulator hold after the body at position `n`: the case the position
    selects, run at the point's buffers and input blocks, the accumulator read at what position `n - 1` left. -/
def outsAt4 (c : Dev nD) : (n : ℕ) → n < cfg4.N → Vec F S512x1024 .f32 × Vec F S512x1024 .f32
  | 0, hn => (out4_A_2 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) scM4_0 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩), sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) scM4_0 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩))
  | n + 1, hn =>
    if h0 : (n + 1) % 4 = 0 then
      if h1 : (n + 1) % 4 = 3 then
        False.elim (by omega)
      else
        (out4_A_2 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩), sout4_A_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩))
    else
      if h1 : (n + 1) % 4 = 3 then
        (out4_C_2 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (outsAt4 c n (Nat.lt_of_succ_lt hn)).2, sout4_C_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (outsAt4 c n (Nat.lt_of_succ_lt hn)).2)
      else
        (out4_B_2 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (outsAt4 c n (Nat.lt_of_succ_lt hn)).2, sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (outsAt4 c n (Nat.lt_of_succ_lt hn)).2)

theorem outsAt4_A (c : Dev nD) (t : Fin cfg4.N) (h0 : t.val % 4 = 0) (h1 : ¬t.val % 4 = 3) :
    outsAt4 V c t.val t.isLt = (out4_A_2 c (grid4.coords t) (ms4_0 t) (hs4_0 t) (ms4_1 t) (hs4_1 t) (ms4_2 t) (hs4_2 t) scM4_0 (Memref.isWhole_whole _) ((hcond4_0 t).mpr h0) (fun h => h1 ((hcond4_1 t).mp h)) (iblk4 V c 0 t) (iblk4 V c 1 t), sout4_A_0 c (grid4.coords t) (ms4_0 t) (hs4_0 t) (ms4_1 t) (hs4_1 t) (ms4_2 t) (hs4_2 t) scM4_0 (Memref.isWhole_whole _) ((hcond4_0 t).mpr h0) (fun h => h1 ((hcond4_1 t).mp h)) (iblk4 V c 0 t) (iblk4 V c 1 t)) := by
  obtain ⟨n, hn⟩ := t
  cases n with
  | zero => exact rfl
  | succ n => exact (dif_pos h0).trans ((dif_neg h1).trans rfl)

theorem outsAt4_B (c : Dev nD) (t : Fin cfg4.N) (h0 : ¬t.val % 4 = 0) (h1 : ¬t.val % 4 = 3) :
    outsAt4 V c t.val t.isLt = (out4_B_2 c (grid4.coords t) (ms4_0 t) (hs4_0 t) (ms4_1 t) (hs4_1 t) (ms4_2 t) (hs4_2 t) scM4_0 (Memref.isWhole_whole _) (fun h => h0 ((hcond4_0 t).mp h)) (fun h => h1 ((hcond4_1 t).mp h)) (iblk4 V c 0 t) (iblk4 V c 1 t) (outsAt4 V c (t.val - 1) (Nat.lt_of_le_of_lt (Nat.sub_le _ _) t.isLt)).2, sout4_B_0 c (grid4.coords t) (ms4_0 t) (hs4_0 t) (ms4_1 t) (hs4_1 t) (ms4_2 t) (hs4_2 t) scM4_0 (Memref.isWhole_whole _) (fun h => h0 ((hcond4_0 t).mp h)) (fun h => h1 ((hcond4_1 t).mp h)) (iblk4 V c 0 t) (iblk4 V c 1 t) (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt4_C (c : Dev nD) (t : Fin cfg4.N) (h0 : ¬t.val % 4 = 0) (h1 : t.val % 4 = 3) :
    outsAt4 V c t.val t.isLt = (out4_C_2 c (grid4.coords t) (ms4_0 t) (hs4_0 t) (ms4_1 t) (hs4_1 t) (ms4_2 t) (hs4_2 t) scM4_0 (Memref.isWhole_whole _) (fun h => h0 ((hcond4_0 t).mp h)) ((hcond4_1 t).mpr h1) (iblk4 V c 0 t) (iblk4 V c 1 t) (outsAt4 V c (t.val - 1) (Nat.lt_of_le_of_lt (Nat.sub_le _ _) t.isLt)).2, sout4_C_0 c (grid4.coords t) (ms4_0 t) (hs4_0 t) (ms4_1 t) (hs4_1 t) (ms4_2 t) (hs4_2 t) scM4_0 (Memref.isWhole_whole _) (fun h => h0 ((hcond4_0 t).mp h)) ((hcond4_1 t).mpr h1) (iblk4 V c 0 t) (iblk4 V c 1 t) (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point every scoped buffer at anything; afterwards the
    accumulator at what the point before left, the other scoped buffers at anything, the generator register at some state. -/
def PhiS4 (c : Dev nD) : (n : ℕ) → n ≤ cfg4.N → sProp 𝕄
  | 0, _ => Pipeline.ΦA spec4 c
  | n + 1, hn => iprop(iprop(owns (c : Thread nD τ) scM4_0 fullShare ((outsAt4 V c n hn).2) ∗ Pipeline.scopedRestBut (Ix := Unit) (Name := ℕ) (U := UR sig nD τ) (Lvl := ℕ) (Val := Elt F) spec4 c [cc4_scratch0]) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(owns (c : Thread nD τ) scM4_0 fullShare ((outsAt4 V c n hn).2) ∗ Pipeline.scopedRestBut (Ix := Unit) (Name := ℕ) (U := UR sig nD τ) (Lvl := ℕ) (Val := Elt F) spec4 c [cc4_scratch0]) ∗ (∃ r, prngReg c r)) := rfl

theorem PhiS4_pos (c : Dev nD) (n : ℕ) (h : n ≤ cfg4.N) (hz : n ≠ 0) :
    PhiS4 V c n h = iprop(iprop(owns (c : Thread nD τ) scM4_0 fullShare ((outsAt4 V c (n - 1) (by omega)).2) ∗ Pipeline.scopedRestBut (Ix := Unit) (Name := ℕ) (U := UR sig nD τ) (Lvl := ℕ) (Val := Elt F) spec4 c [cc4_scratch0]) ∗ (∃ r, prngReg c r)) := by
  cases n with
  | zero => exact absurd rfl hz
  | succ n => rfl

/-- The proof data of this pipeline on core `c`: the arrays as the region finds them; after the body at a point each
    input's buffer at its block and the output's at `outsAt4`; the invariant `PhiS4`; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => (outsAt4 V c t.val t.isLt).1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = (outsAt4 V c t.val t.isLt).1 := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-- What the body is called with at point `t`, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t)

set_option maxHeartbeats 4800000 in
/-- The body at any point: the inputs' buffers hold their blocks; the position says which case the point is in; the
    invariant hands the body the accumulator at what the point before left (at anything at the very first point) and
    takes it back at this point's contents; the core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl]
  rw [show (dat4 V c).Φ t.succ = PhiS4 V c (t.val + 1) t.isLt from rfl, PhiS4_succ]
  by_cases h0 : t.val % 4 = 0
  · have h1 : ¬t.val % 4 = 3 := by omega
    rw [show (dat4 V c).leavesExact 0 t = owns (c : Thread nD τ) (ms4_0 t) fullShare ((dat4 V c).after 0 t) from by
        unfold Dat.leavesExact; rw [liveAt4_0 t], after4_0]
    rw [show (dat4 V c).leavesExact 1 t = owns (c : Thread nD τ) (ms4_1 t) fullShare ((dat4 V c).after 1 t) from by
        unfold Dat.leavesExact; rw [liveAt4_1 t], after4_1]
    rw [Dat.leavesExact_idle (dat4 V c) 2 t (idleAt4_2_A t ((hcond4_0 t).mpr h0) (fun h => h1 ((hcond4_1 t).mp h))) (noFlush4_2_A t ((hcond4_0 t).mpr h0) (fun h => h1 ((hcond4_1 t).mp h)))]
    rw [outsAt4_A V c t h0 h1]
    unfold sout4_A_0; (try dsimp only)
    by_cases hz : t.val = 0
    · rw [PhiS4_castSucc V c t, PhiS4_zero V c _ _ hz, PhiA4_eq]
      iintro ⟨⟨⟨HS0, Hb⟩, Hg⟩, Ho, ⟨%d0, H0⟩, ⟨%d1, H1⟩, ⟨%d2, H2⟩⟩
      iapply ((kernelRun4_A c (grid4.coords t) _ _ _ _ _ _ _ _ ((hcond4_0 t).mpr h0) (fun h => h1 ((hcond4_1 t).mp h)) (iblk4 V c 0 t) (iblk4 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hb Hg]
      · isplitl [HS0 Hb]
        · isplitl [HS0]
          · unfold owns; iexists _; isplitr
            swap; · iexact HS0
            ipureintro; exact View.read_writes_of_cover _ _ _ _ _ (scover4_A_0 c _ _ _ _ _ _ _ _ _ _ _ _ _ )
          iexact Hb
        iexact Hg
      isplitl [Ho]; · iexact Ho
      isplitl [H0]; · iexact H0
      isplitl [H1]; · iexact H1
      iexists _; iexact H2
    · rw [PhiS4_castSucc V c t, PhiS4_pos V c _ _ hz]
      iintro ⟨⟨⟨HS0, Hb⟩, Hg⟩, Ho, ⟨%d0, H0⟩, ⟨%d1, H1⟩, ⟨%d2, H2⟩⟩
      iapply ((kernelRun4_A c (grid4.coords t) _ _ _ _ _ _ _ _ ((hcond4_0 t).mpr h0) (fun h => h1 ((hcond4_1 t).mp h)) (iblk4 V c 0 t) (iblk4 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hb Hg]
      · isplitl [HS0 Hb]
        · isplitl [HS0]
          · unfold owns; iexists _; isplitr
            swap; · iexact HS0
            ipureintro; exact View.read_writes_of_cover _ _ _ _ _ (scover4_A_0 c _ _ _ _ _ _ _ _ _ _ _ _ _ )
          iexact Hb
        iexact Hg
      isplitl [Ho]; · iexact Ho
      isplitl [H0]; · iexact H0
      isplitl [H1]; · iexact H1
      iexists _; iexact H2
  · have hz : t.val ≠ 0 := fun e => h0 (by rw [e])
    by_cases h1 : t.val % 4 = 3
    · rw [show (dat4 V c).leavesExact 0 t = owns (c : Thread nD τ) (ms4_0 t) fullShare ((dat4 V c).after 0 t) from by
          unfold Dat.leavesExact; rw [liveAt4_0 t], after4_0]
      rw [show (dat4 V c).leavesExact 1 t = owns (c : Thread nD τ) (ms4_1 t) fullShare ((dat4 V c).after 1 t) from by
          unfold Dat.leavesExact; rw [liveAt4_1 t], after4_1]
      rw [show (dat4 V c).leavesExact 2 t = owns (c : Thread nD τ) (ms4_2 t) fullShare ((dat4 V c).after 2 t) from by
          unfold Dat.leavesExact; rw [liveAt4_2_C t (fun h => h0 ((hcond4_0 t).mp h)) ((hcond4_1 t).mpr h1)], after4_2]
      rw [outsAt4_C V c t h0 h1]
      unfold out4_C_2 sout4_C_0; (try dsimp only)
      rw [PhiS4_castSucc V c t, PhiS4_pos V c _ _ hz]
      iintro ⟨⟨⟨HS0, Hb⟩, Hg⟩, Ho, ⟨%d0, H0⟩, ⟨%d1, H1⟩, ⟨%d2, H2⟩⟩
      iapply ((kernelRun4_C c (grid4.coords t) _ _ _ _ _ _ _ _ (fun h => h0 ((hcond4_0 t).mp h)) ((hcond4_1 t).mpr h1) (iblk4 V c 0 t) (iblk4 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hb Hg]
      · isplitl [HS0 Hb]
        · isplitl [HS0]
          · unfold owns; iexists _; isplitr
            swap; · iexact HS0
            ipureintro; exact View.read_writes_of_cover _ _ _ _ _ (scover4_C_0 c _ _ _ _ _ _ _ _ _ _ _ _ _ _ )
          iexact Hb
        iexact Hg
      isplitl [Ho]; · iexact Ho
      isplitl [H0]; · iexact H0
      isplitl [H1]; · iexact H1
      unfold owns; iexists _; isplitr
      swap; · iexact H2
      ipureintro; exact View.read_writes_of_cover _ _ _ _ _ (cover4_C_2 c _ _ _ _ _ _ _ _ _ _ _ _ _ _ )
    · rw [show (dat4 V c).leavesExact 0 t = owns (c : Thread nD τ) (ms4_0 t) fullShare ((dat4 V c).after 0 t) from by
          unfold Dat.leavesExact; rw [liveAt4_0 t], after4_0]
      rw [show (dat4 V c).leavesExact 1 t = owns (c : Thread nD τ) (ms4_1 t) fullShare ((dat4 V c).after 1 t) from by
          unfold Dat.leavesExact; rw [liveAt4_1 t], after4_1]
      rw [Dat.leavesExact_idle (dat4 V c) 2 t (idleAt4_2_B t (fun h => h0 ((hcond4_0 t).mp h)) (fun h => h1 ((hcond4_1 t).mp h))) (noFlush4_2_B t (fun h => h0 ((hcond4_0 t).mp h)) (fun h => h1 ((hcond4_1 t).mp h)))]
      rw [outsAt4_B V c t h0 h1]
      unfold sout4_B_0; (try dsimp only)
      rw [PhiS4_castSucc V c t, PhiS4_pos V c _ _ hz]
      iintro ⟨⟨⟨HS0, Hb⟩, Hg⟩, Ho, ⟨%d0, H0⟩, ⟨%d1, H1⟩, ⟨%d2, H2⟩⟩
      iapply ((kernelRun4_B c (grid4.coords t) _ _ _ _ _ _ _ _ (fun h => h0 ((hcond4_0 t).mp h)) (fun h => h1 ((hcond4_1 t).mp h)) (iblk4 V c 0 t) (iblk4 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hb Hg]
      · isplitl [HS0 Hb]
        · isplitl [HS0]
          · unfold owns; iexists _; isplitr
            swap; · iexact HS0
            ipureintro; exact View.read_writes_of_cover _ _ _ _ _ (scover4_B_0 c _ _ _ _ _ _ _ _ _ _ _ _ _ _ )
          iexact Hb
        iexact Hg
      isplitl [Ho]; · iexact Ho
      isplitl [H0]; · iexact H0
      isplitl [H1]; · iexact H1
      iexists _; iexact H2

/-- The body obligation, at every point. -/
theorem body_obligation4 (c : Dev nD) : BodyObligation (dat4 (F := F) V c) (defs₀ (F := F)) Variants.none () Set.univ := fun t => by
  rw [bigSep_W4, bigSep_W4]
  exact sound_body4 V c t

/-- What the region is entered with is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After any point but the first the invariant gives every scoped buffer back at anything. -/
theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨HS0, Hb⟩, Hg⟩
  isplitl [HS0 Hb]
  · isplitl [HS0]
    · iexists _; iexact HS0
    iexact Hb
  iexact Hg

theorem hout4 (c : Dev nD) : (dat4 V c).Φ (Fin.last cfg4.N) ⊢ Pipeline.ΦA spec4 c :=
  Phi_out4 V c _ (by rw [Fin.val_last]; have : cfg4.N = 32 := N_4; omega)

end Cert.Kernel.Frm

end
-- ==== Proof.WordWholeRun.lean ====
/-
  The whole program as a run of segments: six stretches of host operations around five kernel regions. The contents
  of every buffer at each boundary are a fold from the launch memory — a host stretch applies its operations, a region
  replaces its arrays by what its grid leaves — and the run ends with every unscoped buffer at the last fold
  (`W11`). From that one run follow both that the arguments end as launched and what the result array holds.
-/
import proofs.«125955_j22462678958488_2_alg».proof.Proof.WordRegionQkv
import proofs.«125955_j22462678958488_2_alg».proof.Proof.WordRegionNormQ
import proofs.«125955_j22462678958488_2_alg».proof.Proof.WordRegionNormK
import proofs.«125955_j22462678958488_2_alg».proof.Proof.WordRegionAttn
import proofs.«125955_j22462678958488_2_alg».proof.Proof.WordRegionOutProj

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the host stretch `hostOps0`: region 0's entry contents. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the host stretch `hostOps1`: region 1's entry contents. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the host stretch `hostOps2`: region 2's entry contents. -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- At region 2's exit: its arrays at what the pipeline leaves, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the host stretch `hostOps3`: region 3's entry contents. -/
abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b
/-- At region 3's exit: its arrays at what the pipeline leaves, every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-- After the host stretch `hostOps4`: region 4's entry contents. -/
abbrev W9 : Dev nD → Valuation τ sig (Elt F) := fun c => StableHlo.after hostOps4 (W8 m ρ c)
abbrev V9 : (c : Dev nD) → (b : Ref sig .tc) → Buf (Elt F) ((c : Thread nD τ).loc b) := fun c b => W9 m ρ c b
/-- At region 4's exit: its arrays at what the pipeline leaves, every other buffer as entered. -/
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
abbrev V10 : (c : Dev nD) → (b : Ref sig .tc) → Buf (Elt F) ((c : Thread nD τ).loc b) := fun c b => W10 m ρ c b
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)

/-- After the last host stretch: the contents the program ends with. -/
abbrev W11 : Dev nD → Valuation τ sig (Elt F) := fun c => StableHlo.after hostOps5 (W10 m ρ c)

/-! ## The proof data family and the thread state -/

abbrev adm : (p : Fin 5) → (pcfgs (F := F) p).Adm := fun p => (cfgs p).toPCfg_adm
/-- Every pipeline's proof data, each at its region's entry contents. -/
def pdats : (p : Fin 5) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A host stretch as a segment over the unscoped buffers from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor
theorem hostOps4_fresh : (hostOps4 : List (HloOp τ sig (Elt F))).Forall fun op => op.fresh = ∅ := by
  simp only [List.Forall]; repeat' constructor
theorem hostOps5_fresh : (hostOps5 : List (HloOp τ sig (Elt F))).Forall fun op => op.fresh = ∅ := by
  simp only [List.Forall]; repeat' constructor

/-- The last thread state without the dues: every unscoped buffer at the last contents, the generator register at some state. -/
abbrev Tₙ (c : Dev nD) : sProp 𝕄 := iprop(StableHlo.held (c : Thread nD τ) (Pipeline.ucRefs τ sig) (W11 m ρ c) ∗ ∃ r, prngReg c r)

/-! ## The regions as segments -/

set_option backward.isDefEq.respectTransparency.types false in
/-- Region 0 over the thread state: entered from every unscoped buffer at `W1`, left at `W2`. Its arrays
    are split out of the unscoped buffers and put back at the exit contents; the generator register goes into the
    region's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop((∃ r, prngReg c r) ∗ Pipeline.prefHeld (pcfgs (F := F) 0).pre c (fun _ => fullShare) (adm 0).1
        ∗ Pipeline.scopedRest (Ix := Unit) (Name := ℕ) (U := UR sig nD τ) (Lvl := ℕ) (Val := Elt F) spec0 c) : sProp 𝕄) ⊢ Pipeline.ΦA spec0 c := by
      unfold Pipeline.ΦA
      iintro ⟨Hp, -, Hr⟩
      isplitl [Hr]; · iexact Hr
      iexact Hp
    exact h.trans (hin0 (V1 m ρ) c)
  hout c := by
    rw [Pipeline.ownSems0_none]
    have h : (Pipeline.ΦA spec0 c : sProp 𝕄) ⊢ iprop((∃ r, prngReg c r) ∗ BI.emp
        ∗ Pipeline.scopedRest (Ix := Unit) (Name := ℕ) (U := UR sig nD τ) (Lvl := ℕ) (Val := Elt F) spec0 c) := by
      unfold Pipeline.ΦA
      iintro ⟨Hr, Hp⟩
      isplitl [Hp]; · iexact Hp
      isplitr; · iempintro
      iexact Hr
    exact (hout0 (V1 m ρ) c).trans h
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays
    are split out of the unscoped buffers and put back at the exit contents; the generator register goes into the
    region's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`. Its arrays
    are split out of the unscoped buffers and put back at the exit contents; the generator register goes into the
    region's invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W7`, left at `W8`. Its arrays
    are split out of the unscoped buffers and put back at the exit contents; the generator register goes into the
    region's invariant and comes back; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at `W9`, left at `W10`. Its arrays
    are split out of the unscoped buffers and put back at the exit contents; the generator register goes into the
    region's invariant and comes back; nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop((∃ r, prngReg c r) ∗ Pipeline.prefHeld (pcfgs (F := F) 4).pre c (fun _ => fullShare) (adm 4).1
        ∗ Pipeline.scopedRest (Ix := Unit) (Name := ℕ) (U := UR sig nD τ) (Lvl := ℕ) (Val := Elt F) spec4 c) : sProp 𝕄) ⊢ Pipeline.ΦA spec4 c := by
      unfold Pipeline.ΦA
      iintro ⟨Hp, -, Hr⟩
      isplitl [Hr]; · iexact Hr
      iexact Hp
    exact h.trans (hin4 (V9 m ρ) c)
  hout c := by
    rw [Pipeline.ownSems0_none]
    have h : (Pipeline.ΦA spec4 c : sProp 𝕄) ⊢ iprop((∃ r, prngReg c r) ∗ BI.emp
        ∗ Pipeline.scopedRest (Ix := Unit) (Name := ℕ) (U := UR sig nD τ) (Lvl := ℕ) (Val := Elt F) spec4 c) := by
      unfold Pipeline.ΦA
      iintro ⟨Hr, Hp⟩
      isplitl [Hp]; · iexact Hp
      isplitr; · iempintro
      iexact Hr
    exact (hout4 (V9 m ρ) c).trans h
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)) ]

theorem main_run (c : Dev nD) : main (F := F) c = Pipeline.Seg.run (segs m ρ) := (main_chain c).trans (by chain_rfl)

set_option backward.isDefEq.respectTransparency.types false in
/-- From any memory with zero counters every weakly fair execution of the program terminates, nothing faulting, and in
    every final state each unscoped buffer of each core holds the last fold's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W11 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun c => by
        show (iprop(StableHlo.held (c : Thread nD τ) (Pipeline.ucRefs τ sig) (W11 m ρ c) ∗ R c) : sProp 𝕄)
          ⊢ iprop(Tₙ m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h => h)

/-- An unscoped reference of the TensorCore is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.Kernel.Frm

end
-- ==== Proof.WordArgsKept.lean ====
/-
  No host operation writes an argument array and no region changes one (a region reads it through an input window or
  leaves it aside), so the last fold at an argument's buffer walks back to the launch memory: the arguments end as
  launched.
-/
import proofs.«125955_j22462678958488_2_alg».proof.Proof.WordWholeRun
import Idealize.ShloMosaic.Lib.StableHlo.Run

set_option maxRecDepth 16384

noncomputable section

namespace Cert.Kernel.Frm

open Cert.Kernel Cert.Kernel.Gen
open Idealize.ShloMosaic Idealize.ShloMosaic.TcCoe Idealize.ShloMosaic.StableHlo
open Idealize.ShloMosaic.Pipeline (Dat)

variable {F : FTy → Type} [FloatOps F]

section Keep
variable (W : Valuation τ sig (Elt F))
theorem keep0_arg0 : after hostOps0 W (main_arg0 : DevRef τ sig) = W (main_arg0 : DevRef τ sig) := by after_results
theorem keep0_arg1 : after hostOps0 W (main_arg1 : DevRef τ sig) = W (main_arg1 : DevRef τ sig) := by after_results
theorem keep0_arg2 : after hostOps0 W (main_arg2 : DevRef τ sig) = W (main_arg2 : DevRef τ sig) := by after_results
theorem keep0_arg3 : after hostOps0 W (main_arg3 : DevRef τ sig) = W (main_arg3 : DevRef τ sig) := by after_results
theorem keep0_arg4 : after hostOps0 W (main_arg4 : DevRef τ sig) = W (main_arg4 : DevRef τ sig) := by after_results
theorem keep0_arg5 : after hostOps0 W (main_arg5 : DevRef τ sig) = W (main_arg5 : DevRef τ sig) := by after_results
theorem keep0_arg6 : after hostOps0 W (main_arg6 : DevRef τ sig) = W (main_arg6 : DevRef τ sig) := by after_results
theorem keep0_arg7 : after hostOps0 W (main_arg7 : DevRef τ sig) = W (main_arg7 : DevRef τ sig) := by after_results
theorem keep0_arg8 : after hostOps0 W (main_arg8 : DevRef τ sig) = W (main_arg8 : DevRef τ sig) := by after_results
theorem keep0_arg9 : after hostOps0 W (main_arg9 : DevRef τ sig) = W (main_arg9 : DevRef τ sig) := by after_results
theorem keep0_arg10 : after hostOps0 W (main_arg10 : DevRef τ sig) = W (main_arg10 : DevRef τ sig) := by after_results
theorem keep1_arg0 : after hostOps1 W (main_arg0 : DevRef τ sig) = W (main_arg0 : DevRef τ sig) := by after_results
theorem keep1_arg1 : after hostOps1 W (main_arg1 : DevRef τ sig) = W (main_arg1 : DevRef τ sig) := by after_results
theorem keep1_arg2 : after hostOps1 W (main_arg2 : DevRef τ sig) = W (main_arg2 : DevRef τ sig) := by after_results
theorem keep1_arg3 : after hostOps1 W (main_arg3 : DevRef τ sig) = W (main_arg3 : DevRef τ sig) := by after_results
theorem keep1_arg4 : after hostOps1 W (main_arg4 : DevRef τ sig) = W (main_arg4 : DevRef τ sig) := by after_results
theorem keep1_arg5 : after hostOps1 W (main_arg5 : DevRef τ sig) = W (main_arg5 : DevRef τ sig) := by after_results
theorem keep1_arg6 : after hostOps1 W (main_arg6 : DevRef τ sig) = W (main_arg6 : DevRef τ sig) := by after_results
theorem keep1_arg7 : after hostOps1 W (main_arg7 : DevRef τ sig) = W (main_arg7 : DevRef τ sig) := by after_results
theorem keep1_arg8 : after hostOps1 W (main_arg8 : DevRef τ sig) = W (main_arg8 : DevRef τ sig) := by after_results
theorem keep1_arg9 : after hostOps1 W (main_arg9 : DevRef τ sig) = W (main_arg9 : DevRef τ sig) := by after_results
theorem keep1_arg10 : after hostOps1 W (main_arg10 : DevRef τ sig) = W (main_arg10 : DevRef τ sig) := by after_results
theorem keep2_arg0 : after hostOps2 W (main_arg0 : DevRef τ sig) = W (main_arg0 : DevRef τ sig) := by after_results
theorem keep2_arg1 : after hostOps2 W (main_arg1 : DevRef τ sig) = W (main_arg1 : DevRef τ sig) := by after_results
theorem keep2_arg2 : after hostOps2 W (main_arg2 : DevRef τ sig) = W (main_arg2 : DevRef τ sig) := by after_results
theorem keep2_arg3 : after hostOps2 W (main_arg3 : DevRef τ sig) = W (main_arg3 : DevRef τ sig) := by after_results
theorem keep2_arg4 : after hostOps2 W (main_arg4 : DevRef τ sig) = W (main_arg4 : DevRef τ sig) := by after_results
theorem keep2_arg5 : after hostOps2 W (main_arg5 : DevRef τ sig) = W (main_arg5 : DevRef τ sig) := by after_results
theorem keep2_arg6 : after hostOps2 W (main_arg6 : DevRef τ sig) = W (main_arg6 : DevRef τ sig) := by after_results
theorem keep2_arg7 : after hostOps2 W (main_arg7 : DevRef τ sig) = W (main_arg7 : DevRef τ sig) := by after_results
theorem keep2_arg8 : after hostOps2 W (main_arg8 : DevRef τ sig) = W (main_arg8 : DevRef τ sig) := by after_results
theorem keep2_arg9 : after hostOps2 W (main_arg9 : DevRef τ sig) = W (main_arg9 : DevRef τ sig) := by after_results
theorem keep2_arg10 : after hostOps2 W (main_arg10 : DevRef τ sig) = W (main_arg10 : DevRef τ sig) := by after_results
theorem keep3_arg0 : after hostOps3 W (main_arg0 : DevRef τ sig) = W (main_arg0 : DevRef τ sig) := by after_results
theorem keep3_arg1 : after hostOps3 W (main_arg1 : DevRef τ sig) = W (main_arg1 : DevRef τ sig) := by after_results
theorem keep3_arg2 : after hostOps3 W (main_arg2 : DevRef τ sig) = W (main_arg2 : DevRef τ sig) := by after_results
theorem keep3_arg3 : after hostOps3 W (main_arg3 : DevRef τ sig) = W (main_arg3 : DevRef τ sig) := by after_results
theorem keep3_arg4 : after hostOps3 W (main_arg4 : DevRef τ sig) = W (main_arg4 : DevRef τ sig) := by after_results
theorem keep3_arg5 : after hostOps3 W (main_arg5 : DevRef τ sig) = W (main_arg5 : DevRef τ sig) := by after_results
theorem keep3_arg6 : after hostOps3 W (main_arg6 : DevRef τ sig) = W (main_arg6 : DevRef τ sig) := by after_results
theorem keep3_arg7 : after hostOps3 W (main_arg7 : DevRef τ sig) = W (main_arg7 : DevRef τ sig) := by after_results
theorem keep3_arg8 : after hostOps3 W (main_arg8 : DevRef τ sig) = W (main_arg8 : DevRef τ sig) := by after_results
theorem keep3_arg9 : after hostOps3 W (main_arg9 : DevRef τ sig) = W (main_arg9 : DevRef τ sig) := by after_results
theorem keep3_arg10 : after hostOps3 W (main_arg10 : DevRef τ sig) = W (main_arg10 : DevRef τ sig) := by after_results
theorem keep4_arg0 : after hostOps4 W (main_arg0 : DevRef τ sig) = W (main_arg0 : DevRef τ sig) := by after_results
theorem keep4_arg1 : after hostOps4 W (main_arg1 : DevRef τ sig) = W (main_arg1 : DevRef τ sig) := by after_results
theorem keep4_arg2 : after hostOps4 W (main_arg2 : DevRef τ sig) = W (main_arg2 : DevRef τ sig) := by after_results
theorem keep4_arg3 : after hostOps4 W (main_arg3 : DevRef τ sig) = W (main_arg3 : DevRef τ sig) := by after_results
theorem keep4_arg4 : after hostOps4 W (main_arg4 : DevRef τ sig) = W (main_arg4 : DevRef τ sig) := by after_results
theorem keep4_arg5 : after hostOps4 W (main_arg5 : DevRef τ sig) = W (main_arg5 : DevRef τ sig) := by after_results
theorem keep4_arg6 : after hostOps4 W (main_arg6 : DevRef τ sig) = W (main_arg6 : DevRef τ sig) := by after_results
theorem keep4_arg7 : after hostOps4 W (main_arg7 : DevRef τ sig) = W (main_arg7 : DevRef τ sig) := by after_results
theorem keep4_arg8 : after hostOps4 W (main_arg8 : DevRef τ sig) = W (main_arg8 : DevRef τ sig) := by after_results
theorem keep4_arg9 : after hostOps4 W (main_arg9 : DevRef τ sig) = W (main_arg9 : DevRef τ sig) := by after_results
theorem keep4_arg10 : after hostOps4 W (main_arg10 : DevRef τ sig) = W (main_arg10 : DevRef τ sig) := by after_results
theorem keep5_arg0 : after hostOps5 W (main_arg0 : DevRef τ sig) = W (main_arg0 : DevRef τ sig) := by after_results
theorem keep5_arg1 : after hostOps5 W (main_arg1 : DevRef τ sig) = W (main_arg1 : DevRef τ sig) := by after_results
theorem keep5_arg2 : after hostOps5 W (main_arg2 : DevRef τ sig) = W (main_arg2 : DevRef τ sig) := by after_results
theorem keep5_arg3 : after hostOps5 W (main_arg3 : DevRef τ sig) = W (main_arg3 : DevRef τ sig) := by after_results
theorem keep5_arg4 : after hostOps5 W (main_arg4 : DevRef τ sig) = W (main_arg4 : DevRef τ sig) := by after_results
theorem keep5_arg5 : after hostOps5 W (main_arg5 : DevRef τ sig) = W (main_arg5 : DevRef τ sig) := by after_results
theorem keep5_arg6 : after hostOps5 W (main_arg6 : DevRef τ sig) = W (main_arg6 : DevRef τ sig) := by after_results
theorem keep5_arg7 : after hostOps5 W (main_arg7 : DevRef τ sig) = W (main_arg7 : DevRef τ sig) := by after_results
theorem keep5_arg8 : after hostOps5 W (main_arg8 : DevRef τ sig) = W (main_arg8 : DevRef τ sig) := by after_results
theorem keep5_arg9 : after hostOps5 W (main_arg9 : DevRef τ sig) = W (main_arg9 : DevRef τ sig) := by after_results
theorem keep5_arg10 : after hostOps5 W (main_arg10 : DevRef τ sig) = W (main_arg10 : DevRef τ sig) := by after_results
end Keep

variable (m : (ℓ : Loc nD τ sig) → Buf (Elt F) ℓ) (ρ : Dev nD → PrngReg)

theorem W11_arg0 (c : Dev nD) : W11 m ρ c (main_arg0 : DevRef τ sig) = m ((c : Thread nD τ).loc main_arg0) :=
  (keep5_arg0 (W10 m ρ c)).trans <| (W10_of_ne m ρ c main_arg0 (by decide)).trans <| (keep4_arg0 (W8 m ρ c)).trans <| (W8_of_ne m ρ c main_arg0 (by decide)).trans <| (keep3_arg0 (W6 m ρ c)).trans <| (W6_of_ne m ρ c main_arg0 (by decide)).trans <| (keep2_arg0 (W4 m ρ c)).trans <| (W4_of_ne m ρ c main_arg0 (by decide)).trans <| (keep1_arg0 (W2 m ρ c)).trans <| (W2_of_ne m ρ c main_arg0 (by decide)).trans <| (keep0_arg0 (W0 m ρ c)).trans rfl
theorem W11_arg1 (c : Dev nD) : W11 m ρ c (main_arg1 : DevRef τ sig) = m ((c : Thread nD τ).loc main_arg1) :=
  (keep5_arg1 (W10 m ρ c)).trans <| (W10_of_ne m ρ c main_arg1 (by decide)).trans <| (keep4_arg1 (W8 m ρ c)).trans <| ((W8_arr m ρ c 1).trans (((dat3 (V7 m ρ) c).arrAt_in 1 rfl _).trans (A_eq3 (V7 m ρ) c 1))).trans <| (keep3_arg1 (W6 m ρ c)).trans <| (W6_of_ne m ρ c main_arg1 (by decide)).trans <| (keep2_arg1 (W4 m ρ c)).trans <| (W4_of_ne m ρ c main_arg1 (by decide)).trans <| (keep1_arg1 (W2 m ρ c)).trans <| (W2_of_ne m ρ c main_arg1 (by decide)).trans <| (keep0_arg1 (W0 m ρ c)).trans rfl
theorem W11_arg2 (c : Dev nD) : W11 m ρ c (main_arg2 : DevRef τ sig) = m ((c : Thread nD τ).loc main_arg2) :=
  (keep5_arg2 (W10 m ρ c)).trans <| (W10_of_ne m ρ c main_arg2 (by decide)).trans <| (keep4_arg2 (W8 m ρ c)).trans <| ((W8_arr m ρ c 2).trans (((dat3 (V7 m ρ) c).arrAt_in 2 rfl _).trans (A_eq3 (V7 m ρ) c 2))).trans <| (keep3_arg2 (W6 m ρ c)).trans <| (W6_of_ne m ρ c main_arg2 (by decide)).trans <| (keep2_arg2 (W4 m ρ c)).trans <| (W4_of_ne m ρ c main_arg2 (by decide)).trans <| (keep1_arg2 (W2 m ρ c)).trans <| (W2_of_ne m ρ c main_arg2 (by decide)).trans <| (keep0_arg2 (W0 m ρ c)).trans rfl
theorem W11_arg3 (c : Dev nD) : W11 m ρ c (main_arg3 : DevRef τ sig) = m ((c : Thread nD τ).loc main_arg3) :=
  (keep5_arg3 (W10 m ρ c)).trans <| (W10_of_ne m ρ c main_arg3 (by decide)).trans <| (keep4_arg3 (W8 m ρ c)).trans <| (W8_of_ne m ρ c main_arg3 (by decide)).trans <| (keep3_arg3 (W6 m ρ c)).trans <| ((W6_arr m ρ c 1).trans (((dat2 (V5 m ρ) c).arrAt_in 1 rfl _).trans (A_eq2 (V5 m ρ) c 1))).trans <| (keep2_arg3 (W4 m ρ c)).trans <| ((W4_arr m ρ c 1).trans (((dat1 (V3 m ρ) c).arrAt_in 1 rfl _).trans (A_eq1 (V3 m ρ) c 1))).trans <| (keep1_arg3 (W2 m ρ c)).trans <| (W2_of_ne m ρ c main_arg3 (by decide)).trans <| (keep0_arg3 (W0 m ρ c)).trans rfl
theorem W11_arg4 (c : Dev nD) : W11 m ρ c (main_arg4 : DevRef τ sig) = m ((c : Thread nD τ).loc main_arg4) :=
  (keep5_arg4 (W10 m ρ c)).trans <| (W10_of_ne m ρ c main_arg4 (by decide)).trans <| (keep4_arg4 (W8 m ρ c)).trans <| (W8_of_ne m ρ c main_arg4 (by decide)).trans <| (keep3_arg4 (W6 m ρ c)).trans <| ((W6_arr m ρ c 2).trans (((dat2 (V5 m ρ) c).arrAt_in 2 rfl _).trans (A_eq2 (V5 m ρ) c 2))).trans <| (keep2_arg4 (W4 m ρ c)).trans <| ((W4_arr m ρ c 2).trans (((dat1 (V3 m ρ) c).arrAt_in 2 rfl _).trans (A_eq1 (V3 m ρ) c 2))).trans <| (keep1_arg4 (W2 m ρ c)).trans <| (W2_of_ne m ρ c main_arg4 (by decide)).trans <| (keep0_arg4 (W0 m ρ c)).trans rfl
theorem W11_arg5 (c : Dev nD) : W11 m ρ c (main_arg5 : DevRef τ sig) = m ((c : Thread nD τ).loc main_arg5) :=
  (keep5_arg5 (W10 m ρ c)).trans <| (W10_of_ne m ρ c main_arg5 (by decide)).trans <| (keep4_arg5 (W8 m ρ c)).trans <| (W8_of_ne m ρ c main_arg5 (by decide)).trans <| (keep3_arg5 (W6 m ρ c)).trans <| (W6_of_ne m ρ c main_arg5 (by decide)).trans <| (keep2_arg5 (W4 m ρ c)).trans <| (W4_of_ne m ρ c main_arg5 (by decide)).trans <| (keep1_arg5 (W2 m ρ c)).trans <| (W2_of_ne m ρ c main_arg5 (by decide)).trans <| (keep0_arg5 (W0 m ρ c)).trans rfl
theorem W11_arg6 (c : Dev nD) : W11 m ρ c (main_arg6 : DevRef τ sig) = m ((c : Thread nD τ).loc main_arg6) :=
  (keep5_arg6 (W10 m ρ c)).trans <| (W10_of_ne m ρ c main_arg6 (by decide)).trans <| (keep4_arg6 (W8 m ρ c)).trans <| (W8_of_ne m ρ c main_arg6 (by decide)).trans <| (keep3_arg6 (W6 m ρ c)).trans <| (W6_of_ne m ρ c main_arg6 (by decide)).trans <| (keep2_arg6 (W4 m ρ c)).trans <| (W4_of_ne m ρ c main_arg6 (by decide)).trans <| (keep1_arg6 (W2 m ρ c)).trans <| (W2_of_ne m ρ c main_arg6 (by decide)).trans <| (keep0_arg6 (W0 m ρ c)).trans rfl
theorem W11_arg7 (c : Dev nD) : W11 m ρ c (main_arg7 : DevRef τ sig) = m ((c : Thread nD τ).loc main_arg7) :=
  (keep5_arg7 (W10 m ρ c)).trans <| (W10_of_ne m ρ c main_arg7 (by decide)).trans <| (keep4_arg7 (W8 m ρ c)).trans <| (W8_of_ne m ρ c main_arg7 (by decide)).trans <| (keep3_arg7 (W6 m ρ c)).trans <| (W6_of_ne m ρ c main_arg7 (by decide)).trans <| (keep2_arg7 (W4 m ρ c)).trans <| (W4_of_ne m ρ c main_arg7 (by decide)).trans <| (keep1_arg7 (W2 m ρ c)).trans <| (W2_of_ne m ρ c main_arg7 (by decide)).trans <| (keep0_arg7 (W0 m ρ c)).trans rfl
theorem W11_arg8 (c : Dev nD) : W11 m ρ c (main_arg8 : DevRef τ sig) = m ((c : Thread nD τ).loc main_arg8) :=
  (keep5_arg8 (W10 m ρ c)).trans <| (W10_of_ne m ρ c main_arg8 (by decide)).trans <| (keep4_arg8 (W8 m ρ c)).trans <| (W8_of_ne m ρ c main_arg8 (by decide)).trans <| (keep3_arg8 (W6 m ρ c)).trans <| (W6_of_ne m ρ c main_arg8 (by decide)).trans <| (keep2_arg8 (W4 m ρ c)).trans <| (W4_of_ne m ρ c main_arg8 (by decide)).trans <| (keep1_arg8 (W2 m ρ c)).trans <| (W2_of_ne m ρ c main_arg8 (by decide)).trans <| (keep0_arg8 (W0 m ρ c)).trans rfl
theorem W11_arg9 (c : Dev nD) : W11 m ρ c (main_arg9 : DevRef τ sig) = m ((c : Thread nD τ).loc main_arg9) :=
  (keep5_arg9 (W10 m ρ c)).trans <| (W10_of_ne m ρ c main_arg9 (by decide)).trans <| (keep4_arg9 (W8 m ρ c)).trans <| (W8_of_ne m ρ c main_arg9 (by decide)).trans <| (keep3_arg9 (W6 m ρ c)).trans <| (W6_of_ne m ρ c main_arg9 (by decide)).trans <| (keep2_arg9 (W4 m ρ c)).trans <| (W4_of_ne m ρ c main_arg9 (by decide)).trans <| (keep1_arg9 (W2 m ρ c)).trans <| (W2_of_ne m ρ c main_arg9 (by decide)).trans <| (keep0_arg9 (W0 m ρ c)).trans rfl
theorem W11_arg10 (c : Dev nD) : W11 m ρ c (main_arg10 : DevRef τ sig) = m ((c : Thread nD τ).loc main_arg10) :=
  (keep5_arg10 (W10 m ρ c)).trans <| (W10_of_ne m ρ c main_arg10 (by decide)).trans <| (keep4_arg10 (W8 m ρ c)).trans <| (W8_of_ne m ρ c main_arg10 (by decide)).trans <| (keep3_arg10 (W6 m ρ c)).trans <| (W6_of_ne m ρ c main_arg10 (by decide)).trans <| (keep2_arg10 (W4 m ρ c)).trans <| (W4_of_ne m ρ c main_arg10 (by decide)).trans <| (keep1_arg10 (W2 m ρ c)).trans <| (W2_of_ne m ρ c main_arg10 (by decide)).trans <| (keep0_arg10 (W0 m ρ c)).trans rfl

end Cert.Kernel.Frm

end
-- ==== Proof.RegionQkvShared.lean ====
/-
  Region 0 of the program, the fused query/key/value projection: activations [2048, 2048] against the stacked weights [3072, 2048], as a blocked matrix product. A grid point is a (row block, column block,
  contraction block) triple with the contraction block innermost, four to a pair: the body adds the product of a
  [512, 512] block of the left operand and a [1024, 512] block of the right operand (contracted along their second
  axes) into a [512, 1024] accumulator that lives in scratch memory across the four points of a pair — zeroed first at
  the first of them, copied to the output block after the last. So the body has three cases, by the contraction block:
  first, middle, last. This module holds what the three cases share.
-/
import proofs.«125955_j22462678958488_2_alg».proof.Proof.Gen.KernelIdeal.Launch
import proofs.«125955_j22462678958488_2_alg».proof.Proof.Gen.KernelIdeal.Skeleton
import proofs.«125955_j22462678958488_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- "This is the first contraction block": the condition of the body's first branch, from the grid coordinates. -/
abbrev cond0_0 (i : grid0.Coords) : Prop := (Scalar.cmpi .ne (Scalar.extui (Scalar.cmpi .eq (BitVec.ofNat 32 (i 2).val) 0#32)) 0#32) = 1#1
/-- It holds at the points ≡ 0 (mod 4) — decided over the grid. -/
theorem hcond0_0 : ∀ t : Fin cfg0.N, cond0_0 (grid0.coords t) ↔ t.val % 4 = 0 :=
  (by decide +kernel : ∀ t : Fin grid0.N, cond0_0 (grid0.coords t) ↔ t.val % 4 = 0)
/-- "This is the last contraction block": the condition of the body's second branch. -/
abbrev cond0_1 (i : grid0.Coords) : Prop := k0_cond2 i = 1#1
/-- It holds at the points ≡ 3 (mod 4) — decided over the grid. -/
theorem hcond0_1 : ∀ t : Fin cfg0.N, cond0_1 (grid0.coords t) ↔ t.val % 4 = 3 :=
  (by decide +kernel : ∀ t : Fin grid0.N, cond0_1 (grid0.coords t) ↔ t.val % 4 = 3)

/-- The inputs are never idle; the output is idle, and not written back, except at a last contraction block. -/
theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2_A : ∀ t : Fin cfg0.N, cond0_0 (grid0.coords t) → ¬cond0_1 (grid0.coords t) → cfg0.idle 2 (grid0.coords t) = true := by decide +kernel
theorem noFlush0_2_A : ∀ t : Fin cfg0.N, cond0_0 (grid0.coords t) → ¬cond0_1 (grid0.coords t) → (cfg0.win 2).flush t = false := by decide +kernel
theorem idleAt0_2_B : ∀ t : Fin cfg0.N, ¬cond0_0 (grid0.coords t) → ¬cond0_1 (grid0.coords t) → cfg0.idle 2 (grid0.coords t) = true := by decide +kernel
theorem noFlush0_2_B : ∀ t : Fin cfg0.N, ¬cond0_0 (grid0.coords t) → ¬cond0_1 (grid0.coords t) → (cfg0.win 2).flush t = false := by decide +kernel
theorem liveAt0_2_C : ∀ t : Fin cfg0.N, ¬cond0_0 (grid0.coords t) → cond0_1 (grid0.coords t) → cfg0.idle 2 (grid0.coords t) = false := by decide +kernel

/-- One staging buffer of the output window, through which its contents are stated. -/
abbrev VO0_2 : View sig .tc .vmem S512x1024 .bf16 := (Memref.whole cc0_stg2_0 : Memref sig .tc .vmem S512x1024 .bf16).view
/-- Each window's current staging buffer at point `t`, as the pipeline passes it to the body, and its wholeness. -/
abbrev ms0_0 (t : Fin cfg0.N) : Memref sig .tc .vmem S512x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1024 .bf16 := win0_2.stage (cfg0.slots t 2)
abbrev hs0_2 (t : Fin cfg0.N) : (ms0_2 t).IsWhole := hstage0_2 ((cfg0.slots t 2).cast nbuf0_2)
/-- The accumulator: a whole scratch buffer of the kernel's own, and the view its contents are stated through. -/
abbrev scM0_0 : Memref sig .tc .vmem S512x1024 .f32 := Memref.whole cc0_scratch0
abbrev VS0_0 : View sig .tc .vmem S512x1024 .f32 := scM0_0.view

/-- The scoped buffers this region does not stage, with the accumulator split off and owned at some contents. -/
theorem PhiA0_eq (c : Dev nD) :
    (Pipeline.ΦA spec0 c : sProp 𝕄)
      = iprop(iprop((∃ d, owns (c : Thread nD τ) scM0_0 fullShare d) ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0_0, owns_whole]; try rfl

end Cert.KernelIdeal.Frm

end
-- ==== Proof.RegionQkvFirst.lean ====
/-
  Region 0, the body's run at a first contraction block: the stores it leaves in the accumulator (and, at a last block, in the output
  block), found by running the body symbolically.
-/
import proofs.«125955_j22462678958488_2_alg».proof.Proof.RegionQkvShared

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 2000000 in
/-- At a first contraction block: the accumulator, at anything, is zeroed and then holds zero plus the product of the two
    input blocks; the output block is handed back untouched. The pieces are the witness the run finds. -/
noncomputable def kernelRun0_A (c : Dev nD) (i : grid0.Coords) (arg3 : Memref sig .tc .vmem S512x512 .bf16) (harg3 : arg3.IsWhole) (arg4 : Memref sig .tc .vmem S1024x512 .bf16) (harg4 : arg4.IsWhole) (arg5 : Memref sig .tc .vmem S512x1024 .bf16) (harg5 : arg5.IsWhole) (arg6 : Memref sig .tc .vmem S512x1024 .f32) (harg6 : arg6.IsWhole) (hc0 : cond0_0 i) (hc1 : ¬cond0_1 i)
    (x0 : Vec F S512x512 .bf16) (x1 : Vec F S1024x512 .bf16) :
    Σ' (L2 : List (View.Piece (Elt F) S512x1024 .bf16)), { LS0 : List (View.Piece (Elt F) S512x1024 .f32) //
      ∀ (xi2 : Vec F S512x1024 .bf16) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2
                ∗ (∃ f, arg6.view.loc (c : Thread nD τ) ↦[arg6.view.set]{fullShare} arg6.view.writes (Elt F) f LS0)) -∗ K ⟨⟩))
          ⊢ wp frame (wpE (defs₀ (F := F)) Variants.none c none) E (cc0__linear_kernel i arg3 harg3 arg4 harg4 arg5 harg5 arg6 harg6) K } := by
  refine ⟨[], ?_, fun xi2 E K => ?run⟩
  case run =>
    simp only [cc0__linear_kernel_eq_skeleton]; unfold cc0__linear_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.KernelIdeal.Frm

end
-- ==== Proof.RegionQkvMiddle.lean ====
/-
  Region 0, the body's run at a middle contraction block: the stores it leaves in the accumulator (and, at a last block, in the output
  block), found by running the body symbolically.
-/
import proofs.«125955_j22462678958488_2_alg».proof.Proof.RegionQkvFirst

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 2000000 in
/-- At a middle contraction block: the accumulator, at what the point before left, gains the product of the two input
    blocks; the output block is handed back untouched. -/
noncomputable def kernelRun0_B (c : Dev nD) (i : grid0.Coords) (arg3 : Memref sig .tc .vmem S512x512 .bf16) (harg3 : arg3.IsWhole) (arg4 : Memref sig .tc .vmem S1024x512 .bf16) (harg4 : arg4.IsWhole) (arg5 : Memref sig .tc .vmem S512x1024 .bf16) (harg5 : arg5.IsWhole) (arg6 : Memref sig .tc .vmem S512x1024 .f32) (harg6 : arg6.IsWhole) (hc0 : ¬cond0_0 i) (hc1 : ¬cond0_1 i)
    (x0 : Vec F S512x512 .bf16) (x1 : Vec F S1024x512 .bf16) (xs0 : Vec F S512x1024 .f32) :
    Σ' (L2 : List (View.Piece (Elt F) S512x1024 .bf16)), { LS0 : List (View.Piece (Elt F) S512x1024 .f32) //
      ∀ (xi2 : Vec F S512x1024 .bf16) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0
            ∗ (iprop(owns (c : Thread nD τ) arg3 fullShare x0 ∗ owns (c : Thread nD τ) arg4 fullShare x1 ∗ owns (c : Thread nD τ) arg5 fullShare xi2
                ∗ (∃ f, arg6.view.loc (c : Thread nD τ) ↦[arg6.view.set]{fullShare} arg6.view.writes (Elt F) f LS0)) -∗ K ⟨⟩))
          ⊢ wp frame (wpE (defs₀ (F := F)) Variants.none c none) E (cc0__linear_kernel i arg3 harg3 arg4 harg4 arg5 harg5 arg6 harg6) K } := by
  refine ⟨[], ?_, fun xi2 E K => ?run⟩
  case run =>
    simp only [cc0__linear_kernel_eq_skeleton]; unfold cc0__linear_kernel_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.KernelIdeal.Frm

end
-- ==== Proof.RegionQkvLast.lean ====
/-
  Region 0, the body's run at a last contraction block: the stores it leaves in the accumulator (and, at a last block, in the output
  block), found by running the body symbolically.
-/
import proofs.«125955_j22462678958488_2_alg».proof.Proof.RegionQkvMiddle

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 2000000 in
/-- At a last contraction block: the accumulator, at what the point before left, gains the product of the two input
    blocks, and the output block, at anything, is overwritten with the accumulator's contents. -/
noncomputable def kernelRun0_C (c : Dev nD) (i : grid0.Coords) (arg3 : Memref sig .tc .vmem S512x512 .bf16) (harg3 : arg3.IsWhole) (arg4 : Memref sig .tc .vmem S1024x512 .bf16) (harg4 : arg4.IsWhole) (arg5 : Memref sig .tc .vmem S512x1024 .bf16) (harg5 : arg5.IsWhole) (arg6 : Memref sig .tc .vmem S512x1024 .f32) (harg6 : arg6.IsWhole) (hc0 : ¬cond0_0 i) (hc1 : cond0_1 i)
    (x0 : Vec F S512x512 .bf16) (x1 : Vec F S1024x512 .bf16) (xs0 : Vec F S512x1024 .f32) :
    Σ' (L2 : List (View.Piece (Elt F) S512x1024 .bf16)), { LS0 : List (View.Piece (Elt F) S512x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L2)
                ∗ (∃ f, arg6.view.loc (c : Thread nD τ) ↦[arg6.view.set]{fullShare} arg6.view.writes (Elt F) f LS0)) -∗ K ⟨⟩))
          ⊢ wp frame (wpE (defs₀ (F := F)) Variants.none c none) E (cc0__linear_kernel i arg3 harg3 arg4 harg4 arg5 harg5 arg6 harg6) K } := by
  refine ⟨?_, ?_, fun E K => ?run⟩
  case run =>
    simp only [cc0__linear_kernel_eq_skeleton]; unfold cc0__linear_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.KernelIdeal.Frm

end
-- ==== Proof.RegionQkv.lean ====
/-
  Region 0: what the accumulator and the output block hold after each grid point, the region's invariant (the
  accumulator at what the point before left), its proof data and its body obligation.
-/
import proofs.«125955_j22462678958488_2_alg».proof.Proof.RegionQkvLast

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What case A leaves in the output's staging buffer: its pieces read back (none: a placeholder nothing consults, the window being idle and not written back there). -/
def out0_A_2 (c : Dev nD) (i : grid0.Coords) (arg3 : Memref sig .tc .vmem S512x512 .bf16) (harg3 : arg3.IsWhole) (arg4 : Memref sig .tc .vmem S1024x512 .bf16) (harg4 : arg4.IsWhole) (arg5 : Memref sig .tc .vmem S512x1024 .bf16) (harg5 : arg5.IsWhole) (arg6 : Memref sig .tc .vmem S512x1024 .f32) (harg6 : arg6.IsWhole) (hc0 : cond0_0 i) (hc1 : ¬cond0_1 i)
    (x0 : Vec F S512x512 .bf16) (x1 : Vec F S1024x512 .bf16) : Vec F S512x1024 .bf16 :=
  VO0_2.read (Elt F) (VO0_2.writes (Elt F) VO0_2.junk (kernelRun0_A c i arg3 harg3 arg4 harg4 arg5 harg5 arg6 harg6 hc0 hc1 x0 x1).1)

/-- Case A's stores into the accumulator cover it. -/
theorem scover0_A_0 (c : Dev nD) (i : grid0.Coords) (arg3 : Memref sig .tc .vmem S512x512 .bf16) (harg3 : arg3.IsWhole) (arg4 : Memref sig .tc .vmem S1024x512 .bf16) (harg4 : arg4.IsWhole) (arg5 : Memref sig .tc .vmem S512x1024 .bf16) (harg5 : arg5.IsWhole) (arg6 : Memref sig .tc .vmem S512x1024 .f32) (harg6 : arg6.IsWhole) (hc0 : cond0_0 i) (hc1 : ¬cond0_1 i)
    (x0 : Vec F S512x512 .bf16) (x1 : Vec F S1024x512 .bf16) (y : S512x1024.Idx) :
    ∃ pc ∈ (kernelRun0_A c i arg3 harg3 arg4 harg4 arg5 harg5 arg6 harg6 hc0 hc1 x0 x1).2.1, y ∈ pc.1.set :=
  View.cover_of_tiledL (kernelRun0_A c i arg3 harg3 arg4 harg4 arg5 harg5 arg6 harg6 hc0 hc1 x0 x1).2.1 S512x1024.size (by sl_kernel_rfl) y

/-- What case A leaves in the accumulator: its pieces read back. -/
def sout0_A_0 (c : Dev nD) (i : grid0.Coords) (arg3 : Memref sig .tc .vmem S512x512 .bf16) (harg3 : arg3.IsWhole) (arg4 : Memref sig .tc .vmem S1024x512 .bf16) (harg4 : arg4.IsWhole) (arg5 : Memref sig .tc .vmem S512x1024 .bf16) (harg5 : arg5.IsWhole) (arg6 : Memref sig .tc .vmem S512x1024 .f32) (harg6 : arg6.IsWhole) (hc0 : cond0_0 i) (hc1 : ¬cond0_1 i)
    (x0 : Vec F S512x512 .bf16) (x1 : Vec F S1024x512 .bf16) : Vec F S512x1024 .f32 :=
  VS0_0.read (Elt F) (VS0_0.writes (Elt F) VS0_0.junk (kernelRun0_A c i arg3 harg3 arg4 harg4 arg5 harg5 arg6 harg6 hc0 hc1 x0 x1).2.1)

/-- What case B leaves in the output's staging buffer: its pieces read back (none: a placeholder nothing consults, the window being idle and not written back there). -/
def out0_B_2 (c : Dev nD) (i : grid0.Coords) (arg3 : Memref sig .tc .vmem S512x512 .bf16) (harg3 : arg3.IsWhole) (arg4 : Memref sig .tc .vmem S1024x512 .bf16) (harg4 : arg4.IsWhole) (arg5 : Memref sig .tc .vmem S512x1024 .bf16) (harg5 : arg5.IsWhole) (arg6 : Memref sig .tc .vmem S512x1024 .f32) (harg6 : arg6.IsWhole) (hc0 : ¬cond0_0 i) (hc1 : ¬cond0_1 i)
    (x0 : Vec F S512x512 .bf16) (x1 : Vec F S1024x512 .bf16) (xs0 : Vec F S512x1024 .f32) : Vec F S512x1024 .bf16 :=
  VO0_2.read (Elt F) (VO0_2.writes (Elt F) VO0_2.junk (kernelRun0_B c i arg3 harg3 arg4 harg4 arg5 harg5 arg6 harg6 hc0 hc1 x0 x1 xs0).1)

/-- Case B's stores into the accumulator cover it. -/
theorem scover0_B_0 (c : Dev nD) (i : grid0.Coords) (arg3 : Memref sig .tc .vmem S512x512 .bf16) (harg3 : arg3.IsWhole) (arg4 : Memref sig .tc .vmem S1024x512 .bf16) (harg4 : arg4.IsWhole) (arg5 : Memref sig .tc .vmem S512x1024 .bf16) (harg5 : arg5.IsWhole) (arg6 : Memref sig .tc .vmem S512x1024 .f32) (harg6 : arg6.IsWhole) (hc0 : ¬cond0_0 i) (hc1 : ¬cond0_1 i)
    (x0 : Vec F S512x512 .bf16) (x1 : Vec F S1024x512 .bf16) (xs0 : Vec F S512x1024 .f32) (y : S512x1024.Idx) :
    ∃ pc ∈ (kernelRun0_B c i arg3 harg3 arg4 harg4 arg5 harg5 arg6 harg6 hc0 hc1 x0 x1 xs0).2.1, y ∈ pc.1.set :=
  View.cover_of_tiledL (kernelRun0_B c i arg3 harg3 arg4 harg4 arg5 harg5 arg6 harg6 hc0 hc1 x0 x1 xs0).2.1 S512x1024.size (by sl_kernel_rfl) y

/-- What case B leaves in the accumulator: its pieces read back. -/
def sout0_B_0 (c : Dev nD) (i : grid0.Coords) (arg3 : Memref sig .tc .vmem S512x512 .bf16) (harg3 : arg3.IsWhole) (arg4 : Memref sig .tc .vmem S1024x512 .bf16) (harg4 : arg4.IsWhole) (arg5 : Memref sig .tc .vmem S512x1024 .bf16) (harg5 : arg5.IsWhole) (arg6 : Memref sig .tc .vmem S512x1024 .f32) (harg6 : arg6.IsWhole) (hc0 : ¬cond0_0 i) (hc1 : ¬cond0_1 i)
    (x0 : Vec F S512x512 .bf16) (x1 : Vec F S1024x512 .bf16) (xs0 : Vec F S512x1024 .f32) : Vec F S512x1024 .f32 :=
  VS0_0.read (Elt F) (VS0_0.writes (Elt F) VS0_0.junk (kernelRun0_B c i arg3 harg3 arg4 harg4 arg5 harg5 arg6 harg6 hc0 hc1 x0 x1 xs0).2.1)

/-- At a last block the one store into the output covers its block. -/
theorem cover0_C_2 (c : Dev nD) (i : grid0.Coords) (arg3 : Memref sig .tc .vmem S512x512 .bf16) (harg3 : arg3.IsWhole) (arg4 : Memref sig .tc .vmem S1024x512 .bf16) (harg4 : arg4.IsWhole) (arg5 : Memref sig .tc .vmem S512x1024 .bf16) (harg5 : arg5.IsWhole) (arg6 : Memref sig .tc .vmem S512x1024 .f32) (harg6 : arg6.IsWhole) (hc0 : ¬cond0_0 i) (hc1 : cond0_1 i)
    (x0 : Vec F S512x512 .bf16) (x1 : Vec F S1024x512 .bf16) (xs0 : Vec F S512x1024 .f32) (y : S512x1024.Idx) :
    ∃ pc ∈ (kernelRun0_C c i arg3 harg3 arg4 harg4 arg5 harg5 arg6 harg6 hc0 hc1 x0 x1 xs0).1, y ∈ pc.1.set :=
  View.cover_of_tiledL (kernelRun0_C c i arg3 harg3 arg4 harg4 arg5 harg5 arg6 harg6 hc0 hc1 x0 x1 xs0).1 S512x1024.size (by sl_kernel_rfl) y

/-- What case C leaves in the output's staging buffer: its pieces read back. -/
def out0_C_2 (c : Dev nD) (i : grid0.Coords) (arg3 : Memref sig .tc .vmem S512x512 .bf16) (harg3 : arg3.IsWhole) (arg4 : Memref sig .tc .vmem S1024x512 .bf16) (harg4 : arg4.IsWhole) (arg5 : Memref sig .tc .vmem S512x1024 .bf16) (harg5 : arg5.IsWhole) (arg6 : Memref sig .tc .vmem S512x1024 .f32) (harg6 : arg6.IsWhole) (hc0 : ¬cond0_0 i) (hc1 : cond0_1 i)
    (x0 : Vec F S512x512 .bf16) (x1 : Vec F S1024x512 .bf16) (xs0 : Vec F S512x1024 .f32) : Vec F S512x1024 .bf16 :=
  VO0_2.read (Elt F) (VO0_2.writes (Elt F) VO0_2.junk (kernelRun0_C c i arg3 harg3 arg4 harg4 arg5 harg5 arg6 harg6 hc0 hc1 x0 x1 xs0).1)

/-- Case C's stores into the accumulator cover it. -/
theorem scover0_C_0 (c : Dev nD) (i : grid0.Coords) (arg3 : Memref sig .tc .vmem S512x512 .bf16) (harg3 : arg3.IsWhole) (arg4 : Memref sig .tc .vmem S1024x512 .bf16) (harg4 : arg4.IsWhole) (arg5 : Memref sig .tc .vmem S512x1024 .bf16) (harg5 : arg5.IsWhole) (arg6 : Memref sig .tc .vmem S512x1024 .f32) (harg6 : arg6.IsWhole) (hc0 : ¬cond0_0 i) (hc1 : cond0_1 i)
    (x0 : Vec F S512x512 .bf16) (x1 : Vec F S1024x512 .bf16) (xs0 : Vec F S512x1024 .f32) (y : S512x1024.Idx) :
    ∃ pc ∈ (kernelRun0_C c i arg3 harg3 arg4 harg4 arg5 harg5 arg6 harg6 hc0 hc1 x0 x1 xs0).2.1, y ∈ pc.1.set :=
  View.cover_of_tiledL (kernelRun0_C c i arg3 harg3 arg4 harg4 arg5 harg5 arg6 harg6 hc0 hc1 x0 x1 xs0).2.1 S512x1024.size (by sl_kernel_rfl) y

/-- What case C leaves in the accumulator: its pieces read back. -/
def sout0_C_0 (c : Dev nD) (i : grid0.Coords) (arg3 : Memref sig .tc .vmem S512x512 .bf16) (harg3 : arg3.IsWhole) (arg4 : Memref sig .tc .vmem S1024x512 .bf16) (harg4 : arg4.IsWhole) (arg5 : Memref sig .tc .vmem S512x1024 .bf16) (harg5 : arg5.IsWhole) (arg6 : Memref sig .tc .vmem S512x1024 .f32) (harg6 : arg6.IsWhole) (hc0 : ¬cond0_0 i) (hc1 : cond0_1 i)
    (x0 : Vec F S512x512 .bf16) (x1 : Vec F S1024x512 .bf16) (xs0 : Vec F S512x1024 .f32) : Vec F S512x1024 .f32 :=
  VS0_0.read (Elt F) (VS0_0.writes (Elt F) VS0_0.junk (kernelRun0_C c i arg3 harg3 arg4 harg4 arg5 harg5 arg6 harg6 hc0 hc1 x0 x1 xs0).2.1)

/-- What the output's staging buffer and the accumulator hold after the body at position `n`: the case the position
    selects, run at the point's buffers and input blocks, the accumulator read at what position `n - 1` left. -/
def outsAt0 (c : Dev nD) : (n : ℕ) → n < cfg0.N → Vec F S512x1024 .bf16 × Vec F S512x1024 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 4 = 0 then
      if h1 : (n + 1) % 4 = 3 then
        False.elim (by omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      if h1 : (n + 1) % 4 = 3 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2)

theorem outsAt0_A (c : Dev nD) (t : Fin cfg0.N) (h0 : t.val % 4 = 0) (h1 : ¬t.val % 4 = 3) :
    outsAt0 V c t.val t.isLt = (out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t), sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 V c t.val t.isLt = (out0_B_2 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 V c t.val t.isLt = (out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point every scoped buffer at anything; afterwards the
    accumulator at what the point before left, the other scoped buffers at anything, the generator register at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ Pipeline.scopedRestBut (Ix := Unit) (Name := ℕ) (U := UR sig nD τ) (Lvl := ℕ) (Val := Elt F) spec0 c [cc0_scratch0]) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2) ∗ Pipeline.scopedRestBut (Ix := Unit) (Name := ℕ) (U := UR sig nD τ) (Lvl := ℕ) (Val := Elt F) spec0 c [cc0_scratch0]) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-- The proof data of this pipeline on core `c`: the arrays as the region finds them; after the body at a point each
    input's buffer at its block and the output's at `outsAt0`; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the inputs' buffers hold their blocks; the position says which case the point is in; the
    invariant hands the body the accumulator at what the point before left (at anything at the very first point) and
    takes it back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  by_cases h0 : t.val % 4 = 0
  · have h1 : ¬t.val % 4 = 3 := by omega
    rw [show (dat0 V c).leavesExact 0 t = owns (c : Thread nD τ) (ms0_0 t) fullShare ((dat0 V c).after 0 t) from by
        unfold Dat.leavesExact; rw [liveAt0_0 t], after0_0]
    rw [show (dat0 V c).leavesExact 1 t = owns (c : Thread nD τ) (ms0_1 t) fullShare ((dat0 V c).after 1 t) from by
        unfold Dat.leavesExact; rw [liveAt0_1 t], after0_1]
    rw [Dat.leavesExact_idle (dat0 V c) 2 t (idleAt0_2_A t ((hcond0_0 t).mpr h0) (fun h => h1 ((hcond0_1 t).mp h))) (noFlush0_2_A t ((hcond0_0 t).mpr h0) (fun h => h1 ((hcond0_1 t).mp h)))]
    rw [outsAt0_A V c t h0 h1]
    unfold sout0_A_0; (try dsimp only)
    by_cases hz : t.val = 0
    · rw [PhiS0_castSucc V c t, PhiS0_zero V c _ _ hz, PhiA0_eq]
      iintro ⟨⟨⟨HS0, Hb⟩, Hg⟩, Ho, ⟨%d0, H0⟩, ⟨%d1, H1⟩, ⟨%d2, H2⟩⟩
      iapply ((kernelRun0_A c (grid0.coords t) _ _ _ _ _ _ _ _ ((hcond0_0 t).mpr h0) (fun h => h1 ((hcond0_1 t).mp h)) (iblk0 V c 0 t) (iblk0 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hb Hg]
      · isplitl [HS0 Hb]
        · isplitl [HS0]
          · unfold owns; iexists _; isplitr
            swap; · iexact HS0
            ipureintro; exact View.read_writes_of_cover _ _ _ _ _ (scover0_A_0 c _ _ _ _ _ _ _ _ _ _ _ _ _ )
          iexact Hb
        iexact Hg
      isplitl [Ho]; · iexact Ho
      isplitl [H0]; · iexact H0
      isplitl [H1]; · iexact H1
      iexists _; iexact H2
    · rw [PhiS0_castSucc V c t, PhiS0_pos V c _ _ hz]
      iintro ⟨⟨⟨HS0, Hb⟩, Hg⟩, Ho, ⟨%d0, H0⟩, ⟨%d1, H1⟩, ⟨%d2, H2⟩⟩
      iapply ((kernelRun0_A c (grid0.coords t) _ _ _ _ _ _ _ _ ((hcond0_0 t).mpr h0) (fun h => h1 ((hcond0_1 t).mp h)) (iblk0 V c 0 t) (iblk0 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hb Hg]
      · isplitl [HS0 Hb]
        · isplitl [HS0]
          · unfold owns; iexists _; isplitr
            swap; · iexact HS0
            ipureintro; exact View.read_writes_of_cover _ _ _ _ _ (scover0_A_0 c _ _ _ _ _ _ _ _ _ _ _ _ _ )
          iexact Hb
        iexact Hg
      isplitl [Ho]; · iexact Ho
      isplitl [H0]; · iexact H0
      isplitl [H1]; · iexact H1
      iexists _; iexact H2
  · have hz : t.val ≠ 0 := fun e => h0 (by rw [e])
    by_cases h1 : t.val % 4 = 3
    · rw [show (dat0 V c).leavesExact 0 t = owns (c : Thread nD τ) (ms0_0 t) fullShare ((dat0 V c).after 0 t) from by
          unfold Dat.leavesExact; rw [liveAt0_0 t], after0_0]
      rw [show (dat0 V c).leavesExact 1 t = owns (c : Thread nD τ) (ms0_1 t) fullShare ((dat0 V c).after 1 t) from by
          unfold Dat.leavesExact; rw [liveAt0_1 t], after0_1]
      rw [show (dat0 V c).leavesExact 2 t = owns (c : Thread nD τ) (ms0_2 t) fullShare ((dat0 V c).after 2 t) from by
          unfold Dat.leavesExact; rw [liveAt0_2_C t (fun h => h0 ((hcond0_0 t).mp h)) ((hcond0_1 t).mpr h1)], after0_2]
      rw [outsAt0_C V c t h0 h1]
      unfold out0_C_2 sout0_C_0; (try dsimp only)
      rw [PhiS0_castSucc V c t, PhiS0_pos V c _ _ hz]
      iintro ⟨⟨⟨HS0, Hb⟩, Hg⟩, Ho, ⟨%d0, H0⟩, ⟨%d1, H1⟩, ⟨%d2, H2⟩⟩
      iapply ((kernelRun0_C c (grid0.coords t) _ _ _ _ _ _ _ _ (fun h => h0 ((hcond0_0 t).mp h)) ((hcond0_1 t).mpr h1) (iblk0 V c 0 t) (iblk0 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hb Hg]
      · isplitl [HS0 Hb]
        · isplitl [HS0]
          · unfold owns; iexists _; isplitr
            swap; · iexact HS0
            ipureintro; exact View.read_writes_of_cover _ _ _ _ _ (scover0_C_0 c _ _ _ _ _ _ _ _ _ _ _ _ _ _ )
          iexact Hb
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _ )
    · rw [show (dat0 V c).leavesExact 0 t = owns (c : Thread nD τ) (ms0_0 t) fullShare ((dat0 V c).after 0 t) from by
          unfold Dat.leavesExact; rw [liveAt0_0 t], after0_0]
      rw [show (dat0 V c).leavesExact 1 t = owns (c : Thread nD τ) (ms0_1 t) fullShare ((dat0 V c).after 1 t) from by
          unfold Dat.leavesExact; rw [liveAt0_1 t], after0_1]
      rw [Dat.leavesExact_idle (dat0 V c) 2 t (idleAt0_2_B t (fun h => h0 ((hcond0_0 t).mp h)) (fun h => h1 ((hcond0_1 t).mp h))) (noFlush0_2_B t (fun h => h0 ((hcond0_0 t).mp h)) (fun h => h1 ((hcond0_1 t).mp h)))]
      rw [outsAt0_B V c t h0 h1]
      unfold sout0_B_0; (try dsimp only)
      rw [PhiS0_castSucc V c t, PhiS0_pos V c _ _ hz]
      iintro ⟨⟨⟨HS0, Hb⟩, Hg⟩, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk0 V c 0 t) (iblk0 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hb Hg]
      · isplitl [HS0 Hb]
        · isplitl [HS0]
          · unfold owns; iexists _; isplitr
            swap; · iexact HS0
            ipureintro; exact View.read_writes_of_cover _ _ _ _ _ (scover0_B_0 c _ _ _ _ _ _ _ _ _ _ _ _ _ _ )
          iexact Hb
        iexact Hg
      isplitl [Ho]; · iexact Ho
      isplitl [H0]; · iexact H0
      isplitl [H1]; · iexact H1
      iexists _; iexact H2

/-- The body obligation, at every point. -/
theorem body_obligation0 (c : Dev nD) : BodyObligation (dat0 (F := F) V c) (defs₀ (F := F)) Variants.none () Set.univ := fun t => by
  rw [bigSep_W0, bigSep_W0]
  exact sound_body0 V c t

/-- What the region is entered with is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives every scoped buffer back at anything. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, Hb⟩, Hg⟩
  isplitl [HS0 Hb]
  · isplitl [HS0]
    · iexists _; iexact HS0
    iexact Hb
  iexact Hg

theorem hout0 (c : Dev nD) : (dat0 V c).Φ (Fin.last cfg0.N) ⊢ Pipeline.ΦA spec0 c :=
  Phi_out0 V c _ (by rw [Fin.val_last]; have : cfg0.N = 48 := N_0; omega)

end Cert.KernelIdeal.Frm

end
-- ==== Proof.RegionNormQ.lean ====
/-
  Region 1 of the program: the per-head RMS normalisation followed by the rotary embedding, applied to the
  query projections, one (batch, head) pair per grid point. The block of the activations at a point is a whole
  [1024, 64] slab; the cosine and sine tables and the weight row are the same whole arrays at every point. The body
  reads its four input blocks and overwrites the output block with one store, so what the output's staging buffer
  holds after the body is a function of the four input blocks alone.
-/
import proofs.«125955_j22462678958488_2_alg».proof.Proof.Gen.KernelIdeal.Launch
import proofs.«125955_j22462678958488_2_alg».proof.Proof.Gen.KernelIdeal.Skeleton
import proofs.«125955_j22462678958488_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The whole rectangle of each buffer the body touches. -/
abbrev rX1 : Rect S1x1x1024x64 := Rect.unit (s := S1x1x1024x64) ![0, 0, 0, 0] S1x1x1024x64.size inb_S1x1x1024x64_S1x1x1024x64_0_0_0_0
abbrev rT1 : Rect S1024x32 := Rect.unit (s := S1024x32) ![0, 0] S1024x32.size inb_S1024x32_S1024x32_0_0
abbrev rW1 : Rect S1x64 := Rect.unit (s := S1x64) ![0, 0] S1x64.size inb_S1x64_S1x64_0_0

/-- The output block after the body, from the four input blocks: the body's one store as a piece. -/
def out1_4 (x0 : Vec F S1x1x1024x64 .bf16) (x1 : Vec F S1024x32 .f32) (x2 : Vec F S1024x32 .f32) (x3 : Vec F S1x64 .f32) : Vec F S1x1x1024x64 .bf16 :=
  View.canon [⟨rX1, k1_pay1 (View.ld x0 rX1) (View.ld x3 rW1) (View.ld x1 rT1) (View.ld x2 rT1)⟩]

/-- The one store covers the whole block. -/
theorem cover1_4 (p0 : Vec F S1x1x1024x64 .bf16) (y : S1x1x1024x64.Idx) :
    ∃ pc ∈ ([⟨rX1, p0⟩] : List (View.Piece (Elt F) S1x1x1024x64 .bf16)), y ∈ pc.1.set :=
  View.cover_of_tiled [⟨rX1, p0⟩] S1x1x1024x64.size (by rfl) y

set_option maxHeartbeats 1000000 in
/-- The body on whole staging buffers — the inputs' at the contents read, the output's at anything — runs to its
    return with the inputs' as they were and the output's at `out1_4` of the inputs'. -/
theorem sound_kernel1 (c : Dev nD) (E : Set ℕ) (i : grid1.Coords)
    (arg2 : Memref sig .tc .vmem S1x1x1024x64 .bf16) (harg2 : arg2.IsWhole) (arg3 : Memref sig .tc .vmem S1024x32 .f32) (harg3 : arg3.IsWhole)
    (arg4 : Memref sig .tc .vmem S1024x32 .f32) (harg4 : arg4.IsWhole) (arg5 : Memref sig .tc .vmem S1x64 .f32) (harg5 : arg5.IsWhole)
    (arg6 : Memref sig .tc .vmem S1x1x1024x64 .bf16) (harg6 : arg6.IsWhole)
    (x0 : Vec F S1x1x1024x64 .bf16) (x1 : Vec F S1024x32 .f32) (x2 : Vec F S1024x32 .f32) (x3 : Vec F S1x64 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (out1_4 x0 x1 x2 x3)) -∗ K ⟨⟩))
      ⊢ wp frame (wpE (defs₀ (F := F)) Variants.none c none) E (cc1__rmsnorm_rope_kernel i arg2 harg2 arg3 harg3 arg4 harg4 arg5 harg5 arg6 harg6) K := by
  simp only [cc1__rmsnorm_rope_kernel_eq_skeleton]; unfold cc1__rmsnorm_rope_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-- The proof data of this pipeline on core `c`: the arrays as the region finds them; after the body at a point each
    input's buffer at its block and the output's at `out1_4` of the input blocks; the scoped rest and the generator
    register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' buffers hold their blocks, so `sound_kernel1` applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Frm

end
-- ==== Proof.RegionNormK.lean ====
/-
  Region 2 of the program: the per-head RMS normalisation followed by the rotary embedding, applied to the
  key projections, one (batch, head) pair per grid point. The block of the activations at a point is a whole
  [1024, 64] slab; the cosine and sine tables and the weight row are the same whole arrays at every point. The body
  reads its four input blocks and overwrites the output block with one store, so what the output's staging buffer
  holds after the body is a function of the four input blocks alone.
-/
import proofs.«125955_j22462678958488_2_alg».proof.Proof.Gen.KernelIdeal.Launch
import proofs.«125955_j22462678958488_2_alg».proof.Proof.Gen.KernelIdeal.Skeleton
import proofs.«125955_j22462678958488_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- The whole rectangle of each buffer the body touches. -/
abbrev rX2 : Rect S1x1x1024x64 := Rect.unit (s := S1x1x1024x64) ![0, 0, 0, 0] S1x1x1024x64.size inb_S1x1x1024x64_S1x1x1024x64_0_0_0_0
abbrev rT2 : Rect S1024x32 := Rect.unit (s := S1024x32) ![0, 0] S1024x32.size inb_S1024x32_S1024x32_0_0
abbrev rW2 : Rect S1x64 := Rect.unit (s := S1x64) ![0, 0] S1x64.size inb_S1x64_S1x64_0_0

/-- The output block after the body, from the four input blocks: the body's one store as a piece. -/
def out2_4 (x0 : Vec F S1x1x1024x64 .bf16) (x1 : Vec F S1024x32 .f32) (x2 : Vec F S1024x32 .f32) (x3 : Vec F S1x64 .f32) : Vec F S1x1x1024x64 .bf16 :=
  View.canon [⟨rX2, k2_pay1 (View.ld x0 rX2) (View.ld x3 rW2) (View.ld x1 rT2) (View.ld x2 rT2)⟩]

/-- The one store covers the whole block. -/
theorem cover2_4 (p0 : Vec F S1x1x1024x64 .bf16) (y : S1x1x1024x64.Idx) :
    ∃ pc ∈ ([⟨rX2, p0⟩] : List (View.Piece (Elt F) S1x1x1024x64 .bf16)), y ∈ pc.1.set :=
  View.cover_of_tiled [⟨rX2, p0⟩] S1x1x1024x64.size (by rfl) y

set_option maxHeartbeats 1000000 in
/-- The body on whole staging buffers — the inputs' at the contents read, the output's at anything — runs to its
    return with the inputs' as they were and the output's at `out2_4` of the inputs'. -/
theorem sound_kernel2 (c : Dev nD) (E : Set ℕ) (i : grid2.Coords)
    (arg2 : Memref sig .tc .vmem S1x1x1024x64 .bf16) (harg2 : arg2.IsWhole) (arg3 : Memref sig .tc .vmem S1024x32 .f32) (harg3 : arg3.IsWhole)
    (arg4 : Memref sig .tc .vmem S1024x32 .f32) (harg4 : arg4.IsWhole) (arg5 : Memref sig .tc .vmem S1x64 .f32) (harg5 : arg5.IsWhole)
    (arg6 : Memref sig .tc .vmem S1x1x1024x64 .bf16) (harg6 : arg6.IsWhole)
    (x0 : Vec F S1x1x1024x64 .bf16) (x1 : Vec F S1024x32 .f32) (x2 : Vec F S1024x32 .f32) (x3 : Vec F S1x64 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (out2_4 x0 x1 x2 x3)) -∗ K ⟨⟩))
      ⊢ wp frame (wpE (defs₀ (F := F)) Variants.none c none) E (cc2__rmsnorm_rope_kernel i arg2 harg2 arg3 harg3 arg4 harg4 arg5 harg5 arg6 harg6) K := by
  simp only [cc2__rmsnorm_rope_kernel_eq_skeleton]; unfold cc2__rmsnorm_rope_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

/-- The proof data of this pipeline on core `c`: the arrays as the region finds them; after the body at a point each
    input's buffer at its block and the output's at `out2_4` of the input blocks; the scoped rest and the generator
    register untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) :
    (dat2 V c).after 4 t = out2_4 (iblk2 V c 0 t) (iblk2 V c 1 t) (iblk2 V c 2 t) (iblk2 V c 3 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' buffers hold their blocks, so `sound_kernel2` applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Frm

end
-- ==== Proof.RegionAttn.lean ====
/-
  Region 3 of the program: grouped-query attention. A grid point is a (batch, key/value head, block of 256 query
  rows) triple; its input blocks are the four query heads of the group at those rows, the whole cached key and value
  slabs of the head (2048 rows) and the whole current key and value slabs (1024 rows). The body stacks cache and
  current rows into 3072 keys and values once, and for each of the four query heads writes one [256, 64] tile of the
  output block: the scores against all keys scaled by 1/8, their row-wise softmax, and the weighted sum of the
  values. The four tiles cover the output block, so what the output's staging buffer holds after the body is a
  function of the five input blocks alone.
-/
import proofs.«125955_j22462678958488_2_alg».proof.Proof.Gen.KernelIdeal.Launch
import proofs.«125955_j22462678958488_2_alg».proof.Proof.Gen.KernelIdeal.Skeleton
import proofs.«125955_j22462678958488_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point, fetched there or not. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- The rectangles the body touches: the whole cache and current slabs, and the tile of one query head. -/
abbrev rC3 : Rect S1x1x2048x64 := Rect.unit (s := S1x1x2048x64) ![0, 0, 0, 0] S1x1x2048x64.size inb_S1x1x2048x64_S1x1x2048x64_0_0_0_0
abbrev rU3 : Rect S1x1x1024x64 := Rect.unit (s := S1x1x1024x64) ![0, 0, 0, 0] S1x1x1024x64.size inb_S1x1x1024x64_S1x1x1024x64_0_0_0_0
abbrev rH3_0 : Rect S1x1x4x256x64 := Rect.unit (s := S1x1x4x256x64) ![0, 0, 0, 0, 0] S1x1x1x256x64.size inb_S1x1x4x256x64_S1x1x1x256x64_0_0_0_0_0
abbrev rH3_1 : Rect S1x1x4x256x64 := Rect.unit (s := S1x1x4x256x64) ![0, 0, 1, 0, 0] S1x1x1x256x64.size inb_S1x1x4x256x64_S1x1x1x256x64_0_0_1_0_0
abbrev rH3_2 : Rect S1x1x4x256x64 := Rect.unit (s := S1x1x4x256x64) ![0, 0, 2, 0, 0] S1x1x1x256x64.size inb_S1x1x4x256x64_S1x1x1x256x64_0_0_2_0_0
abbrev rH3_3 : Rect S1x1x4x256x64 := Rect.unit (s := S1x1x4x256x64) ![0, 0, 3, 0, 0] S1x1x1x256x64.size inb_S1x1x4x256x64_S1x1x1x256x64_0_0_3_0_0

/-- The stacked keys and the stacked values, from the cache and current slabs. -/
def keys3 (x1 : Vec F S1x1x2048x64 .f32) (x3 : Vec F S1x1x1024x64 .bf16) : FVec F S3072x64 .bf16 := k3_pay3 (View.ld x1 rC3) (View.ld x3 rU3)
def vals3 (x2 : Vec F S1x1x2048x64 .f32) (x4 : Vec F S1x1x1024x64 .bf16) : FVec F S3072x64 .bf16 := k3_pay4 (View.ld x2 rC3) (View.ld x4 rU3)

/-- The output block after the body, from the five input blocks: the body's four stores as pieces, last first. -/
def out3_5 (x0 : Vec F S1x1x4x256x64 .bf16) (x1 : Vec F S1x1x2048x64 .f32) (x2 : Vec F S1x1x2048x64 .f32) (x3 : Vec F S1x1x1024x64 .bf16) (x4 : Vec F S1x1x1024x64 .bf16) :
    Vec F S1x1x4x256x64 .bf16 :=
  View.canon [⟨rH3_3, k3_pay2 (keys3 x1 x3) (vals3 x2 x4) (View.ld x0 rH3_3)⟩,
    ⟨rH3_2, k3_pay1 (vals3 x2 x4) (k3_pay8 (keys3 x1 x3) (View.ld x0 rH3_2))⟩,
    ⟨rH3_1, k3_pay7 (keys3 x1 x3) (vals3 x2 x4) (View.ld x0 rH3_1)⟩,
    ⟨rH3_0, k3_pay6 (k3_pay5 (View.ld x1 rC3) (View.ld x2 rC3) (View.ld x3 rU3) (View.ld x4 rU3) (View.ld x0 rH3_0))⟩]

/-- The four tiles cover the block. -/
theorem cover3_5 (p3 p2 p1 p0 : Vec F S1x1x1x256x64 .bf16) (y : S1x1x4x256x64.Idx) :
    ∃ pc ∈ ([⟨rH3_3, p3⟩, ⟨rH3_2, p2⟩, ⟨rH3_1, p1⟩, ⟨rH3_0, p0⟩] : List (View.Piece (Elt F) S1x1x4x256x64 .bf16)), y ∈ pc.1.set :=
  View.cover_of_tiledL [⟨rH3_3, p3⟩, ⟨rH3_2, p2⟩, ⟨rH3_1, p1⟩, ⟨rH3_0, p0⟩] S1x1x1x256x64.size (by sl_kernel_rfl) y

set_option maxHeartbeats 4000000 in
/-- The body on whole staging buffers — the inputs' at the contents read, the output's at anything — runs to its
    return with the inputs' as they were and the output's at `out3_5` of the inputs'. -/
theorem sound_kernel3 (c : Dev nD) (E : Set ℕ) (i : grid3.Coords)
    (arg3 : Memref sig .tc .vmem S1x1x4x256x64 .bf16) (harg3 : arg3.IsWhole) (arg4 : Memref sig .tc .vmem S1x1x2048x64 .f32) (harg4 : arg4.IsWhole)
    (arg5 : Memref sig .tc .vmem S1x1x2048x64 .f32) (harg5 : arg5.IsWhole) (arg6 : Memref sig .tc .vmem S1x1x1024x64 .bf16) (harg6 : arg6.IsWhole)
    (arg7 : Memref sig .tc .vmem S1x1x1024x64 .bf16) (harg7 : arg7.IsWhole) (arg8 : Memref sig .tc .vmem S1x1x4x256x64 .bf16) (harg8 : arg8.IsWhole)
    (x0 : Vec F S1x1x4x256x64 .bf16) (x1 : Vec F S1x1x2048x64 .f32) (x2 : Vec F S1x1x2048x64 .f32) (x3 : Vec F S1x1x1024x64 .bf16) (x4 : Vec F S1x1x1024x64 .bf16)
    (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ (∃ d, owns (c : Thread nD τ) arg8 fullShare d)
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4
            ∗ owns (c : Thread nD τ) arg8 fullShare (out3_5 x0 x1 x2 x3 x4)) -∗ K ⟨⟩))
      ⊢ wp frame (wpE (defs₀ (F := F)) Variants.none c none) E (cc3__attn_kernel i arg3 harg3 arg4 harg4 arg5 harg5 arg6 harg6 arg7 harg7 arg8 harg8) K := by
  simp only [cc3__attn_kernel_eq_skeleton]; unfold cc3__attn_kernel_skel
  simp only [k3_part1_eq_skeleton, k3_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _ _ _ _)

/-- The proof data of this pipeline on core `c`: the arrays as the region finds them; after the body at a point each
    input's buffer at its block and the output's at `out3_5` of the input blocks; the scoped rest and the generator
    register untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) :
    (dat3 V c).after 5 t = out3_5 (iblk3 V c 0 t) (iblk3 V c 1 t) (iblk3 V c 2 t) (iblk3 V c 3 t) (iblk3 V c 4 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' buffers hold their blocks, so `sound_kernel3` applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Frm

end
-- ==== Proof.RegionOutProjShared.lean ====
/-
  Region 4 of the program, the output projection: attention rows [2048, 2048] against the weights [2048, 2048], as a blocked matrix product. A grid point is a (row block, column block,
  contraction block) triple with the contraction block innermost, four to a pair: the body adds the product of a
  [512, 512] block of the left operand and a [1024, 512] block of the right operand (contracted along their second
  axes) into a [512, 1024] accumulator that lives in scratch memory across the four points of a pair — zeroed first at
  the first of them, copied to the output block after the last. So the body has three cases, by the contraction block:
  first, middle, last. This module holds what the three cases share.
-/
import proofs.«125955_j22462678958488_2_alg».proof.Proof.Gen.KernelIdeal.Launch
import proofs.«125955_j22462678958488_2_alg».proof.Proof.Gen.KernelIdeal.Skeleton
import proofs.«125955_j22462678958488_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- "This is the first contraction block": the condition of the body's first branch, from the grid coordinates. -/
abbrev cond4_0 (i : grid4.Coords) : Prop := (Scalar.cmpi .ne (Scalar.extui (Scalar.cmpi .eq (BitVec.ofNat 32 (i 2).val) 0#32)) 0#32) = 1#1
/-- It holds at the points ≡ 0 (mod 4) — decided over the grid. -/
theorem hcond4_0 : ∀ t : Fin cfg4.N, cond4_0 (grid4.coords t) ↔ t.val % 4 = 0 :=
  (by decide +kernel : ∀ t : Fin grid4.N, cond4_0 (grid4.coords t) ↔ t.val % 4 = 0)
/-- "This is the last contraction block": the condition of the body's second branch. -/
abbrev cond4_1 (i : grid4.Coords) : Prop := k4_cond2 i = 1#1
/-- It holds at the points ≡ 3 (mod 4) — decided over the grid. -/
theorem hcond4_1 : ∀ t : Fin cfg4.N, cond4_1 (grid4.coords t) ↔ t.val % 4 = 3 :=
  (by decide +kernel : ∀ t : Fin grid4.N, cond4_1 (grid4.coords t) ↔ t.val % 4 = 3)

/-- The inputs are never idle; the output is idle, and not written back, except at a last contraction block. -/
theorem liveAt4_0 : ∀ t : Fin cfg4.N, cfg4.idle 0 (grid4.coords t) = false := by decide +kernel
theorem liveAt4_1 : ∀ t : Fin cfg4.N, cfg4.idle 1 (grid4.coords t) = false := by decide +kernel
theorem idleAt4_2_A : ∀ t : Fin cfg4.N, cond4_0 (grid4.coords t) → ¬cond4_1 (grid4.coords t) → cfg4.idle 2 (grid4.coords t) = true := by decide +kernel
theorem noFlush4_2_A : ∀ t : Fin cfg4.N, cond4_0 (grid4.coords t) → ¬cond4_1 (grid4.coords t) → (cfg4.win 2).flush t = false := by decide +kernel
theorem idleAt4_2_B : ∀ t : Fin cfg4.N, ¬cond4_0 (grid4.coords t) → ¬cond4_1 (grid4.coords t) → cfg4.idle 2 (grid4.coords t) = true := by decide +kernel
theorem noFlush4_2_B : ∀ t : Fin cfg4.N, ¬cond4_0 (grid4.coords t) → ¬cond4_1 (grid4.coords t) → (cfg4.win 2).flush t = false := by decide +kernel
theorem liveAt4_2_C : ∀ t : Fin cfg4.N, ¬cond4_0 (grid4.coords t) → cond4_1 (grid4.coords t) → cfg4.idle 2 (grid4.coords t) = false := by decide +kernel

/-- One staging buffer of the output window, through which its contents are stated. -/
abbrev VO4_2 : View sig .tc .vmem S512x1024 .f32 := (Memref.whole cc4_stg2_0 : Memref sig .tc .vmem S512x1024 .f32).view
/-- Each window's current staging buffer at point `t`, as the pipeline passes it to the body, and its wholeness. -/
abbrev ms4_0 (t : Fin cfg4.N) : Memref sig .tc .vmem S512x512 .bf16 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1024x512 .bf16 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S512x1024 .f32 := win4_2.stage (cfg4.slots t 2)
abbrev hs4_2 (t : Fin cfg4.N) : (ms4_2 t).IsWhole := hstage4_2 ((cfg4.slots t 2).cast nbuf4_2)
/-- The accumulator: a whole scratch buffer of the kernel's own, and the view its contents are stated through. -/
abbrev scM4_0 : Memref sig .tc .vmem S512x1024 .f32 := Memref.whole cc4_scratch0
abbrev VS4_0 : View sig .tc .vmem S512x1024 .f32 := scM4_0.view

/-- The scoped buffers this region does not stage, with the accumulator split off and owned at some contents. -/
theorem PhiA4_eq (c : Dev nD) :
    (Pipeline.ΦA spec4 c : sProp 𝕄)
      = iprop(iprop((∃ d, owns (c : Thread nD τ) scM4_0 fullShare d) ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [scM4_0, owns_whole]; try rfl

end Cert.KernelIdeal.Frm

end
-- ==== Proof.RegionOutProjFirst.lean ====
/-
  Region 4, the body's run at a first contraction block: the stores it leaves in the accumulator (and, at a last block, in the output
  block), found by running the body symbolically.
-/
import proofs.«125955_j22462678958488_2_alg».proof.Proof.RegionOutProjShared

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 2000000 in
/-- At a first contraction block: the accumulator, at anything, is zeroed and then holds zero plus the product of the two
    input blocks; the output block is handed back untouched. The pieces are the witness the run finds. -/
noncomputable def kernelRun4_A (c : Dev nD) (i : grid4.Coords) (arg3 : Memref sig .tc .vmem S512x512 .bf16) (harg3 : arg3.IsWhole) (arg4 : Memref sig .tc .vmem S1024x512 .bf16) (harg4 : arg4.IsWhole) (arg5 : Memref sig .tc .vmem S512x1024 .f32) (harg5 : arg5.IsWhole) (arg6 : Memref sig .tc .vmem S512x1024 .f32) (harg6 : arg6.IsWhole) (hc0 : cond4_0 i) (hc1 : ¬cond4_1 i)
    (x0 : Vec F S512x512 .bf16) (x1 : Vec F S1024x512 .bf16) :
    Σ' (L2 : List (View.Piece (Elt F) S512x1024 .f32)), { LS0 : List (View.Piece (Elt F) S512x1024 .f32) //
      ∀ (xi2 : Vec F S512x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2
                ∗ (∃ f, arg6.view.loc (c : Thread nD τ) ↦[arg6.view.set]{fullShare} arg6.view.writes (Elt F) f LS0)) -∗ K ⟨⟩))
          ⊢ wp frame (wpE (defs₀ (F := F)) Variants.none c none) E (cc4__linear_kernel i arg3 harg3 arg4 harg4 arg5 harg5 arg6 harg6) K } := by
  refine ⟨[], ?_, fun xi2 E K => ?run⟩
  case run =>
    simp only [cc4__linear_kernel_eq_skeleton]; unfold cc4__linear_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.KernelIdeal.Frm

end
-- ==== Proof.RegionOutProjMiddle.lean ====
/-
  Region 4, the body's run at a middle contraction block: the stores it leaves in the accumulator (and, at a last block, in the output
  block), found by running the body symbolically.
-/
import proofs.«125955_j22462678958488_2_alg».proof.Proof.RegionOutProjFirst

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 2000000 in
/-- At a middle contraction block: the accumulator, at what the point before left, gains the product of the two input
    blocks; the output block is handed back untouched. -/
noncomputable def kernelRun4_B (c : Dev nD) (i : grid4.Coords) (arg3 : Memref sig .tc .vmem S512x512 .bf16) (harg3 : arg3.IsWhole) (arg4 : Memref sig .tc .vmem S1024x512 .bf16) (harg4 : arg4.IsWhole) (arg5 : Memref sig .tc .vmem S512x1024 .f32) (harg5 : arg5.IsWhole) (arg6 : Memref sig .tc .vmem S512x1024 .f32) (harg6 : arg6.IsWhole) (hc0 : ¬cond4_0 i) (hc1 : ¬cond4_1 i)
    (x0 : Vec F S512x512 .bf16) (x1 : Vec F S1024x512 .bf16) (xs0 : Vec F S512x1024 .f32) :
    Σ' (L2 : List (View.Piece (Elt F) S512x1024 .f32)), { LS0 : List (View.Piece (Elt F) S512x1024 .f32) //
      ∀ (xi2 : Vec F S512x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0
            ∗ (iprop(owns (c : Thread nD τ) arg3 fullShare x0 ∗ owns (c : Thread nD τ) arg4 fullShare x1 ∗ owns (c : Thread nD τ) arg5 fullShare xi2
                ∗ (∃ f, arg6.view.loc (c : Thread nD τ) ↦[arg6.view.set]{fullShare} arg6.view.writes (Elt F) f LS0)) -∗ K ⟨⟩))
          ⊢ wp frame (wpE (defs₀ (F := F)) Variants.none c none) E (cc4__linear_kernel i arg3 harg3 arg4 harg4 arg5 harg5 arg6 harg6) K } := by
  refine ⟨[], ?_, fun xi2 E K => ?run⟩
  case run =>
    simp only [cc4__linear_kernel_eq_skeleton]; unfold cc4__linear_kernel_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.KernelIdeal.Frm

end
-- ==== Proof.RegionOutProjLast.lean ====
/-
  Region 4, the body's run at a last contraction block: the stores it leaves in the accumulator (and, at a last block, in the output
  block), found by running the body symbolically.
-/
import proofs.«125955_j22462678958488_2_alg».proof.Proof.RegionOutProjMiddle

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 2000000 in
/-- At a last contraction block: the accumulator, at what the point before left, gains the product of the two input
    blocks, and the output block, at anything, is overwritten with the accumulator's contents. -/
noncomputable def kernelRun4_C (c : Dev nD) (i : grid4.Coords) (arg3 : Memref sig .tc .vmem S512x512 .bf16) (harg3 : arg3.IsWhole) (arg4 : Memref sig .tc .vmem S1024x512 .bf16) (harg4 : arg4.IsWhole) (arg5 : Memref sig .tc .vmem S512x1024 .f32) (harg5 : arg5.IsWhole) (arg6 : Memref sig .tc .vmem S512x1024 .f32) (harg6 : arg6.IsWhole) (hc0 : ¬cond4_0 i) (hc1 : cond4_1 i)
    (x0 : Vec F S512x512 .bf16) (x1 : Vec F S1024x512 .bf16) (xs0 : Vec F S512x1024 .f32) :
    Σ' (L2 : List (View.Piece (Elt F) S512x1024 .f32)), { LS0 : List (View.Piece (Elt F) S512x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L2)
                ∗ (∃ f, arg6.view.loc (c : Thread nD τ) ↦[arg6.view.set]{fullShare} arg6.view.writes (Elt F) f LS0)) -∗ K ⟨⟩))
          ⊢ wp frame (wpE (defs₀ (F := F)) Variants.none c none) E (cc4__linear_kernel i arg3 harg3 arg4 harg4 arg5 harg5 arg6 harg6) K } := by
  refine ⟨?_, ?_, fun E K => ?run⟩
  case run =>
    simp only [cc4__linear_kernel_eq_skeleton]; unfold cc4__linear_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.KernelIdeal.Frm

end
-- ==== Proof.RegionOutProj.lean ====
/-
  Region 4: what the accumulator and the output block hold after each grid point, the region's invariant (the
  accumulator at what the point before left), its proof data and its body obligation.
-/
import proofs.«125955_j22462678958488_2_alg».proof.Proof.RegionOutProjLast

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What case A leaves in the output's staging buffer: its pieces read back (none: a placeholder nothing consults, the window being idle and not written back there). -/
def out4_A_2 (c : Dev nD) (i : grid4.Coords) (arg3 : Memref sig .tc .vmem S512x512 .bf16) (harg3 : arg3.IsWhole) (arg4 : Memref sig .tc .vmem S1024x512 .bf16) (harg4 : arg4.IsWhole) (arg5 : Memref sig .tc .vmem S512x1024 .f32) (harg5 : arg5.IsWhole) (arg6 : Memref sig .tc .vmem S512x1024 .f32) (harg6 : arg6.IsWhole) (hc0 : cond4_0 i) (hc1 : ¬cond4_1 i)
    (x0 : Vec F S512x512 .bf16) (x1 : Vec F S1024x512 .bf16) : Vec F S512x1024 .f32 :=
  VO4_2.read (Elt F) (VO4_2.writes (Elt F) VO4_2.junk (kernelRun4_A c i arg3 harg3 arg4 harg4 arg5 harg5 arg6 harg6 hc0 hc1 x0 x1).1)

/-- Case A's stores into the accumulator cover it. -/
theorem scover4_A_0 (c : Dev nD) (i : grid4.Coords) (arg3 : Memref sig .tc .vmem S512x512 .bf16) (harg3 : arg3.IsWhole) (arg4 : Memref sig .tc .vmem S1024x512 .bf16) (harg4 : arg4.IsWhole) (arg5 : Memref sig .tc .vmem S512x1024 .f32) (harg5 : arg5.IsWhole) (arg6 : Memref sig .tc .vmem S512x1024 .f32) (harg6 : arg6.IsWhole) (hc0 : cond4_0 i) (hc1 : ¬cond4_1 i)
    (x0 : Vec F S512x512 .bf16) (x1 : Vec F S1024x512 .bf16) (y : S512x1024.Idx) :
    ∃ pc ∈ (kernelRun4_A c i arg3 harg3 arg4 harg4 arg5 harg5 arg6 harg6 hc0 hc1 x0 x1).2.1, y ∈ pc.1.set :=
  View.cover_of_tiledL (kernelRun4_A c i arg3 harg3 arg4 harg4 arg5 harg5 arg6 harg6 hc0 hc1 x0 x1).2.1 S512x1024.size (by sl_kernel_rfl) y

/-- What case A leaves in the accumulator: its pieces read back. -/
def sout4_A_0 (c : Dev nD) (i : grid4.Coords) (arg3 : Memref sig .tc .vmem S512x512 .bf16) (harg3 : arg3.IsWhole) (arg4 : Memref sig .tc .vmem S1024x512 .bf16) (harg4 : arg4.IsWhole) (arg5 : Memref sig .tc .vmem S512x1024 .f32) (harg5 : arg5.IsWhole) (arg6 : Memref sig .tc .vmem S512x1024 .f32) (harg6 : arg6.IsWhole) (hc0 : cond4_0 i) (hc1 : ¬cond4_1 i)
    (x0 : Vec F S512x512 .bf16) (x1 : Vec F S1024x512 .bf16) : Vec F S512x1024 .f32 :=
  VS4_0.read (Elt F) (VS4_0.writes (Elt F) VS4_0.junk (kernelRun4_A c i arg3 harg3 arg4 harg4 arg5 harg5 arg6 harg6 hc0 hc1 x0 x1).2.1)

/-- What case B leaves in the output's staging buffer: its pieces read back (none: a placeholder nothing consults, the window being idle and not written back there). -/
def out4_B_2 (c : Dev nD) (i : grid4.Coords) (arg3 : Memref sig .tc .vmem S512x512 .bf16) (harg3 : arg3.IsWhole) (arg4 : Memref sig .tc .vmem S1024x512 .bf16) (harg4 : arg4.IsWhole) (arg5 : Memref sig .tc .vmem S512x1024 .f32) (harg5 : arg5.IsWhole) (arg6 : Memref sig .tc .vmem S512x1024 .f32) (harg6 : arg6.IsWhole) (hc0 : ¬cond4_0 i) (hc1 : ¬cond4_1 i)
    (x0 : Vec F S512x512 .bf16) (x1 : Vec F S1024x512 .bf16) (xs0 : Vec F S512x1024 .f32) : Vec F S512x1024 .f32 :=
  VO4_2.read (Elt F) (VO4_2.writes (Elt F) VO4_2.junk (kernelRun4_B c i arg3 harg3 arg4 harg4 arg5 harg5 arg6 harg6 hc0 hc1 x0 x1 xs0).1)

/-- Case B's stores into the accumulator cover it. -/
theorem scover4_B_0 (c : Dev nD) (i : grid4.Coords) (arg3 : Memref sig .tc .vmem S512x512 .bf16) (harg3 : arg3.IsWhole) (arg4 : Memref sig .tc .vmem S1024x512 .bf16) (harg4 : arg4.IsWhole) (arg5 : Memref sig .tc .vmem S512x1024 .f32) (harg5 : arg5.IsWhole) (arg6 : Memref sig .tc .vmem S512x1024 .f32) (harg6 : arg6.IsWhole) (hc0 : ¬cond4_0 i) (hc1 : ¬cond4_1 i)
    (x0 : Vec F S512x512 .bf16) (x1 : Vec F S1024x512 .bf16) (xs0 : Vec F S512x1024 .f32) (y : S512x1024.Idx) :
    ∃ pc ∈ (kernelRun4_B c i arg3 harg3 arg4 harg4 arg5 harg5 arg6 harg6 hc0 hc1 x0 x1 xs0).2.1, y ∈ pc.1.set :=
  View.cover_of_tiledL (kernelRun4_B c i arg3 harg3 arg4 harg4 arg5 harg5 arg6 harg6 hc0 hc1 x0 x1 xs0).2.1 S512x1024.size (by sl_kernel_rfl) y

/-- What case B leaves in the accumulator: its pieces read back. -/
def sout4_B_0 (c : Dev nD) (i : grid4.Coords) (arg3 : Memref sig .tc .vmem S512x512 .bf16) (harg3 : arg3.IsWhole) (arg4 : Memref sig .tc .vmem S1024x512 .bf16) (harg4 : arg4.IsWhole) (arg5 : Memref sig .tc .vmem S512x1024 .f32) (harg5 : arg5.IsWhole) (arg6 : Memref sig .tc .vmem S512x1024 .f32) (harg6 : arg6.IsWhole) (hc0 : ¬cond4_0 i) (hc1 : ¬cond4_1 i)
    (x0 : Vec F S512x512 .bf16) (x1 : Vec F S1024x512 .bf16) (xs0 : Vec F S512x1024 .f32) : Vec F S512x1024 .f32 :=
  VS4_0.read (Elt F) (VS4_0.writes (Elt F) VS4_0.junk (kernelRun4_B c i arg3 harg3 arg4 harg4 arg5 harg5 arg6 harg6 hc0 hc1 x0 x1 xs0).2.1)

/-- At a last block the one store into the output covers its block. -/
theorem cover4_C_2 (c : Dev nD) (i : grid4.Coords) (arg3 : Memref sig .tc .vmem S512x512 .bf16) (harg3 : arg3.IsWhole) (arg4 : Memref sig .tc .vmem S1024x512 .bf16) (harg4 : arg4.IsWhole) (arg5 : Memref sig .tc .vmem S512x1024 .f32) (harg5 : arg5.IsWhole) (arg6 : Memref sig .tc .vmem S512x1024 .f32) (harg6 : arg6.IsWhole) (hc0 : ¬cond4_0 i) (hc1 : cond4_1 i)
    (x0 : Vec F S512x512 .bf16) (x1 : Vec F S1024x512 .bf16) (xs0 : Vec F S512x1024 .f32) (y : S512x1024.Idx) :
    ∃ pc ∈ (kernelRun4_C c i arg3 harg3 arg4 harg4 arg5 harg5 arg6 harg6 hc0 hc1 x0 x1 xs0).1, y ∈ pc.1.set :=
  View.cover_of_tiledL (kernelRun4_C c i arg3 harg3 arg4 harg4 arg5 harg5 arg6 harg6 hc0 hc1 x0 x1 xs0).1 S512x1024.size (by sl_kernel_rfl) y

/-- What case C leaves in the output's staging buffer: its pieces read back. -/
def out4_C_2 (c : Dev nD) (i : grid4.Coords) (arg3 : Memref sig .tc .vmem S512x512 .bf16) (harg3 : arg3.IsWhole) (arg4 : Memref sig .tc .vmem S1024x512 .bf16) (harg4 : arg4.IsWhole) (arg5 : Memref sig .tc .vmem S512x1024 .f32) (harg5 : arg5.IsWhole) (arg6 : Memref sig .tc .vmem S512x1024 .f32) (harg6 : arg6.IsWhole) (hc0 : ¬cond4_0 i) (hc1 : cond4_1 i)
    (x0 : Vec F S512x512 .bf16) (x1 : Vec F S1024x512 .bf16) (xs0 : Vec F S512x1024 .f32) : Vec F S512x1024 .f32 :=
  VO4_2.read (Elt F) (VO4_2.writes (Elt F) VO4_2.junk (kernelRun4_C c i arg3 harg3 arg4 harg4 arg5 harg5 arg6 harg6 hc0 hc1 x0 x1 xs0).1)

/-- Case C's stores into the accumulator cover it. -/
theorem scover4_C_0 (c : Dev nD) (i : grid4.Coords) (arg3 : Memref sig .tc .vmem S512x512 .bf16) (harg3 : arg3.IsWhole) (arg4 : Memref sig .tc .vmem S1024x512 .bf16) (harg4 : arg4.IsWhole) (arg5 : Memref sig .tc .vmem S512x1024 .f32) (harg5 : arg5.IsWhole) (arg6 : Memref sig .tc .vmem S512x1024 .f32) (harg6 : arg6.IsWhole) (hc0 : ¬cond4_0 i) (hc1 : cond4_1 i)
    (x0 : Vec F S512x512 .bf16) (x1 : Vec F S1024x512 .bf16) (xs0 : Vec F S512x1024 .f32) (y : S512x1024.Idx) :
    ∃ pc ∈ (kernelRun4_C c i arg3 harg3 arg4 harg4 arg5 harg5 arg6 harg6 hc0 hc1 x0 x1 xs0).2.1, y ∈ pc.1.set :=
  View.cover_of_tiledL (kernelRun4_C c i arg3 harg3 arg4 harg4 arg5 harg5 arg6 harg6 hc0 hc1 x0 x1 xs0).2.1 S512x1024.size (by sl_kernel_rfl) y

/-- What case C leaves in the accumulator: its pieces read back. -/
def sout4_C_0 (c : Dev nD) (i : grid4.Coords) (arg3 : Memref sig .tc .vmem S512x512 .bf16) (harg3 : arg3.IsWhole) (arg4 : Memref sig .tc .vmem S1024x512 .bf16) (harg4 : arg4.IsWhole) (arg5 : Memref sig .tc .vmem S512x1024 .f32) (harg5 : arg5.IsWhole) (arg6 : Memref sig .tc .vmem S512x1024 .f32) (harg6 : arg6.IsWhole) (hc0 : ¬cond4_0 i) (hc1 : cond4_1 i)
    (x0 : Vec F S512x512 .bf16) (x1 : Vec F S1024x512 .bf16) (xs0 : Vec F S512x1024 .f32) : Vec F S512x1024 .f32 :=
  VS4_0.read (Elt F) (VS4_0.writes (Elt F) VS4_0.junk (kernelRun4_C c i arg3 harg3 arg4 harg4 arg5 harg5 arg6 harg6 hc0 hc1 x0 x1 xs0).2.1)

/-- What the output's staging buffer and the accumulator hold after the body at position `n`: the case the position
    selects, run at the point's buffers and input blocks, the accumulator read at what position `n - 1` left. -/
def outsAt4 (c : Dev nD) : (n : ℕ) → n < cfg4.N → Vec F S512x1024 .f32 × Vec F S512x1024 .f32
  | 0, hn => (out4_A_2 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) scM4_0 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩), sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) scM4_0 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩))
  | n + 1, hn =>
    if h0 : (n + 1) % 4 = 0 then
      if h1 : (n + 1) % 4 = 3 then
        False.elim (by omega)
      else
        (out4_A_2 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩), sout4_A_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩))
    else
      if h1 : (n + 1) % 4 = 3 then
        (out4_C_2 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (outsAt4 c n (Nat.lt_of_succ_lt hn)).2, sout4_C_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (outsAt4 c n (Nat.lt_of_succ_lt hn)).2)
      else
        (out4_B_2 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (outsAt4 c n (Nat.lt_of_succ_lt hn)).2, sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (outsAt4 c n (Nat.lt_of_succ_lt hn)).2)

theorem outsAt4_A (c : Dev nD) (t : Fin cfg4.N) (h0 : t.val % 4 = 0) (h1 : ¬t.val % 4 = 3) :
    outsAt4 V c t.val t.isLt = (out4_A_2 c (grid4.coords t) (ms4_0 t) (hs4_0 t) (ms4_1 t) (hs4_1 t) (ms4_2 t) (hs4_2 t) scM4_0 (Memref.isWhole_whole _) ((hcond4_0 t).mpr h0) (fun h => h1 ((hcond4_1 t).mp h)) (iblk4 V c 0 t) (iblk4 V c 1 t), sout4_A_0 c (grid4.coords t) (ms4_0 t) (hs4_0 t) (ms4_1 t) (hs4_1 t) (ms4_2 t) (hs4_2 t) scM4_0 (Memref.isWhole_whole _) ((hcond4_0 t).mpr h0) (fun h => h1 ((hcond4_1 t).mp h)) (iblk4 V c 0 t) (iblk4 V c 1 t)) := by
  obtain ⟨n, hn⟩ := t
  cases n with
  | zero => exact rfl
  | succ n => exact (dif_pos h0).trans ((dif_neg h1).trans rfl)

theorem outsAt4_B (c : Dev nD) (t : Fin cfg4.N) (h0 : ¬t.val % 4 = 0) (h1 : ¬t.val % 4 = 3) :
    outsAt4 V c t.val t.isLt = (out4_B_2 c (grid4.coords t) (ms4_0 t) (hs4_0 t) (ms4_1 t) (hs4_1 t) (ms4_2 t) (hs4_2 t) scM4_0 (Memref.isWhole_whole _) (fun h => h0 ((hcond4_0 t).mp h)) (fun h => h1 ((hcond4_1 t).mp h)) (iblk4 V c 0 t) (iblk4 V c 1 t) (outsAt4 V c (t.val - 1) (Nat.lt_of_le_of_lt (Nat.sub_le _ _) t.isLt)).2, sout4_B_0 c (grid4.coords t) (ms4_0 t) (hs4_0 t) (ms4_1 t) (hs4_1 t) (ms4_2 t) (hs4_2 t) scM4_0 (Memref.isWhole_whole _) (fun h => h0 ((hcond4_0 t).mp h)) (fun h => h1 ((hcond4_1 t).mp h)) (iblk4 V c 0 t) (iblk4 V c 1 t) (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt4_C (c : Dev nD) (t : Fin cfg4.N) (h0 : ¬t.val % 4 = 0) (h1 : t.val % 4 = 3) :
    outsAt4 V c t.val t.isLt = (out4_C_2 c (grid4.coords t) (ms4_0 t) (hs4_0 t) (ms4_1 t) (hs4_1 t) (ms4_2 t) (hs4_2 t) scM4_0 (Memref.isWhole_whole _) (fun h => h0 ((hcond4_0 t).mp h)) ((hcond4_1 t).mpr h1) (iblk4 V c 0 t) (iblk4 V c 1 t) (outsAt4 V c (t.val - 1) (Nat.lt_of_le_of_lt (Nat.sub_le _ _) t.isLt)).2, sout4_C_0 c (grid4.coords t) (ms4_0 t) (hs4_0 t) (ms4_1 t) (hs4_1 t) (ms4_2 t) (hs4_2 t) scM4_0 (Memref.isWhole_whole _) (fun h => h0 ((hcond4_0 t).mp h)) ((hcond4_1 t).mpr h1) (iblk4 V c 0 t) (iblk4 V c 1 t) (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point every scoped buffer at anything; afterwards the
    accumulator at what the point before left, the other scoped buffers at anything, the generator register at some state. -/
def PhiS4 (c : Dev nD) : (n : ℕ) → n ≤ cfg4.N → sProp 𝕄
  | 0, _ => Pipeline.ΦA spec4 c
  | n + 1, hn => iprop(iprop(owns (c : Thread nD τ) scM4_0 fullShare ((outsAt4 V c n hn).2) ∗ Pipeline.scopedRestBut (Ix := Unit) (Name := ℕ) (U := UR sig nD τ) (Lvl := ℕ) (Val := Elt F) spec4 c [cc4_scratch0]) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(owns (c : Thread nD τ) scM4_0 fullShare ((outsAt4 V c n hn).2) ∗ Pipeline.scopedRestBut (Ix := Unit) (Name := ℕ) (U := UR sig nD τ) (Lvl := ℕ) (Val := Elt F) spec4 c [cc4_scratch0]) ∗ (∃ r, prngReg c r)) := rfl

theorem PhiS4_pos (c : Dev nD) (n : ℕ) (h : n ≤ cfg4.N) (hz : n ≠ 0) :
    PhiS4 V c n h = iprop(iprop(owns (c : Thread nD τ) scM4_0 fullShare ((outsAt4 V c (n - 1) (by omega)).2) ∗ Pipeline.scopedRestBut (Ix := Unit) (Name := ℕ) (U := UR sig nD τ) (Lvl := ℕ) (Val := Elt F) spec4 c [cc4_scratch0]) ∗ (∃ r, prngReg c r)) := by
  cases n with
  | zero => exact absurd rfl hz
  | succ n => rfl

/-- The proof data of this pipeline on core `c`: the arrays as the region finds them; after the body at a point each
    input's buffer at its block and the output's at `outsAt4`; the invariant `PhiS4`; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => (outsAt4 V c t.val t.isLt).1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = (outsAt4 V c t.val t.isLt).1 := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-- What the body is called with at point `t`, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t)

set_option maxHeartbeats 4800000 in
/-- The body at any point: the inputs' buffers hold their blocks; the position says which case the point is in; the
    invariant hands the body the accumulator at what the point before left (at anything at the very first point) and
    takes it back at this point's contents; the core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl]
  rw [show (dat4 V c).Φ t.succ = PhiS4 V c (t.val + 1) t.isLt from rfl, PhiS4_succ]
  by_cases h0 : t.val % 4 = 0
  · have h1 : ¬t.val % 4 = 3 := by omega
    rw [show (dat4 V c).leavesExact 0 t = owns (c : Thread nD τ) (ms4_0 t) fullShare ((dat4 V c).after 0 t) from by
        unfold Dat.leavesExact; rw [liveAt4_0 t], after4_0]
    rw [show (dat4 V c).leavesExact 1 t = owns (c : Thread nD τ) (ms4_1 t) fullShare ((dat4 V c).after 1 t) from by
        unfold Dat.leavesExact; rw [liveAt4_1 t], after4_1]
    rw [Dat.leavesExact_idle (dat4 V c) 2 t (idleAt4_2_A t ((hcond4_0 t).mpr h0) (fun h => h1 ((hcond4_1 t).mp h))) (noFlush4_2_A t ((hcond4_0 t).mpr h0) (fun h => h1 ((hcond4_1 t).mp h)))]
    rw [outsAt4_A V c t h0 h1]
    unfold sout4_A_0; (try dsimp only)
    by_cases hz : t.val = 0
    · rw [PhiS4_castSucc V c t, PhiS4_zero V c _ _ hz, PhiA4_eq]
      iintro ⟨⟨⟨HS0, Hb⟩, Hg⟩, Ho, ⟨%d0, H0⟩, ⟨%d1, H1⟩, ⟨%d2, H2⟩⟩
      iapply ((kernelRun4_A c (grid4.coords t) _ _ _ _ _ _ _ _ ((hcond4_0 t).mpr h0) (fun h => h1 ((hcond4_1 t).mp h)) (iblk4 V c 0 t) (iblk4 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hb Hg]
      · isplitl [HS0 Hb]
        · isplitl [HS0]
          · unfold owns; iexists _; isplitr
            swap; · iexact HS0
            ipureintro; exact View.read_writes_of_cover _ _ _ _ _ (scover4_A_0 c _ _ _ _ _ _ _ _ _ _ _ _ _ )
          iexact Hb
        iexact Hg
      isplitl [Ho]; · iexact Ho
      isplitl [H0]; · iexact H0
      isplitl [H1]; · iexact H1
      iexists _; iexact H2
    · rw [PhiS4_castSucc V c t, PhiS4_pos V c _ _ hz]
      iintro ⟨⟨⟨HS0, Hb⟩, Hg⟩, Ho, ⟨%d0, H0⟩, ⟨%d1, H1⟩, ⟨%d2, H2⟩⟩
      iapply ((kernelRun4_A c (grid4.coords t) _ _ _ _ _ _ _ _ ((hcond4_0 t).mpr h0) (fun h => h1 ((hcond4_1 t).mp h)) (iblk4 V c 0 t) (iblk4 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hb Hg]
      · isplitl [HS0 Hb]
        · isplitl [HS0]
          · unfold owns; iexists _; isplitr
            swap; · iexact HS0
            ipureintro; exact View.read_writes_of_cover _ _ _ _ _ (scover4_A_0 c _ _ _ _ _ _ _ _ _ _ _ _ _ )
          iexact Hb
        iexact Hg
      isplitl [Ho]; · iexact Ho
      isplitl [H0]; · iexact H0
      isplitl [H1]; · iexact H1
      iexists _; iexact H2
  · have hz : t.val ≠ 0 := fun e => h0 (by rw [e])
    by_cases h1 : t.val % 4 = 3
    · rw [show (dat4 V c).leavesExact 0 t = owns (c : Thread nD τ) (ms4_0 t) fullShare ((dat4 V c).after 0 t) from by
          unfold Dat.leavesExact; rw [liveAt4_0 t], after4_0]
      rw [show (dat4 V c).leavesExact 1 t = owns (c : Thread nD τ) (ms4_1 t) fullShare ((dat4 V c).after 1 t) from by
          unfold Dat.leavesExact; rw [liveAt4_1 t], after4_1]
      rw [show (dat4 V c).leavesExact 2 t = owns (c : Thread nD τ) (ms4_2 t) fullShare ((dat4 V c).after 2 t) from by
          unfold Dat.leavesExact; rw [liveAt4_2_C t (fun h => h0 ((hcond4_0 t).mp h)) ((hcond4_1 t).mpr h1)], after4_2]
      rw [outsAt4_C V c t h0 h1]
      unfold out4_C_2 sout4_C_0; (try dsimp only)
      rw [PhiS4_castSucc V c t, PhiS4_pos V c _ _ hz]
      iintro ⟨⟨⟨HS0, Hb⟩, Hg⟩, Ho, ⟨%d0, H0⟩, ⟨%d1, H1⟩, ⟨%d2, H2⟩⟩
      iapply ((kernelRun4_C c (grid4.coords t) _ _ _ _ _ _ _ _ (fun h => h0 ((hcond4_0 t).mp h)) ((hcond4_1 t).mpr h1) (iblk4 V c 0 t) (iblk4 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hb Hg]
      · isplitl [HS0 Hb]
        · isplitl [HS0]
          · unfold owns; iexists _; isplitr
            swap; · iexact HS0
            ipureintro; exact View.read_writes_of_cover _ _ _ _ _ (scover4_C_0 c _ _ _ _ _ _ _ _ _ _ _ _ _ _ )
          iexact Hb
        iexact Hg
      isplitl [Ho]; · iexact Ho
      isplitl [H0]; · iexact H0
      isplitl [H1]; · iexact H1
      unfold owns; iexists _; isplitr
      swap; · iexact H2
      ipureintro; exact View.read_writes_of_cover _ _ _ _ _ (cover4_C_2 c _ _ _ _ _ _ _ _ _ _ _ _ _ _ )
    · rw [show (dat4 V c).leavesExact 0 t = owns (c : Thread nD τ) (ms4_0 t) fullShare ((dat4 V c).after 0 t) from by
          unfold Dat.leavesExact; rw [liveAt4_0 t], after4_0]
      rw [show (dat4 V c).leavesExact 1 t = owns (c : Thread nD τ) (ms4_1 t) fullShare ((dat4 V c).after 1 t) from by
          unfold Dat.leavesExact; rw [liveAt4_1 t], after4_1]
      rw [Dat.leavesExact_idle (dat4 V c) 2 t (idleAt4_2_B t (fun h => h0 ((hcond4_0 t).mp h)) (fun h => h1 ((hcond4_1 t).mp h))) (noFlush4_2_B t (fun h => h0 ((hcond4_0 t).mp h)) (fun h => h1 ((hcond4_1 t).mp h)))]
      rw [outsAt4_B V c t h0 h1]
      unfold sout4_B_0; (try dsimp only)
      rw [PhiS4_castSucc V c t, PhiS4_pos V c _ _ hz]
      iintro ⟨⟨⟨HS0, Hb⟩, Hg⟩, Ho, ⟨%d0, H0⟩, ⟨%d1, H1⟩, ⟨%d2, H2⟩⟩
      iapply ((kernelRun4_B c (grid4.coords t) _ _ _ _ _ _ _ _ (fun h => h0 ((hcond4_0 t).mp h)) (fun h => h1 ((hcond4_1 t).mp h)) (iblk4 V c 0 t) (iblk4 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hb Hg]
      · isplitl [HS0 Hb]
        · isplitl [HS0]
          · unfold owns; iexists _; isplitr
            swap; · iexact HS0
            ipureintro; exact View.read_writes_of_cover _ _ _ _ _ (scover4_B_0 c _ _ _ _ _ _ _ _ _ _ _ _ _ _ )
          iexact Hb
        iexact Hg
      isplitl [Ho]; · iexact Ho
      isplitl [H0]; · iexact H0
      isplitl [H1]; · iexact H1
      iexists _; iexact H2

/-- The body obligation, at every point. -/
theorem body_obligation4 (c : Dev nD) : BodyObligation (dat4 (F := F) V c) (defs₀ (F := F)) Variants.none () Set.univ := fun t => by
  rw [bigSep_W4, bigSep_W4]
  exact sound_body4 V c t

/-- What the region is entered with is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After any point but the first the invariant gives every scoped buffer back at anything. -/
theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨HS0, Hb⟩, Hg⟩
  isplitl [HS0 Hb]
  · isplitl [HS0]
    · iexists _; iexact HS0
    iexact Hb
  iexact Hg

theorem hout4 (c : Dev nD) : (dat4 V c).Φ (Fin.last cfg4.N) ⊢ Pipeline.ΦA spec4 c :=
  Phi_out4 V c _ (by rw [Fin.val_last]; have : cfg4.N = 32 := N_4; omega)

end Cert.KernelIdeal.Frm

end
-- ==== Proof.WholeRun.lean ====
/-
  The whole program as a run of segments: six stretches of host operations around five kernel regions. The contents
  of every buffer at each boundary are a fold from the launch memory — a host stretch applies its operations, a region
  replaces its arrays by what its grid leaves — and the run ends with every unscoped buffer at the last fold
  (`W11`). From that one run follow both that the arguments end as launched and what the result array holds.
-/
import proofs.«125955_j22462678958488_2_alg».proof.Proof.RegionQkv
import proofs.«125955_j22462678958488_2_alg».proof.Proof.RegionNormQ
import proofs.«125955_j22462678958488_2_alg».proof.Proof.RegionNormK
import proofs.«125955_j22462678958488_2_alg».proof.Proof.RegionAttn
import proofs.«125955_j22462678958488_2_alg».proof.Proof.RegionOutProj

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the host stretch `hostOps0`: region 0's entry contents. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the host stretch `hostOps1`: region 1's entry contents. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the host stretch `hostOps2`: region 2's entry contents. -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- At region 2's exit: its arrays at what the pipeline leaves, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the host stretch `hostOps3`: region 3's entry contents. -/
abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b
/-- At region 3's exit: its arrays at what the pipeline leaves, every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-- After the host stretch `hostOps4`: region 4's entry contents. -/
abbrev W9 : Dev nD → Valuation τ sig (Elt F) := fun c => StableHlo.after hostOps4 (W8 m ρ c)
abbrev V9 : (c : Dev nD) → (b : Ref sig .tc) → Buf (Elt F) ((c : Thread nD τ).loc b) := fun c b => W9 m ρ c b
/-- At region 4's exit: its arrays at what the pipeline leaves, every other buffer as entered. -/
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
abbrev V10 : (c : Dev nD) → (b : Ref sig .tc) → Buf (Elt F) ((c : Thread nD τ).loc b) := fun c b => W10 m ρ c b
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)

/-- After the last host stretch: the contents the program ends with. -/
abbrev W11 : Dev nD → Valuation τ sig (Elt F) := fun c => StableHlo.after hostOps5 (W10 m ρ c)

/-! ## The proof data family and the thread state -/

abbrev adm : (p : Fin 5) → (pcfgs (F := F) p).Adm := fun p => (cfgs p).toPCfg_adm
/-- Every pipeline's proof data, each at its region's entry contents. -/
def pdats : (p : Fin 5) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A host stretch as a segment over the unscoped buffers from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor
theorem hostOps4_fresh : (hostOps4 : List (HloOp τ sig (Elt F))).Forall fun op => op.fresh = ∅ := by
  simp only [List.Forall]; repeat' constructor
theorem hostOps5_fresh : (hostOps5 : List (HloOp τ sig (Elt F))).Forall fun op => op.fresh = ∅ := by
  simp only [List.Forall]; repeat' constructor

/-- The last thread state without the dues: every unscoped buffer at the last contents, the generator register at some state. -/
abbrev Tₙ (c : Dev nD) : sProp 𝕄 := iprop(StableHlo.held (c : Thread nD τ) (Pipeline.ucRefs τ sig) (W11 m ρ c) ∗ ∃ r, prngReg c r)

/-! ## The regions as segments -/

set_option backward.isDefEq.respectTransparency.types false in
/-- Region 0 over the thread state: entered from every unscoped buffer at `W1`, left at `W2`. Its arrays
    are split out of the unscoped buffers and put back at the exit contents; the generator register goes into the
    region's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop((∃ r, prngReg c r) ∗ Pipeline.prefHeld (pcfgs (F := F) 0).pre c (fun _ => fullShare) (adm 0).1
        ∗ Pipeline.scopedRest (Ix := Unit) (Name := ℕ) (U := UR sig nD τ) (Lvl := ℕ) (Val := Elt F) spec0 c) : sProp 𝕄) ⊢ Pipeline.ΦA spec0 c := by
      unfold Pipeline.ΦA
      iintro ⟨Hp, -, Hr⟩
      isplitl [Hr]; · iexact Hr
      iexact Hp
    exact h.trans (hin0 (V1 m ρ) c)
  hout c := by
    rw [Pipeline.ownSems0_none]
    have h : (Pipeline.ΦA spec0 c : sProp 𝕄) ⊢ iprop((∃ r, prngReg c r) ∗ BI.emp
        ∗ Pipeline.scopedRest (Ix := Unit) (Name := ℕ) (U := UR sig nD τ) (Lvl := ℕ) (Val := Elt F) spec0 c) := by
      unfold Pipeline.ΦA
      iintro ⟨Hr, Hp⟩
      isplitl [Hp]; · iexact Hp
      isplitr; · iempintro
      iexact Hr
    exact (hout0 (V1 m ρ) c).trans h
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays
    are split out of the unscoped buffers and put back at the exit contents; the generator register goes into the
    region's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`. Its arrays
    are split out of the unscoped buffers and put back at the exit contents; the generator register goes into the
    region's invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W7`, left at `W8`. Its arrays
    are split out of the unscoped buffers and put back at the exit contents; the generator register goes into the
    region's invariant and comes back; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at `W9`, left at `W10`. Its arrays
    are split out of the unscoped buffers and put back at the exit contents; the generator register goes into the
    region's invariant and comes back; nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop((∃ r, prngReg c r) ∗ Pipeline.prefHeld (pcfgs (F := F) 4).pre c (fun _ => fullShare) (adm 4).1
        ∗ Pipeline.scopedRest (Ix := Unit) (Name := ℕ) (U := UR sig nD τ) (Lvl := ℕ) (Val := Elt F) spec4 c) : sProp 𝕄) ⊢ Pipeline.ΦA spec4 c := by
      unfold Pipeline.ΦA
      iintro ⟨Hp, -, Hr⟩
      isplitl [Hr]; · iexact Hr
      iexact Hp
    exact h.trans (hin4 (V9 m ρ) c)
  hout c := by
    rw [Pipeline.ownSems0_none]
    have h : (Pipeline.ΦA spec4 c : sProp 𝕄) ⊢ iprop((∃ r, prngReg c r) ∗ BI.emp
        ∗ Pipeline.scopedRest (Ix := Unit) (Name := ℕ) (U := UR sig nD τ) (Lvl := ℕ) (Val := Elt F) spec4 c) := by
      unfold Pipeline.ΦA
      iintro ⟨Hr, Hp⟩
      isplitl [Hp]; · iexact Hp
      isplitr; · iempintro
      iexact Hr
    exact (hout4 (V9 m ρ) c).trans h
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)) ]

theorem main_run (c : Dev nD) : main (F := F) c = Pipeline.Seg.run (segs m ρ) := (main_chain c).trans (by chain_rfl)

set_option backward.isDefEq.respectTransparency.types false in
/-- From any memory with zero counters every weakly fair execution of the program terminates, nothing faulting, and in
    every final state each unscoped buffer of each core holds the last fold's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W11 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun c => by
        show (iprop(StableHlo.held (c : Thread nD τ) (Pipeline.ucRefs τ sig) (W11 m ρ c) ∗ R c) : sProp 𝕄)
          ⊢ iprop(Tₙ m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h => h)

/-- An unscoped reference of the TensorCore is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.KernelIdeal.Frm

end
-- ==== Proof.ArgsKept.lean ====
/-
  No host operation writes an argument array and no region changes one (a region reads it through an input window or
  leaves it aside), so the last fold at an argument's buffer walks back to the launch memory: the arguments end as
  launched.
-/
import proofs.«125955_j22462678958488_2_alg».proof.Proof.WholeRun
import Idealize.ShloMosaic.Lib.StableHlo.Run

set_option maxRecDepth 16384

noncomputable section

namespace Cert.KernelIdeal.Frm

open Cert.KernelIdeal Cert.KernelIdeal.Gen
open Idealize.ShloMosaic Idealize.ShloMosaic.TcCoe Idealize.ShloMosaic.StableHlo
open Idealize.ShloMosaic.Pipeline (Dat)

variable {F : FTy → Type} [FloatOps F]

section Keep
variable (W : Valuation τ sig (Elt F))
theorem keep0_arg0 : after hostOps0 W (main_arg0 : DevRef τ sig) = W (main_arg0 : DevRef τ sig) := by after_results
theorem keep0_arg1 : after hostOps0 W (main_arg1 : DevRef τ sig) = W (main_arg1 : DevRef τ sig) := by after_results
theorem keep0_arg2 : after hostOps0 W (main_arg2 : DevRef τ sig) = W (main_arg2 : DevRef τ sig) := by after_results
theorem keep0_arg3 : after hostOps0 W (main_arg3 : DevRef τ sig) = W (main_arg3 : DevRef τ sig) := by after_results
theorem keep0_arg4 : after hostOps0 W (main_arg4 : DevRef τ sig) = W (main_arg4 : DevRef τ sig) := by after_results
theorem keep0_arg5 : after hostOps0 W (main_arg5 : DevRef τ sig) = W (main_arg5 : DevRef τ sig) := by after_results
theorem keep0_arg6 : after hostOps0 W (main_arg6 : DevRef τ sig) = W (main_arg6 : DevRef τ sig) := by after_results
theorem keep0_arg7 : after hostOps0 W (main_arg7 : DevRef τ sig) = W (main_arg7 : DevRef τ sig) := by after_results
theorem keep0_arg8 : after hostOps0 W (main_arg8 : DevRef τ sig) = W (main_arg8 : DevRef τ sig) := by after_results
theorem keep0_arg9 : after hostOps0 W (main_arg9 : DevRef τ sig) = W (main_arg9 : DevRef τ sig) := by after_results
theorem keep0_arg10 : after hostOps0 W (main_arg10 : DevRef τ sig) = W (main_arg10 : DevRef τ sig) := by after_results
theorem keep1_arg0 : after hostOps1 W (main_arg0 : DevRef τ sig) = W (main_arg0 : DevRef τ sig) := by after_results
theorem keep1_arg1 : after hostOps1 W (main_arg1 : DevRef τ sig) = W (main_arg1 : DevRef τ sig) := by after_results
theorem keep1_arg2 : after hostOps1 W (main_arg2 : DevRef τ sig) = W (main_arg2 : DevRef τ sig) := by after_results
theorem keep1_arg3 : after hostOps1 W (main_arg3 : DevRef τ sig) = W (main_arg3 : DevRef τ sig) := by after_results
theorem keep1_arg4 : after hostOps1 W (main_arg4 : DevRef τ sig) = W (main_arg4 : DevRef τ sig) := by after_results
theorem keep1_arg5 : after hostOps1 W (main_arg5 : DevRef τ sig) = W (main_arg5 : DevRef τ sig) := by after_results
theorem keep1_arg6 : after hostOps1 W (main_arg6 : DevRef τ sig) = W (main_arg6 : DevRef τ sig) := by after_results
theorem keep1_arg7 : after hostOps1 W (main_arg7 : DevRef τ sig) = W (main_arg7 : DevRef τ sig) := by after_results
theorem keep1_arg8 : after hostOps1 W (main_arg8 : DevRef τ sig) = W (main_arg8 : DevRef τ sig) := by after_results
theorem keep1_arg9 : after hostOps1 W (main_arg9 : DevRef τ sig) = W (main_arg9 : DevRef τ sig) := by after_results
theorem keep1_arg10 : after hostOps1 W (main_arg10 : DevRef τ sig) = W (main_arg10 : DevRef τ sig) := by after_results
theorem keep2_arg0 : after hostOps2 W (main_arg0 : DevRef τ sig) = W (main_arg0 : DevRef τ sig) := by after_results
theorem keep2_arg1 : after hostOps2 W (main_arg1 : DevRef τ sig) = W (main_arg1 : DevRef τ sig) := by after_results
theorem keep2_arg2 : after hostOps2 W (main_arg2 : DevRef τ sig) = W (main_arg2 : DevRef τ sig) := by after_results
theorem keep2_arg3 : after hostOps2 W (main_arg3 : DevRef τ sig) = W (main_arg3 : DevRef τ sig) := by after_results
theorem keep2_arg4 : after hostOps2 W (main_arg4 : DevRef τ sig) = W (main_arg4 : DevRef τ sig) := by after_results
theorem keep2_arg5 : after hostOps2 W (main_arg5 : DevRef τ sig) = W (main_arg5 : DevRef τ sig) := by after_results
theorem keep2_arg6 : after hostOps2 W (main_arg6 : DevRef τ sig) = W (main_arg6 : DevRef τ sig) := by after_results
theorem keep2_arg7 : after hostOps2 W (main_arg7 : DevRef τ sig) = W (main_arg7 : DevRef τ sig) := by after_results
theorem keep2_arg8 : after hostOps2 W (main_arg8 : DevRef τ sig) = W (main_arg8 : DevRef τ sig) := by after_results
theorem keep2_arg9 : after hostOps2 W (main_arg9 : DevRef τ sig) = W (main_arg9 : DevRef τ sig) := by after_results
theorem keep2_arg10 : after hostOps2 W (main_arg10 : DevRef τ sig) = W (main_arg10 : DevRef τ sig) := by after_results
theorem keep3_arg0 : after hostOps3 W (main_arg0 : DevRef τ sig) = W (main_arg0 : DevRef τ sig) := by after_results
theorem keep3_arg1 : after hostOps3 W (main_arg1 : DevRef τ sig) = W (main_arg1 : DevRef τ sig) := by after_results
theorem keep3_arg2 : after hostOps3 W (main_arg2 : DevRef τ sig) = W (main_arg2 : DevRef τ sig) := by after_results
theorem keep3_arg3 : after hostOps3 W (main_arg3 : DevRef τ sig) = W (main_arg3 : DevRef τ sig) := by after_results
theorem keep3_arg4 : after hostOps3 W (main_arg4 : DevRef τ sig) = W (main_arg4 : DevRef τ sig) := by after_results
theorem keep3_arg5 : after hostOps3 W (main_arg5 : DevRef τ sig) = W (main_arg5 : DevRef τ sig) := by after_results
theorem keep3_arg6 : after hostOps3 W (main_arg6 : DevRef τ sig) = W (main_arg6 : DevRef τ sig) := by after_results
theorem keep3_arg7 : after hostOps3 W (main_arg7 : DevRef τ sig) = W (main_arg7 : DevRef τ sig) := by after_results
theorem keep3_arg8 : after hostOps3 W (main_arg8 : DevRef τ sig) = W (main_arg8 : DevRef τ sig) := by after_results
theorem keep3_arg9 : after hostOps3 W (main_arg9 : DevRef τ sig) = W (main_arg9 : DevRef τ sig) := by after_results
theorem keep3_arg10 : after hostOps3 W (main_arg10 : DevRef τ sig) = W (main_arg10 : DevRef τ sig) := by after_results
theorem keep4_arg0 : after hostOps4 W (main_arg0 : DevRef τ sig) = W (main_arg0 : DevRef τ sig) := by after_results
theorem keep4_arg1 : after hostOps4 W (main_arg1 : DevRef τ sig) = W (main_arg1 : DevRef τ sig) := by after_results
theorem keep4_arg2 : after hostOps4 W (main_arg2 : DevRef τ sig) = W (main_arg2 : DevRef τ sig) := by after_results
theorem keep4_arg3 : after hostOps4 W (main_arg3 : DevRef τ sig) = W (main_arg3 : DevRef τ sig) := by after_results
theorem keep4_arg4 : after hostOps4 W (main_arg4 : DevRef τ sig) = W (main_arg4 : DevRef τ sig) := by after_results
theorem keep4_arg5 : after hostOps4 W (main_arg5 : DevRef τ sig) = W (main_arg5 : DevRef τ sig) := by after_results
theorem keep4_arg6 : after hostOps4 W (main_arg6 : DevRef τ sig) = W (main_arg6 : DevRef τ sig) := by after_results
theorem keep4_arg7 : after hostOps4 W (main_arg7 : DevRef τ sig) = W (main_arg7 : DevRef τ sig) := by after_results
theorem keep4_arg8 : after hostOps4 W (main_arg8 : DevRef τ sig) = W (main_arg8 : DevRef τ sig) := by after_results
theorem keep4_arg9 : after hostOps4 W (main_arg9 : DevRef τ sig) = W (main_arg9 : DevRef τ sig) := by after_results
theorem keep4_arg10 : after hostOps4 W (main_arg10 : DevRef τ sig) = W (main_arg10 : DevRef τ sig) := by after_results
theorem keep5_arg0 : after hostOps5 W (main_arg0 : DevRef τ sig) = W (main_arg0 : DevRef τ sig) := by after_results
theorem keep5_arg1 : after hostOps5 W (main_arg1 : DevRef τ sig) = W (main_arg1 : DevRef τ sig) := by after_results
theorem keep5_arg2 : after hostOps5 W (main_arg2 : DevRef τ sig) = W (main_arg2 : DevRef τ sig) := by after_results
theorem keep5_arg3 : after hostOps5 W (main_arg3 : DevRef τ sig) = W (main_arg3 : DevRef τ sig) := by after_results
theorem keep5_arg4 : after hostOps5 W (main_arg4 : DevRef τ sig) = W (main_arg4 : DevRef τ sig) := by after_results
theorem keep5_arg5 : after hostOps5 W (main_arg5 : DevRef τ sig) = W (main_arg5 : DevRef τ sig) := by after_results
theorem keep5_arg6 : after hostOps5 W (main_arg6 : DevRef τ sig) = W (main_arg6 : DevRef τ sig) := by after_results
theorem keep5_arg7 : after hostOps5 W (main_arg7 : DevRef τ sig) = W (main_arg7 : DevRef τ sig) := by after_results
theorem keep5_arg8 : after hostOps5 W (main_arg8 : DevRef τ sig) = W (main_arg8 : DevRef τ sig) := by after_results
theorem keep5_arg9 : after hostOps5 W (main_arg9 : DevRef τ sig) = W (main_arg9 : DevRef τ sig) := by after_results
theorem keep5_arg10 : after hostOps5 W (main_arg10 : DevRef τ sig) = W (main_arg10 : DevRef τ sig) := by after_results
end Keep

variable (m : (ℓ : Loc nD τ sig) → Buf (Elt F) ℓ) (ρ : Dev nD → PrngReg)

theorem W11_arg0 (c : Dev nD) : W11 m ρ c (main_arg0 : DevRef τ sig) = m ((c : Thread nD τ).loc main_arg0) :=
  (keep5_arg0 (W10 m ρ c)).trans <| (W10_of_ne m ρ c main_arg0 (by decide)).trans <| (keep4_arg0 (W8 m ρ c)).trans <| (W8_of_ne m ρ c main_arg0 (by decide)).trans <| (keep3_arg0 (W6 m ρ c)).trans <| (W6_of_ne m ρ c main_arg0 (by decide)).trans <| (keep2_arg0 (W4 m ρ c)).trans <| (W4_of_ne m ρ c main_arg0 (by decide)).trans <| (keep1_arg0 (W2 m ρ c)).trans <| (W2_of_ne m ρ c main_arg0 (by decide)).trans <| (keep0_arg0 (W0 m ρ c)).trans rfl
theorem W11_arg1 (c : Dev nD) : W11 m ρ c (main_arg1 : DevRef τ sig) = m ((c : Thread nD τ).loc main_arg1) :=
  (keep5_arg1 (W10 m ρ c)).trans <| (W10_of_ne m ρ c main_arg1 (by decide)).trans <| (keep4_arg1 (W8 m ρ c)).trans <| ((W8_arr m ρ c 1).trans (((dat3 (V7 m ρ) c).arrAt_in 1 rfl _).trans (A_eq3 (V7 m ρ) c 1))).trans <| (keep3_arg1 (W6 m ρ c)).trans <| (W6_of_ne m ρ c main_arg1 (by decide)).trans <| (keep2_arg1 (W4 m ρ c)).trans <| (W4_of_ne m ρ c main_arg1 (by decide)).trans <| (keep1_arg1 (W2 m ρ c)).trans <| (W2_of_ne m ρ c main_arg1 (by decide)).trans <| (keep0_arg1 (W0 m ρ c)).trans rfl
theorem W11_arg2 (c : Dev nD) : W11 m ρ c (main_arg2 : DevRef τ sig) = m ((c : Thread nD τ).loc main_arg2) :=
  (keep5_arg2 (W10 m ρ c)).trans <| (W10_of_ne m ρ c main_arg2 (by decide)).trans <| (keep4_arg2 (W8 m ρ c)).trans <| ((W8_arr m ρ c 2).trans (((dat3 (V7 m ρ) c).arrAt_in 2 rfl _).trans (A_eq3 (V7 m ρ) c 2))).trans <| (keep3_arg2 (W6 m ρ c)).trans <| (W6_of_ne m ρ c main_arg2 (by decide)).trans <| (keep2_arg2 (W4 m ρ c)).trans <| (W4_of_ne m ρ c main_arg2 (by decide)).trans <| (keep1_arg2 (W2 m ρ c)).trans <| (W2_of_ne m ρ c main_arg2 (by decide)).trans <| (keep0_arg2 (W0 m ρ c)).trans rfl
theorem W11_arg3 (c : Dev nD) : W11 m ρ c (main_arg3 : DevRef τ sig) = m ((c : Thread nD τ).loc main_arg3) :=
  (keep5_arg3 (W10 m ρ c)).trans <| (W10_of_ne m ρ c main_arg3 (by decide)).trans <| (keep4_arg3 (W8 m ρ c)).trans <| (W8_of_ne m ρ c main_arg3 (by decide)).trans <| (keep3_arg3 (W6 m ρ c)).trans <| ((W6_arr m ρ c 1).trans (((dat2 (V5 m ρ) c).arrAt_in 1 rfl _).trans (A_eq2 (V5 m ρ) c 1))).trans <| (keep2_arg3 (W4 m ρ c)).trans <| ((W4_arr m ρ c 1).trans (((dat1 (V3 m ρ) c).arrAt_in 1 rfl _).trans (A_eq1 (V3 m ρ) c 1))).trans <| (keep1_arg3 (W2 m ρ c)).trans <| (W2_of_ne m ρ c main_arg3 (by decide)).trans <| (keep0_arg3 (W0 m ρ c)).trans rfl
theorem W11_arg4 (c : Dev nD) : W11 m ρ c (main_arg4 : DevRef τ sig) = m ((c : Thread nD τ).loc main_arg4) :=
  (keep5_arg4 (W10 m ρ c)).trans <| (W10_of_ne m ρ c main_arg4 (by decide)).trans <| (keep4_arg4 (W8 m ρ c)).trans <| (W8_of_ne m ρ c main_arg4 (by decide)).trans <| (keep3_arg4 (W6 m ρ c)).trans <| ((W6_arr m ρ c 2).trans (((dat2 (V5 m ρ) c).arrAt_in 2 rfl _).trans (A_eq2 (V5 m ρ) c 2))).trans <| (keep2_arg4 (W4 m ρ c)).trans <| ((W4_arr m ρ c 2).trans (((dat1 (V3 m ρ) c).arrAt_in 2 rfl _).trans (A_eq1 (V3 m ρ) c 2))).trans <| (keep1_arg4 (W2 m ρ c)).trans <| (W2_of_ne m ρ c main_arg4 (by decide)).trans <| (keep0_arg4 (W0 m ρ c)).trans rfl
theorem W11_arg5 (c : Dev nD) : W11 m ρ c (main_arg5 : DevRef τ sig) = m ((c : Thread nD τ).loc main_arg5) :=
  (keep5_arg5 (W10 m ρ c)).trans <| (W10_of_ne m ρ c main_arg5 (by decide)).trans <| (keep4_arg5 (W8 m ρ c)).trans <| (W8_of_ne m ρ c main_arg5 (by decide)).trans <| (keep3_arg5 (W6 m ρ c)).trans <| (W6_of_ne m ρ c main_arg5 (by decide)).trans <| (keep2_arg5 (W4 m ρ c)).trans <| (W4_of_ne m ρ c main_arg5 (by decide)).trans <| (keep1_arg5 (W2 m ρ c)).trans <| (W2_of_ne m ρ c main_arg5 (by decide)).trans <| (keep0_arg5 (W0 m ρ c)).trans rfl
theorem W11_arg6 (c : Dev nD) : W11 m ρ c (main_arg6 : DevRef τ sig) = m ((c : Thread nD τ).loc main_arg6) :=
  (keep5_arg6 (W10 m ρ c)).trans <| (W10_of_ne m ρ c main_arg6 (by decide)).trans <| (keep4_arg6 (W8 m ρ c)).trans <| (W8_of_ne m ρ c main_arg6 (by decide)).trans <| (keep3_arg6 (W6 m ρ c)).trans <| (W6_of_ne m ρ c main_arg6 (by decide)).trans <| (keep2_arg6 (W4 m ρ c)).trans <| (W4_of_ne m ρ c main_arg6 (by decide)).trans <| (keep1_arg6 (W2 m ρ c)).trans <| (W2_of_ne m ρ c main_arg6 (by decide)).trans <| (keep0_arg6 (W0 m ρ c)).trans rfl
theorem W11_arg7 (c : Dev nD) : W11 m ρ c (main_arg7 : DevRef τ sig) = m ((c : Thread nD τ).loc main_arg7) :=
  (keep5_arg7 (W10 m ρ c)).trans <| (W10_of_ne m ρ c main_arg7 (by decide)).trans <| (keep4_arg7 (W8 m ρ c)).trans <| (W8_of_ne m ρ c main_arg7 (by decide)).trans <| (keep3_arg7 (W6 m ρ c)).trans <| (W6_of_ne m ρ c main_arg7 (by decide)).trans <| (keep2_arg7 (W4 m ρ c)).trans <| (W4_of_ne m ρ c main_arg7 (by decide)).trans <| (keep1_arg7 (W2 m ρ c)).trans <| (W2_of_ne m ρ c main_arg7 (by decide)).trans <| (keep0_arg7 (W0 m ρ c)).trans rfl
theorem W11_arg8 (c : Dev nD) : W11 m ρ c (main_arg8 : DevRef τ sig) = m ((c : Thread nD τ).loc main_arg8) :=
  (keep5_arg8 (W10 m ρ c)).trans <| (W10_of_ne m ρ c main_arg8 (by decide)).trans <| (keep4_arg8 (W8 m ρ c)).trans <| (W8_of_ne m ρ c main_arg8 (by decide)).trans <| (keep3_arg8 (W6 m ρ c)).trans <| (W6_of_ne m ρ c main_arg8 (by decide)).trans <| (keep2_arg8 (W4 m ρ c)).trans <| (W4_of_ne m ρ c main_arg8 (by decide)).trans <| (keep1_arg8 (W2 m ρ c)).trans <| (W2_of_ne m ρ c main_arg8 (by decide)).trans <| (keep0_arg8 (W0 m ρ c)).trans rfl
theorem W11_arg9 (c : Dev nD) : W11 m ρ c (main_arg9 : DevRef τ sig) = m ((c : Thread nD τ).loc main_arg9) :=
  (keep5_arg9 (W10 m ρ c)).trans <| (W10_of_ne m ρ c main_arg9 (by decide)).trans <| (keep4_arg9 (W8 m ρ c)).trans <| (W8_of_ne m ρ c main_arg9 (by decide)).trans <| (keep3_arg9 (W6 m ρ c)).trans <| (W6_of_ne m ρ c main_arg9 (by decide)).trans <| (keep2_arg9 (W4 m ρ c)).trans <| (W4_of_ne m ρ c main_arg9 (by decide)).trans <| (keep1_arg9 (W2 m ρ c)).trans <| (W2_of_ne m ρ c main_arg9 (by decide)).trans <| (keep0_arg9 (W0 m ρ c)).trans rfl
theorem W11_arg10 (c : Dev nD) : W11 m ρ c (main_arg10 : DevRef τ sig) = m ((c : Thread nD τ).loc main_arg10) :=
  (keep5_arg10 (W10 m ρ c)).trans <| (W10_of_ne m ρ c main_arg10 (by decide)).trans <| (keep4_arg10 (W8 m ρ c)).trans <| (W8_of_ne m ρ c main_arg10 (by decide)).trans <| (keep3_arg10 (W6 m ρ c)).trans <| (W6_of_ne m ρ c main_arg10 (by decide)).trans <| (keep2_arg10 (W4 m ρ c)).trans <| (W4_of_ne m ρ c main_arg10 (by decide)).trans <| (keep1_arg10 (W2 m ρ c)).trans <| (W2_of_ne m ρ c main_arg10 (by decide)).trans <| (keep0_arg10 (W0 m ρ c)).trans rfl

end Cert.KernelIdeal.Frm

end
-- ==== Proof.AttentionSpec.lean ====
/-
  The attention block both programs compute, written once as plain functions of the eleven argument arrays on the
  extended reals — no program is mentioned here.

  With x the activations [2, 1024, 2048], Wq / Wk / Wv the projection weights, Wo the output weights, ck / cv the cached
  keys and values [2, 8, 2048, 64], cos / sin the rotary tables [1024, 32] and qw / kw the normalisation weights [64]:

    * a projection is the product of a row of x with a row of a weight matrix, summed over the 2048 channels;
    * a head vector t (64 entries) is normalised to  t d · rsqrt((Σ t²) / 64 + ε) · w d,  and rotated: its first half
      becomes t₁·cos − t₂·sin and its second half t₁·sin + t₂·cos, at the row's position;
    * the keys (values) of a key/value head are the 2048 cached rows followed by the 1024 current rows;
    * query head h reads key/value head h / 4; its scores are the products with all 3072 keys times 1/8, its weights the
      softmax of the scores along the keys (shifted by the row maximum), its output the weighted sum of the values;
    * the result is the product of the heads' outputs, laid side by side as 2048 channels, with the rows of Wo.

  Sums are `Finset` sums over literal `Fin n`; the float literals stay as their words (64, ε = f32(1e-6), 1/8, -inf, 0).
-/
import Idealize.ShloMosaic.PureOps.Ideal
import Idealize.ShloMosaic.Lib.ValueIdx

noncomputable section

namespace Cert.Spec

open Idealize.ShloMosaic Idealize.ShloMosaic.ValueIdx

/-- An array of extended reals of a literal shape. -/
abbrev Arr (s : Shape) : Type := s.Idx → EReal

/-- The literals, as the words both programs carry. -/
def c64 : EReal := Ideal.ofBits .f32 0x42800000#32
def eps : EReal := Ideal.ofBits .f32 0x358637BD#32
def eighth : EReal := Ideal.ofBits .f32 0x3E000000#32
def negInf : EReal := Ideal.ofBits .f32 0xFF800000#32

/-- Channel `h · 64 + d` of a row of `n · 64` channels. -/
def chan {n : Nat} (h : Fin n) (d : Fin 64) : Fin (n * 64) :=
  ⟨h.val * 64 + d.val, by have := h.isLt; have := d.isLt; nlinarith⟩

/-- Row (b, l) of the activations against row `j` of a weight matrix. -/
def proj {n : Nat} (x : Arr ⟨3, ![2, 1024, 2048]⟩) (W : Arr ⟨2, ![n, 2048]⟩) (b : Fin 2) (l : Fin 1024) (j : Fin n) : EReal :=
  ∑ k : Fin 2048, x (ix3 b l k) * W (ix2 j k)

/-- The normalising factor of a head vector. -/
def rmsScale (t : Fin 64 → EReal) : EReal :=
  Ideal.rsqrt (Ideal.div (∑ d : Fin 64, t d * t d) c64 + eps)

/-- A head vector normalised and weighted. -/
def normed (t w : Fin 64 → EReal) (d : Fin 64) : EReal := t d * rmsScale t * w d

/-- The lower and upper partner of entry `d` under the half rotation, and its column in the tables. -/
def lo (d : Fin 64) : Fin 64 := ⟨d.val % 32, by have := Nat.mod_lt d.val (by norm_num : 0 < 32); omega⟩
def hi (d : Fin 64) : Fin 64 := ⟨d.val % 32 + 32, by have := Nat.mod_lt d.val (by norm_num : 0 < 32); omega⟩
def col (d : Fin 64) : Fin 32 := ⟨d.val % 32, Nat.mod_lt _ (by norm_num)⟩

/-- The rotary embedding of a head vector at a row whose table rows are `c` and `s`. -/
def rope (t : Fin 64 → EReal) (c s : Fin 32 → EReal) (d : Fin 64) : EReal :=
  if d.val < 32 then t (lo d) * c (col d) - t (hi d) * s (col d) else t (lo d) * s (col d) + t (hi d) * c (col d)

section Block

variable (x : Arr ⟨3, ![2, 1024, 2048]⟩) (ck cv : Arr ⟨4, ![2, 8, 2048, 64]⟩) (cos sin : Arr ⟨2, ![1024, 32]⟩)
  (Wq : Arr ⟨2, ![2048, 2048]⟩) (Wk Wv : Arr ⟨2, ![512, 2048]⟩) (Wo : Arr ⟨2, ![2048, 2048]⟩) (qw kw : Arr ⟨1, ![64]⟩)

/-- The raw query, key and value head vectors. -/
def qRaw (b : Fin 2) (h : Fin 32) (l : Fin 1024) (d : Fin 64) : EReal := proj (n := 32 * 64) x Wq b l (chan h d)
def kRaw (b : Fin 2) (g : Fin 8) (l : Fin 1024) (d : Fin 64) : EReal := proj (n := 8 * 64) x Wk b l (chan g d)
def vRaw (b : Fin 2) (g : Fin 8) (l : Fin 1024) (d : Fin 64) : EReal := proj (n := 8 * 64) x Wv b l (chan g d)

/-- The normalised, rotated query and key head vectors. -/
def qHead (b : Fin 2) (h : Fin 32) (l : Fin 1024) (d : Fin 64) : EReal :=
  rope (normed (qRaw x Wq b h l) fun e => qw (ix1 e)) (fun e => cos (ix2 l e)) (fun e => sin (ix2 l e)) d
def kHead (b : Fin 2) (g : Fin 8) (l : Fin 1024) (d : Fin 64) : EReal :=
  rope (normed (kRaw x Wk b g l) fun e => kw (ix1 e)) (fun e => cos (ix2 l e)) (fun e => sin (ix2 l e)) d

/-- The 3072 keys and values of a key/value head: the cached rows, then the current rows. -/
def keyRow (b : Fin 2) (g : Fin 8) (j : Fin 3072) (d : Fin 64) : EReal :=
  if h : j.val < 2048 then ck (ix4 b g ⟨j.val, h⟩ d) else kHead x cos sin Wk kw b g ⟨j.val - 2048, by have := j.isLt; omega⟩ d
def valRow (b : Fin 2) (g : Fin 8) (j : Fin 3072) (d : Fin 64) : EReal :=
  if h : j.val < 2048 then cv (ix4 b g ⟨j.val, h⟩ d) else vRaw x Wv b g ⟨j.val - 2048, by have := j.isLt; omega⟩ d

/-- The key/value head a query head reads. -/
def group (h : Fin 32) : Fin 8 := ⟨h.val / 4, by have := h.isLt; omega⟩

/-- The scaled scores of query row (b, h, q). -/
def score (b : Fin 2) (h : Fin 32) (q : Fin 1024) (j : Fin 3072) : EReal :=
  (∑ d : Fin 64, qHead x cos sin Wq qw b h q d * keyRow x ck cos sin Wk kw b (group h) j d) * eighth

/-- The softmax weights of a row of scores: shifted by the row maximum, exponentiated, divided by their sum. -/
def rowMax (s : Fin 3072 → EReal) : EReal := Finset.univ.fold max negInf s
def softmaxRow (s : Fin 3072 → EReal) (j : Fin 3072) : EReal :=
  Ideal.div (Ideal.exp (s j - rowMax s)) (∑ j' : Fin 3072, Ideal.exp (s j' - rowMax s))

/-- The attention output of query row (b, h, q). -/
def attnOut (b : Fin 2) (h : Fin 32) (q : Fin 1024) (d : Fin 64) : EReal :=
  ∑ j : Fin 3072, softmaxRow (score x ck cos sin Wq Wk qw kw b h q) j * valRow x cv Wv b (group h) j d

/-- The head and the entry of channel `e` of a 2048-channel row. -/
def headOf (e : Fin 2048) : Fin 32 := ⟨e.val / 64, by have := e.isLt; omega⟩
def entryOf (e : Fin 2048) : Fin 64 := ⟨e.val % 64, Nat.mod_lt _ (by norm_num)⟩

/-- The block's result at (b, l, c). -/
def out (b : Fin 2) (l : Fin 1024) (c : Fin 2048) : EReal :=
  ∑ e : Fin 2048, attnOut x ck cv cos sin Wq Wk Wv qw kw b (headOf e) l (entryOf e) * Wo (ix2 c e)

/-- The result array. -/
def result : Arr ⟨3, ![2, 1024, 2048]⟩ := fun i => out x ck cv cos sin Wq Wk Wv Wo qw kw (i 0) (i 1) (i 2)

end Block

end Cert.Spec

end
-- ==== Proof.RegionSpec.lean ====
/-
  Each kernel region of the program as a function of its operand arrays, program-free: the blocked matrix product as
  the plain product, the normalise-and-rotate region, and the grouped attention region over the stacked cache and
  current rows. The program's value is the composition of these with re-layouts of the arrays between them.
-/
import proofs.«125955_j22462678958488_2_alg».proof.Proof.AttentionSpec

noncomputable section

namespace Cert.Spec

open Idealize.ShloMosaic Idealize.ShloMosaic.ValueIdx

/-- The product of a matrix with the transpose of another: rows against rows. -/
def matmulT {M N K : Nat} (A : Arr ⟨2, ![M, K]⟩) (B : Arr ⟨2, ![N, K]⟩) : Arr ⟨2, ![M, N]⟩ :=
  fun i => ∑ k : Fin K, A (ix2 (i 0) k) * B (ix2 (i 1) k)

/-- Every head vector of `x` normalised, weighted by the row `w` and rotated by the tables at its position. -/
def normRegion {H : Nat} (x : Arr ⟨4, ![2, H, 1024, 64]⟩) (cos sin : Arr ⟨2, ![1024, 32]⟩) (w : Arr ⟨2, ![1, 64]⟩) :
    Arr ⟨4, ![2, H, 1024, 64]⟩ :=
  fun i => rope (normed (fun e => x (ix4 (i 0) (i 1) (i 2) e)) fun e => w (ix2 0 e))
    (fun e => cos (ix2 (i 2) e)) (fun e => sin (ix2 (i 2) e)) (i 3)

/-- Row `j` of the 3072 stacked rows of a key/value head: a cached row, or a current row. -/
def stackRow (c : Arr ⟨4, ![2, 8, 2048, 64]⟩) (u : Arr ⟨4, ![2, 8, 1024, 64]⟩) (b : Fin 2) (g : Fin 8) (j : Fin 3072) (d : Fin 64) : EReal :=
  if h : j.val < 2048 then c (ix4 b g ⟨j.val, h⟩ d) else u (ix4 b g ⟨j.val - 2048, by have := j.isLt; omega⟩ d)

/-- The scaled scores of the query row (b, g, r, l) of a grouped query array against the stacked keys. -/
def scoreRow (q5 : Arr ⟨5, ![2, 8, 4, 1024, 64]⟩) (ck : Arr ⟨4, ![2, 8, 2048, 64]⟩) (uk : Arr ⟨4, ![2, 8, 1024, 64]⟩)
    (b : Fin 2) (g : Fin 8) (r : Fin 4) (l : Fin 1024) (j : Fin 3072) : EReal :=
  (∑ e : Fin 64, q5 (ix5 b g r l e) * stackRow ck uk b g j e) * eighth

/-- Grouped attention: each of the four query heads of a key/value head against that head's stacked keys and values. -/
def attnRegion (q5 : Arr ⟨5, ![2, 8, 4, 1024, 64]⟩) (ck cv : Arr ⟨4, ![2, 8, 2048, 64]⟩) (uk uv : Arr ⟨4, ![2, 8, 1024, 64]⟩) :
    Arr ⟨5, ![2, 8, 4, 1024, 64]⟩ :=
  fun i => ∑ j : Fin 3072, softmaxRow (scoreRow q5 ck uk (i 0) (i 1) (i 2) (i 3)) j * stackRow cv uv (i 0) (i 1) j (i 4)

end Cert.Spec

end
-- ==== Proof.LibColumns.lean ====
/-
  Re-layouts of small ranks read at an index, in the style of the value library's own lemmas: a block with two
  leading unit axes viewed as a matrix and back, a vector made a column, a column broadcast over the columns of a
  matrix, and a row sum of a matrix at the ideal values as a plain sum over the row.
-/
import Idealize.ShloMosaic.Lib.ValueLayout
import Idealize.ShloMosaic.PureOps.Ideal.Laws

namespace Idealize.ShloMosaic.ValueIdx

open Idealize.ShloMosaic

variable {α : Type}

/-- A `[1, 1, a, b]` block viewed `[a, b]` reads, at `(p, q)`, the block at `(0, 0, p, q)`. -/
theorem shapeCast_11ab_ab_apply {a b : ℕ} (x : (⟨4, ![1, 1, a, b]⟩ : Shape).Idx → α)
    (h : (⟨4, ![1, 1, a, b]⟩ : Shape).ShapeCasts ⟨2, ![a, b]⟩) (p : Fin a) (q : Fin b) :
    shapeCast ⟨2, ![a, b]⟩ x h (ix2 p q) = x (ix4 (0 : Fin 1) (0 : Fin 1) p q) :=
  shapeCast_apply x h _ _ (by
    rw [Shape.rowMajor_val_four, Shape.rowMajor_val_two]
    show ((0 * 1 + 0) * a + p.val) * b + q.val = p.val * b + q.val
    simp)

/-- An `[a, b]` matrix stored as a `[1, 1, a, b]` block reads, at `(u, v, p, q)`, the matrix at `(p, q)`. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (p : Fin a) (q : Fin b) :
    shapeCast ⟨4, ![1, 1, a, b]⟩ x h (ix4 u v p q) = x (ix2 p q) :=
  shapeCast_apply x h _ _ (by
    have hu : u.val = 0 := by omega
    have hv : v.val = 0 := by omega
    rw [Shape.rowMajor_val_four, Shape.rowMajor_val_two]
    show p.val * b + q.val = ((u.val * 1 + v.val) * a + p.val) * b + q.val
    rw [hu, hv]; simp)

/-- An `[a]` vector made a column `[a, 1]` reads, at `(p, z)`, the vector at `p`. -/
theorem shapeCast_a_a1_apply {a : ℕ} (x : (⟨1, ![a]⟩ : Shape).Idx → α) (h : (⟨1, ![a]⟩ : Shape).ShapeCasts ⟨2, ![a, 1]⟩)
    (p : Fin a) (z : Fin 1) : shapeCast ⟨2, ![a, 1]⟩ x h (ix2 p z) = x (ix1 p) :=
  shapeCast_apply x h _ _ (by
    have hz : z.val = 0 := by omega
    rw [Shape.rowMajor_val_two, Shape.rowMajor_val_one]
    show p.val = p.val * 1 + z.val
    rw [hz]; simp)

/-- A column `[a, 1]` broadcast to `[a, b]` reads, at `(p, q)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- At the ideal values the sum of a matrix along its rows is, at row `p`, the plain sum of the row's entries. -/
theorem rowSum_apply {a b : ℕ} {φ : FTy} (X : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ X acc h hφ hacc (ix1 p) = ∑ k : Fin b, X (ix2 p k) :=
  (Ideal.multiReduction_add_single X acc h hφ hacc (ix1 p)).trans
    (Finset.sum_congr rfl fun k _ => congrArg X (funext fun ax => Fin.ext (by
      match ax with
      | ⟨0, _⟩ => rfl
      | ⟨1, _⟩ => rfl)))

/-- At the ideal values the maximum of a matrix along its rows is, at row `p`, the fold of `max` over the row from the
    initial word's value. -/
theorem rowMax_apply {a b : ℕ} {φ : FTy} (X : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ X acc h hφ hacc (ix1 p)
      = (Finset.univ : Finset (Fin b)).fold max (Ideal.ofBits φ acc) fun k => X (ix2 p k) :=
  (Ideal.multiReduction_maximumf_single X acc h hφ hacc (ix1 p)).trans
    (congrArg (Finset.fold max (Ideal.ofBits φ acc) · Finset.univ) (funext fun k => congrArg X (funext fun ax => Fin.ext (by
      match ax with
      | ⟨0, _⟩ => rfl
      | ⟨1, _⟩ => rfl))))

end Idealize.ShloMosaic.ValueIdx
-- ==== Proof.NormRopePayload.lean ====
/-
  The body of the normalise-and-rotate regions as a function, entry by entry, at the ideal values. Its one payload is
  read in two stages: the rows of the block normalised and weighted (a row sum of squares, a quotient by 64, an
  added epsilon, a reciprocal square root broadcast back over the row, the weight row broadcast over the rows), then
  the rotation assembled from the two half-width slices of that, the cosine and sine tables and a concatenation.
  At an entry (0, 0, l, d) the result is the specification's `rope (normed t w) cos_l sin_l d` with `t` row `l` of the block.
-/
import proofs.«125955_j22462678958488_2_alg».proof.Proof.Gen.KernelIdeal.Skeleton
import proofs.«125955_j22462678958488_2_alg».proof.Proof.RegionSpec
import proofs.«125955_j22462678958488_2_alg».proof.Proof.LibColumns

noncomputable section

namespace Cert.KernelIdeal.Val

open Cert.KernelIdeal Cert.KernelIdeal.Gen Cert.Spec
open Idealize.ShloMosaic Idealize.ShloMosaic.ValueIdx

/-- The block's rows normalised and weighted: a [1024, 64] matrix of the block `v0` and the weight row `v3`. -/
def scaled (v0 : Vec Ideal S1x1x1024x64 .bf16) (v3 : Vec Ideal S1x64 .f32) : FVec Ideal S1024x64 .f32 :=
  have v1 : FVec Ideal S1024x64 .bf16 := shapeCast S1024x64 v0 shapeCasts_S1x1x1024x64_S1024x64
  have v2 : FVec Ideal S1024x64 .f32 := extf .f32 v1 bitsLt_bf16_f32
  have v4 : FVec Ideal S1x64 .f32 := shapeCast S1x64 v3 shapeCasts_S1x64_S1x64
  have v5 : FVec Ideal S1024x64 .f32 := mulf v2 v2
  have v6 : FVec Ideal S1024 .f32 := multiReduction .add [1] S1024 v5 0x00000000#32 reduces_S1024x64_S1024 (.inl rfl) rfl
  have v7 : FVec Ideal S1024x1 .f32 := shapeCast S1024x1 v6 shapeCasts_S1024_S1024x1
  have cst_5 : Ideal .f32 := Scalar.ofBits .f32 0x42800000#32
  have v8 : FVec Ideal S1024x1 .f32 := broadcast S1024x1 cst_5
  have v9 : FVec Ideal S1024x1 .f32 := divf v7 v8
  have cst_6 : Ideal .f32 := Scalar.ofBits .f32 0x358637BD#32
  have v10 : FVec Ideal S1024x1 .f32 := broadcast S1024x1 cst_6
  have v11 : FVec Ideal S1024x1 .f32 := addf v9 v10
  have v12 : FVec Ideal S1024x1 .f32 := rsqrt v11
  have v13 : FVec Ideal S1024x64 .f32 := broadcastTo S1024x64 v12 broadcasts_S1024x1_S1024x64
  have v14 : FVec Ideal S1024x64 .f32 := mulf v2 v13
  have v15 : FVec Ideal S1024x64 .f32 := broadcastTo S1024x64 v4 broadcasts_S1x64_S1024x64
  have v16 : FVec Ideal S1024x64 .f32 := mulf v14 v15
  v16

/-- The rotation of a [1024, 64] matrix `S` by the tables, stored as a [1, 1, 1024, 64] block. -/
def rotated (S : FVec Ideal S1024x64 .f32) (v19 v20 : Vec Ideal S1024x32 .f32) : FVec Ideal S1x1x1024x64 .bf16 :=
  have v17 : FVec Ideal S1024x32 .f32 := extractStridedSlice S1024x32 ![0, 0] S slices_S1024x64_o0_0_S1024x32
  have v18 : FVec Ideal S1024x32 .f32 := extractStridedSlice S1024x32 ![0, 32] S slices_S1024x64_o0_32_S1024x32
  have v21 : FVec Ideal S1024x32 .f32 := mulf v17 v19
  have v22 : FVec Ideal S1024x32 .f32 := mulf v18 v20
  have v23 : FVec Ideal S1024x32 .f32 := subf v21 v22
  have v24 : FVec Ideal S1024x32 .f32 := mulf v17 v20
  have v25 : FVec Ideal S1024x32 .f32 := mulf v18 v19
  have v26 : FVec Ideal S1024x32 .f32 := addf v24 v25
  have v27 : FVec Ideal S1024x64 .f32 := concatenate S1024x64 1 [⟨S1024x32, v23⟩, ⟨S1024x32, v26⟩] concatenates_S1024x32_S1024x32_S1024x64_d1
  have v28 : FVec Ideal S1024x64 .bf16 := truncf .bf16 v27 bitsLt_bf16_f32
  have v31 : FVec Ideal S1x1x1024x64 .bf16 := shapeCast S1x1x1024x64 v28 shapeCasts_S1024x64_S1x1x1024x64
  v31

/-- Both regions' payload is the rotation of the normalised rows. -/
theorem pay1_eq (v0 : Vec Ideal S1x1x1024x64 .bf16) (v3 : Vec Ideal S1x64 .f32) (v19 v20 : Vec Ideal S1024x32 .f32) :
    k1_pay1 v0 v3 v19 v20 = rotated (scaled v0 v3) v19 v20 := rfl
theorem pay2_eq (v0 : Vec Ideal S1x1x1024x64 .bf16) (v3 : Vec Ideal S1x64 .f32) (v19 v20 : Vec Ideal S1024x32 .f32) :
    k2_pay1 v0 v3 v19 v20 = rotated (scaled v0 v3) v19 v20 := rfl

/-- Entry (l, e) of the normalised rows: row `l` of the block normalised and weighted, at `e`. -/
theorem scaled_apply (v0 : Vec Ideal S1x1x1024x64 .bf16) (v3 : Vec Ideal S1x64 .f32) (l : Fin 1024) (e : Fin 64) :
    scaled v0 v3 (ix2 l e) = normed (fun e' => v0 (ix4 (0 : Fin 1) (0 : Fin 1) l e')) (fun e' => v3 (ix2 (0 : Fin 1) e')) e := by
  unfold scaled normed rmsScale
  dsimp only
  rw [mulf_apply, mulf_apply, broadcastTo_a1_ab_apply, broadcastTo_1b_ab_apply, shapeCast_self]
  show (extf .f32 (shapeCast S1024x64 v0 shapeCasts_S1x1x1024x64_S1024x64 : FVec Ideal S1024x64 .bf16) bitsLt_bf16_f32 : FVec Ideal S1024x64 .f32) (ix2 l e)
      * Ideal.rsqrt (Ideal.div ((shapeCast S1024x1 (multiReduction (F := Ideal) .add [1] S1024
            (mulf (extf .f32 (shapeCast S1024x64 v0 shapeCasts_S1x1x1024x64_S1024x64 : FVec Ideal S1024x64 .bf16) bitsLt_bf16_f32 : FVec Ideal S1024x64 .f32)
              (extf .f32 (shapeCast S1024x64 v0 shapeCasts_S1x1x1024x64_S1024x64 : FVec Ideal S1024x64 .bf16) bitsLt_bf16_f32 : FVec Ideal S1024x64 .f32))
            0x00000000#32 reduces_S1024x64_S1024 (.inl rfl) rfl)
          shapeCasts_S1024_S1024x1 : FVec Ideal S1024x1 .f32) (ix2 l (0 : Fin 1))) c64 + eps) * v3 (ix2 (0 : Fin 1) e) = _
  rw [shapeCast_a_a1_apply, extf_apply, shapeCast_11ab_ab_apply]
  refine congrArg (fun s => v0 (ix4 (0 : Fin 1) (0 : Fin 1) l e) * Ideal.rsqrt (Ideal.div s c64 + eps) * v3 (ix2 (0 : Fin 1) e)) ?_
  refine (rowSum_apply _ _ _ _ _ l).trans ?_
  refine Finset.sum_congr rfl fun k _ => ?_
  rw [mulf_apply, extf_apply, shapeCast_11ab_ab_apply]

/-- Entry (u, v, l, d) of the rotation: the specification's rotation of row `l` of `S` by row `l` of the tables, at `d`. -/
theorem rotated_apply (S : FVec Ideal S1024x64 .f32) (v19 v20 : Vec Ideal S1024x32 .f32) (u v : Fin 1) (l : Fin 1024) (d : Fin 64) :
    rotated S v19 v20 (ix4 u v l d) = rope (fun e => S (ix2 l e)) (fun e => v19 (ix2 l e)) (fun e => v20 (ix2 l e)) d := by
  unfold rotated rope
  dsimp only
  rw [shapeCast_ab_11ab_apply, truncf_apply]
  have hd := d.isLt
  split
  · next hlt =>
    refine (concatenate_pair_apply_left (s₁ := S1024x32) (s₂ := S1024x32) 1 _ _ _ (ix2 l d) rfl (ix2 l (col d)) fun b => ?_).trans ?_
    · match b with
      | ⟨0, _⟩ => rfl
      | ⟨1, _⟩ => show d.val % 32 = d.val; omega
    · rw [subf_apply, mulf_apply, mulf_apply,
        slice2_axis1_apply 0 S _ l (col d) (lo d) (by show d.val % 32 = 0 + d.val % 32; omega),
        slice2_axis1_apply 32 S _ l (col d) (hi d) (by show d.val % 32 + 32 = 32 + d.val % 32; omega)]
  · next hge =>
    refine (concatenate_pair_apply_right (s₁ := S1024x32) (s₂ := S1024x32) 1 _ _ _ (ix2 l d) rfl rfl (ix2 l (col d)) (fun b hb => ?_) ?_).trans ?_
    · match b with
      | ⟨0, _⟩ => rfl
      | ⟨1, _⟩ => exact absurd rfl hb
    · show d.val % 32 + 32 = d.val; omega
    · rw [addf_apply, mulf_apply, mulf_apply,
        slice2_axis1_apply 0 S _ l (col d) (lo d) (by show d.val % 32 = 0 + d.val % 32; omega),
        slice2_axis1_apply 32 S _ l (col d) (hi d) (by show d.val % 32 + 32 = 32 + d.val % 32; omega)]

/-- The payload at an entry of the block: row `l` normalised, weighted and rotated, at `d`. -/
theorem pay_apply (v0 : Vec Ideal S1x1x1024x64 .bf16) (v3 : Vec Ideal S1x64 .f32) (v19 v20 : Vec Ideal S1024x32 .f32)
    (u v : Fin 1) (l : Fin 1024) (d : Fin 64) :
    rotated (scaled v0 v3) v19 v20 (ix4 u v l d)
      = rope (normed (fun e' => v0 (ix4 (0 : Fin 1) (0 : Fin 1) l e')) fun e' => v3 (ix2 (0 : Fin 1) e'))
          (fun e => v19 (ix2 l e)) (fun e => v20 (ix2 l e)) d := by
  rw [rotated_apply]
  exact congrArg (fun t => rope t (fun e => v19 (ix2 l e)) (fun e => v20 (ix2 l e)) d) (funext fun e => scaled_apply v0 v3 l e)

end Cert.KernelIdeal.Val

end
-- ==== Proof.NormRopeValueQ.lean ====
/-
  What region 1 leaves in its output array, at the ideal values: every head vector of its input array normalised,
  weighted and rotated — the specification's `normRegion` of the four operand arrays as the region finds them. A grid
  point (b, h) reads and writes the whole [1024, 64] slab of head (b, h), and the slabs of all points tile the array.
-/
import proofs.«125955_j22462678958488_2_alg».proof.Proof.RegionNormQ
import proofs.«125955_j22462678958488_2_alg».proof.Proof.NormRopePayload
import Idealize.ShloMosaic.Lib.Pipeline.Value

set_option maxRecDepth 16384

noncomputable section

namespace Cert.KernelIdeal.Frm

open Cert.KernelIdeal Cert.KernelIdeal.Gen Cert.Spec
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem hzero4_1 : (![0, 0, 0, 0] : Fin 4 → Nat) = fun _ => 0 := funext fun a => by fin_cases a <;> rfl
theorem hzero2_1 : (![0, 0] : Fin 2 → Nat) = fun _ => 0 := funext fun a => by fin_cases a <;> rfl

/-- The printed index maps, decided over the grid: the activations' and the output's block index is (b, h, 0, 0) with
    (b, h) the point's coordinates; the tables' and the weight row's is (0, 0). -/
theorem idx_facts1 : ∀ t : Fin cfg1.N,
    win1_0.index t (0 : Fin 4) = t.val / 32 ∧ win1_0.index t (1 : Fin 4) = t.val % 32
    ∧ win1_0.index t (2 : Fin 4) = 0 ∧ win1_0.index t (3 : Fin 4) = 0
    ∧ win1_4.index t (0 : Fin 4) = t.val / 32 ∧ win1_4.index t (1 : Fin 4) = t.val % 32
    ∧ win1_4.index t (2 : Fin 4) = 0 ∧ win1_4.index t (3 : Fin 4) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0 :=
  (by decide +kernel : ∀ t : Fin grid1.N, _)

/-- The region's function of its operands as the region finds them. -/
abbrev G1 (c : Dev nD) : S2x32x1024x64.Idx → EReal :=
  normRegion (H := 32) (V c main_v12) (V c main_arg3) (V c main_arg4) (V c main_v15)

/-- What point `t` writes back is block `t` of that function. -/
theorem flushed1_eq (c : Dev nD) (t : Fin cfg1.N) :
    (dat1 (F := Ideal) V c).flushed 4 t = ((cfg1.win 4).blk t).view.read (Elt Ideal) (G1 V c) := by
  show (cfg1.win 4).cut (grid1.coords t) ((dat1 V c).after 4 t) = _
  rw [after1_4]
  unfold out1_4
  rw [View.canon_unit_zero hzero4_1]
  simp only [View.ld_unit_zero (S := S1x1x1024x64) hzero4_1, View.ld_unit_zero (S := S1024x32) hzero2_1, View.ld_unit_zero (S := S1x64) hzero2_1]
  rw [Val.pay1_eq]
  obtain ⟨e0, e1, e2, e3, f0, f1, f2, f3, c0, c1, s0, s1, w0, w1⟩ := idx_facts1 t
  funext j
  obtain ⟨u, v, l, d, rfl⟩ : ∃ (u v : Fin 1) (l : Fin 1024) (d : Fin 64), j = ix4 u v l d := ⟨j 0, j 1, j 2, j 3, eq_ix4 j⟩
  show Val.rotated (Val.scaled (iblk1 V c 0 t) (iblk1 V c 3 t)) (iblk1 V c 1 t) (iblk1 V c 2 t) (ix4 u v l d)
    = normRegion (H := 32) (V c main_v12) (V c main_arg3) (V c main_arg4) (V c main_v15) (((cfg1.win 4).blk t).view.emb (ix4 u v l d))
  rw [Val.pay_apply]
  have hu : u.val = 0 := by omega
  have hv : v.val = 0 := by omega
  unfold normRegion
  have hx : ∀ e' : Fin 64, iblk1 V c 0 t (ix4 (0 : Fin 1) (0 : Fin 1) l e')
      = V c main_v12 (ix4 ((((cfg1.win 4).blk t).view.emb (ix4 u v l d)) 0) ((((cfg1.win 4).blk t).view.emb (ix4 u v l d)) 1)
          ((((cfg1.win 4).blk t).view.emb (ix4 u v l d)) 2) e') := fun e' => by
    show V c main_v12 (((cfg1.win 0).blk t).view.emb (ix4 (0 : Fin 1) (0 : Fin 1) l e')) = _
    refine congrArg (V c main_v12) (funext fun a => Fin.ext ?_)
    match a with
    | ⟨0, _⟩ => show win1_0.index t (0 : Fin 4) * 1 + 1 * 0 = win1_4.index t (0 : Fin 4) * 1 + 1 * u.val; omega
    | ⟨1, _⟩ => show win1_0.index t (1 : Fin 4) * 1 + 1 * 0 = win1_4.index t (1 : Fin 4) * 1 + 1 * v.val; omega
    | ⟨2, _⟩ => show win1_0.index t (2 : Fin 4) * 1024 + 1 * l.val = win1_4.index t (2 : Fin 4) * 1024 + 1 * l.val; omega
    | ⟨3, _⟩ => show win1_0.index t (3 : Fin 4) * 64 + 1 * e'.val = e'.val; omega
  have hw : ∀ e' : Fin 64, iblk1 V c 3 t (ix2 (0 : Fin 1) e') = V c main_v15 (ix2 (0 : Fin 1) e') := fun e' => by
    show V c main_v15 (((cfg1.win 3).blk t).view.emb (ix2 (0 : Fin 1) e')) = _
    refine congrArg (V c main_v15) (funext fun a => Fin.ext ?_)
    match a with
    | ⟨0, _⟩ => show win1_3.index t (0 : Fin 2) * 1 + 1 * 0 = 0; omega
    | ⟨1, _⟩ => show win1_3.index t (1 : Fin 2) * 64 + 1 * e'.val = e'.val; omega
  have hc : ∀ e : Fin 32, iblk1 V c 1 t (ix2 l e) = V c main_arg3 (ix2 ((((cfg1.win 4).blk t).view.emb (ix4 u v l d)) 2) e) := fun e => by
    show V c main_arg3 (((cfg1.win 1).blk t).view.emb (ix2 l e)) = _
    refine congrArg (V c main_arg3) (funext fun a => Fin.ext ?_)
    match a with
    | ⟨0, _⟩ => show win1_1.index t (0 : Fin 2) * 1024 + 1 * l.val = win1_4.index t (2 : Fin 4) * 1024 + 1 * l.val; omega
    | ⟨1, _⟩ => show win1_1.index t (1 : Fin 2) * 32 + 1 * e.val = e.val; omega
  have hs : ∀ e : Fin 32, iblk1 V c 2 t (ix2 l e) = V c main_arg4 (ix2 ((((cfg1.win 4).blk t).view.emb (ix4 u v l d)) 2) e) := fun e => by
    show V c main_arg4 (((cfg1.win 2).blk t).view.emb (ix2 l e)) = _
    refine congrArg (V c main_arg4) (funext fun a => Fin.ext ?_)
    match a with
    | ⟨0, _⟩ => show win1_2.index t (0 : Fin 2) * 1024 + 1 * l.val = win1_4.index t (2 : Fin 4) * 1024 + 1 * l.val; omega
    | ⟨1, _⟩ => show win1_2.index t (1 : Fin 2) * 32 + 1 * e.val = e.val; omega
  have hd : d = (((cfg1.win 4).blk t).view.emb (ix4 u v l d)) 3 := Fin.ext (by
    show d.val = win1_4.index t (3 : Fin 4) * 64 + 1 * d.val; omega)
  simp only [hx, hw, hc, hs]
  exact congrArg _ hd

/-- An index of the array is in point `t`'s block iff each coordinate is in the block's range on its axis. -/
theorem mem_blk1 (t : Fin cfg1.N) (i : S2x32x1024x64.Idx) :
    i ∈ ((cfg1.win 4).blk t).view.set ↔ ∀ a : Fin 4, win1_4.index t a * S1x1x1024x64.size a ≤ (i a).val ∧ (i a).val < win1_4.index t a * S1x1x1024x64.size a + S1x1x1024x64.size a := by
  show i ∈ ((View.whole main_v16).slice (win1_4.rect t)).set ↔ _
  rw [View.set_slice_whole, Rect.mem_set_unit]
  exact Iff.rfl

/-- Every index of the array is in the block of the point of its (batch, head). -/
theorem cover1 (i : S2x32x1024x64.Idx) : ∃ t : Fin cfg1.N, (cfg1.win 4).flush t = true ∧ i ∈ ((cfg1.win 4).blk t).view.set := by
  have h0 : (i 0).val < 2 := (i 0).isLt
  have h1 : (i 1).val < 32 := (i 1).isLt
  have h2 : (i 2).val < 1024 := (i 2).isLt
  have h3 : (i 3).val < 64 := (i 3).isLt
  have hN : cfg1.N = 64 := N_1
  refine ⟨⟨(i 0).val * 32 + (i 1).val, by rw [hN]; omega⟩, flush1_4 _, ?_⟩
  rw [mem_blk1]
  obtain ⟨-, -, -, -, f0, f1, f2, f3, -⟩ := idx_facts1 ⟨(i 0).val * 32 + (i 1).val, by rw [hN]; omega⟩
  intro a
  match a with
  | ⟨0, _⟩ => show win1_4.index _ (0 : Fin 4) * 1 ≤ (i 0).val ∧ (i 0).val < win1_4.index _ (0 : Fin 4) * 1 + 1; rw [f0]; dsimp only; omega
  | ⟨1, _⟩ => show win1_4.index _ (1 : Fin 4) * 1 ≤ (i 1).val ∧ (i 1).val < win1_4.index _ (1 : Fin 4) * 1 + 1; rw [f1]; dsimp only; omega
  | ⟨2, _⟩ => show win1_4.index _ (2 : Fin 4) * 1024 ≤ (i 2).val ∧ (i 2).val < win1_4.index _ (2 : Fin 4) * 1024 + 1024; rw [f2]; omega
  | ⟨3, _⟩ => show win1_4.index _ (3 : Fin 4) * 64 ≤ (i 3).val ∧ (i 3).val < win1_4.index _ (3 : Fin 4) * 64 + 64; rw [f3]; omega

/-- The array after the region: the region's function of its operands. -/
theorem normQ_final (c : Dev nD) : (dat1 (F := Ideal) V c).arrAt 4 cfg1.N = G1 V c :=
  (dat1 V c).arrAt_eq_of_cover 4 (G1 V c) (fun t _ => flushed1_eq V c t) (cover1)

end Cert.KernelIdeal.Frm

end
-- ==== Proof.NormRopeValueK.lean ====
/-
  What region 2 leaves in its output array, at the ideal values: every head vector of its input array normalised,
  weighted and rotated — the specification's `normRegion` of the four operand arrays as the region finds them. A grid
  point (b, h) reads and writes the whole [1024, 64] slab of head (b, h), and the slabs of all points tile the array.
-/
import proofs.«125955_j22462678958488_2_alg».proof.Proof.RegionNormK
import proofs.«125955_j22462678958488_2_alg».proof.Proof.NormRopePayload
import Idealize.ShloMosaic.Lib.Pipeline.Value

set_option maxRecDepth 16384

noncomputable section

namespace Cert.KernelIdeal.Frm

open Cert.KernelIdeal Cert.KernelIdeal.Gen Cert.Spec
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem hzero4_2 : (![0, 0, 0, 0] : Fin 4 → Nat) = fun _ => 0 := funext fun a => by fin_cases a <;> rfl
theorem hzero2_2 : (![0, 0] : Fin 2 → Nat) = fun _ => 0 := funext fun a => by fin_cases a <;> rfl

/-- The printed index maps, decided over the grid: the activations' and the output's block index is (b, h, 0, 0) with
    (b, h) the point's coordinates; the tables' and the weight row's is (0, 0). -/
theorem idx_facts2 : ∀ t : Fin cfg2.N,
    win2_0.index t (0 : Fin 4) = t.val / 8 ∧ win2_0.index t (1 : Fin 4) = t.val % 8
    ∧ win2_0.index t (2 : Fin 4) = 0 ∧ win2_0.index t (3 : Fin 4) = 0
    ∧ win2_4.index t (0 : Fin 4) = t.val / 8 ∧ win2_4.index t (1 : Fin 4) = t.val % 8
    ∧ win2_4.index t (2 : Fin 4) = 0 ∧ win2_4.index t (3 : Fin 4) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0 :=
  (by decide +kernel : ∀ t : Fin grid2.N, _)

/-- The region's function of its operands as the region finds them. -/
abbrev G2 (c : Dev nD) : S2x8x1024x64.Idx → EReal :=
  normRegion (H := 8) (V c main_v13) (V c main_arg3) (V c main_arg4) (V c main_v17)

/-- What point `t` writes back is block `t` of that function. -/
theorem flushed2_eq (c : Dev nD) (t : Fin cfg2.N) :
    (dat2 (F := Ideal) V c).flushed 4 t = ((cfg2.win 4).blk t).view.read (Elt Ideal) (G2 V c) := by
  show (cfg2.win 4).cut (grid2.coords t) ((dat2 V c).after 4 t) = _
  rw [after2_4]
  unfold out2_4
  rw [View.canon_unit_zero hzero4_2]
  simp only [View.ld_unit_zero (S := S1x1x1024x64) hzero4_2, View.ld_unit_zero (S := S1024x32) hzero2_2, View.ld_unit_zero (S := S1x64) hzero2_2]
  rw [Val.pay2_eq]
  obtain ⟨e0, e1, e2, e3, f0, f1, f2, f3, c0, c1, s0, s1, w0, w1⟩ := idx_facts2 t
  funext j
  obtain ⟨u, v, l, d, rfl⟩ : ∃ (u v : Fin 1) (l : Fin 1024) (d : Fin 64), j = ix4 u v l d := ⟨j 0, j 1, j 2, j 3, eq_ix4 j⟩
  show Val.rotated (Val.scaled (iblk2 V c 0 t) (iblk2 V c 3 t)) (iblk2 V c 1 t) (iblk2 V c 2 t) (ix4 u v l d)
    = normRegion (H := 8) (V c main_v13) (V c main_arg3) (V c main_arg4) (V c main_v17) (((cfg2.win 4).blk t).view.emb (ix4 u v l d))
  rw [Val.pay_apply]
  have hu : u.val = 0 := by omega
  have hv : v.val = 0 := by omega
  unfold normRegion
  have hx : ∀ e' : Fin 64, iblk2 V c 0 t (ix4 (0 : Fin 1) (0 : Fin 1) l e')
      = V c main_v13 (ix4 ((((cfg2.win 4).blk t).view.emb (ix4 u v l d)) 0) ((((cfg2.win 4).blk t).view.emb (ix4 u v l d)) 1)
          ((((cfg2.win 4).blk t).view.emb (ix4 u v l d)) 2) e') := fun e' => by
    show V c main_v13 (((cfg2.win 0).blk t).view.emb (ix4 (0 : Fin 1) (0 : Fin 1) l e')) = _
    refine congrArg (V c main_v13) (funext fun a => Fin.ext ?_)
    match a with
    | ⟨0, _⟩ => show win2_0.index t (0 : Fin 4) * 1 + 1 * 0 = win2_4.index t (0 : Fin 4) * 1 + 1 * u.val; omega
    | ⟨1, _⟩ => show win2_0.index t (1 : Fin 4) * 1 + 1 * 0 = win2_4.index t (1 : Fin 4) * 1 + 1 * v.val; omega
    | ⟨2, _⟩ => show win2_0.index t (2 : Fin 4) * 1024 + 1 * l.val = win2_4.index t (2 : Fin 4) * 1024 + 1 * l.val; omega
    | ⟨3, _⟩ => show win2_0.index t (3 : Fin 4) * 64 + 1 * e'.val = e'.val; omega
  have hw : ∀ e' : Fin 64, iblk2 V c 3 t (ix2 (0 : Fin 1) e') = V c main_v17 (ix2 (0 : Fin 1) e') := fun e' => by
    show V c main_v17 (((cfg2.win 3).blk t).view.emb (ix2 (0 : Fin 1) e')) = _
    refine congrArg (V c main_v17) (funext fun a => Fin.ext ?_)
    match a with
    | ⟨0, _⟩ => show win2_3.index t (0 : Fin 2) * 1 + 1 * 0 = 0; omega
    | ⟨1, _⟩ => show win2_3.index t (1 : Fin 2) * 64 + 1 * e'.val = e'.val; omega
  have hc : ∀ e : Fin 32, iblk2 V c 1 t (ix2 l e) = V c main_arg3 (ix2 ((((cfg2.win 4).blk t).view.emb (ix4 u v l d)) 2) e) := fun e => by
    show V c main_arg3 (((cfg2.win 1).blk t).view.emb (ix2 l e)) = _
    refine congrArg (V c main_arg3) (funext fun a => Fin.ext ?_)
    match a with
    | ⟨0, _⟩ => show win2_1.index t (0 : Fin 2) * 1024 + 1 * l.val = win2_4.index t (2 : Fin 4) * 1024 + 1 * l.val; omega
    | ⟨1, _⟩ => show win2_1.index t (1 : Fin 2) * 32 + 1 * e.val = e.val; omega
  have hs : ∀ e : Fin 32, iblk2 V c 2 t (ix2 l e) = V c main_arg4 (ix2 ((((cfg2.win 4).blk t).view.emb (ix4 u v l d)) 2) e) := fun e => by
    show V c main_arg4 (((cfg2.win 2).blk t).view.emb (ix2 l e)) = _
    refine congrArg (V c main_arg4) (funext fun a => Fin.ext ?_)
    match a with
    | ⟨0, _⟩ => show win2_2.index t (0 : Fin 2) * 1024 + 1 * l.val = win2_4.index t (2 : Fin 4) * 1024 + 1 * l.val; omega
    | ⟨1, _⟩ => show win2_2.index t (1 : Fin 2) * 32 + 1 * e.val = e.val; omega
  have hd : d = (((cfg2.win 4).blk t).view.emb (ix4 u v l d)) 3 := Fin.ext (by
    show d.val = win2_4.index t (3 : Fin 4) * 64 + 1 * d.val; omega)
  simp only [hx, hw, hc, hs]
  exact congrArg _ hd

/-- An index of the array is in point `t`'s block iff each coordinate is in the block's range on its axis. -/
theorem mem_blk2 (t : Fin cfg2.N) (i : S2x8x1024x64.Idx) :
    i ∈ ((cfg2.win 4).blk t).view.set ↔ ∀ a : Fin 4, win2_4.index t a * S1x1x1024x64.size a ≤ (i a).val ∧ (i a).val < win2_4.index t a * S1x1x1024x64.size a + S1x1x1024x64.size a := by
  show i ∈ ((View.whole main_v18).slice (win2_4.rect t)).set ↔ _
  rw [View.set_slice_whole, Rect.mem_set_unit]
  exact Iff.rfl

/-- Every index of the array is in the block of the point of its (batch, head). -/
theorem cover2 (i : S2x8x1024x64.Idx) : ∃ t : Fin cfg2.N, (cfg2.win 4).flush t = true ∧ i ∈ ((cfg2.win 4).blk t).view.set := by
  have h0 : (i 0).val < 2 := (i 0).isLt
  have h1 : (i 1).val < 8 := (i 1).isLt
  have h2 : (i 2).val < 1024 := (i 2).isLt
  have h3 : (i 3).val < 64 := (i 3).isLt
  have hN : cfg2.N = 16 := N_2
  refine ⟨⟨(i 0).val * 8 + (i 1).val, by rw [hN]; omega⟩, flush2_4 _, ?_⟩
  rw [mem_blk2]
  obtain ⟨-, -, -, -, f0, f1, f2, f3, -⟩ := idx_facts2 ⟨(i 0).val * 8 + (i 1).val, by rw [hN]; omega⟩
  intro a
  match a with
  | ⟨0, _⟩ => show win2_4.index _ (0 : Fin 4) * 1 ≤ (i 0).val ∧ (i 0).val < win2_4.index _ (0 : Fin 4) * 1 + 1; rw [f0]; dsimp only; omega
  | ⟨1, _⟩ => show win2_4.index _ (1 : Fin 4) * 1 ≤ (i 1).val ∧ (i 1).val < win2_4.index _ (1 : Fin 4) * 1 + 1; rw [f1]; dsimp only; omega
  | ⟨2, _⟩ => show win2_4.index _ (2 : Fin 4) * 1024 ≤ (i 2).val ∧ (i 2).val < win2_4.index _ (2 : Fin 4) * 1024 + 1024; rw [f2]; omega
  | ⟨3, _⟩ => show win2_4.index _ (3 : Fin 4) * 64 ≤ (i 3).val ∧ (i 3).val < win2_4.index _ (3 : Fin 4) * 64 + 64; rw [f3]; omega

/-- The array after the region: the region's function of its operands. -/
theorem normK_final (c : Dev nD) : (dat2 (F := Ideal) V c).arrAt 4 cfg2.N = G2 V c :=
  (dat2 V c).arrAt_eq_of_cover 4 (G2 V c) (fun t _ => flushed2_eq V c t) (cover2)

end Cert.KernelIdeal.Frm

end
-- ==== Proof.AttnValueOps.lean ====
/-
  The operations of one attention tile read at an index, on the extended reals: the product of a [256, 64] query
  tile with the transpose of the [3072, 64] stacked keys, entry (r, j) the sum over the 64 channels; the product of a
  [256, 3072] weight matrix with the [3072, 64] stacked values, entry (r, d) the sum over the 3072 rows; a row
  statistic [256] laid as a column and repeated along the 3072 keys reads, at (r, j), the statistic of row r; the row
  maximum is the fold of max from the initial word over the row, the row sum the sum over the row; and the two
  re-layouts between a [1, 1, 1, 256, 64] tile and its [256, 64] matrix keep (r, d).
-/
import proofs.«125955_j22462678958488_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.AttnValue

open Idealize.ShloMosaic Idealize.ShloMosaic.ValueIdx Cert.KernelIdeal Cert.KernelIdeal.Gen

/-! ## The two matrix products -/

theorem qk_lhs0 (i : S256x3072.Idx) (q : dot_S256x64_S3072x64_S256x3072_1_1_0_0_n_n.contr.Idx) :
    (dot_S256x64_S3072x64_S256x3072_1_1_0_0_n_n.lhsIdx i q 0).val = (i 0).val := by
  unfold DotDims.lhsIdx
  rw [dif_neg (show ¬(0 : Fin S256x64.rank) ∈ dot_S256x64_S3072x64_S256x3072_1_1_0_0_n_n.lhsBatch by decide), dif_pos (show (0 : Fin S256x64.rank) ∈ dot_S256x64_S3072x64_S256x3072_1_1_0_0_n_n.lhsNonContracting by decide)]
  rfl
theorem qk_lhs1 (i : S256x3072.Idx) (q : dot_S256x64_S3072x64_S256x3072_1_1_0_0_n_n.contr.Idx) :
    (dot_S256x64_S3072x64_S256x3072_1_1_0_0_n_n.lhsIdx i q 1).val = (q ⟨0, by decide⟩).val :=
  dot_S256x64_S3072x64_S256x3072_1_1_0_0_n_n.lhsIdx_val_of_single rfl i q
theorem qk_rhs0 (i : S256x3072.Idx) (q : dot_S256x64_S3072x64_S256x3072_1_1_0_0_n_n.contr.Idx) :
    (dot_S256x64_S3072x64_S256x3072_1_1_0_0_n_n.rhsIdx i q 0).val = (i 1).val := by
  unfold DotDims.rhsIdx
  rw [dif_neg (show ¬(0 : Fin S3072x64.rank) ∈ dot_S256x64_S3072x64_S256x3072_1_1_0_0_n_n.rhsBatch by decide), dif_pos (show (0 : Fin S3072x64.rank) ∈ dot_S256x64_S3072x64_S256x3072_1_1_0_0_n_n.rhsNonContracting by decide)]
  rfl
theorem qk_rhs1 (i : S256x3072.Idx) (q : dot_S256x64_S3072x64_S256x3072_1_1_0_0_n_n.contr.Idx) :
    (dot_S256x64_S3072x64_S256x3072_1_1_0_0_n_n.rhsIdx i q 1).val = (q ⟨0, by decide⟩).val :=
  dot_S256x64_S3072x64_S256x3072_1_1_0_0_n_n.rhsIdx_val_of_single rfl i q

/-- Queries against keys: entry (r, j) is the sum over the channels of query row r times key row j. -/
theorem qk_apply (q : FVec Ideal S256x64 .bf16) (K : FVec Ideal S3072x64 .bf16) (r : Fin 256) (j : Fin 3072) :
    matmul dot_S256x64_S3072x64_S256x3072_1_1_0_0_n_n none q K (constant S256x3072 .f32 0x00000000#32) (ix2 r j)
      = ∑ e : Fin 64, q (ix2 r e) * K (ix2 j e) := by
  simp only [matmul]
  rw [Ideal.matmul_constant_zero_apply, ← Equiv.sum_comp (contrEquiv1 dot_S256x64_S3072x64_S256x3072_1_1_0_0_n_n 64 rfl rfl).symm]
  refine Finset.sum_congr rfl fun e _ => ?_
  have hk := contrEquiv1_symm_val dot_S256x64_S3072x64_S256x3072_1_1_0_0_n_n 64 rfl rfl e
  have el : dot_S256x64_S3072x64_S256x3072_1_1_0_0_n_n.lhsIdx (ix2 r j) ((contrEquiv1 dot_S256x64_S3072x64_S256x3072_1_1_0_0_n_n 64 rfl rfl).symm e) = ix2 r e := funext fun a => Fin.ext (by
    match a with
    | ⟨0, _⟩ => exact qk_lhs0 _ _
    | ⟨1, _⟩ => exact (qk_lhs1 _ _).trans hk)
  have er : dot_S256x64_S3072x64_S256x3072_1_1_0_0_n_n.rhsIdx (ix2 r j) ((contrEquiv1 dot_S256x64_S3072x64_S256x3072_1_1_0_0_n_n 64 rfl rfl).symm e) = ix2 j e := funext fun a => Fin.ext (by
    match a with
    | ⟨0, _⟩ => exact qk_rhs0 _ _
    | ⟨1, _⟩ => exact (qk_rhs1 _ _).trans hk)
  rw [el, er]

theorem pv_lhs0 (i : S256x64.Idx) (q : dot_S256x3072_S3072x64_S256x64_1_0_0_1_n_n.contr.Idx) :
    (dot_S256x3072_S3072x64_S256x64_1_0_0_1_n_n.lhsIdx i q 0).val = (i 0).val := by
  unfold DotDims.lhsIdx
  rw [dif_neg (show ¬(0 : Fin S256x3072.rank) ∈ dot_S256x3072_S3072x64_S256x64_1_0_0_1_n_n.lhsBatch by decide), dif_pos (show (0 : Fin S256x3072.rank) ∈ dot_S256x3072_S3072x64_S256x64_1_0_0_1_n_n.lhsNonContracting by decide)]
  rfl
theorem pv_lhs1 (i : S256x64.Idx) (q : dot_S256x3072_S3072x64_S256x64_1_0_0_1_n_n.contr.Idx) :
    (dot_S256x3072_S3072x64_S256x64_1_0_0_1_n_n.lhsIdx i q 1).val = (q ⟨0, by decide⟩).val :=
  dot_S256x3072_S3072x64_S256x64_1_0_0_1_n_n.lhsIdx_val_of_single rfl i q
theorem pv_rhs0 (i : S256x64.Idx) (q : dot_S256x3072_S3072x64_S256x64_1_0_0_1_n_n.contr.Idx) :
    (dot_S256x3072_S3072x64_S256x64_1_0_0_1_n_n.rhsIdx i q 0).val = (q ⟨0, by decide⟩).val :=
  dot_S256x3072_S3072x64_S256x64_1_0_0_1_n_n.rhsIdx_val_of_single rfl i q
theorem pv_rhs1 (i : S256x64.Idx) (q : dot_S256x3072_S3072x64_S256x64_1_0_0_1_n_n.contr.Idx) :
    (dot_S256x3072_S3072x64_S256x64_1_0_0_1_n_n.rhsIdx i q 1).val = (i 1).val := by
  unfold DotDims.rhsIdx
  rw [dif_neg (show ¬(1 : Fin S3072x64.rank) ∈ dot_S256x3072_S3072x64_S256x64_1_0_0_1_n_n.rhsBatch by decide), dif_pos (show (1 : Fin S3072x64.rank) ∈ dot_S256x3072_S3072x64_S256x64_1_0_0_1_n_n.rhsNonContracting by decide)]
  rfl

/-- Weights against values: entry (r, d) is the sum over the 3072 rows of weight (r, j) times value row j at d. -/
theorem pv_apply (p : FVec Ideal S256x3072 .bf16) (W : FVec Ideal S3072x64 .bf16) (r : Fin 256) (d : Fin 64) :
    matmul dot_S256x3072_S3072x64_S256x64_1_0_0_1_n_n none p W (constant S256x64 .f32 0x00000000#32) (ix2 r d)
      = ∑ j : Fin 3072, p (ix2 r j) * W (ix2 j d) := by
  simp only [matmul]
  rw [Ideal.matmul_constant_zero_apply, ← Equiv.sum_comp (contrEquiv1 dot_S256x3072_S3072x64_S256x64_1_0_0_1_n_n 3072 rfl rfl).symm]
  refine Finset.sum_congr rfl fun j _ => ?_
  have hk := contrEquiv1_symm_val dot_S256x3072_S3072x64_S256x64_1_0_0_1_n_n 3072 rfl rfl j
  have el : dot_S256x3072_S3072x64_S256x64_1_0_0_1_n_n.lhsIdx (ix2 r d) ((contrEquiv1 dot_S256x3072_S3072x64_S256x64_1_0_0_1_n_n 3072 rfl rfl).symm j) = ix2 r j := funext fun a => Fin.ext (by
    match a with
    | ⟨0, _⟩ => exact pv_lhs0 _ _
    | ⟨1, _⟩ => exact (pv_lhs1 _ _).trans hk)
  have er : dot_S256x3072_S3072x64_S256x64_1_0_0_1_n_n.rhsIdx (ix2 r d) ((contrEquiv1 dot_S256x3072_S3072x64_S256x64_1_0_0_1_n_n 3072 rfl rfl).symm j) = ix2 j d := funext fun a => Fin.ext (by
    match a with
    | ⟨0, _⟩ => exact (pv_rhs0 _ _).trans hk
    | ⟨1, _⟩ => exact pv_rhs1 _ _)
  rw [el, er]

/-! ## A row statistic as a column repeated along the keys -/

/-- A [256] vector cast to a column [256, 1] and repeated along 3072 lanes reads, at (r, j), its entry r. -/
theorem column_apply {α : Type} (m : S256.Idx → α) (h1 : S256.ShapeCasts S256x1) (h2 : S256x1.Broadcasts S256x3072)
    (r : Fin 256) (j : Fin 3072) :
    broadcastTo S256x3072 (shapeCast S256x1 m h1) h2 (ix2 r j) = m (ix1 r) := by
  refine (broadcastTo_apply _ h2 (ix2 r j) (ix2 r (0 : Fin 1)) fun a => ?_).trans
    (shapeCast_apply m h1 (ix2 r (0 : Fin 1)) (ix1 r) ?_)
  · match a with
    | ⟨0, _⟩ => exact (if_neg (show ¬ ((256 : Nat) = 1) by decide)).symm
    | ⟨1, _⟩ => exact (if_pos (show (1 : Nat) = 1 from rfl)).symm
  · rw [Shape.rowMajor_val_one, Shape.rowMajor_val_two]
    show r.val = r.val * 1 + 0
    omega

/-! ## The row maximum and the row sum -/

/-- The index of row r with the key coordinate k inserted is (r, k). -/
theorem lift_row (h : S256x3072.Reduces [1] S256) (r : Fin 256) (k : Fin 3072) : h.lift (ix1 r) k = ix2 r k :=
  funext fun a => Fin.ext (by
    match a with
    | ⟨0, _⟩ => rfl
    | ⟨1, _⟩ => rfl)

/-- The row maximum from the initial word w: the fold of max over the row from what w denotes. -/
theorem rowmax_apply (s : FVec Ideal S256x3072 .f32) (w : BitVec 32) (h : S256x3072.Reduces [1] S256) (hφ : FKind.Formats .f32)
    (hacc : w = FKind.maximumf.neutral .f32 hφ) (r : Fin 256) :
    multiReduction .maximumf [1] S256 s w h hφ hacc (ix1 r)
      = (Finset.univ : Finset (Fin 3072)).fold max (Ideal.ofBits .f32 w) fun k => s (ix2 r k) := by
  refine (Ideal.multiReduction_maximumf_single s w h hφ hacc (ix1 r)).trans ?_
  exact congrArg (fun f : Fin 3072 → EReal => (Finset.univ : Finset (Fin 3072)).fold max (Ideal.ofBits .f32 w) f)
    (funext fun k => congrArg s (lift_row h r k))

/-- The row sum. -/
theorem rowsum_apply (s : FVec Ideal S256x3072 .f32) (w : BitVec 32) (h : S256x3072.Reduces [1] S256) (hφ : FKind.Formats .f32)
    (hacc : w = FKind.add.neutral .f32 hφ) (r : Fin 256) :
    multiReduction .add [1] S256 s w h hφ hacc (ix1 r) = ∑ k : Fin 3072, s (ix2 r k) := by
  refine (Ideal.multiReduction_add_single s w h hφ hacc (ix1 r)).trans ?_
  exact Finset.sum_congr rfl fun k _ => congrArg s (lift_row h r k)

/-! ## A tile and its matrix -/

/-- The [256, 64] matrix of a [1, 1, 1, 256, 64] tile reads, at (r, d), the tile at (0, 0, 0, r, d). -/
theorem tile_to_matrix {α : Type} (x : S1x1x1x256x64.Idx → α) (h : S1x1x1x256x64.ShapeCasts S256x64) (r : Fin 256) (d : Fin 64) :
    shapeCast S256x64 x h (ix2 r d) = x (ix5 (0 : Fin 1) (0 : Fin 1) (0 : Fin 1) r d) := by
  refine shapeCast_apply x h (ix2 r d) _ ?_
  rw [Shape.rowMajor_val_two, Shape.rowMajor_val_five]
  show (((0 * 1 + 0) * 1 + 0) * 256 + r.val) * 64 + d.val = r.val * 64 + d.val
  omega

/-- The [1, 1, 1, 256, 64] tile of a [256, 64] matrix reads, at (a0, a1, a2, r, d), the matrix at (r, d). -/
theorem matrix_to_tile {α : Type} (x : S256x64.Idx → α) (h : S256x64.ShapeCasts S1x1x1x256x64) (a0 a1 a2 : Fin 1) (r : Fin 256) (d : Fin 64) :
    shapeCast S1x1x1x256x64 x h (ix5 a0 a1 a2 r d) = x (ix2 r d) := by
  refine shapeCast_apply x h (ix5 a0 a1 a2 r d) _ ?_
  rw [Shape.rowMajor_val_two, Shape.rowMajor_val_five]
  show r.val * 64 + d.val = (((a0.val * 1 + a1.val) * 1 + a2.val) * 256 + r.val) * 64 + d.val
  have := a0.isLt; have := a1.isLt; have := a2.isLt
  omega

end Cert.KernelIdeal.AttnValue

end
-- ==== Proof.AttnValueTile.lean ====
/-
  One attention tile as a function of its operands. For a [1, 1, 1, 256, 64] query tile x, the [3072, 64] stacked
  keys K and the [3072, 64] stacked values W, the tile written is, at (a0, a1, a2, r, d),

      Σ_j softmax_j (s_r) · W (j, d),     s_r j = (Σ_e x (0, 0, 0, r, e) · K (j, e)) · 1/8,

  the softmax shifted by the row maximum. All four stores of the body write this function of their operands: the
  first with the stacking spelt inside it, the third cut in two between the shifted scores and the exponentials.
  The stacked rows are the 2048 cached rows followed by the 1024 current rows.
-/
import proofs.«125955_j22462678958488_2_alg».proof.Proof.AttnValueOps
import proofs.«125955_j22462678958488_2_alg».proof.Proof.RegionSpec

noncomputable section

namespace Cert.KernelIdeal.AttnValue

open Idealize.ShloMosaic Idealize.ShloMosaic.ValueIdx Cert.KernelIdeal Cert.KernelIdeal.Gen
open Cert.Spec (softmaxRow rowMax eighth negInf)

/-! ## Scores, shifted scores, weighted values -/

/-- The scaled score of query row r against key row j. -/
def score (q : FVec Ideal S256x64 .bf16) (K : FVec Ideal S3072x64 .bf16) (r : Fin 256) (j : Fin 3072) : EReal :=
  (∑ e : Fin 64, q (ix2 r e) * K (ix2 j e)) * eighth

/-- The scaled scores as the body forms them: the product into zeros times the splat of 1/8. -/
def scaled (q : FVec Ideal S256x64 .bf16) (K : FVec Ideal S3072x64 .bf16) : FVec Ideal S256x3072 .f32 :=
  mulf (matmul dot_S256x64_S3072x64_S256x3072_1_1_0_0_n_n none q K (constant S256x3072 .f32 0x00000000#32))
    (broadcast S256x3072 (Scalar.ofBits .f32 0x3E000000#32))

/-- The scores with each row's maximum taken off. -/
def shifted (q : FVec Ideal S256x64 .bf16) (K : FVec Ideal S3072x64 .bf16) : FVec Ideal S256x3072 .f32 :=
  subf (scaled q K) (broadcastTo S256x3072 (shapeCast S256x1
    (multiReduction .maximumf [1] S256 (scaled q K) 0xFF800000#32 reduces_S256x3072_S256 (.inl rfl) rfl)
    shapeCasts_S256_S256x1) broadcasts_S256x1_S256x3072)

/-- From shifted scores to the tile's matrix: exponentials, divided by their row sums, against the values. -/
def weighted (W : FVec Ideal S3072x64 .bf16) (sh : FVec Ideal S256x3072 .f32) : FVec Ideal S256x64 .bf16 :=
  truncf .bf16 (matmul dot_S256x3072_S3072x64_S256x64_1_0_0_1_n_n none
    (truncf .bf16 (divf (exp sh) (broadcastTo S256x3072 (shapeCast S256x1
      (multiReduction .add [1] S256 (exp sh) 0x00000000#32 reduces_S256x3072_S256 (.inl rfl) rfl)
      shapeCasts_S256_S256x1) broadcasts_S256x1_S256x3072)) bitsLt_bf16_f32)
    W (constant S256x64 .f32 0x00000000#32)) bitsLt_bf16_f32

theorem scaled_apply (q : FVec Ideal S256x64 .bf16) (K : FVec Ideal S3072x64 .bf16) (r : Fin 256) (j : Fin 3072) :
    scaled q K (ix2 r j) = score q K r j := by
  unfold scaled score
  refine (mulf_apply _ _ _).trans ?_
  rw [qk_apply]
  rfl

theorem shifted_apply (q : FVec Ideal S256x64 .bf16) (K : FVec Ideal S3072x64 .bf16) (r : Fin 256) (j : Fin 3072) :
    shifted q K (ix2 r j) = score q K r j - rowMax (score q K r) := by
  unfold shifted
  refine (subf_apply _ _ _).trans ?_
  refine congrArg₂ (fun a b : EReal => a - b) (scaled_apply q K r j) ?_
  refine (column_apply _ _ _ r j).trans ?_
  refine (rowmax_apply _ _ _ _ _ r).trans ?_
  unfold rowMax
  exact congrArg (fun f : Fin 3072 → EReal => (Finset.univ : Finset (Fin 3072)).fold max negInf f)
    (funext fun k => scaled_apply q K r k)

theorem weighted_apply (W : FVec Ideal S3072x64 .bf16) (sh : FVec Ideal S256x3072 .f32) (r : Fin 256) (d : Fin 64) :
    weighted W sh (ix2 r d)
      = ∑ j : Fin 3072, Ideal.div (Ideal.exp (sh (ix2 r j))) (∑ k : Fin 3072, Ideal.exp (sh (ix2 r k))) * W (ix2 j d) := by
  unfold weighted
  refine (truncf_apply (ψ := .bf16) (φ := .f32) _ bitsLt_bf16_f32 (ix2 r d)).trans ?_
  refine (pv_apply _ W r d).trans ?_
  refine Finset.sum_congr rfl fun j _ => ?_
  refine congrArg (fun a : EReal => a * W (ix2 j d)) ?_
  refine (truncf_apply (ψ := .bf16) (φ := .f32) _ bitsLt_bf16_f32 (ix2 r j)).trans ?_
  refine (divf_apply _ _ _).trans ?_
  refine congrArg (Ideal.div (Ideal.exp (sh (ix2 r j)))) ?_
  refine (column_apply _ _ _ r j).trans ?_
  exact rowsum_apply _ _ _ _ _ r

/-- The tile's matrix at (r, d): the softmax of row r's scores against the values' column d. -/
theorem attend_apply (q : FVec Ideal S256x64 .bf16) (K W : FVec Ideal S3072x64 .bf16) (r : Fin 256) (d : Fin 64) :
    weighted W (shifted q K) (ix2 r d) = ∑ j : Fin 3072, softmaxRow (score q K r) j * W (ix2 j d) := by
  refine (weighted_apply W _ r d).trans (Finset.sum_congr rfl fun j _ => ?_)
  refine congrArg (fun a : EReal => a * W (ix2 j d)) ?_
  unfold softmaxRow
  rw [shifted_apply]
  refine congrArg (Ideal.div _) (Finset.sum_congr rfl fun k _ => ?_)
  rw [shifted_apply]

/-! ## The tile, and the four stores' payloads -/

/-- The tile written for a query tile, the stacked keys and the stacked values. -/
def tileOf (x : Vec Ideal S1x1x1x256x64 .bf16) (K W : FVec Ideal S3072x64 .bf16) : FVec Ideal S1x1x1x256x64 .bf16 :=
  shapeCast S1x1x1x256x64 (weighted W (shifted (shapeCast S256x64 x shapeCasts_S1x1x1x256x64_S256x64) K))
    shapeCasts_S256x64_S1x1x1x256x64

theorem tileOf_apply (x : Vec Ideal S1x1x1x256x64 .bf16) (K W : FVec Ideal S3072x64 .bf16) (a0 a1 a2 : Fin 1) (r : Fin 256) (d : Fin 64) :
    tileOf x K W (ix5 a0 a1 a2 r d)
      = ∑ j : Fin 3072, softmaxRow (fun j => (∑ e : Fin 64, x (ix5 (0 : Fin 1) (0 : Fin 1) (0 : Fin 1) r e) * K (ix2 j e)) * eighth) j
          * W (ix2 j d) := by
  unfold tileOf
  refine (matrix_to_tile _ _ a0 a1 a2 r d).trans ?_
  refine (attend_apply _ K W r d).trans ?_
  have hs : score (shapeCast S256x64 x shapeCasts_S1x1x1x256x64_S256x64) K r
      = fun j => (∑ e : Fin 64, x (ix5 (0 : Fin 1) (0 : Fin 1) (0 : Fin 1) r e) * K (ix2 j e)) * eighth := by
    funext j
    unfold score
    refine congrArg (fun a : EReal => a * eighth) (Finset.sum_congr rfl fun e _ => ?_)
    rw [tile_to_matrix]
  rw [hs]

/-- The second and the fourth store write the tile of their query tile. -/
theorem pay7_eq (v10 v11 : FVec Ideal S3072x64 .bf16) (v32 : Vec Ideal S1x1x1x256x64 .bf16) :
    k3_pay7 v10 v11 v32 = tileOf v32 v10 v11 := rfl
theorem pay2_eq (v10 v11 : FVec Ideal S3072x64 .bf16) (v72 : Vec Ideal S1x1x1x256x64 .bf16) :
    k3_pay2 v10 v11 v72 = tileOf v72 v10 v11 := rfl
/-- The third, cut between the shifted scores and the exponentials. -/
theorem pay1_pay8_eq (v10 v11 : FVec Ideal S3072x64 .bf16) (v52 : Vec Ideal S1x1x1x256x64 .bf16) :
    k3_pay1 v11 (k3_pay8 v10 v52) = tileOf v52 v10 v11 := rfl
/-- The first, with the stacking of keys and values spelt inside it. -/
theorem pay6_pay5_eq (v0 v3 : Vec Ideal S1x1x2048x64 .f32) (v6 v8 : Vec Ideal S1x1x1024x64 .bf16) (v12 : Vec Ideal S1x1x1x256x64 .bf16) :
    k3_pay6 (k3_pay5 v0 v3 v6 v8 v12) = tileOf v12 (k3_pay3 v0 v6) (k3_pay4 v3 v8) := rfl

/-! ## The stacked rows -/

theorem slab_to_matrix {α : Type} {n : Nat} (x : (⟨4, ![1, 1, n, 64]⟩ : Shape).Idx → α)
    (h : (⟨4, ![1, 1, n, 64]⟩ : Shape).ShapeCasts ⟨2, ![n, 64]⟩) (l : Fin n) (d : Fin 64) :
    shapeCast (⟨2, ![n, 64]⟩ : Shape) x h (ix2 l d) = x (ix4 (0 : Fin 1) (0 : Fin 1) l d) := by
  refine shapeCast_apply x h (ix2 l d) _ ?_
  rw [Shape.rowMajor_val_two, Shape.rowMajor_val_four]
  show ((0 * 1 + 0) * n + l.val) * 64 + d.val = l.val * 64 + d.val
  omega

/-- Row j of the stacked rows: cached row j below 2048, current row j - 2048 from there on. -/
theorem stack_apply (c : Vec Ideal S1x1x2048x64 .f32) (u : Vec Ideal S1x1x1024x64 .bf16) (j : Fin 3072) (d : Fin 64) :
    k3_pay3 c u (ix2 j d)
      = if h : j.val < 2048 then c (ix4 (0 : Fin 1) (0 : Fin 1) (⟨j.val, h⟩ : Fin 2048) d)
        else u (ix4 (0 : Fin 1) (0 : Fin 1) (⟨j.val - 2048, by have := j.isLt; omega⟩ : Fin 1024) d) := by
  unfold k3_pay3
  by_cases h : j.val < 2048
  · rw [dif_pos h]
    refine (concatenate_pair_apply_left (t := S3072x64) (s₁ := S2048x64) (s₂ := S1024x64) (0 : Fin S3072x64.rank) _ _ _ (ix2 j d) rfl (ix2 (⟨j.val, h⟩ : Fin 2048) d) fun b => ?_).trans ?_
    · match b with
      | ⟨0, _⟩ => rfl
      | ⟨1, _⟩ => rfl
    · refine (truncf_apply (ψ := .bf16) (φ := .f32) _ bitsLt_bf16_f32 _).trans ?_
      exact slab_to_matrix c _ _ d
  · rw [dif_neg h]
    refine (concatenate_pair_apply_right (t := S3072x64) (s₁ := S2048x64) (s₂ := S1024x64) (0 : Fin S3072x64.rank) _ _ _ (ix2 j d) rfl rfl
      (ix2 (⟨j.val - 2048, by have := j.isLt; omega⟩ : Fin 1024) d) (fun b hb => ?_) ?_).trans ?_
    · match b with
      | ⟨0, _⟩ => exact absurd rfl hb
      | ⟨1, _⟩ => rfl
    · show j.val - 2048 + 2048 = j.val
      omega
    · exact slab_to_matrix u _ _ d

/-- The values are stacked as the keys are. -/
theorem pay4_eq (c : Vec Ideal S1x1x2048x64 .f32) (u : Vec Ideal S1x1x1024x64 .bf16) : k3_pay4 c u = k3_pay3 c u := rfl

end Cert.KernelIdeal.AttnValue

end
-- ==== Proof.AttnValueBlock.lean ====
/-
  The output block of one grid point as a function of the five input blocks. The four stores write the tiles of the
  four query heads, so the block holds, at (a0, a1, h, l, d), the attention row of query head h at row l against the
  stacked keys and values of the point. When the input blocks are the blocks of whole arrays at (batch b, key/value
  head g, row block lb), that row is the grouped attention of the arrays at (b, g, h, 256 · lb + l, d).
-/
import proofs.«125955_j22462678958488_2_alg».proof.Proof.RegionAttn
import proofs.«125955_j22462678958488_2_alg».proof.Proof.AttnValueTile

noncomputable section

namespace Cert.KernelIdeal.AttnValue

open Idealize.ShloMosaic Idealize.ShloMosaic.ValueIdx Cert.KernelIdeal Cert.KernelIdeal.Gen Cert.KernelIdeal.Frm
open Cert.Spec (Arr softmaxRow eighth stackRow scoreRow attnRegion)

/-- The attention row of query head h at row l of the block against stacked keys K and values W, at channel d. -/
def tileRow (x0 : Vec Ideal S1x1x4x256x64 .bf16) (K W : FVec Ideal S3072x64 .bf16) (h : Fin 4) (l : Fin 256) (d : Fin 64) : EReal :=
  ∑ j : Fin 3072, softmaxRow (fun j => (∑ e : Fin 64, x0 (ix5 (0 : Fin 1) (0 : Fin 1) h l e) * K (ix2 j e)) * eighth) j * W (ix2 j d)

/-- The block of those rows. -/
def blockOf (x0 : Vec Ideal S1x1x4x256x64 .bf16) (K W : FVec Ideal S3072x64 .bf16) : Vec Ideal S1x1x4x256x64 .bf16 :=
  fun y => tileRow x0 K W (y 2) (y 3) (y 4)

/-- An index of head k's tile sits in the block at head k, same row and channel. -/
theorem emb_tile (k : Nat) (hk : k < 4) (inb : ∀ a, (![0, 0, k, 0, 0] : Fin 5 → Nat) a + S1x1x1x256x64.size a ≤ S1x1x4x256x64.size a)
    (a0 a1 a2 : Fin 1) (r : Fin 256) (d : Fin 64) :
    (Rect.unit (s := S1x1x4x256x64) ![0, 0, k, 0, 0] S1x1x1x256x64.size inb).emb (ix5 a0 a1 a2 r d)
      = ix5 (0 : Fin 1) (0 : Fin 1) (⟨k, hk⟩ : Fin 4) r d := by
  funext a
  apply Fin.ext
  rw [Rect.emb_apply]
  have := a0.isLt; have := a1.isLt; have := a2.isLt
  match a with
  | ⟨0, _⟩ => show 0 + 1 * a0.val = 0; omega
  | ⟨1, _⟩ => show 0 + 1 * a1.val = 0; omega
  | ⟨2, _⟩ => show k + 1 * a2.val = k; omega
  | ⟨3, _⟩ => show 0 + 1 * r.val = r.val; omega
  | ⟨4, _⟩ => show 0 + 1 * d.val = d.val; omega

/-- The tile of head k's query tile is head k's part of the block. -/
theorem tile_piece (x0 : Vec Ideal S1x1x4x256x64 .bf16) (K W : FVec Ideal S3072x64 .bf16) (k : Nat) (hk : k < 4)
    (inb : ∀ a, (![0, 0, k, 0, 0] : Fin 5 → Nat) a + S1x1x1x256x64.size a ≤ S1x1x4x256x64.size a) (x : S1x1x1x256x64.Idx) :
    tileOf (View.ld x0 (Rect.unit (s := S1x1x4x256x64) ![0, 0, k, 0, 0] S1x1x1x256x64.size inb)) K W x
      = blockOf x0 K W ((Rect.unit (s := S1x1x4x256x64) ![0, 0, k, 0, 0] S1x1x1x256x64.size inb).emb x) := by
  obtain ⟨a0, a1, a2, r, d, rfl⟩ : ∃ (a0 a1 a2 : Fin 1) (r : Fin 256) (d : Fin 64), x = ix5 a0 a1 a2 r d :=
    ⟨x 0, x 1, x 2, x 3, x 4, eq_ix5 x⟩
  rw [tileOf_apply, emb_tile k hk inb]
  show _ = tileRow x0 K W (⟨k, hk⟩ : Fin 4) r d
  unfold tileRow
  refine Finset.sum_congr rfl fun j _ => ?_
  refine congrArg (fun s : Fin 3072 → EReal => softmaxRow s j * W (ix2 j d)) (funext fun j' => ?_)
  refine congrArg (fun a : EReal => a * eighth) (Finset.sum_congr rfl fun e _ => ?_)
  refine congrArg (fun a : EReal => a * K (ix2 j' e)) ?_
  show x0 ((Rect.unit (s := S1x1x4x256x64) ![0, 0, k, 0, 0] S1x1x1x256x64.size inb).emb (ix5 (0 : Fin 1) (0 : Fin 1) (0 : Fin 1) r e)) = _
  rw [emb_tile k hk inb]

/-- What the body leaves in the output block: the four heads' rows against the point's stacked keys and values. -/
theorem out3_5_eq (x0 : Vec Ideal S1x1x4x256x64 .bf16) (x1 x2 : Vec Ideal S1x1x2048x64 .f32) (x3 x4 : Vec Ideal S1x1x1024x64 .bf16) :
    out3_5 x0 x1 x2 x3 x4 = blockOf x0 (keys3 x1 x3) (vals3 x2 x4) := by
  funext y
  unfold out3_5
  refine View.canon_apply_of_pieces (blockOf x0 (keys3 x1 x3) (vals3 x2 x4)) _ ?_ y (cover3_5 _ _ _ _ y)
  intro p hp x
  simp only [List.mem_cons, List.mem_singleton, List.not_mem_nil, or_false] at hp
  rcases hp with rfl | rfl | rfl | rfl
  · show k3_pay2 (keys3 x1 x3) (vals3 x2 x4) (View.ld x0 rH3_3) x = _
    rw [pay2_eq]
    exact tile_piece x0 _ _ 3 (by decide) _ x
  · show k3_pay1 (vals3 x2 x4) (k3_pay8 (keys3 x1 x3) (View.ld x0 rH3_2)) x = _
    rw [pay1_pay8_eq]
    exact tile_piece x0 _ _ 2 (by decide) _ x
  · show k3_pay7 (keys3 x1 x3) (vals3 x2 x4) (View.ld x0 rH3_1) x = _
    rw [pay7_eq]
    exact tile_piece x0 _ _ 1 (by decide) _ x
  · show k3_pay6 (k3_pay5 (View.ld x1 rC3) (View.ld x2 rC3) (View.ld x3 rU3) (View.ld x4 rU3) (View.ld x0 rH3_0)) x = _
    rw [pay6_pay5_eq]
    exact tile_piece x0 _ _ 0 (by decide) _ x

/-! ## The block of whole arrays -/

theorem hz4 : (![0, 0, 0, 0] : Fin 4 → Nat) = fun _ => 0 := funext fun a => by fin_cases a <;> rfl

/-- The stacked keys of cache and current blocks that are the slabs of arrays at (b, g) are the arrays' stacked rows. -/
theorem keys_apply (ck : Arr ⟨4, ![2, 8, 2048, 64]⟩) (uk : Arr ⟨4, ![2, 8, 1024, 64]⟩)
    (x1 : Vec Ideal S1x1x2048x64 .f32) (x3 : Vec Ideal S1x1x1024x64 .bf16) (b : Fin 2) (g : Fin 8)
    (h1 : ∀ (l : Fin 2048) (e : Fin 64), x1 (ix4 (0 : Fin 1) (0 : Fin 1) l e) = ck (ix4 b g l e))
    (h3 : ∀ (l : Fin 1024) (e : Fin 64), x3 (ix4 (0 : Fin 1) (0 : Fin 1) l e) = uk (ix4 b g l e)) (j : Fin 3072) (e : Fin 64) :
    keys3 x1 x3 (ix2 j e) = stackRow ck uk b g j e := by
  have e1 : View.ld x1 rC3 = x1 := View.ld_unit_zero (S := S1x1x2048x64) hz4 _ x1
  have e3 : View.ld x3 rU3 = x3 := View.ld_unit_zero (S := S1x1x1024x64) hz4 _ x3
  unfold keys3 stackRow
  rw [e1, e3, stack_apply]
  by_cases h : j.val < 2048
  · rw [dif_pos h, dif_pos h]; exact h1 _ _
  · rw [dif_neg h, dif_neg h]; exact h3 _ _

/-- The stacked values likewise. -/
theorem vals_apply (cv : Arr ⟨4, ![2, 8, 2048, 64]⟩) (uv : Arr ⟨4, ![2, 8, 1024, 64]⟩)
    (x2 : Vec Ideal S1x1x2048x64 .f32) (x4 : Vec Ideal S1x1x1024x64 .bf16) (b : Fin 2) (g : Fin 8)
    (h2 : ∀ (l : Fin 2048) (e : Fin 64), x2 (ix4 (0 : Fin 1) (0 : Fin 1) l e) = cv (ix4 b g l e))
    (h4 : ∀ (l : Fin 1024) (e : Fin 64), x4 (ix4 (0 : Fin 1) (0 : Fin 1) l e) = uv (ix4 b g l e)) (j : Fin 3072) (e : Fin 64) :
    vals3 x2 x4 (ix2 j e) = stackRow cv uv b g j e := by
  have e2 : View.ld x2 rC3 = x2 := View.ld_unit_zero (S := S1x1x2048x64) hz4 _ x2
  have e4 : View.ld x4 rU3 = x4 := View.ld_unit_zero (S := S1x1x1024x64) hz4 _ x4
  unfold vals3 stackRow
  rw [e2, e4, pay4_eq, stack_apply]
  by_cases h : j.val < 2048
  · rw [dif_pos h, dif_pos h]; exact h2 _ _
  · rw [dif_neg h, dif_neg h]; exact h4 _ _

/-- A row of the block, when the five input blocks are the blocks of whole arrays at (b, g, lb), is the grouped
    attention of the arrays at (b, g, h, 256 · lb + l, d). -/
theorem row_eq (q5 : Arr ⟨5, ![2, 8, 4, 1024, 64]⟩) (ck cv : Arr ⟨4, ![2, 8, 2048, 64]⟩) (uk uv : Arr ⟨4, ![2, 8, 1024, 64]⟩)
    (x0 : Vec Ideal S1x1x4x256x64 .bf16) (x1 x2 : Vec Ideal S1x1x2048x64 .f32) (x3 x4 : Vec Ideal S1x1x1024x64 .bf16)
    (b : Fin 2) (g : Fin 8) (lb : Fin 4)
    (h0 : ∀ (h : Fin 4) (l : Fin 256) (e : Fin 64),
      x0 (ix5 (0 : Fin 1) (0 : Fin 1) h l e) = q5 (ix5 b g h (⟨lb.val * 256 + l.val, by have := lb.isLt; have := l.isLt; omega⟩ : Fin 1024) e))
    (h1 : ∀ (l : Fin 2048) (e : Fin 64), x1 (ix4 (0 : Fin 1) (0 : Fin 1) l e) = ck (ix4 b g l e))
    (h2 : ∀ (l : Fin 2048) (e : Fin 64), x2 (ix4 (0 : Fin 1) (0 : Fin 1) l e) = cv (ix4 b g l e))
    (h3 : ∀ (l : Fin 1024) (e : Fin 64), x3 (ix4 (0 : Fin 1) (0 : Fin 1) l e) = uk (ix4 b g l e))
    (h4 : ∀ (l : Fin 1024) (e : Fin 64), x4 (ix4 (0 : Fin 1) (0 : Fin 1) l e) = uv (ix4 b g l e))
    (h : Fin 4) (l : Fin 256) (d : Fin 64) :
    tileRow x0 (keys3 x1 x3) (vals3 x2 x4) h l d
      = attnRegion q5 ck cv uk uv (ix5 b g h (⟨lb.val * 256 + l.val, by have := lb.isLt; have := l.isLt; omega⟩ : Fin 1024) d) := by
  unfold tileRow
  show _ = ∑ j : Fin 3072, softmaxRow (scoreRow q5 ck uk b g h (⟨lb.val * 256 + l.val, by have := lb.isLt; have := l.isLt; omega⟩ : Fin 1024)) j
    * stackRow cv uv b g j d
  refine Finset.sum_congr rfl fun j _ => ?_
  refine congrArg₂ (fun (s : Fin 3072 → EReal) (v : EReal) => softmaxRow s j * v) (funext fun j' => ?_)
    (vals_apply cv uv x2 x4 b g h2 h4 j d)
  unfold scoreRow
  refine congrArg (fun a : EReal => a * eighth) (Finset.sum_congr rfl fun e _ => ?_)
  rw [h0, keys_apply ck uk x1 x3 b g h1 h3]

end Cert.KernelIdeal.AttnValue

end
-- ==== Proof.AttnValueFinal.lean ====
/-
  From the blocks to the array. At every grid point (b, g, lb) the five input blocks are the blocks of the operand
  arrays there — the four query heads of group g at rows 256 · lb …, the whole cached and current slabs of (b, g) —,
  so what the point writes back is the block of the grouped attention of the arrays; every point writes back, and
  the 64 blocks cover the output array: index (b, g, h, l, d) lies in the block of the point (b, g, l / 256).
-/
import proofs.«125955_j22462678958488_2_alg».proof.Proof.AttnValueBlock
import Idealize.ShloMosaic.Lib.Pipeline.Value

noncomputable section

namespace Cert.KernelIdeal.AttnValue

open Idealize.ShloMosaic Idealize.ShloMosaic.TcCoe Idealize.ShloMosaic.ValueIdx Idealize.SL.Sem
open Cert.KernelIdeal Cert.KernelIdeal.Gen Cert.KernelIdeal.Frm
open Idealize.ShloMosaic.Pipeline (Dat)
open Cert.Spec (Arr attnRegion)

variable (V : (c : Dev nD) → (b : Ref sig .tc) → Buf (Elt Ideal) ((c : Thread nD τ).loc b))

/-- The index maps over the grid: the query window moves with the output window; the four slab windows follow its
    batch and head and sit at row and channel block zero; the output's block indices stay in their ranges. -/
theorem idx_facts : ∀ t : Fin cfg3.N,
    (win3_0.index t (0 : Fin 5) = win3_5.index t (0 : Fin 5) ∧ win3_0.index t (1 : Fin 5) = win3_5.index t (1 : Fin 5)
      ∧ win3_0.index t (2 : Fin 5) = 0 ∧ win3_0.index t (3 : Fin 5) = win3_5.index t (3 : Fin 5) ∧ win3_0.index t (4 : Fin 5) = 0)
    ∧ (win3_1.index t (0 : Fin 4) = win3_5.index t (0 : Fin 5) ∧ win3_1.index t (1 : Fin 4) = win3_5.index t (1 : Fin 5)
      ∧ win3_1.index t (2 : Fin 4) = 0 ∧ win3_1.index t (3 : Fin 4) = 0)
    ∧ (win3_2.index t (0 : Fin 4) = win3_5.index t (0 : Fin 5) ∧ win3_2.index t (1 : Fin 4) = win3_5.index t (1 : Fin 5)
      ∧ win3_2.index t (2 : Fin 4) = 0 ∧ win3_2.index t (3 : Fin 4) = 0)
    ∧ (win3_3.index t (0 : Fin 4) = win3_5.index t (0 : Fin 5) ∧ win3_3.index t (1 : Fin 4) = win3_5.index t (1 : Fin 5)
      ∧ win3_3.index t (2 : Fin 4) = 0 ∧ win3_3.index t (3 : Fin 4) = 0)
    ∧ (win3_4.index t (0 : Fin 4) = win3_5.index t (0 : Fin 5) ∧ win3_4.index t (1 : Fin 4) = win3_5.index t (1 : Fin 5)
      ∧ win3_4.index t (2 : Fin 4) = 0 ∧ win3_4.index t (3 : Fin 4) = 0)
    ∧ (win3_5.index t (0 : Fin 5) < 2 ∧ win3_5.index t (1 : Fin 5) < 8 ∧ win3_5.index t (2 : Fin 5) = 0
      ∧ win3_5.index t (3 : Fin 5) < 4 ∧ win3_5.index t (4 : Fin 5) = 0) :=
  (by decide +kernel : ∀ t : Fin grid3.N, _)

/-- Every (batch, head, row block) is some point's output block. -/
theorem idx_onto : ∀ (b : Fin 2) (g : Fin 8) (lb : Fin 4), ∃ t : Fin cfg3.N, win3_5.index t = ![b.val, g.val, 0, lb.val, 0] :=
  (by decide +kernel : ∀ (b : Fin 2) (g : Fin 8) (lb : Fin 4), ∃ t : Fin grid3.N, win3_5.index t = ![b.val, g.val, 0, lb.val, 0])

/-- The query window's block at a point holds the four heads of its group at the point's 256 rows. -/
theorem blk0_apply (c : Dev nD) (t : Fin cfg3.N) (b : Fin 2) (g : Fin 8) (lb : Fin 4) (hb : win3_0.index t (0 : Fin 5) = b.val)
    (hg : win3_0.index t (1 : Fin 5) = g.val) (h2 : win3_0.index t (2 : Fin 5) = 0) (h3 : win3_0.index t (3 : Fin 5) = lb.val)
    (h4 : win3_0.index t (4 : Fin 5) = 0) (h : Fin 4) (l : Fin 256) (e : Fin 64) :
    (iblk3 V c 0 t : Vec Ideal S1x1x4x256x64 .bf16) (ix5 (0 : Fin 1) (0 : Fin 1) h l e)
      = (V c main_v19 : Arr ⟨5, ![2, 8, 4, 1024, 64]⟩) (ix5 b g h (⟨lb.val * 256 + l.val, by have := lb.isLt; have := l.isLt; omega⟩ : Fin 1024) e) := by
  unfold iblk3
  rw [View.read_apply]
  show V c main_v19 (((cfg3.win 0).blk t).view.emb (ix5 (0 : Fin 1) (0 : Fin 1) h l e)) = V c main_v19 (ix5 b g h (⟨lb.val * 256 + l.val, _⟩ : Fin 1024) e)
  refine congrArg (V c main_v19) (funext fun a => Fin.ext ?_)
  match a with
  | ⟨0, _⟩ => show win3_0.index t (0 : Fin 5) * 1 + 1 * 0 = b.val; omega
  | ⟨1, _⟩ => show win3_0.index t (1 : Fin 5) * 1 + 1 * 0 = g.val; omega
  | ⟨2, _⟩ => show win3_0.index t (2 : Fin 5) * 4 + 1 * h.val = h.val; omega
  | ⟨3, _⟩ => show win3_0.index t (3 : Fin 5) * 256 + 1 * l.val = lb.val * 256 + l.val; omega
  | ⟨4, _⟩ => show win3_0.index t (4 : Fin 5) * 64 + 1 * e.val = e.val; omega

/-- Window 1's block at a point holds the whole slab of its array at the point's batch and key/value head. -/
theorem blk1_apply (c : Dev nD) (t : Fin cfg3.N) (b : Fin 2) (g : Fin 8) (hb : win3_1.index t (0 : Fin 4) = b.val)
    (hg : win3_1.index t (1 : Fin 4) = g.val) (h2 : win3_1.index t (2 : Fin 4) = 0) (h3 : win3_1.index t (3 : Fin 4) = 0)
    (l : Fin 2048) (e : Fin 64) :
    (iblk3 V c 1 t : Vec Ideal S1x1x2048x64 .f32) (ix4 (0 : Fin 1) (0 : Fin 1) l e) = (V c main_arg1 : Arr ⟨4, ![2, 8, 2048, 64]⟩) (ix4 b g l e) := by
  unfold iblk3
  rw [View.read_apply]
  show V c main_arg1 (((cfg3.win 1).blk t).view.emb (ix4 (0 : Fin 1) (0 : Fin 1) l e)) = V c main_arg1 (ix4 b g l e)
  refine congrArg (V c main_arg1) (funext fun a => Fin.ext ?_)
  match a with
  | ⟨0, _⟩ => show win3_1.index t (0 : Fin 4) * 1 + 1 * 0 = b.val; omega
  | ⟨1, _⟩ => show win3_1.index t (1 : Fin 4) * 1 + 1 * 0 = g.val; omega
  | ⟨2, _⟩ => show win3_1.index t (2 : Fin 4) * 2048 + 1 * l.val = l.val; omega
  | ⟨3, _⟩ => show win3_1.index t (3 : Fin 4) * 64 + 1 * e.val = e.val; omega

/-- Window 2's block at a point holds the whole slab of its array at the point's batch and key/value head. -/
theorem blk2_apply (c : Dev nD) (t : Fin cfg3.N) (b : Fin 2) (g : Fin 8) (hb : win3_2.index t (0 : Fin 4) = b.val)
    (hg : win3_2.index t (1 : Fin 4) = g.val) (h2 : win3_2.index t (2 : Fin 4) = 0) (h3 : win3_2.index t (3 : Fin 4) = 0)
    (l : Fin 2048) (e : Fin 64) :
    (iblk3 V c 2 t : Vec Ideal S1x1x2048x64 .f32) (ix4 (0 : Fin 1) (0 : Fin 1) l e) = (V c main_arg2 : Arr ⟨4, ![2, 8, 2048, 64]⟩) (ix4 b g l e) := by
  unfold iblk3
  rw [View.read_apply]
  show V c main_arg2 (((cfg3.win 2).blk t).view.emb (ix4 (0 : Fin 1) (0 : Fin 1) l e)) = V c main_arg2 (ix4 b g l e)
  refine congrArg (V c main_arg2) (funext fun a => Fin.ext ?_)
  match a with
  | ⟨0, _⟩ => show win3_2.index t (0 : Fin 4) * 1 + 1 * 0 = b.val; omega
  | ⟨1, _⟩ => show win3_2.index t (1 : Fin 4) * 1 + 1 * 0 = g.val; omega
  | ⟨2, _⟩ => show win3_2.index t (2 : Fin 4) * 2048 + 1 * l.val = l.val; omega
  | ⟨3, _⟩ => show win3_2.index t (3 : Fin 4) * 64 + 1 * e.val = e.val; omega

/-- Window 3's block at a point holds the whole slab of its array at the point's batch and key/value head. -/
theorem blk3_apply (c : Dev nD) (t : Fin cfg3.N) (b : Fin 2) (g : Fin 8) (hb : win3_3.index t (0 : Fin 4) = b.val)
    (hg : win3_3.index t (1 : Fin 4) = g.val) (h2 : win3_3.index t (2 : Fin 4) = 0) (h3 : win3_3.index t (3 : Fin 4) = 0)
    (l : Fin 1024) (e : Fin 64) :
    (iblk3 V c 3 t : Vec Ideal S1x1x1024x64 .bf16) (ix4 (0 : Fin 1) (0 : Fin 1) l e) = (V c main_v18 : Arr ⟨4, ![2, 8, 1024, 64]⟩) (ix4 b g l e) := by
  unfold iblk3
  rw [View.read_apply]
  show V c main_v18 (((cfg3.win 3).blk t).view.emb (ix4 (0 : Fin 1) (0 : Fin 1) l e)) = V c main_v18 (ix4 b g l e)
  refine congrArg (V c main_v18) (funext fun a => Fin.ext ?_)
  match a with
  | ⟨0, _⟩ => show win3_3.index t (0 : Fin 4) * 1 + 1 * 0 = b.val; omega
  | ⟨1, _⟩ => show win3_3.index t (1 : Fin 4) * 1 + 1 * 0 = g.val; omega
  | ⟨2, _⟩ => show win3_3.index t (2 : Fin 4) * 1024 + 1 * l.val = l.val; omega
  | ⟨3, _⟩ => show win3_3.index t (3 : Fin 4) * 64 + 1 * e.val = e.val; omega

/-- Window 4's block at a point holds the whole slab of its array at the point's batch and key/value head. -/
theorem blk4_apply (c : Dev nD) (t : Fin cfg3.N) (b : Fin 2) (g : Fin 8) (hb : win3_4.index t (0 : Fin 4) = b.val)
    (hg : win3_4.index t (1 : Fin 4) = g.val) (h2 : win3_4.index t (2 : Fin 4) = 0) (h3 : win3_4.index t (3 : Fin 4) = 0)
    (l : Fin 1024) (e : Fin 64) :
    (iblk3 V c 4 t : Vec Ideal S1x1x1024x64 .bf16) (ix4 (0 : Fin 1) (0 : Fin 1) l e) = (V c main_v14 : Arr ⟨4, ![2, 8, 1024, 64]⟩) (ix4 b g l e) := by
  unfold iblk3
  rw [View.read_apply]
  show V c main_v14 (((cfg3.win 4).blk t).view.emb (ix4 (0 : Fin 1) (0 : Fin 1) l e)) = V c main_v14 (ix4 b g l e)
  refine congrArg (V c main_v14) (funext fun a => Fin.ext ?_)
  match a with
  | ⟨0, _⟩ => show win3_4.index t (0 : Fin 4) * 1 + 1 * 0 = b.val; omega
  | ⟨1, _⟩ => show win3_4.index t (1 : Fin 4) * 1 + 1 * 0 = g.val; omega
  | ⟨2, _⟩ => show win3_4.index t (2 : Fin 4) * 1024 + 1 * l.val = l.val; omega
  | ⟨3, _⟩ => show win3_4.index t (3 : Fin 4) * 64 + 1 * e.val = e.val; omega

/-- What a point writes back is its block of the grouped attention of the operand arrays. -/
theorem flushed_eq (c : Dev nD) (t : Fin cfg3.N) :
    (dat3 (F := Ideal) V c).flushed 5 t
      = ((cfg3.win 5).blk t).view.read (Elt Ideal)
          (attnRegion (V c main_v19) (V c main_arg1) (V c main_arg2) (V c main_v18) (V c main_v14)) := by
  show (cfg3.win 5).cut (grid3.coords t) ((dat3 V c).after 5 t) = _
  rw [after3_5, out3_5_eq]
  obtain ⟨⟨e00, e01, e02, e03, e04⟩, ⟨e10, e11, e12, e13⟩, ⟨e20, e21, e22, e23⟩, ⟨e30, e31, e32, e33⟩, ⟨e40, e41, e42, e43⟩,
    ⟨b0, b1, b2, b3, b4⟩⟩ := idx_facts t
  funext y
  revert y
  show ∀ y : S1x1x4x256x64.Idx,
    blockOf (iblk3 V c 0 t) (keys3 (iblk3 V c 1 t) (iblk3 V c 3 t)) (vals3 (iblk3 V c 2 t) (iblk3 V c 4 t)) y
      = attnRegion (V c main_v19) (V c main_arg1) (V c main_arg2) (V c main_v18) (V c main_v14) (((cfg3.win 5).blk t).view.emb y)
  intro y
  obtain ⟨a0, a1, h, l, d, rfl⟩ : ∃ (a0 a1 : Fin 1) (h : Fin 4) (l : Fin 256) (d : Fin 64), y = ix5 a0 a1 h l d :=
    ⟨y 0, y 1, y 2, y 3, y 4, eq_ix5 y⟩
  show tileRow (iblk3 V c 0 t) (keys3 (iblk3 V c 1 t) (iblk3 V c 3 t)) (vals3 (iblk3 V c 2 t) (iblk3 V c 4 t)) h l d = _
  refine (row_eq (V c main_v19) (V c main_arg1) (V c main_arg2) (V c main_v18) (V c main_v14)
    (iblk3 V c 0 t) (iblk3 V c 1 t) (iblk3 V c 2 t) (iblk3 V c 3 t) (iblk3 V c 4 t)
    (⟨win3_5.index t (0 : Fin 5), b0⟩ : Fin 2) (⟨win3_5.index t (1 : Fin 5), b1⟩ : Fin 8) (⟨win3_5.index t (3 : Fin 5), b3⟩ : Fin 4)
    (blk0_apply V c t _ _ _ e00 e01 e02 e03 e04) (blk1_apply V c t _ _ e10 e11 e12 e13) (blk2_apply V c t _ _ e20 e21 e22 e23)
    (blk3_apply V c t _ _ e30 e31 e32 e33) (blk4_apply V c t _ _ e40 e41 e42 e43) h l d).trans ?_
  refine congrArg (attnRegion (V c main_v19) (V c main_arg1) (V c main_arg2) (V c main_v18) (V c main_v14)) (funext fun a => Fin.ext ?_)
  have := a0.isLt; have := a1.isLt
  match a with
  | ⟨0, _⟩ => show win3_5.index t (0 : Fin 5) = win3_5.index t (0 : Fin 5) * 1 + 1 * a0.val; omega
  | ⟨1, _⟩ => show win3_5.index t (1 : Fin 5) = win3_5.index t (1 : Fin 5) * 1 + 1 * a1.val; omega
  | ⟨2, _⟩ => show h.val = win3_5.index t (2 : Fin 5) * 4 + 1 * h.val; omega
  | ⟨3, _⟩ => show win3_5.index t (3 : Fin 5) * 256 + l.val = win3_5.index t (3 : Fin 5) * 256 + 1 * l.val; omega
  | ⟨4, _⟩ => show d.val = win3_5.index t (4 : Fin 5) * 64 + 1 * d.val; omega

/-- An index of the array is in a point's block iff each coordinate is in the block's range on its axis. -/
theorem mem_blk (t : Fin cfg3.N) (i : S2x8x4x1024x64.Idx) :
    i ∈ ((cfg3.win 5).blk t).view.set ↔ ∀ a : Fin 5, win3_5.index t a * S1x1x4x256x64.size a ≤ (i a).val
      ∧ (i a).val < win3_5.index t a * S1x1x4x256x64.size a + S1x1x4x256x64.size a := by
  show i ∈ ((View.whole main_v20).slice (win3_5.rect t)).set ↔ _
  rw [View.set_slice_whole, Rect.mem_set_unit]
  exact Iff.rfl

/-- Every index of the output array is in the block of a point that writes back. -/
theorem cover (i : S2x8x4x1024x64.Idx) : ∃ t : Fin cfg3.N, (cfg3.win 5).flush t = true ∧ i ∈ ((cfg3.win 5).blk t).view.set := by
  have h0 : (i 0).val < 2 := (i 0).isLt
  have h1 : (i 1).val < 8 := (i 1).isLt
  have h2 : (i 2).val < 4 := (i 2).isLt
  have h3 : (i 3).val < 1024 := (i 3).isLt
  have h4 : (i 4).val < 64 := (i 4).isLt
  obtain ⟨t, ht⟩ := idx_onto ⟨(i 0).val, h0⟩ ⟨(i 1).val, h1⟩ ⟨(i 3).val / 256, by omega⟩
  have q0 : win3_5.index t (0 : Fin 5) = (i 0).val := congrFun ht 0
  have q1 : win3_5.index t (1 : Fin 5) = (i 1).val := congrFun ht 1
  have q2 : win3_5.index t (2 : Fin 5) = 0 := congrFun ht 2
  have q3 : win3_5.index t (3 : Fin 5) = (i 3).val / 256 := congrFun ht 3
  have q4 : win3_5.index t (4 : Fin 5) = 0 := congrFun ht 4
  refine ⟨t, flush3_5 t, ?_⟩
  rw [mem_blk]
  intro a
  match a with
  | ⟨0, _⟩ => show win3_5.index t (0 : Fin 5) * 1 ≤ (i 0).val ∧ (i 0).val < win3_5.index t (0 : Fin 5) * 1 + 1; omega
  | ⟨1, _⟩ => show win3_5.index t (1 : Fin 5) * 1 ≤ (i 1).val ∧ (i 1).val < win3_5.index t (1 : Fin 5) * 1 + 1; omega
  | ⟨2, _⟩ => show win3_5.index t (2 : Fin 5) * 4 ≤ (i 2).val ∧ (i 2).val < win3_5.index t (2 : Fin 5) * 4 + 4; omega
  | ⟨3, _⟩ => show win3_5.index t (3 : Fin 5) * 256 ≤ (i 3).val ∧ (i 3).val < win3_5.index t (3 : Fin 5) * 256 + 256; omega
  | ⟨4, _⟩ => show win3_5.index t (4 : Fin 5) * 64 ≤ (i 4).val ∧ (i 4).val < win3_5.index t (4 : Fin 5) * 64 + 64; omega

/-- After the region the output array holds the grouped attention of the region's operand arrays as it found them. -/
theorem attn_final (c : Dev nD) :
    (dat3 (F := Ideal) V c).arrAt 5 cfg3.N
      = attnRegion (V c main_v19) (V c main_arg1) (V c main_arg2) (V c main_v18) (V c main_v14) :=
  (dat3 (F := Ideal) V c).arrAt_eq_of_cover 5
    (attnRegion (V c main_v19) (V c main_arg1) (V c main_arg2) (V c main_v18) (V c main_v14))
    (fun t _ => flushed_eq V c t) cover

end Cert.KernelIdeal.AttnValue

end
-- ==== Proof.MatmulValueQkvPieces.lean ====
/-
  Region 0, what the body's stores leave, as terms of the blocks it loads. At a first contraction block the accumulator
  ends at the accumulation step applied to the two input blocks and the block of zeros just stored (the zeros are read
  back from the accumulator itself); at a middle and at a last block, at the step applied to the input blocks and what
  the accumulator held; and at a last block the output block ends at the accumulator's new contents in the output's format.
-/
import proofs.«125955_j22462678958488_2_alg».proof.Proof.RegionQkv
import Idealize.ShloMosaic.Lib.Pipeline.Value

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL.Sem

variable {F : FTy → Type} [FloatOps F]

/-- A block read or written from offset (0, 0) is the whole block. -/
theorem hz0 : (![0, 0] : Fin 2 → Nat) = fun _ => 0 := funext fun a => by fin_cases a <;> rfl

/-- First contraction block: the accumulator ends at the step from zeros. -/
theorem sout0_A_0_eq (c : Dev nD) (i : grid0.Coords) (arg3 : Memref sig .tc .vmem S512x512 .bf16) (harg3 : arg3.IsWhole) (arg4 : Memref sig .tc .vmem S1024x512 .bf16) (harg4 : arg4.IsWhole) (arg5 : Memref sig .tc .vmem S512x1024 .bf16) (harg5 : arg5.IsWhole) (arg6 : Memref sig .tc .vmem S512x1024 .f32) (harg6 : arg6.IsWhole) (hc0 : cond0_0 i) (hc1 : ¬cond0_1 i)
    (x0 : Vec F S512x512 .bf16) (x1 : Vec F S1024x512 .bf16) :
    sout0_A_0 c i arg3 harg3 arg4 harg4 arg5 harg5 arg6 harg6 hc0 hc1 x0 x1 = k0_pay2 x0 x1 (k0_pay1 (F := F)) := by
  unfold sout0_A_0
  rw [View.read_writes_eq_canon _ _ _ (scover0_A_0 c i arg3 harg3 arg4 harg4 arg5 harg5 arg6 harg6 hc0 hc1 x0 x1)]
  unfold kernelRun0_A
  dsimp only
  sl_unfold_words
  rw [View.canon_cons_unit_zero (S := S512x1024) hz0, View.readCov_unit_zero (S := S512x1024) _ hz0]
  simp only [View.readAt_eq_ld, harg3.read_unread, harg4.read_unread, View.ld_unit_zero (S := S512x512) hz0, View.ld_unit_zero (S := S1024x512) hz0]

/-- Middle contraction block: the accumulator ends at the step from what it held. -/
theorem sout0_B_0_eq (c : Dev nD) (i : grid0.Coords) (arg3 : Memref sig .tc .vmem S512x512 .bf16) (harg3 : arg3.IsWhole) (arg4 : Memref sig .tc .vmem S1024x512 .bf16) (harg4 : arg4.IsWhole) (arg5 : Memref sig .tc .vmem S512x1024 .bf16) (harg5 : arg5.IsWhole) (arg6 : Memref sig .tc .vmem S512x1024 .f32) (harg6 : arg6.IsWhole) (hc0 : ¬cond0_0 i) (hc1 : ¬cond0_1 i)
    (x0 : Vec F S512x512 .bf16) (x1 : Vec F S1024x512 .bf16) (xs0 : Vec F S512x1024 .f32) :
    sout0_B_0 c i arg3 harg3 arg4 harg4 arg5 harg5 arg6 harg6 hc0 hc1 x0 x1 xs0 = k0_pay2 x0 x1 xs0 := by
  unfold sout0_B_0
  rw [View.read_writes_eq_canon _ _ _ (scover0_B_0 c i arg3 harg3 arg4 harg4 arg5 harg5 arg6 harg6 hc0 hc1 x0 x1 xs0)]
  unfold kernelRun0_B
  dsimp only
  sl_unfold_words
  rw [View.canon_unit_zero hz0]
  simp only [View.readAt_eq_ld, harg3.read_unread, harg4.read_unread, harg6.read_unread, View.ld_unit_zero (S := S512x512) hz0, View.ld_unit_zero (S := S1024x512) hz0, View.ld_unit_zero (S := S512x1024) hz0]

/-- Last contraction block: the accumulator ends at the step from what it held, -/
theorem sout0_C_0_eq (c : Dev nD) (i : grid0.Coords) (arg3 : Memref sig .tc .vmem S512x512 .bf16) (harg3 : arg3.IsWhole) (arg4 : Memref sig .tc .vmem S1024x512 .bf16) (harg4 : arg4.IsWhole) (arg5 : Memref sig .tc .vmem S512x1024 .bf16) (harg5 : arg5.IsWhole) (arg6 : Memref sig .tc .vmem S512x1024 .f32) (harg6 : arg6.IsWhole) (hc0 : ¬cond0_0 i) (hc1 : cond0_1 i)
    (x0 : Vec F S512x512 .bf16) (x1 : Vec F S1024x512 .bf16) (xs0 : Vec F S512x1024 .f32) :
    sout0_C_0 c i arg3 harg3 arg4 harg4 arg5 harg5 arg6 harg6 hc0 hc1 x0 x1 xs0 = k0_pay2 x0 x1 xs0 := by
  unfold sout0_C_0
  rw [View.read_writes_eq_canon _ _ _ (scover0_C_0 c i arg3 harg3 arg4 harg4 arg5 harg5 arg6 harg6 hc0 hc1 x0 x1 xs0)]
  unfold kernelRun0_C
  dsimp only
  sl_unfold_words
  rw [View.canon_unit_zero hz0]
  simp only [View.readAt_eq_ld, harg3.read_unread, harg4.read_unread, harg6.read_unread, View.ld_unit_zero (S := S512x512) hz0, View.ld_unit_zero (S := S1024x512) hz0, View.ld_unit_zero (S := S512x1024) hz0]

/-- and the output block at those new contents, in the output's format. -/
theorem out0_C_2_eq (c : Dev nD) (i : grid0.Coords) (arg3 : Memref sig .tc .vmem S512x512 .bf16) (harg3 : arg3.IsWhole) (arg4 : Memref sig .tc .vmem S1024x512 .bf16) (harg4 : arg4.IsWhole) (arg5 : Memref sig .tc .vmem S512x1024 .bf16) (harg5 : arg5.IsWhole) (arg6 : Memref sig .tc .vmem S512x1024 .f32) (harg6 : arg6.IsWhole) (hc0 : ¬cond0_0 i) (hc1 : cond0_1 i)
    (x0 : Vec F S512x512 .bf16) (x1 : Vec F S1024x512 .bf16) (xs0 : Vec F S512x1024 .f32) :
    out0_C_2 c i arg3 harg3 arg4 harg4 arg5 harg5 arg6 harg6 hc0 hc1 x0 x1 xs0 = k0_pay3 (k0_pay2 x0 x1 xs0) := by
  unfold out0_C_2
  rw [View.read_writes_eq_canon _ _ _ (cover0_C_2 c i arg3 harg3 arg4 harg4 arg5 harg5 arg6 harg6 hc0 hc1 x0 x1 xs0)]
  unfold kernelRun0_C
  dsimp only
  sl_unfold_words
  rw [View.canon_unit_zero hz0, View.readCov_unit_zero (S := S512x1024) _ hz0]
  simp only [View.readAt_eq_ld, harg3.read_unread, harg4.read_unread, harg6.read_unread, View.ld_unit_zero (S := S512x512) hz0, View.ld_unit_zero (S := S1024x512) hz0, View.ld_unit_zero (S := S512x1024) hz0]

end Cert.KernelIdeal.Frm

end
-- ==== Proof.MatmulValuePayload.lean ====
/-
  One step of a blocked matrix product, entry by entry, over the extended reals: the accumulator block [512, 1024]
  gains, at row `r` and column `q`, the 512 products of row `r` of the left block [512, 512] with row `q` of the right
  block [1024, 512] (both operands are contracted along their second axis). The block of zeros the first step starts
  from reads zero everywhere, and the change of float format on the way out changes no entry.
-/
import proofs.«125955_j22462678958488_2_alg».proof.Proof.Gen.KernelIdeal.Skeleton
import Idealize.ShloMosaic.Lib.Pipeline.Value
import Idealize.ShloMosaic.Lib.ValueIdx
import Idealize.ShloMosaic.PureOps.Ideal.Laws

set_option maxRecDepth 16384

noncomputable section

namespace Cert.KernelIdeal.MatmulValue

open Cert.KernelIdeal Cert.KernelIdeal.Gen
open Idealize.ShloMosaic Idealize.ShloMosaic.ValueIdx

/-- The dimension numbers of the block product: [512, 512] times [1024, 512] transposed. -/
abbrev D : DotDims S512x512 S1024x512 S512x1024 := dot_S512x512_S1024x512_S512x1024_1_1_0_0_n_n

/-- The left operand's row is the entry's row. -/
theorem lhs_0 (i : S512x1024.Idx) (p : D.contr.Idx) : (D.lhsIdx i p 0).val = (i 0).val := by
  unfold DotDims.lhsIdx
  rw [dif_neg (show ¬(0 : Fin S512x512.rank) ∈ D.lhsBatch by decide), dif_pos (show (0 : Fin S512x512.rank) ∈ D.lhsNonContracting by decide)]
  rfl
/-- The left operand's column is the contraction index. -/
theorem lhs_1 (i : S512x1024.Idx) (p : D.contr.Idx) : (D.lhsIdx i p 1).val = (p ⟨0, by decide⟩).val :=
  D.lhsIdx_val_of_single rfl i p
/-- The right operand's row is the entry's column. -/
theorem rhs_0 (i : S512x1024.Idx) (p : D.contr.Idx) : (D.rhsIdx i p 0).val = (i 1).val := by
  unfold DotDims.rhsIdx
  rw [dif_neg (show ¬(0 : Fin S1024x512.rank) ∈ D.rhsBatch by decide), dif_pos (show (0 : Fin S1024x512.rank) ∈ D.rhsNonContracting by decide)]
  rfl
/-- The right operand's column is the contraction index. -/
theorem rhs_1 (i : S512x1024.Idx) (p : D.contr.Idx) : (D.rhsIdx i p 1).val = (p ⟨0, by decide⟩).val :=
  D.rhsIdx_val_of_single rfl i p

/-- The block product into zeros, plus the accumulator, at entry (r, q). -/
theorem macc_apply (x0 : FVec Ideal S512x512 .bf16) (x1 : FVec Ideal S1024x512 .bf16) (xs : FVec Ideal S512x1024 .f32)
    (r : Fin 512) (q : Fin 1024) :
    (addf xs (matmul D none x0 x1 (constant S512x1024 .f32 0x00000000#32)) : FVec Ideal S512x1024 .f32) (ix2 r q)
      = xs (ix2 r q) + ∑ k : Fin 512, x0 (ix2 r k) * x1 (ix2 q k) := by
  refine (addf_apply _ _ _).trans (congrArg (xs (ix2 r q) + ·) ?_)
  refine (Ideal.matmul_constant_zero_apply D none x0 x1 (ix2 r q)).trans ?_
  rw [← Equiv.sum_comp (contrEquiv1 D 512 rfl rfl).symm]
  refine Finset.sum_congr rfl fun k _ => ?_
  have hk := contrEquiv1_symm_val D 512 rfl rfl k
  have el : D.lhsIdx (ix2 r q) ((contrEquiv1 D 512 rfl rfl).symm k) = ix2 r k := funext fun a => Fin.ext (by
    match a with
    | ⟨0, _⟩ => exact lhs_0 _ _
    | ⟨1, _⟩ => exact (lhs_1 _ _).trans hk)
  have er : D.rhsIdx (ix2 r q) ((contrEquiv1 D 512 rfl rfl).symm k) = ix2 q k := funext fun a => Fin.ext (by
    match a with
    | ⟨0, _⟩ => exact rhs_0 _ _
    | ⟨1, _⟩ => exact (rhs_1 _ _).trans hk)
  rw [el, er]

/-- Region 0's accumulation step at entry (r, q). -/
theorem k0_pay2_apply (x0 : Vec Ideal S512x512 .bf16) (x1 : Vec Ideal S1024x512 .bf16) (xs : Vec Ideal S512x1024 .f32)
    (r : Fin 512) (q : Fin 1024) :
    k0_pay2 (F := Ideal) x0 x1 xs (ix2 r q) = xs (ix2 r q) + ∑ k : Fin 512, x0 (ix2 r k) * x1 (ix2 q k) := by
  unfold k0_pay2
  simp only [shapeCast_self]
  exact macc_apply x0 x1 xs r q

/-- Region 0's block of zeros reads zero. -/
theorem k0_pay1_apply (i : S512x1024.Idx) : k0_pay1 (F := Ideal) i = 0 := by
  unfold k0_pay1
  simp only [shapeCast_self]
  exact Ideal.ofBits_zero_f32

/-- Region 0's change of format on the way out changes no entry. -/
theorem k0_pay3_apply (v : Vec Ideal S512x1024 .f32) (i : S512x1024.Idx) : k0_pay3 (F := Ideal) v i = v i := rfl

/-- Region 4's accumulation step at entry (r, q). -/
theorem k4_pay2_apply (x0 : Vec Ideal S512x512 .bf16) (x1 : Vec Ideal S1024x512 .bf16) (xs : Vec Ideal S512x1024 .f32)
    (r : Fin 512) (q : Fin 1024) :
    k4_pay2 (F := Ideal) x0 x1 xs (ix2 r q) = xs (ix2 r q) + ∑ k : Fin 512, x0 (ix2 r k) * x1 (ix2 q k) := by
  unfold k4_pay2
  simp only [shapeCast_self]
  exact macc_apply x0 x1 xs r q

/-- Region 4's block of zeros reads zero. -/
theorem k4_pay1_apply (i : S512x1024.Idx) : k4_pay1 (F := Ideal) i = 0 := by
  unfold k4_pay1
  simp only [shapeCast_self]
  exact Ideal.ofBits_zero_f32

end Cert.KernelIdeal.MatmulValue

end
-- ==== Proof.MatmulValueSums.lean ====
/-
  Sums over the 2048 contraction indices of a matrix product, cut into four consecutive stretches of 512: the partial
  sum over the indices below a bound, how one more stretch of 512 extends it, and that the partial sum below 2048 is
  the whole sum. Only commutativity and associativity of the addition are used, so the values may be extended reals.
-/
import Mathlib.Algebra.BigOperators.Fin

namespace Cert.MatmulSums

open scoped BigOperators

variable {M : Type*} [AddCommMonoid M]

/-- The summand, continued by zero past the last index. -/
def ext (f : Fin 2048 → M) (m : ℕ) : M := if h : m < 2048 then f ⟨m, h⟩ else 0

/-- The sum of `f` over the indices below `n`. -/
def psum (f : Fin 2048 → M) (n : ℕ) : M := ∑ m ∈ Finset.range n, ext f m

/-- Below zero there is nothing to add. -/
theorem psum_zero (f : Fin 2048 → M) : psum f 0 = 0 := Finset.sum_range_zero _

/-- One more stretch: the sum below `(b + 1) · 512` is the sum below `b · 512` plus the 512 terms of stretch `b`. -/
theorem psum_block (f : Fin 2048 → M) (b : ℕ) (hb : b < 4) :
    psum f ((b + 1) * 512) = psum f (b * 512) + ∑ k : Fin 512, f ⟨b * 512 + k.val, by have := k.isLt; omega⟩ := by
  unfold psum
  rw [show (b + 1) * 512 = b * 512 + 512 from by omega, Finset.sum_range_add, Finset.sum_range (fun x => ext f (b * 512 + x))]
  refine congrArg _ (Finset.sum_congr rfl fun k _ => ?_)
  unfold ext
  rw [dif_pos]

/-- The first stretch by itself. -/
theorem psum_first (f : Fin 2048 → M) :
    psum f 512 = ∑ k : Fin 512, f ⟨k.val, by have := k.isLt; omega⟩ := by
  have h := psum_block f 0 (by omega)
  simp only [Nat.zero_mul, Nat.zero_add, Nat.one_mul, psum_zero, zero_add] at h
  exact h

/-- All four stretches: the whole sum. -/
theorem psum_full (f : Fin 2048 → M) : psum f 2048 = ∑ k : Fin 2048, f k := by
  unfold psum
  rw [Finset.sum_range]
  refine Finset.sum_congr rfl fun k _ => ?_
  unfold ext
  rw [dif_pos k.isLt]

end Cert.MatmulSums
-- ==== Proof.MatmulValueQkv.lean ====
/-
  Region 0, what its output array ends holding, over the extended reals: the product of the left operand [2048, 2048] with
  the transposed right operand [3072, 2048]. After grid point t = (row block · 3 + column block) · 4 + contraction block
  the accumulator's entry (r, q) is the sum of the products of row (row block) · 512 + r of the left operand with row
  (column block) · 1024 + q of the right operand over the contraction indices below (contraction block + 1) · 512 — by
  induction over the points, the step at each point being one more stretch of 512 products. At a last contraction
  block that is the whole sum and the output block is written back with it; the twelve blocks written back tile the
  output array.
-/
import proofs.«125955_j22462678958488_2_alg».proof.Proof.MatmulValueQkvPieces
import proofs.«125955_j22462678958488_2_alg».proof.Proof.MatmulValuePayload
import proofs.«125955_j22462678958488_2_alg».proof.Proof.MatmulValueSums
import Idealize.ShloMosaic.Lib.Pipeline.Value

set_option maxRecDepth 16384

noncomputable section

namespace Cert.KernelIdeal.Frm

open Cert.KernelIdeal Cert.KernelIdeal.Gen Cert.KernelIdeal.MatmulValue Cert.MatmulSums
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The 2048 products that enter entry (R, Q) of the product: row `R` of the left operand against row `Q` of the right. -/
def term0 (A : S2048x2048.Idx → EReal) (B : S3072x2048.Idx → EReal) (R : Fin 2048) (Q : Fin 3072) : Fin 2048 → EReal :=
  fun k => A (ix2 R k) * B (ix2 Q k)

/-- The product itself: entry (R, Q) is the sum of those products. -/
def prod0 (A : S2048x2048.Idx → EReal) (B : S3072x2048.Idx → EReal) : S2048x3072.Idx → EReal :=
  fun i => ∑ k : Fin 2048, A (ix2 (i 0) k) * B (ix2 (i 1) k)

/-- The block indices at point `t` = (row block · 3 + column block) · 4 + contraction block, decided over the grid: the left
    operand's block is (row block, contraction block), the right operand's (column block, contraction block), the
    output's (row block, column block). -/
theorem idx0 : ∀ t : Fin cfg0.N,
    win0_0.index t (0 : Fin 2) = t.val / 12 ∧ win0_0.index t (1 : Fin 2) = t.val % 4
    ∧ win0_1.index t (0 : Fin 2) = t.val / 4 % 3 ∧ win0_1.index t (1 : Fin 2) = t.val % 4
    ∧ win0_2.index t (0 : Fin 2) = t.val / 12 ∧ win0_2.index t (1 : Fin 2) = t.val / 4 % 3 :=
  (by decide +kernel : ∀ t : Fin grid0.N, _)

/-- The left block at point `t`, entry (r, k): the left operand at row (row block) · 512 + r, column (contraction block) · 512 + k. -/
theorem iblk0_0_apply (c : Dev nD) (t : Fin cfg0.N) (r k : Fin 512) (R : Fin 2048) (K : Fin 2048)
    (hR : R.val = t.val / 12 * 512 + r.val) (hK : K.val = t.val % 4 * 512 + k.val) :
    (iblk0 V c 0 t : Vec Ideal S512x512 .bf16) (ix2 r k) = (V c main_v3 : S2048x2048.Idx → Elt Ideal .bf16) (ix2 R K) := by
  obtain ⟨e0, e1, -⟩ := idx0 t
  unfold iblk0
  rw [View.read_apply]
  show V c main_v3 _ = V c main_v3 _
  refine congrArg _ (funext fun a => Fin.ext ?_)
  match a with
  | ⟨0, _⟩ => show win0_0.index t 0 * 512 + 1 * r.val = R.val; rw [e0, hR]; omega
  | ⟨1, _⟩ => show win0_0.index t 1 * 512 + 1 * k.val = K.val; rw [e1, hK]; omega

/-- The right block at point `t`, entry (q, k): the right operand at row (column block) · 1024 + q, column (contraction block) · 512 + k. -/
theorem iblk0_1_apply (c : Dev nD) (t : Fin cfg0.N) (q : Fin 1024) (k : Fin 512) (Q : Fin 3072) (K : Fin 2048)
    (hQ : Q.val = t.val / 4 % 3 * 1024 + q.val) (hK : K.val = t.val % 4 * 512 + k.val) :
    (iblk0 V c 1 t : Vec Ideal S1024x512 .bf16) (ix2 q k) = (V c main_v2 : S3072x2048.Idx → Elt Ideal .bf16) (ix2 Q K) := by
  obtain ⟨-, -, e2, e3, -⟩ := idx0 t
  unfold iblk0
  rw [View.read_apply]
  show V c main_v2 _ = V c main_v2 _
  refine congrArg _ (funext fun a => Fin.ext ?_)
  match a with
  | ⟨0, _⟩ => show win0_1.index t 0 * 1024 + 1 * q.val = Q.val; rw [e2, hQ]; omega
  | ⟨1, _⟩ => show win0_1.index t 1 * 512 + 1 * k.val = K.val; rw [e3, hK]; omega

/-- So the product of the two blocks' entries (r, k) and (q, k) is one of the products of entry (R, Q). -/
theorem blkterm0 (c : Dev nD) (t : Fin cfg0.N) (r : Fin 512) (q : Fin 1024) (k : Fin 512) (R : Fin 2048) (Q : Fin 3072) (K : Fin 2048)
    (hR : R.val = t.val / 12 * 512 + r.val) (hQ : Q.val = t.val / 4 % 3 * 1024 + q.val) (hK : K.val = t.val % 4 * 512 + k.val)
    (x0 : Vec Ideal S512x512 .bf16) (x1 : Vec Ideal S1024x512 .bf16) (h0 : x0 = iblk0 V c 0 t) (h1 : x1 = iblk0 V c 1 t) :
    x0 (ix2 r k) * x1 (ix2 q k) = term0 (V c main_v3) (V c main_v2) R Q K := by
  subst h0 h1
  rw [iblk0_0_apply V c t r k R K hR hK, iblk0_1_apply V c t q k Q K hQ hK]
  rfl

/-- At a first contraction block the accumulator's entry is the first stretch of 512 products (added to the zero just stored). -/
theorem acc0_first (c : Dev nD) (t : Fin cfg0.N) (h0 : t.val % 4 = 0) (r : Fin 512) (q : Fin 1024) (R : Fin 2048) (Q : Fin 3072)
    (hR : R.val = t.val / 12 * 512 + r.val) (hQ : Q.val = t.val / 4 % 3 * 1024 + q.val) :
    (outsAt0 V c t.val t.isLt).2 (ix2 r q) = psum (term0 (V c main_v3) (V c main_v2) R Q) 512 := by
  have h1 : ¬t.val % 4 = 3 := by omega
  rw [outsAt0_A V c t h0 h1]
  dsimp only
  refine (congrFun (sout0_A_0_eq c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t)) (ix2 r q)).trans ?_
  refine (k0_pay2_apply (iblk0 V c 0 t) (iblk0 V c 1 t) (k0_pay1 (F := Ideal)) r q).trans ?_
  rw [k0_pay1_apply, zero_add, psum_first]
  refine Finset.sum_congr rfl fun k _ => ?_
  exact blkterm0 V c t r q k R Q ⟨k.val, by have := k.isLt; omega⟩ hR hQ (by show k.val = _; omega) (iblk0 V c 0 t) (iblk0 V c 1 t) rfl rfl

/-- At a later contraction block the accumulator's entry gains that block's stretch of 512 products. -/
theorem acc0_step (c : Dev nD) (t : Fin cfg0.N) (h0 : ¬t.val % 4 = 0) (r : Fin 512) (q : Fin 1024) (R : Fin 2048) (Q : Fin 3072)
    (hR : R.val = t.val / 12 * 512 + r.val) (hQ : Q.val = t.val / 4 % 3 * 1024 + q.val)
    (ih : ∀ h', (outsAt0 V c (t.val - 1) h').2 (ix2 r q) = psum (term0 (V c main_v3) (V c main_v2) R Q) (t.val % 4 * 512)) :
    (outsAt0 V c t.val t.isLt).2 (ix2 r q) = psum (term0 (V c main_v3) (V c main_v2) R Q) ((t.val % 4 + 1) * 512) := by
  have hb : t.val % 4 < 4 := Nat.mod_lt _ (by omega)
  rw [psum_block _ (t.val % 4) hb]
  by_cases h1 : t.val % 4 = 3
  · rw [outsAt0_C V c t h0 h1]
    dsimp only
    refine (congrFun (sout0_C_0_eq c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2) (ix2 r q)).trans ?_
    refine (k0_pay2_apply (iblk0 V c 0 t) (iblk0 V c 1 t) (outsAt0 V c (t.val - 1) (Nat.lt_of_le_of_lt (Nat.sub_le _ _) t.isLt)).2 r q).trans ?_
    refine congrArg₂ (· + ·) (ih _) (Finset.sum_congr rfl fun k _ => ?_)
    exact blkterm0 V c t r q k R Q ⟨t.val % 4 * 512 + k.val, by have := k.isLt; omega⟩ hR hQ rfl (iblk0 V c 0 t) (iblk0 V c 1 t) rfl rfl
  · rw [outsAt0_B V c t h0 h1]
    dsimp only
    refine (congrFun (sout0_B_0_eq c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2) (ix2 r q)).trans ?_
    refine (k0_pay2_apply (iblk0 V c 0 t) (iblk0 V c 1 t) (outsAt0 V c (t.val - 1) (Nat.lt_of_le_of_lt (Nat.sub_le _ _) t.isLt)).2 r q).trans ?_
    refine congrArg₂ (· + ·) (ih _) (Finset.sum_congr rfl fun k _ => ?_)
    exact blkterm0 V c t r q k R Q ⟨t.val % 4 * 512 + k.val, by have := k.isLt; omega⟩ hR hQ rfl (iblk0 V c 0 t) (iblk0 V c 1 t) rfl rfl

/-- THE INVARIANT: after point `n` the accumulator's entry (r, q) is the sum of the products of entry (R, Q) over the
    contraction indices below (contraction block + 1) · 512 — by induction over the points. -/
theorem acc0 (c : Dev nD) : ∀ (n : ℕ) (hn : n < cfg0.N) (r : Fin 512) (q : Fin 1024) (R : Fin 2048) (Q : Fin 3072),
    R.val = n / 12 * 512 + r.val → Q.val = n / 4 % 3 * 1024 + q.val →
    (outsAt0 V c n hn).2 (ix2 r q) = psum (term0 (V c main_v3) (V c main_v2) R Q) ((n % 4 + 1) * 512)
  | 0, hn, r, q, R, Q, hR, hQ => acc0_first V c ⟨0, hn⟩ rfl r q R Q hR hQ
  | n + 1, hn, r, q, R, Q, hR, hQ => by
    by_cases h0 : (n + 1) % 4 = 0
    · rw [h0]
      exact acc0_first V c ⟨n + 1, hn⟩ h0 r q R Q hR hQ
    · refine acc0_step V c ⟨n + 1, hn⟩ h0 r q R Q hR hQ fun h' => ?_
      have e := acc0 c n (Nat.lt_of_succ_lt hn) r q R Q (by omega) (by omega)
      rw [show n % 4 + 1 = (n + 1) % 4 from by omega] at e
      exact e

/-- At a last contraction block the output block is written with the accumulator's new contents, entry by entry. -/
theorem out0_last (c : Dev nD) (t : Fin cfg0.N) (h0 : ¬t.val % 4 = 0) (h3 : t.val % 4 = 3) (y : S512x1024.Idx) :
    (outsAt0 V c t.val t.isLt).1 y = (outsAt0 V c t.val t.isLt).2 y := by
  rw [outsAt0_C V c t h0 h3]
  dsimp only
  refine (congrFun (out0_C_2_eq c (grid0.coords t) (ms0_0 t) (hs0_0 t) (ms0_1 t) (hs0_1 t) (ms0_2 t) (hs0_2 t) scM0_0 (Memref.isWhole_whole _) (fun h => h0 ((hcond0_0 t).mp h)) ((hcond0_1 t).mpr h3) (iblk0 V c 0 t) (iblk0 V c 1 t) (outsAt0 V c (t.val - 1) (Nat.lt_of_le_of_lt (Nat.sub_le _ _) t.isLt)).2) y).trans
    (Eq.trans ?_ (congrFun (sout0_C_0_eq c (grid0.coords t) (ms0_0 t) (hs0_0 t) (ms0_1 t) (hs0_1 t) (ms0_2 t) (hs0_2 t) scM0_0 (Memref.isWhole_whole _) (fun h => h0 ((hcond0_0 t).mp h)) ((hcond0_1 t).mpr h3) (iblk0 V c 0 t) (iblk0 V c 1 t) (outsAt0 V c (t.val - 1) (Nat.lt_of_le_of_lt (Nat.sub_le _ _) t.isLt)).2) y).symm)
  exact k0_pay3_apply _ y

/-- WHAT A LAST CONTRACTION BLOCK WRITES BACK is its block of the product: the whole sum of 2048 products, entry by entry. -/
theorem flushed0_eq (c : Dev nD) (t : Fin cfg0.N) (hf : (cfg0.win 2).flush t = true) :
    (dat0 V c).flushed 2 t = ((cfg0.win 2).blk t).view.read (Elt Ideal) (prod0 (V c main_v3) (V c main_v2)) := by
  have h3 : t.val % 4 = 3 := (flush0_2 t).mp hf
  have h0 : ¬t.val % 4 = 0 := by omega
  have hN : cfg0.N = 48 := N_0
  have ht : t.val < 48 := hN ▸ t.isLt
  obtain ⟨-, -, -, -, e4, e5⟩ := idx0 t
  show (cfg0.win 2).cut (grid0.coords t) ((dat0 V c).after 2 t) = _
  rw [after0_2]
  funext j
  have hj0 : (j 0).val < 512 := (j 0).isLt
  have hj1 : (j 1).val < 1024 := (j 1).isLt
  have hy : (cfg0.win 2).xinj (grid0.coords t) j = ix2 (⟨(j 0).val, hj0⟩ : Fin 512) (⟨(j 1).val, hj1⟩ : Fin 1024) :=
    funext fun a => by
      match a with
      | ⟨0, _⟩ => rfl
      | ⟨1, _⟩ => rfl
  show (outsAt0 V c t.val t.isLt).1 ((cfg0.win 2).xinj (grid0.coords t) j) = prod0 (V c main_v3) (V c main_v2) (((cfg0.win 2).blk t).view.emb j)
  rw [hy, out0_last V c t h0 h3,
    acc0 V c t.val t.isLt ⟨(j 0).val, hj0⟩ ⟨(j 1).val, hj1⟩ ⟨t.val / 12 * 512 + (j 0).val, by omega⟩ ⟨t.val / 4 % 3 * 1024 + (j 1).val, by omega⟩ rfl rfl,
    h3]
  show psum _ 2048 = _
  rw [psum_full]
  show prod0 (V c main_v3) (V c main_v2) (ix2 (⟨t.val / 12 * 512 + (j 0).val, by omega⟩ : Fin 2048) (⟨t.val / 4 % 3 * 1024 + (j 1).val, by omega⟩ : Fin 3072)) = _
  refine congrArg _ (funext fun a => Fin.ext ?_)
  match a with
  | ⟨0, _⟩ => show t.val / 12 * 512 + (j 0).val = win0_2.index t 0 * 512 + 1 * (j 0).val; rw [e4]; omega
  | ⟨1, _⟩ => show t.val / 4 % 3 * 1024 + (j 1).val = win0_2.index t 1 * 1024 + 1 * (j 1).val; rw [e5]; omega

/-- An entry of the output array is in point `t`'s block iff each coordinate is in the block's range on its axis. -/
theorem mem_blk0 (t : Fin cfg0.N) (i : S2048x3072.Idx) :
    i ∈ ((cfg0.win 2).blk t).view.set ↔ ∀ a : Fin 2, win0_2.index t a * S512x1024.size a ≤ (i a).val ∧ (i a).val < win0_2.index t a * S512x1024.size a + S512x1024.size a := by
  show i ∈ ((View.whole main_v4).slice (win0_2.rect t)).set ↔ _
  rw [View.set_slice_whole, Rect.mem_set_unit]
  exact Iff.rfl

/-- The blocks written back tile the output array: entry (R, Q) lies in the block written back at the last contraction
    block of row block R / 512 and column block Q / 1024. -/
theorem cover0 (i : S2048x3072.Idx) : ∃ t : Fin cfg0.N, (cfg0.win 2).flush t = true ∧ i ∈ ((cfg0.win 2).blk t).view.set := by
  have hi0 : (i 0).val < 2048 := (i 0).isLt
  have hi1 : (i 1).val < 3072 := (i 1).isLt
  have hN : cfg0.N = 48 := N_0
  obtain ⟨n, hn⟩ : ∃ n, n = ((i 0).val / 512 * 3 + (i 1).val / 1024) * 4 + 3 := ⟨_, rfl⟩
  have hlt : n < cfg0.N := by rw [hN]; omega
  obtain ⟨-, -, -, -, e4, e5⟩ := idx0 ⟨n, hlt⟩
  have e4' : win0_2.index ⟨n, hlt⟩ (0 : Fin 2) = n / 12 := e4
  have e5' : win0_2.index ⟨n, hlt⟩ (1 : Fin 2) = n / 4 % 3 := e5
  refine ⟨⟨n, hlt⟩, (flush0_2 ⟨n, hlt⟩).mpr (by show n % 4 = 3; omega), ?_⟩
  rw [mem_blk0]
  intro a
  match a with
  | ⟨0, _⟩ => show win0_2.index ⟨n, hlt⟩ 0 * 512 ≤ (i 0).val ∧ (i 0).val < win0_2.index ⟨n, hlt⟩ 0 * 512 + 512; rw [e4']; omega
  | ⟨1, _⟩ => show win0_2.index ⟨n, hlt⟩ 1 * 1024 ≤ (i 1).val ∧ (i 1).val < win0_2.index ⟨n, hlt⟩ 1 * 1024 + 1024; rw [e5']; omega

/-- So the output array ends holding the product. -/
theorem qkv_prod (c : Dev nD) : (dat0 V c).arrAt 2 cfg0.N = prod0 (V c main_v3) (V c main_v2) :=
  (dat0 V c).arrAt_eq_of_cover 2 (prod0 (V c main_v3) (V c main_v2)) (flushed0_eq V c) fun i => cover0 i

/-- The same, spelt out over the two operand arrays as functions on their index sets: entry `i` of the output array is
    the sum over the 2048 contraction indices of the left operand's row `i 0` times the right operand's row `i 1`. -/
theorem qkv_final (c : Dev nD) (A : S2048x2048.Idx → EReal) (B : S3072x2048.Idx → EReal) (hA : A = V c main_v3) (hB : B = V c main_v2) :
    (dat0 (F := Ideal) V c).arrAt 2 cfg0.N = fun i : S2048x3072.Idx => (∑ k : Fin 2048, A (ix2 (i 0) k) * B (ix2 (i 1) k) : EReal) := by
  subst hA hB
  exact qkv_prod V c

end Cert.KernelIdeal.Frm

end
-- ==== Proof.MatmulValueOutProjPieces.lean ====
/-
  Region 4, what the body's stores leave, as terms of the blocks it loads. At a first contraction block the accumulator
  ends at the accumulation step applied to the two input blocks and the block of zeros just stored (the zeros are read
  back from the accumulator itself); at a middle and at a last block, at the step applied to the input blocks and what
  the accumulator held; and at a last block the output block ends at the accumulator's new contents, as they are.
-/
import proofs.«125955_j22462678958488_2_alg».proof.Proof.RegionOutProj
import Idealize.ShloMosaic.Lib.Pipeline.Value

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL.Sem

variable {F : FTy → Type} [FloatOps F]

/-- A block read or written from offset (0, 0) is the whole block. -/
theorem hz4 : (![0, 0] : Fin 2 → Nat) = fun _ => 0 := funext fun a => by fin_cases a <;> rfl

/-- First contraction block: the accumulator ends at the step from zeros. -/
theorem sout4_A_0_eq (c : Dev nD) (i : grid4.Coords) (arg3 : Memref sig .tc .vmem S512x512 .bf16) (harg3 : arg3.IsWhole) (arg4 : Memref sig .tc .vmem S1024x512 .bf16) (harg4 : arg4.IsWhole) (arg5 : Memref sig .tc .vmem S512x1024 .f32) (harg5 : arg5.IsWhole) (arg6 : Memref sig .tc .vmem S512x1024 .f32) (harg6 : arg6.IsWhole) (hc0 : cond4_0 i) (hc1 : ¬cond4_1 i)
    (x0 : Vec F S512x512 .bf16) (x1 : Vec F S1024x512 .bf16) :
    sout4_A_0 c i arg3 harg3 arg4 harg4 arg5 harg5 arg6 harg6 hc0 hc1 x0 x1 = k4_pay2 x0 x1 (k4_pay1 (F := F)) := by
  unfold sout4_A_0
  rw [View.read_writes_eq_canon _ _ _ (scover4_A_0 c i arg3 harg3 arg4 harg4 arg5 harg5 arg6 harg6 hc0 hc1 x0 x1)]
  unfold kernelRun4_A
  dsimp only
  sl_unfold_words
  rw [View.canon_cons_unit_zero (S := S512x1024) hz4, View.readCov_unit_zero (S := S512x1024) _ hz4]
  simp only [View.readAt_eq_ld, harg3.read_unread, harg4.read_unread, View.ld_unit_zero (S := S512x512) hz4, View.ld_unit_zero (S := S1024x512) hz4]

/-- Middle contraction block: the accumulator ends at the step from what it held. -/
theorem sout4_B_0_eq (c : Dev nD) (i : grid4.Coords) (arg3 : Memref sig .tc .vmem S512x512 .bf16) (harg3 : arg3.IsWhole) (arg4 : Memref sig .tc .vmem S1024x512 .bf16) (harg4 : arg4.IsWhole) (arg5 : Memref sig .tc .vmem S512x1024 .f32) (harg5 : arg5.IsWhole) (arg6 : Memref sig .tc .vmem S512x1024 .f32) (harg6 : arg6.IsWhole) (hc0 : ¬cond4_0 i) (hc1 : ¬cond4_1 i)
    (x0 : Vec F S512x512 .bf16) (x1 : Vec F S1024x512 .bf16) (xs0 : Vec F S512x1024 .f32) :
    sout4_B_0 c i arg3 harg3 arg4 harg4 arg5 harg5 arg6 harg6 hc0 hc1 x0 x1 xs0 = k4_pay2 x0 x1 xs0 := by
  unfold sout4_B_0
  rw [View.read_writes_eq_canon _ _ _ (scover4_B_0 c i arg3 harg3 arg4 harg4 arg5 harg5 arg6 harg6 hc0 hc1 x0 x1 xs0)]
  unfold kernelRun4_B
  dsimp only
  sl_unfold_words
  rw [View.canon_unit_zero hz4]
  simp only [View.readAt_eq_ld, harg3.read_unread, harg4.read_unread, harg6.read_unread, View.ld_unit_zero (S := S512x512) hz4, View.ld_unit_zero (S := S1024x512) hz4, View.ld_unit_zero (S := S512x1024) hz4]

/-- Last contraction block: the accumulator ends at the step from what it held, -/
theorem sout4_C_0_eq (c : Dev nD) (i : grid4.Coords) (arg3 : Memref sig .tc .vmem S512x512 .bf16) (harg3 : arg3.IsWhole) (arg4 : Memref sig .tc .vmem S1024x512 .bf16) (harg4 : arg4.IsWhole) (arg5 : Memref sig .tc .vmem S512x1024 .f32) (harg5 : arg5.IsWhole) (arg6 : Memref sig .tc .vmem S512x1024 .f32) (harg6 : arg6.IsWhole) (hc0 : ¬cond4_0 i) (hc1 : cond4_1 i)
    (x0 : Vec F S512x512 .bf16) (x1 : Vec F S1024x512 .bf16) (xs0 : Vec F S512x1024 .f32) :
    sout4_C_0 c i arg3 harg3 arg4 harg4 arg5 harg5 arg6 harg6 hc0 hc1 x0 x1 xs0 = k4_pay2 x0 x1 xs0 := by
  unfold sout4_C_0
  rw [View.read_writes_eq_canon _ _ _ (scover4_C_0 c i arg3 harg3 arg4 harg4 arg5 harg5 arg6 harg6 hc0 hc1 x0 x1 xs0)]
  unfold kernelRun4_C
  dsimp only
  sl_unfold_words
  rw [View.canon_unit_zero hz4]
  simp only [View.readAt_eq_ld, harg3.read_unread, harg4.read_unread, harg6.read_unread, View.ld_unit_zero (S := S512x512) hz4, View.ld_unit_zero (S := S1024x512) hz4, View.ld_unit_zero (S := S512x1024) hz4]

/-- and the output block at those new contents. -/
theorem out4_C_2_eq (c : Dev nD) (i : grid4.Coords) (arg3 : Memref sig .tc .vmem S512x512 .bf16) (harg3 : arg3.IsWhole) (arg4 : Memref sig .tc .vmem S1024x512 .bf16) (harg4 : arg4.IsWhole) (arg5 : Memref sig .tc .vmem S512x1024 .f32) (harg5 : arg5.IsWhole) (arg6 : Memref sig .tc .vmem S512x1024 .f32) (harg6 : arg6.IsWhole) (hc0 : ¬cond4_0 i) (hc1 : cond4_1 i)
    (x0 : Vec F S512x512 .bf16) (x1 : Vec F S1024x512 .bf16) (xs0 : Vec F S512x1024 .f32) :
    out4_C_2 c i arg3 harg3 arg4 harg4 arg5 harg5 arg6 harg6 hc0 hc1 x0 x1 xs0 = k4_pay2 x0 x1 xs0 := by
  unfold out4_C_2
  rw [View.read_writes_eq_canon _ _ _ (cover4_C_2 c i arg3 harg3 arg4 harg4 arg5 harg5 arg6 harg6 hc0 hc1 x0 x1 xs0)]
  unfold kernelRun4_C
  dsimp only
  sl_unfold_words
  rw [View.canon_unit_zero hz4, View.readCov_unit_zero (S := S512x1024) _ hz4]
  simp only [View.readAt_eq_ld, harg3.read_unread, harg4.read_unread, harg6.read_unread, View.ld_unit_zero (S := S512x512) hz4, View.ld_unit_zero (S := S1024x512) hz4, View.ld_unit_zero (S := S512x1024) hz4]

end Cert.KernelIdeal.Frm

end
-- ==== Proof.MatmulValueOutProj.lean ====
/-
  Region 4, what its output array ends holding, over the extended reals: the product of the left operand [2048, 2048] with
  the transposed right operand [2048, 2048]. After grid point t = (row block · 2 + column block) · 4 + contraction block
  the accumulator's entry (r, q) is the sum of the products of row (row block) · 512 + r of the left operand with row
  (column block) · 1024 + q of the right operand over the contraction indices below (contraction block + 1) · 512 — by
  induction over the points, the step at each point being one more stretch of 512 products. At a last contraction
  block that is the whole sum and the output block is written back with it; the eight blocks written back tile the
  output array.
-/
import proofs.«125955_j22462678958488_2_alg».proof.Proof.MatmulValueOutProjPieces
import proofs.«125955_j22462678958488_2_alg».proof.Proof.MatmulValuePayload
import proofs.«125955_j22462678958488_2_alg».proof.Proof.MatmulValueSums
import Idealize.ShloMosaic.Lib.Pipeline.Value

set_option maxRecDepth 16384

noncomputable section

namespace Cert.KernelIdeal.Frm

open Cert.KernelIdeal Cert.KernelIdeal.Gen Cert.KernelIdeal.MatmulValue Cert.MatmulSums
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The 2048 products that enter entry (R, Q) of the product: row `R` of the left operand against row `Q` of the right. -/
def term4 (A : S2048x2048.Idx → EReal) (B : S2048x2048.Idx → EReal) (R : Fin 2048) (Q : Fin 2048) : Fin 2048 → EReal :=
  fun k => A (ix2 R k) * B (ix2 Q k)

/-- The product itself: entry (R, Q) is the sum of those products. -/
def prod4 (A : S2048x2048.Idx → EReal) (B : S2048x2048.Idx → EReal) : S2048x2048.Idx → EReal :=
  fun i => ∑ k : Fin 2048, A (ix2 (i 0) k) * B (ix2 (i 1) k)

/-- The block indices at point `t` = (row block · 2 + column block) · 4 + contraction block, decided over the grid: the left
    operand's block is (row block, contraction block), the right operand's (column block, contraction block), the
    output's (row block, column block). -/
theorem idx4 : ∀ t : Fin cfg4.N,
    win4_0.index t (0 : Fin 2) = t.val / 8 ∧ win4_0.index t (1 : Fin 2) = t.val % 4
    ∧ win4_1.index t (0 : Fin 2) = t.val / 4 % 2 ∧ win4_1.index t (1 : Fin 2) = t.val % 4
    ∧ win4_2.index t (0 : Fin 2) = t.val / 8 ∧ win4_2.index t (1 : Fin 2) = t.val / 4 % 2 :=
  (by decide +kernel : ∀ t : Fin grid4.N, _)

/-- The left block at point `t`, entry (r, k): the left operand at row (row block) · 512 + r, column (contraction block) · 512 + k. -/
theorem iblk4_0_apply (c : Dev nD) (t : Fin cfg4.N) (r k : Fin 512) (R : Fin 2048) (K : Fin 2048)
    (hR : R.val = t.val / 8 * 512 + r.val) (hK : K.val = t.val % 4 * 512 + k.val) :
    (iblk4 V c 0 t : Vec Ideal S512x512 .bf16) (ix2 r k) = (V c main_v23 : S2048x2048.Idx → Elt Ideal .bf16) (ix2 R K) := by
  obtain ⟨e0, e1, -⟩ := idx4 t
  unfold iblk4
  rw [View.read_apply]
  show V c main_v23 _ = V c main_v23 _
  refine congrArg _ (funext fun a => Fin.ext ?_)
  match a with
  | ⟨0, _⟩ => show win4_0.index t 0 * 512 + 1 * r.val = R.val; rw [e0, hR]; omega
  | ⟨1, _⟩ => show win4_0.index t 1 * 512 + 1 * k.val = K.val; rw [e1, hK]; omega

/-- The right block at point `t`, entry (q, k): the right operand at row (column block) · 1024 + q, column (contraction block) · 512 + k. -/
theorem iblk4_1_apply (c : Dev nD) (t : Fin cfg4.N) (q : Fin 1024) (k : Fin 512) (Q : Fin 2048) (K : Fin 2048)
    (hQ : Q.val = t.val / 4 % 2 * 1024 + q.val) (hK : K.val = t.val % 4 * 512 + k.val) :
    (iblk4 V c 1 t : Vec Ideal S1024x512 .bf16) (ix2 q k) = (V c main_v24 : S2048x2048.Idx → Elt Ideal .bf16) (ix2 Q K) := by
  obtain ⟨-, -, e2, e3, -⟩ := idx4 t
  unfold iblk4
  rw [View.read_apply]
  show V c main_v24 _ = V c main_v24 _
  refine congrArg _ (funext fun a => Fin.ext ?_)
  match a with
  | ⟨0, _⟩ => show win4_1.index t 0 * 1024 + 1 * q.val = Q.val; rw [e2, hQ]; omega
  | ⟨1, _⟩ => show win4_1.index t 1 * 512 + 1 * k.val = K.val; rw [e3, hK]; omega

/-- So the product of the two blocks' entries (r, k) and (q, k) is one of the products of entry (R, Q). -/
theorem blkterm4 (c : Dev nD) (t : Fin cfg4.N) (r : Fin 512) (q : Fin 1024) (k : Fin 512) (R : Fin 2048) (Q : Fin 2048) (K : Fin 2048)
    (hR : R.val = t.val / 8 * 512 + r.val) (hQ : Q.val = t.val / 4 % 2 * 1024 + q.val) (hK : K.val = t.val % 4 * 512 + k.val)
    (x0 : Vec Ideal S512x512 .bf16) (x1 : Vec Ideal S1024x512 .bf16) (h0 : x0 = iblk4 V c 0 t) (h1 : x1 = iblk4 V c 1 t) :
    x0 (ix2 r k) * x1 (ix2 q k) = term4 (V c main_v23) (V c main_v24) R Q K := by
  subst h0 h1
  rw [iblk4_0_apply V c t r k R K hR hK, iblk4_1_apply V c t q k Q K hQ hK]
  rfl

/-- At a first contraction block the accumulator's entry is the first stretch of 512 products (added to the zero just stored). -/
theorem acc4_first (c : Dev nD) (t : Fin cfg4.N) (h0 : t.val % 4 = 0) (r : Fin 512) (q : Fin 1024) (R : Fin 2048) (Q : Fin 2048)
    (hR : R.val = t.val / 8 * 512 + r.val) (hQ : Q.val = t.val / 4 % 2 * 1024 + q.val) :
    (outsAt4 V c t.val t.isLt).2 (ix2 r q) = psum (term4 (V c main_v23) (V c main_v24) R Q) 512 := by
  have h1 : ¬t.val % 4 = 3 := by omega
  rw [outsAt4_A V c t h0 h1]
  dsimp only
  refine (congrFun (sout4_A_0_eq c (grid4.coords t) (ms4_0 t) (hs4_0 t) (ms4_1 t) (hs4_1 t) (ms4_2 t) (hs4_2 t) scM4_0 (Memref.isWhole_whole _) ((hcond4_0 t).mpr h0) (fun h => h1 ((hcond4_1 t).mp h)) (iblk4 V c 0 t) (iblk4 V c 1 t)) (ix2 r q)).trans ?_
  refine (k4_pay2_apply (iblk4 V c 0 t) (iblk4 V c 1 t) (k4_pay1 (F := Ideal)) r q).trans ?_
  rw [k4_pay1_apply, zero_add, psum_first]
  refine Finset.sum_congr rfl fun k _ => ?_
  exact blkterm4 V c t r q k R Q ⟨k.val, by have := k.isLt; omega⟩ hR hQ (by show k.val = _; omega) (iblk4 V c 0 t) (iblk4 V c 1 t) rfl rfl

/-- At a later contraction block the accumulator's entry gains that block's stretch of 512 products. -/
theorem acc4_step (c : Dev nD) (t : Fin cfg4.N) (h0 : ¬t.val % 4 = 0) (r : Fin 512) (q : Fin 1024) (R : Fin 2048) (Q : Fin 2048)
    (hR : R.val = t.val / 8 * 512 + r.val) (hQ : Q.val = t.val / 4 % 2 * 1024 + q.val)
    (ih : ∀ h', (outsAt4 V c (t.val - 1) h').2 (ix2 r q) = psum (term4 (V c main_v23) (V c main_v24) R Q) (t.val % 4 * 512)) :
    (outsAt4 V c t.val t.isLt).2 (ix2 r q) = psum (term4 (V c main_v23) (V c main_v24) R Q) ((t.val % 4 + 1) * 512) := by
  have hb : t.val % 4 < 4 := Nat.mod_lt _ (by omega)
  rw [psum_block _ (t.val % 4) hb]
  by_cases h1 : t.val % 4 = 3
  · rw [outsAt4_C V c t h0 h1]
    dsimp only
    refine (congrFun (sout4_C_0_eq c (grid4.coords t) (ms4_0 t) (hs4_0 t) (ms4_1 t) (hs4_1 t) (ms4_2 t) (hs4_2 t) scM4_0 (Memref.isWhole_whole _) (fun h => h0 ((hcond4_0 t).mp h)) ((hcond4_1 t).mpr h1) (iblk4 V c 0 t) (iblk4 V c 1 t) (outsAt4 V c (t.val - 1) (Nat.lt_of_le_of_lt (Nat.sub_le _ _) t.isLt)).2) (ix2 r q)).trans ?_
    refine (k4_pay2_apply (iblk4 V c 0 t) (iblk4 V c 1 t) (outsAt4 V c (t.val - 1) (Nat.lt_of_le_of_lt (Nat.sub_le _ _) t.isLt)).2 r q).trans ?_
    refine congrArg₂ (· + ·) (ih _) (Finset.sum_congr rfl fun k _ => ?_)
    exact blkterm4 V c t r q k R Q ⟨t.val % 4 * 512 + k.val, by have := k.isLt; omega⟩ hR hQ rfl (iblk4 V c 0 t) (iblk4 V c 1 t) rfl rfl
  · rw [outsAt4_B V c t h0 h1]
    dsimp only
    refine (congrFun (sout4_B_0_eq c (grid4.coords t) (ms4_0 t) (hs4_0 t) (ms4_1 t) (hs4_1 t) (ms4_2 t) (hs4_2 t) scM4_0 (Memref.isWhole_whole _) (fun h => h0 ((hcond4_0 t).mp h)) (fun h => h1 ((hcond4_1 t).mp h)) (iblk4 V c 0 t) (iblk4 V c 1 t) (outsAt4 V c (t.val - 1) (Nat.lt_of_le_of_lt (Nat.sub_le _ _) t.isLt)).2) (ix2 r q)).trans ?_
    refine (k4_pay2_apply (iblk4 V c 0 t) (iblk4 V c 1 t) (outsAt4 V c (t.val - 1) (Nat.lt_of_le_of_lt (Nat.sub_le _ _) t.isLt)).2 r q).trans ?_
    refine congrArg₂ (· + ·) (ih _) (Finset.sum_congr rfl fun k _ => ?_)
    exact blkterm4 V c t r q k R Q ⟨t.val % 4 * 512 + k.val, by have := k.isLt; omega⟩ hR hQ rfl (iblk4 V c 0 t) (iblk4 V c 1 t) rfl rfl

/-- THE INVARIANT: after point `n` the accumulator's entry (r, q) is the sum of the products of entry (R, Q) over the
    contraction indices below (contraction block + 1) · 512 — by induction over the points. -/
theorem acc4 (c : Dev nD) : ∀ (n : ℕ) (hn : n < cfg4.N) (r : Fin 512) (q : Fin 1024) (R : Fin 2048) (Q : Fin 2048),
    R.val = n / 8 * 512 + r.val → Q.val = n / 4 % 2 * 1024 + q.val →
    (outsAt4 V c n hn).2 (ix2 r q) = psum (term4 (V c main_v23) (V c main_v24) R Q) ((n % 4 + 1) * 512)
  | 0, hn, r, q, R, Q, hR, hQ => acc4_first V c ⟨0, hn⟩ rfl r q R Q hR hQ
  | n + 1, hn, r, q, R, Q, hR, hQ => by
    by_cases h0 : (n + 1) % 4 = 0
    · rw [h0]
      exact acc4_first V c ⟨n + 1, hn⟩ h0 r q R Q hR hQ
    · refine acc4_step V c ⟨n + 1, hn⟩ h0 r q R Q hR hQ fun h' => ?_
      have e := acc4 c n (Nat.lt_of_succ_lt hn) r q R Q (by omega) (by omega)
      rw [show n % 4 + 1 = (n + 1) % 4 from by omega] at e
      exact e

/-- At a last contraction block the output block is written with the accumulator's new contents, entry by entry. -/
theorem out4_last (c : Dev nD) (t : Fin cfg4.N) (h0 : ¬t.val % 4 = 0) (h3 : t.val % 4 = 3) (y : S512x1024.Idx) :
    (outsAt4 V c t.val t.isLt).1 y = (outsAt4 V c t.val t.isLt).2 y := by
  rw [outsAt4_C V c t h0 h3]
  dsimp only
  refine (congrFun (out4_C_2_eq c (grid4.coords t) (ms4_0 t) (hs4_0 t) (ms4_1 t) (hs4_1 t) (ms4_2 t) (hs4_2 t) scM4_0 (Memref.isWhole_whole _) (fun h => h0 ((hcond4_0 t).mp h)) ((hcond4_1 t).mpr h3) (iblk4 V c 0 t) (iblk4 V c 1 t) (outsAt4 V c (t.val - 1) (Nat.lt_of_le_of_lt (Nat.sub_le _ _) t.isLt)).2) y).trans
    (Eq.trans ?_ (congrFun (sout4_C_0_eq c (grid4.coords t) (ms4_0 t) (hs4_0 t) (ms4_1 t) (hs4_1 t) (ms4_2 t) (hs4_2 t) scM4_0 (Memref.isWhole_whole _) (fun h => h0 ((hcond4_0 t).mp h)) ((hcond4_1 t).mpr h3) (iblk4 V c 0 t) (iblk4 V c 1 t) (outsAt4 V c (t.val - 1) (Nat.lt_of_le_of_lt (Nat.sub_le _ _) t.isLt)).2) y).symm)
  rfl

/-- WHAT A LAST CONTRACTION BLOCK WRITES BACK is its block of the product: the whole sum of 2048 products, entry by entry. -/
theorem flushed4_eq (c : Dev nD) (t : Fin cfg4.N) (hf : (cfg4.win 2).flush t = true) :
    (dat4 V c).flushed 2 t = ((cfg4.win 2).blk t).view.read (Elt Ideal) (prod4 (V c main_v23) (V c main_v24)) := by
  have h3 : t.val % 4 = 3 := (flush4_2 t).mp hf
  have h0 : ¬t.val % 4 = 0 := by omega
  have hN : cfg4.N = 32 := N_4
  have ht : t.val < 32 := hN ▸ t.isLt
  obtain ⟨-, -, -, -, e4, e5⟩ := idx4 t
  show (cfg4.win 2).cut (grid4.coords t) ((dat4 V c).after 2 t) = _
  rw [after4_2]
  funext j
  have hj0 : (j 0).val < 512 := (j 0).isLt
  have hj1 : (j 1).val < 1024 := (j 1).isLt
  have hy : (cfg4.win 2).xinj (grid4.coords t) j = ix2 (⟨(j 0).val, hj0⟩ : Fin 512) (⟨(j 1).val, hj1⟩ : Fin 1024) :=
    funext fun a => by
      match a with
      | ⟨0, _⟩ => rfl
      | ⟨1, _⟩ => rfl
  show (outsAt4 V c t.val t.isLt).1 ((cfg4.win 2).xinj (grid4.coords t) j) = prod4 (V c main_v23) (V c main_v24) (((cfg4.win 2).blk t).view.emb j)
  rw [hy, out4_last V c t h0 h3,
    acc4 V c t.val t.isLt ⟨(j 0).val, hj0⟩ ⟨(j 1).val, hj1⟩ ⟨t.val / 8 * 512 + (j 0).val, by omega⟩ ⟨t.val / 4 % 2 * 1024 + (j 1).val, by omega⟩ rfl rfl,
    h3]
  show psum _ 2048 = _
  rw [psum_full]
  show prod4 (V c main_v23) (V c main_v24) (ix2 (⟨t.val / 8 * 512 + (j 0).val, by omega⟩ : Fin 2048) (⟨t.val / 4 % 2 * 1024 + (j 1).val, by omega⟩ : Fin 2048)) = _
  refine congrArg _ (funext fun a => Fin.ext ?_)
  match a with
  | ⟨0, _⟩ => show t.val / 8 * 512 + (j 0).val = win4_2.index t 0 * 512 + 1 * (j 0).val; rw [e4]; omega
  | ⟨1, _⟩ => show t.val / 4 % 2 * 1024 + (j 1).val = win4_2.index t 1 * 1024 + 1 * (j 1).val; rw [e5]; omega

/-- An entry of the output array is in point `t`'s block iff each coordinate is in the block's range on its axis. -/
theorem mem_blk4 (t : Fin cfg4.N) (i : S2048x2048.Idx) :
    i ∈ ((cfg4.win 2).blk t).view.set ↔ ∀ a : Fin 2, win4_2.index t a * S512x1024.size a ≤ (i a).val ∧ (i a).val < win4_2.index t a * S512x1024.size a + S512x1024.size a := by
  show i ∈ ((View.whole main_v25).slice (win4_2.rect t)).set ↔ _
  rw [View.set_slice_whole, Rect.mem_set_unit]
  exact Iff.rfl

/-- The blocks written back tile the output array: entry (R, Q) lies in the block written back at the last contraction
    block of row block R / 512 and column block Q / 1024. -/
theorem cover4 (i : S2048x2048.Idx) : ∃ t : Fin cfg4.N, (cfg4.win 2).flush t = true ∧ i ∈ ((cfg4.win 2).blk t).view.set := by
  have hi0 : (i 0).val < 2048 := (i 0).isLt
  have hi1 : (i 1).val < 2048 := (i 1).isLt
  have hN : cfg4.N = 32 := N_4
  obtain ⟨n, hn⟩ : ∃ n, n = ((i 0).val / 512 * 2 + (i 1).val / 1024) * 4 + 3 := ⟨_, rfl⟩
  have hlt : n < cfg4.N := by rw [hN]; omega
  obtain ⟨-, -, -, -, e4, e5⟩ := idx4 ⟨n, hlt⟩
  have e4' : win4_2.index ⟨n, hlt⟩ (0 : Fin 2) = n / 8 := e4
  have e5' : win4_2.index ⟨n, hlt⟩ (1 : Fin 2) = n / 4 % 2 := e5
  refine ⟨⟨n, hlt⟩, (flush4_2 ⟨n, hlt⟩).mpr (by show n % 4 = 3; omega), ?_⟩
  rw [mem_blk4]
  intro a
  match a with
  | ⟨0, _⟩ => show win4_2.index ⟨n, hlt⟩ 0 * 512 ≤ (i 0).val ∧ (i 0).val < win4_2.index ⟨n, hlt⟩ 0 * 512 + 512; rw [e4']; omega
  | ⟨1, _⟩ => show win4_2.index ⟨n, hlt⟩ 1 * 1024 ≤ (i 1).val ∧ (i 1).val < win4_2.index ⟨n, hlt⟩ 1 * 1024 + 1024; rw [e5']; omega

/-- So the output array ends holding the product. -/
theorem outproj_prod (c : Dev nD) : (dat4 V c).arrAt 2 cfg4.N = prod4 (V c main_v23) (V c main_v24) :=
  (dat4 V c).arrAt_eq_of_cover 2 (prod4 (V c main_v23) (V c main_v24)) (flushed4_eq V c) fun i => cover4 i

/-- The same, spelt out over the two operand arrays as functions on their index sets: entry `i` of the output array is
    the sum over the 2048 contraction indices of the left operand's row `i 0` times the right operand's row `i 1`. -/
theorem outproj_final (c : Dev nD) (A : S2048x2048.Idx → EReal) (B : S2048x2048.Idx → EReal) (hA : A = V c main_v23) (hB : B = V c main_v24) :
    (dat4 (F := Ideal) V c).arrAt 2 cfg4.N = fun i : S2048x2048.Idx => (∑ k : Fin 2048, A (ix2 (i 0) k) * B (ix2 (i 1) k) : EReal) := by
  subst hA hB
  exact outproj_prod V c

end Cert.KernelIdeal.Frm

end
-- ==== Proof.HostGlue.lean ====
/-
  The host operations between the kernel regions, read buffer by buffer: what each buffer a region (or the result)
  reads holds after its stretch of host operations, as those operations of the buffers the stretch finds — over any
  contents `W` before the stretch. The operations are re-layouts (shape casts, slices, transposes, one concatenation)
  and changes of float format; no arithmetic happens on the host.
-/
import proofs.«125955_j22462678958488_2_alg».proof.Proof.Gen.KernelIdeal.Launch
import Idealize.ShloMosaic.Lib.StableHlo.Run

noncomputable section

namespace Cert.KernelIdeal.Glue

open Cert.KernelIdeal Cert.KernelIdeal.Gen
open Idealize.ShloMosaic Idealize.ShloMosaic.TcCoe Idealize.ShloMosaic.StableHlo

variable {F : FTy → Type} [FloatOps F] (W : Valuation τ sig (Elt F))

/-! ## The re-layouts, as functions of arrays -/

/-- The activations flattened to [2048, 2048] rows. -/
def rowsIn (x : FVec F S2x1024x2048 .f32) : FVec F S2048x2048 .bf16 :=
  shapeCast S2048x2048 (truncf .bf16 x bitsLt_bf16_f32) shapeCasts_S2x1024x2048_S2048x2048
/-- The three projection weights stacked to [3072, 2048]. -/
def stacked (wq : FVec F S2048x2048 .f32) (wk wv : FVec F S512x2048 .f32) : FVec F S3072x2048 .bf16 :=
  truncf .bf16 (concatenate S3072x2048 0 [⟨S2048x2048, wq⟩, ⟨S512x2048, wk⟩, ⟨S512x2048, wv⟩]
    concatenates_S2048x2048_S512x2048_S512x2048_S3072x2048_d0) bitsLt_bf16_f32
/-- The fused projections [2048, 3072] viewed per batch. -/
def perBatch (qkv : FVec F S2048x3072 .bf16) : FVec F S2x1024x3072 .bf16 := shapeCast S2x1024x3072 qkv shapeCasts_S2048x3072_S2x1024x3072
/-- The query columns as [2, 32, 1024, 64] heads. -/
def qHeads (qkv : FVec F S2048x3072 .bf16) : FVec F S2x32x1024x64 .bf16 :=
  transpose S2x32x1024x64 [0, 2, 1, 3] (shapeCast S2x1024x32x64
    (extractStridedSlice S2x1024x2048 ![0, 0, 0] (perBatch qkv) slices_S2x1024x3072_S2x1024x2048_0_0_0)
    shapeCasts_S2x1024x2048_S2x1024x32x64) transposes_S2x1024x32x64_S2x32x1024x64_0_2_1_3
/-- The key columns as [2, 8, 1024, 64] heads. -/
def kHeads (qkv : FVec F S2048x3072 .bf16) : FVec F S2x8x1024x64 .bf16 :=
  transpose S2x8x1024x64 [0, 2, 1, 3] (shapeCast S2x1024x8x64
    (extractStridedSlice S2x1024x512 ![0, 0, 2048] (perBatch qkv) slices_S2x1024x3072_S2x1024x512_0_0_2048)
    shapeCasts_S2x1024x512_S2x1024x8x64) transposes_S2x1024x8x64_S2x8x1024x64_0_2_1_3
/-- The value columns as [2, 8, 1024, 64] heads. -/
def vHeads (qkv : FVec F S2048x3072 .bf16) : FVec F S2x8x1024x64 .bf16 :=
  transpose S2x8x1024x64 [0, 2, 1, 3] (shapeCast S2x1024x8x64
    (extractStridedSlice S2x1024x512 ![0, 0, 2560] (perBatch qkv) slices_S2x1024x3072_S2x1024x512_0_0_2560)
    shapeCasts_S2x1024x512_S2x1024x8x64) transposes_S2x1024x8x64_S2x8x1024x64_0_2_1_3
/-- A weight vector as a row. -/
def asRow (w : FVec F S64 .f32) : FVec F S1x64 .f32 := shapeCast S1x64 w shapeCasts_S64_S1x64
/-- The query heads grouped by key/value head. -/
def grouped (q : FVec F S2x32x1024x64 .bf16) : FVec F S2x8x4x1024x64 .bf16 := shapeCast S2x8x4x1024x64 q shapeCasts_S2x32x1024x64_S2x8x4x1024x64
/-- The grouped attention outputs laid out as [2048, 2048] rows. -/
def rowsOut (o : FVec F S2x8x4x1024x64 .bf16) : FVec F S2048x2048 .bf16 :=
  shapeCast S2048x2048 (transpose S2x1024x32x64 [0, 2, 1, 3] (shapeCast S2x32x1024x64 o shapeCasts_S2x8x4x1024x64_S2x32x1024x64)
    transposes_S2x32x1024x64_S2x1024x32x64_0_2_1_3) shapeCasts_S2x1024x32x64_S2048x2048
/-- The output weights in the product's format. -/
def outW (wo : FVec F S2048x2048 .f32) : FVec F S2048x2048 .bf16 := truncf .bf16 wo bitsLt_bf16_f32
/-- The result rows viewed per batch. -/
def resultOf (y : FVec F S2048x2048 .f32) : FVec F S2x1024x2048 .f32 := shapeCast S2x1024x2048 y shapeCasts_S2048x2048_S2x1024x2048

/-! ## The stretches -/

theorem s0_v3 : after hostOps0 W (main_v3 : DevRef τ sig) = rowsIn (W (main_arg0 : DevRef τ sig)) := by
  after_results; rfl
theorem s0_v2 : after hostOps0 W (main_v2 : DevRef τ sig)
    = stacked (W (main_arg5 : DevRef τ sig)) (W (main_arg6 : DevRef τ sig)) (W (main_arg7 : DevRef τ sig)) := by
  after_results; rfl
theorem s1_v12 : after hostOps1 W (main_v12 : DevRef τ sig) = qHeads (W (main_v4 : DevRef τ sig)) := by
  after_results; rfl
theorem s1_v13 : after hostOps1 W (main_v13 : DevRef τ sig) = kHeads (W (main_v4 : DevRef τ sig)) := by
  after_results; rfl
theorem s1_v14 : after hostOps1 W (main_v14 : DevRef τ sig) = vHeads (W (main_v4 : DevRef τ sig)) := by
  after_results; rfl
theorem s1_v15 : after hostOps1 W (main_v15 : DevRef τ sig) = asRow (W (main_arg9 : DevRef τ sig)) := by
  after_results; rfl
theorem s2_v17 : after hostOps2 W (main_v17 : DevRef τ sig) = asRow (W (main_arg10 : DevRef τ sig)) := by
  after_results; rfl
theorem s3_v19 : after hostOps3 W (main_v19 : DevRef τ sig) = grouped (W (main_v16 : DevRef τ sig)) := by
  after_results; rfl
theorem s4_v23 : after hostOps4 W (main_v23 : DevRef τ sig) = rowsOut (W (main_v20 : DevRef τ sig)) := by
  after_results; rfl
theorem s4_v24 : after hostOps4 W (main_v24 : DevRef τ sig) = outW (W (main_arg8 : DevRef τ sig)) := by
  after_results; rfl
theorem s5_v26 : after hostOps5 W (main_v26 : DevRef τ sig) = resultOf (W (main_v25 : DevRef τ sig)) := by
  after_results; rfl

/-! ## What a stretch leaves alone -/

theorem s0_keep_arg0 : after hostOps0 W (main_arg0 : DevRef τ sig) = W (main_arg0 : DevRef τ sig) := by
  after_results
theorem s0_keep_arg1 : after hostOps0 W (main_arg1 : DevRef τ sig) = W (main_arg1 : DevRef τ sig) := by
  after_results
theorem s0_keep_arg2 : after hostOps0 W (main_arg2 : DevRef τ sig) = W (main_arg2 : DevRef τ sig) := by
  after_results
theorem s0_keep_arg3 : after hostOps0 W (main_arg3 : DevRef τ sig) = W (main_arg3 : DevRef τ sig) := by
  after_results
theorem s0_keep_arg4 : after hostOps0 W (main_arg4 : DevRef τ sig) = W (main_arg4 : DevRef τ sig) := by
  after_results
theorem s0_keep_arg8 : after hostOps0 W (main_arg8 : DevRef τ sig) = W (main_arg8 : DevRef τ sig) := by
  after_results
theorem s0_keep_arg9 : after hostOps0 W (main_arg9 : DevRef τ sig) = W (main_arg9 : DevRef τ sig) := by
  after_results
theorem s0_keep_arg10 : after hostOps0 W (main_arg10 : DevRef τ sig) = W (main_arg10 : DevRef τ sig) := by
  after_results
theorem s1_keep_arg1 : after hostOps1 W (main_arg1 : DevRef τ sig) = W (main_arg1 : DevRef τ sig) := by
  after_results
theorem s1_keep_arg2 : after hostOps1 W (main_arg2 : DevRef τ sig) = W (main_arg2 : DevRef τ sig) := by
  after_results
theorem s1_keep_arg3 : after hostOps1 W (main_arg3 : DevRef τ sig) = W (main_arg3 : DevRef τ sig) := by
  after_results
theorem s1_keep_arg4 : after hostOps1 W (main_arg4 : DevRef τ sig) = W (main_arg4 : DevRef τ sig) := by
  after_results
theorem s1_keep_arg8 : after hostOps1 W (main_arg8 : DevRef τ sig) = W (main_arg8 : DevRef τ sig) := by
  after_results
theorem s1_keep_arg10 : after hostOps1 W (main_arg10 : DevRef τ sig) = W (main_arg10 : DevRef τ sig) := by
  after_results
theorem s2_keep_arg1 : after hostOps2 W (main_arg1 : DevRef τ sig) = W (main_arg1 : DevRef τ sig) := by
  after_results
theorem s2_keep_arg2 : after hostOps2 W (main_arg2 : DevRef τ sig) = W (main_arg2 : DevRef τ sig) := by
  after_results
theorem s2_keep_arg3 : after hostOps2 W (main_arg3 : DevRef τ sig) = W (main_arg3 : DevRef τ sig) := by
  after_results
theorem s2_keep_arg4 : after hostOps2 W (main_arg4 : DevRef τ sig) = W (main_arg4 : DevRef τ sig) := by
  after_results
theorem s2_keep_arg8 : after hostOps2 W (main_arg8 : DevRef τ sig) = W (main_arg8 : DevRef τ sig) := by
  after_results
theorem s2_keep_v13 : after hostOps2 W (main_v13 : DevRef τ sig) = W (main_v13 : DevRef τ sig) := by
  after_results
theorem s2_keep_v14 : after hostOps2 W (main_v14 : DevRef τ sig) = W (main_v14 : DevRef τ sig) := by
  after_results
theorem s2_keep_v16 : after hostOps2 W (main_v16 : DevRef τ sig) = W (main_v16 : DevRef τ sig) := by
  after_results
theorem s3_keep_arg1 : after hostOps3 W (main_arg1 : DevRef τ sig) = W (main_arg1 : DevRef τ sig) := by
  after_results
theorem s3_keep_arg2 : after hostOps3 W (main_arg2 : DevRef τ sig) = W (main_arg2 : DevRef τ sig) := by
  after_results
theorem s3_keep_arg8 : after hostOps3 W (main_arg8 : DevRef τ sig) = W (main_arg8 : DevRef τ sig) := by
  after_results
theorem s3_keep_v14 : after hostOps3 W (main_v14 : DevRef τ sig) = W (main_v14 : DevRef τ sig) := by
  after_results
theorem s3_keep_v18 : after hostOps3 W (main_v18 : DevRef τ sig) = W (main_v18 : DevRef τ sig) := by
  after_results

end Cert.KernelIdeal.Glue

end
-- ==== Proof.LayoutReads.lean ====
/-
  The host re-layouts read at an index, at the ideal values, over explicit coordinates: row (b, l) of the flattened
  activations; a row of the stacked weights; the query / key / value heads inside the fused projections (head h, entry
  d of row (b, l) sits in column h·64 + d of its band); a weight vector as a row; the grouping of the query heads by
  key/value head (head g·4 + r); the attention outputs laid back out as rows (column h·64 + d); and the result rows
  viewed per batch. A change of float format is the identity at the ideal values.
-/
import proofs.«125955_j22462678958488_2_alg».proof.Proof.HostGlue
import proofs.«125955_j22462678958488_2_alg».proof.Proof.RegionSpec
import proofs.«125955_j22462678958488_2_alg».proof.Proof.LibColumns

noncomputable section

namespace Cert.KernelIdeal.Glue

open Cert.KernelIdeal Cert.KernelIdeal.Gen Cert.Spec
open Idealize.ShloMosaic Idealize.ShloMosaic.ValueIdx

/-- Row `b · 1024 + l` of a [2048, ·] matrix. -/
def row (b : Fin 2) (l : Fin 1024) : Fin 2048 := ⟨b.val * 1024 + l.val, by have := b.isLt; have := l.isLt; omega⟩
/-- Query head `g · 4 + r`. -/
def head (g : Fin 8) (r : Fin 4) : Fin 32 := ⟨g.val * 4 + r.val, by have := g.isLt; have := r.isLt; omega⟩
/-- Column `o + h · 64 + d` of the fused projections. -/
def colAt {n : Nat} (o : Nat) (h : Fin n) (d : Fin 64) (hn : o + n * 64 ≤ 3072) : Fin 3072 :=
  ⟨o + h.val * 64 + d.val, by have := h.isLt; have := d.isLt; nlinarith⟩

theorem rowsIn_apply (x : FVec Ideal S2x1024x2048 .f32) (b : Fin 2) (l : Fin 1024) (k : Fin 2048) :
    rowsIn x (ix2 (row b l) k) = x (ix3 b l k) := by
  unfold rowsIn
  refine (shapeCast_apply _ _ (ix2 (row b l) k) (ix3 b l k) ?_).trans rfl
  rw [Shape.rowMajor_val_three, Shape.rowMajor_val_two]
  show (b.val * 1024 + l.val) * 2048 + k.val = (b.val * 1024 + l.val) * 2048 + k.val
  rfl

theorem resultOf_apply (y : FVec Ideal S2048x2048 .f32) (b : Fin 2) (l : Fin 1024) (c : Fin 2048) :
    resultOf y (ix3 b l c) = y (ix2 (row b l) c) := by
  unfold resultOf
  refine shapeCast_apply _ _ (ix3 b l c) (ix2 (row b l) c) ?_
  rw [Shape.rowMajor_val_three, Shape.rowMajor_val_two]
  show (b.val * 1024 + l.val) * 2048 + c.val = (b.val * 1024 + l.val) * 2048 + c.val
  rfl

theorem outW_apply (wo : FVec Ideal S2048x2048 .f32) (i : S2048x2048.Idx) : outW wo i = wo i := rfl

theorem asRow_apply (w : FVec Ideal S64 .f32) (u : Fin 1) (e : Fin 64) : asRow w (ix2 u e) = w (ix1 e) := by
  unfold asRow
  exact shapeCast_a_1a_apply w _ u e

theorem grouped_apply (q : FVec Ideal S2x32x1024x64 .bf16) (b : Fin 2) (g : Fin 8) (r : Fin 4) (l : Fin 1024) (d : Fin 64) :
    grouped q (ix5 b g r l d) = q (ix4 b (head g r) l d) := by
  unfold grouped
  refine shapeCast_apply _ _ (ix5 b g r l d) (ix4 b (head g r) l d) ?_
  rw [Shape.rowMajor_val_four, Shape.rowMajor_val_five]
  show ((b.val * 32 + (g.val * 4 + r.val)) * 1024 + l.val) * 64 + d.val = (((b.val * 8 + g.val) * 4 + r.val) * 1024 + l.val) * 64 + d.val
  ring

/-- The attention outputs back as rows: column `e` of row (b, l) is entry `e % 64` of head `e / 64`. -/
theorem rowsOut_apply (o : FVec Ideal S2x8x4x1024x64 .bf16) (b : Fin 2) (l : Fin 1024) (e : Fin 2048) :
    rowsOut o (ix2 (row b l) e)
      = o (ix5 b (group (headOf e)) ⟨(headOf e).val % 4, Nat.mod_lt _ (by norm_num)⟩ l (entryOf e)) := by
  unfold rowsOut
  have he := e.isLt
  refine (shapeCast_apply _ _ (ix2 (row b l) e) (ix4 b l (headOf e) (entryOf e)) ?_).trans ?_
  · rw [Shape.rowMajor_val_four, Shape.rowMajor_val_two]
    show ((b.val * 1024 + l.val) * 32 + e.val / 64) * 64 + e.val % 64 = (b.val * 1024 + l.val) * 2048 + e.val
    omega
  refine (transpose_apply _ _ _ (ix4 b l (headOf e) (entryOf e)) (ix4 b (headOf e) l (entryOf e)) fun ax => ?_).trans ?_
  · match ax with
    | ⟨0, _⟩ => rfl
    | ⟨1, _⟩ => rfl
    | ⟨2, _⟩ => rfl
    | ⟨3, _⟩ => rfl
  refine shapeCast_apply _ _ (ix4 b (headOf e) l (entryOf e)) _ ?_
  rw [Shape.rowMajor_val_four, Shape.rowMajor_val_five]
  show (((b.val * 8 + e.val / 64 / 4) * 4 + e.val / 64 % 4) * 1024 + l.val) * 64 + e.val % 64
    = ((b.val * 32 + e.val / 64) * 1024 + l.val) * 64 + e.val % 64
  omega

/-- A head of one band of the fused projections: entry `d` of head `h` at row (b, l) is column `o + h · 64 + d`. -/
theorem band_apply {n : Nat} (o : Nat) (qkv : FVec Ideal S2048x3072 .bf16) (hn : o + n * 64 ≤ 3072)
    (hs : S2x1024x3072.Slices ![0, 0, o] ⟨3, ![2, 1024, n * 64]⟩)
    (hc : (⟨3, ![2, 1024, n * 64]⟩ : Shape).ShapeCasts ⟨4, ![2, 1024, n, 64]⟩)
    (ht : (⟨4, ![2, 1024, n, 64]⟩ : Shape).Transposes [0, 2, 1, 3] ⟨4, ![2, n, 1024, 64]⟩)
    (b : Fin 2) (h : Fin n) (l : Fin 1024) (d : Fin 64) :
    transpose ⟨4, ![2, n, 1024, 64]⟩ [0, 2, 1, 3] (shapeCast ⟨4, ![2, 1024, n, 64]⟩
        (extractStridedSlice ⟨3, ![2, 1024, n * 64]⟩ ![0, 0, o] (perBatch qkv) hs) hc) ht (ix4 b h l d)
      = qkv (ix2 (row b l) (colAt o h d hn)) := by
  have hh := h.isLt
  have hd := d.isLt
  refine (transpose_apply _ _ _ (ix4 b h l d) (ix4 b l h d) fun ax => ?_).trans ?_
  · match ax with
    | ⟨0, _⟩ => rfl
    | ⟨1, _⟩ => rfl
    | ⟨2, _⟩ => rfl
    | ⟨3, _⟩ => rfl
  refine (shapeCast_apply _ _ (ix4 b l h d) (ix3 b l (⟨h.val * 64 + d.val, by nlinarith⟩ : Fin (n * 64))) ?_).trans ?_
  · rw [Shape.rowMajor_val_three, Shape.rowMajor_val_four]
    show (b.val * 1024 + l.val) * (n * 64) + (h.val * 64 + d.val) = ((b.val * 1024 + l.val) * n + h.val) * 64 + d.val
    ring
  refine (extractStridedSlice_apply _ _ hs _ (ix3 b l (colAt o h d hn)) fun ax => ?_).trans ?_
  · match ax with
    | ⟨0, _⟩ => exact (Nat.zero_add _).symm
    | ⟨1, _⟩ => exact (Nat.zero_add _).symm
    | ⟨2, _⟩ => show o + h.val * 64 + d.val = o + (h.val * 64 + d.val); omega
  unfold perBatch
  refine shapeCast_apply _ _ (ix3 b l (colAt o h d hn)) (ix2 (row b l) (colAt o h d hn)) ?_
  rw [Shape.rowMajor_val_three, Shape.rowMajor_val_two]
  show (b.val * 1024 + l.val) * 3072 + (o + h.val * 64 + d.val) = (b.val * 1024 + l.val) * 3072 + (o + h.val * 64 + d.val)
  rfl

theorem qHeads_apply (qkv : FVec Ideal S2048x3072 .bf16) (b : Fin 2) (h : Fin 32) (l : Fin 1024) (d : Fin 64) :
    qHeads qkv (ix4 b h l d) = qkv (ix2 (row b l) (colAt 0 h d (by norm_num))) :=
  band_apply (n := 32) 0 qkv (by norm_num) slices_S2x1024x3072_S2x1024x2048_0_0_0 shapeCasts_S2x1024x2048_S2x1024x32x64
    transposes_S2x1024x32x64_S2x32x1024x64_0_2_1_3 b h l d
theorem kHeads_apply (qkv : FVec Ideal S2048x3072 .bf16) (b : Fin 2) (g : Fin 8) (l : Fin 1024) (d : Fin 64) :
    kHeads qkv (ix4 b g l d) = qkv (ix2 (row b l) (colAt 2048 g d (by norm_num))) :=
  band_apply (n := 8) 2048 qkv (by norm_num) slices_S2x1024x3072_S2x1024x512_0_0_2048 shapeCasts_S2x1024x512_S2x1024x8x64
    transposes_S2x1024x8x64_S2x8x1024x64_0_2_1_3 b g l d
theorem vHeads_apply (qkv : FVec Ideal S2048x3072 .bf16) (b : Fin 2) (g : Fin 8) (l : Fin 1024) (d : Fin 64) :
    vHeads qkv (ix4 b g l d) = qkv (ix2 (row b l) (colAt 2560 g d (by norm_num))) :=
  band_apply (n := 8) 2560 qkv (by norm_num) slices_S2x1024x3072_S2x1024x512_0_0_2560 shapeCasts_S2x1024x512_S2x1024x8x64
    transposes_S2x1024x8x64_S2x8x1024x64_0_2_1_3 b g l d

/-- A row of the stacked weights: a row of the query weights, of the key weights, or of the value weights. -/
theorem stacked_q (wq : FVec Ideal S2048x2048 .f32) (wk wv : FVec Ideal S512x2048 .f32) (h : Fin 32) (d : Fin 64) (k : Fin 2048) :
    stacked wq wk wv (ix2 (colAt 0 h d (by norm_num)) k) = wq (ix2 (chan h d) k) := by
  unfold stacked
  have hh := h.isLt
  have hd := d.isLt
  show concatenate S3072x2048 0 [⟨S2048x2048, wq⟩, ⟨S512x2048, wk⟩, ⟨S512x2048, wv⟩] concatenates_S2048x2048_S512x2048_S512x2048_S3072x2048_d0 (ix2 (colAt 0 h d (by norm_num)) k) = wq (ix2 (chan h d) k)
  refine (concatenate_apply_piece (t := S3072x2048) 0 [⟨S2048x2048, wq⟩, ⟨S512x2048, wk⟩, ⟨S512x2048, wv⟩] _ _ 0 (by show (0 : ℕ) < 3; decide) S2048x2048 wq rfl rfl 0 rfl (ix2 (chan h d) k) (fun b hb => ?_) ?_)
  · match b with
    | ⟨0, _⟩ => exact absurd rfl hb
    | ⟨1, _⟩ => rfl
  · show 0 + (h.val * 64 + d.val) = 0 + h.val * 64 + d.val; omega
theorem stacked_k (wq : FVec Ideal S2048x2048 .f32) (wk wv : FVec Ideal S512x2048 .f32) (g : Fin 8) (d : Fin 64) (k : Fin 2048) :
    stacked wq wk wv (ix2 (colAt 2048 g d (by norm_num)) k) = wk (ix2 (chan g d) k) := by
  unfold stacked
  have hh := g.isLt
  have hd := d.isLt
  show concatenate S3072x2048 0 [⟨S2048x2048, wq⟩, ⟨S512x2048, wk⟩, ⟨S512x2048, wv⟩] concatenates_S2048x2048_S512x2048_S512x2048_S3072x2048_d0 (ix2 (colAt 2048 g d (by norm_num)) k) = wk (ix2 (chan g d) k)
  refine (concatenate_apply_piece (t := S3072x2048) 0 [⟨S2048x2048, wq⟩, ⟨S512x2048, wk⟩, ⟨S512x2048, wv⟩] _ _ 1 (by show (1 : ℕ) < 3; decide) S512x2048 wk rfl rfl 2048 rfl (ix2 (chan g d) k) (fun b hb => ?_) ?_)
  · match b with
    | ⟨0, _⟩ => exact absurd rfl hb
    | ⟨1, _⟩ => rfl
  · show 2048 + (g.val * 64 + d.val) = 2048 + g.val * 64 + d.val; omega
theorem stacked_v (wq : FVec Ideal S2048x2048 .f32) (wk wv : FVec Ideal S512x2048 .f32) (g : Fin 8) (d : Fin 64) (k : Fin 2048) :
    stacked wq wk wv (ix2 (colAt 2560 g d (by norm_num)) k) = wv (ix2 (chan g d) k) := by
  unfold stacked
  have hh := g.isLt
  have hd := d.isLt
  show concatenate S3072x2048 0 [⟨S2048x2048, wq⟩, ⟨S512x2048, wk⟩, ⟨S512x2048, wv⟩] concatenates_S2048x2048_S512x2048_S512x2048_S3072x2048_d0 (ix2 (colAt 2560 g d (by norm_num)) k) = wv (ix2 (chan g d) k)
  refine (concatenate_apply_piece (t := S3072x2048) 0 [⟨S2048x2048, wq⟩, ⟨S512x2048, wk⟩, ⟨S512x2048, wv⟩] _ _ 2 (by show (2 : ℕ) < 3; decide) S512x2048 wv rfl rfl 2560 rfl (ix2 (chan g d) k) (fun b hb => ?_) ?_)
  · match b with
    | ⟨0, _⟩ => exact absurd rfl hb
    | ⟨1, _⟩ => rfl
  · show 2560 + (g.val * 64 + d.val) = 2560 + g.val * 64 + d.val; omega

end Cert.KernelIdeal.Glue

end
-- ==== Proof.KernelMath.lean ====
/-
  The kernel program's value as ONE function of the eleven argument arrays — the fused projections, the two
  normalise-and-rotate regions, the grouped attention region and the output projection, with the host re-layouts
  between them — and the proof that it is the specification, entry by entry: a head of a band of the fused projections
  is the specification's projection of that head (the stacked weights' row is the band's weight row); the query heads
  grouped by key/value head are read back at head g · 4 + r = h; the stacked keys and values are the specification's
  rows; and the result's column sum runs over the heads' entries laid side by side.
-/
import proofs.«125955_j22462678958488_2_alg».proof.Proof.LayoutReads

noncomputable section

namespace Cert.KernelIdeal.Glue

open Cert.KernelIdeal Cert.KernelIdeal.Gen Cert.Spec
open Idealize.ShloMosaic Idealize.ShloMosaic.ValueIdx

section
variable (x : FVec Ideal S2x1024x2048 .f32) (ck cv : FVec Ideal S2x8x2048x64 .f32) (cos sin : FVec Ideal S1024x32 .f32)
  (Wq : FVec Ideal S2048x2048 .f32) (Wk Wv : FVec Ideal S512x2048 .f32) (Wo : FVec Ideal S2048x2048 .f32) (qw kw : FVec Ideal S64 .f32)

/-- The fused projections. -/
def fusedProj : FVec Ideal S2048x3072 .bf16 := matmulT (M := 2048) (N := 3072) (K := 2048) (rowsIn x) (stacked Wq Wk Wv)
/-- The normalised, rotated query heads and key heads. -/
def qArr : FVec Ideal S2x32x1024x64 .bf16 := normRegion (H := 32) (qHeads (fusedProj x Wq Wk Wv)) cos sin (asRow qw)
def kArr : FVec Ideal S2x8x1024x64 .bf16 := normRegion (H := 8) (kHeads (fusedProj x Wq Wk Wv)) cos sin (asRow kw)
/-- The grouped attention outputs. -/
def oArr : FVec Ideal S2x8x4x1024x64 .bf16 :=
  attnRegion (grouped (qArr x cos sin Wq Wk Wv qw)) ck cv (kArr x cos sin Wq Wk Wv kw) (vHeads (fusedProj x Wq Wk Wv))
/-- The kernel program's result. -/
def kvalue : FVec Ideal S2x1024x2048 .f32 :=
  resultOf (matmulT (M := 2048) (N := 2048) (K := 2048) (rowsOut (oArr x ck cv cos sin Wq Wk Wv qw kw)) (outW Wo))

/-- An entry of the fused projections: a row of the activations against a row of the stacked weights. -/
theorem fusedProj_apply (b : Fin 2) (l : Fin 1024) (n : Fin 3072) :
    fusedProj x Wq Wk Wv (ix2 (row b l) n) = ∑ k : Fin 2048, x (ix3 b l k) * stacked Wq Wk Wv (ix2 n k) := by
  unfold fusedProj matmulT
  exact Finset.sum_congr rfl fun k _ => congrArg (· * _) (rowsIn_apply x b l k)

theorem qHeads_eq (b : Fin 2) (h : Fin 32) (l : Fin 1024) (d : Fin 64) :
    qHeads (fusedProj x Wq Wk Wv) (ix4 b h l d) = qRaw x Wq b h l d := by
  rw [qHeads_apply, fusedProj_apply]
  unfold qRaw proj
  exact Finset.sum_congr rfl fun k _ => congrArg (_ * ·) (stacked_q Wq Wk Wv h d k)
theorem kHeads_eq (b : Fin 2) (g : Fin 8) (l : Fin 1024) (d : Fin 64) :
    kHeads (fusedProj x Wq Wk Wv) (ix4 b g l d) = kRaw x Wk b g l d := by
  rw [kHeads_apply, fusedProj_apply]
  unfold kRaw proj
  exact Finset.sum_congr rfl fun k _ => congrArg (_ * ·) (stacked_k Wq Wk Wv g d k)
theorem vHeads_eq (b : Fin 2) (g : Fin 8) (l : Fin 1024) (d : Fin 64) :
    vHeads (fusedProj x Wq Wk Wv) (ix4 b g l d) = vRaw x Wv b g l d := by
  rw [vHeads_apply, fusedProj_apply]
  unfold vRaw proj
  exact Finset.sum_congr rfl fun k _ => congrArg (_ * ·) (stacked_v Wq Wk Wv g d k)

theorem qArr_apply (b : Fin 2) (h : Fin 32) (l : Fin 1024) (d : Fin 64) :
    qArr x cos sin Wq Wk Wv qw (ix4 b h l d) = qHead x cos sin Wq qw b h l d := by
  unfold qArr normRegion qHead
  show rope (normed (fun e => qHeads (fusedProj x Wq Wk Wv) (ix4 b h l e)) fun e => asRow qw (ix2 (0 : Fin 1) e))
      (fun e => cos (ix2 l e)) (fun e => sin (ix2 l e)) d = _
  rw [show (fun e => qHeads (fusedProj x Wq Wk Wv) (ix4 b h l e)) = qRaw x Wq b h l from funext fun e => qHeads_eq x Wq Wk Wv b h l e,
    show (fun e => asRow qw (ix2 (0 : Fin 1) e)) = fun e => qw (ix1 e) from funext fun e => asRow_apply qw 0 e]
theorem kArr_apply (b : Fin 2) (g : Fin 8) (l : Fin 1024) (d : Fin 64) :
    kArr x cos sin Wq Wk Wv kw (ix4 b g l d) = kHead x cos sin Wk kw b g l d := by
  unfold kArr normRegion kHead
  show rope (normed (fun e => kHeads (fusedProj x Wq Wk Wv) (ix4 b g l e)) fun e => asRow kw (ix2 (0 : Fin 1) e))
      (fun e => cos (ix2 l e)) (fun e => sin (ix2 l e)) d = _
  rw [show (fun e => kHeads (fusedProj x Wq Wk Wv) (ix4 b g l e)) = kRaw x Wk b g l from funext fun e => kHeads_eq x Wq Wk Wv b g l e,
    show (fun e => asRow kw (ix2 (0 : Fin 1) e)) = fun e => kw (ix1 e) from funext fun e => asRow_apply kw 0 e]

/-- The stacked keys and values of the attention region are the specification's rows. -/
theorem keys_eq (b : Fin 2) (g : Fin 8) (j : Fin 3072) (d : Fin 64) :
    stackRow ck (kArr x cos sin Wq Wk Wv kw) b g j d = keyRow x ck cos sin Wk kw b g j d := by
  unfold stackRow keyRow
  split
  · rfl
  · exact kArr_apply x cos sin Wq Wk Wv kw b g _ d
theorem vals_eq (b : Fin 2) (g : Fin 8) (j : Fin 3072) (d : Fin 64) :
    stackRow cv (vHeads (fusedProj x Wq Wk Wv)) b g j d = valRow x cv Wv b g j d := by
  unfold stackRow valRow
  split
  · rfl
  · exact vHeads_eq x Wq Wk Wv b g _ d

/-- The scores of query head `h`, read through the grouping at (h / 4, h % 4). -/
theorem scores_eq (b : Fin 2) (h : Fin 32) (l : Fin 1024) :
    scoreRow (grouped (qArr x cos sin Wq Wk Wv qw)) ck (kArr x cos sin Wq Wk Wv kw) b (group h) ⟨h.val % 4, Nat.mod_lt _ (by norm_num)⟩ l
      = score x ck cos sin Wq Wk qw kw b h l := by
  funext j
  unfold scoreRow score
  refine congrArg (· * eighth) (Finset.sum_congr rfl fun e _ => ?_)
  rw [grouped_apply, keys_eq]
  have hh : head (group h) ⟨h.val % 4, Nat.mod_lt _ (by norm_num)⟩ = h := Fin.ext (by
    show h.val / 4 * 4 + h.val % 4 = h.val; omega)
  rw [hh, qArr_apply]

/-- The attention output of query head `h`, read through the grouping. -/
theorem oArr_apply (b : Fin 2) (h : Fin 32) (l : Fin 1024) (d : Fin 64) :
    oArr x ck cv cos sin Wq Wk Wv qw kw (ix5 b (group h) ⟨h.val % 4, Nat.mod_lt _ (by norm_num)⟩ l d)
      = attnOut x ck cv cos sin Wq Wk Wv qw kw b h l d := by
  unfold oArr attnRegion attnOut
  show ∑ j : Fin 3072, softmaxRow (scoreRow (grouped (qArr x cos sin Wq Wk Wv qw)) ck (kArr x cos sin Wq Wk Wv kw) b (group h)
        ⟨h.val % 4, Nat.mod_lt _ (by norm_num)⟩ l) j * stackRow cv (vHeads (fusedProj x Wq Wk Wv)) b (group h) j d = _
  rw [scores_eq]
  exact Finset.sum_congr rfl fun j _ => congrArg (_ * ·) (vals_eq x cv Wq Wk Wv b (group h) j d)

/-- The kernel program's value is the specification. -/
theorem kvalue_eq : kvalue x ck cv cos sin Wq Wk Wv Wo qw kw = result x ck cv cos sin Wq Wk Wv Wo qw kw := by
  funext i
  obtain ⟨b, l, c, rfl⟩ : ∃ (b : Fin 2) (l : Fin 1024) (c : Fin 2048), i = ix3 b l c := ⟨i 0, i 1, i 2, eq_ix3 i⟩
  unfold kvalue result out
  rw [resultOf_apply]
  unfold matmulT
  show ∑ e : Fin 2048, rowsOut (oArr x ck cv cos sin Wq Wk Wv qw kw) (ix2 (row b l) e) * outW Wo (ix2 c e) = _
  refine Finset.sum_congr rfl fun e _ => ?_
  rw [rowsOut_apply, outW_apply, oArr_apply]

end

end Cert.KernelIdeal.Glue

end
-- ==== Proof.KernelValue.lean ====
/-
  The kernel program's run, read: the last valuation at the result array, threaded back through the regions (each
  leaves its function of its operands) and the host stretches (each a re-layout), down to the argument arrays as
  launched — the program's value `kvalue` of the arguments, which is the specification.
-/
import proofs.«125955_j22462678958488_2_alg».proof.Proof.ArgsKept
import proofs.«125955_j22462678958488_2_alg».proof.Proof.NormRopeValueQ
import proofs.«125955_j22462678958488_2_alg».proof.Proof.NormRopeValueK
import proofs.«125955_j22462678958488_2_alg».proof.Proof.AttnValueFinal
import proofs.«125955_j22462678958488_2_alg».proof.Proof.MatmulValueQkv
import proofs.«125955_j22462678958488_2_alg».proof.Proof.MatmulValueOutProj
import proofs.«125955_j22462678958488_2_alg».proof.Proof.KernelMath

set_option maxRecDepth 16384

noncomputable section

namespace Cert.KernelIdeal.Frm

open Cert.KernelIdeal Cert.KernelIdeal.Gen Cert.Spec
open Idealize.ShloMosaic Idealize.ShloMosaic.TcCoe Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## The arguments, wherever a region or a stretch reads them -/

theorem W2_arg3 (c : Dev nD) : W2 m ρ c (main_arg3 : DevRef τ sig) = m ((c : Thread nD τ).loc main_arg3) :=
  (W2_of_ne m ρ c main_arg3 (by decide)).trans <| (keep0_arg3 (W0 m ρ c)).trans <| rfl
theorem W2_arg4 (c : Dev nD) : W2 m ρ c (main_arg4 : DevRef τ sig) = m ((c : Thread nD τ).loc main_arg4) :=
  (W2_of_ne m ρ c main_arg4 (by decide)).trans <| (keep0_arg4 (W0 m ρ c)).trans <| rfl
theorem W2_arg9 (c : Dev nD) : W2 m ρ c (main_arg9 : DevRef τ sig) = m ((c : Thread nD τ).loc main_arg9) :=
  (W2_of_ne m ρ c main_arg9 (by decide)).trans <| (keep0_arg9 (W0 m ρ c)).trans <| rfl
theorem W2_arg1 (c : Dev nD) : W2 m ρ c (main_arg1 : DevRef τ sig) = m ((c : Thread nD τ).loc main_arg1) :=
  (W2_of_ne m ρ c main_arg1 (by decide)).trans <| (keep0_arg1 (W0 m ρ c)).trans <| rfl
theorem W2_arg2 (c : Dev nD) : W2 m ρ c (main_arg2 : DevRef τ sig) = m ((c : Thread nD τ).loc main_arg2) :=
  (W2_of_ne m ρ c main_arg2 (by decide)).trans <| (keep0_arg2 (W0 m ρ c)).trans <| rfl
theorem W2_arg8 (c : Dev nD) : W2 m ρ c (main_arg8 : DevRef τ sig) = m ((c : Thread nD τ).loc main_arg8) :=
  (W2_of_ne m ρ c main_arg8 (by decide)).trans <| (keep0_arg8 (W0 m ρ c)).trans <| rfl
theorem W2_arg10 (c : Dev nD) : W2 m ρ c (main_arg10 : DevRef τ sig) = m ((c : Thread nD τ).loc main_arg10) :=
  (W2_of_ne m ρ c main_arg10 (by decide)).trans <| (keep0_arg10 (W0 m ρ c)).trans <| rfl
theorem W3_arg3 (c : Dev nD) : W3 m ρ c (main_arg3 : DevRef τ sig) = m ((c : Thread nD τ).loc main_arg3) :=
  (keep1_arg3 (W2 m ρ c)).trans <| (W2_arg3 m ρ c)
theorem W3_arg4 (c : Dev nD) : W3 m ρ c (main_arg4 : DevRef τ sig) = m ((c : Thread nD τ).loc main_arg4) :=
  (keep1_arg4 (W2 m ρ c)).trans <| (W2_arg4 m ρ c)
theorem W3_arg1 (c : Dev nD) : W3 m ρ c (main_arg1 : DevRef τ sig) = m ((c : Thread nD τ).loc main_arg1) :=
  (keep1_arg1 (W2 m ρ c)).trans <| (W2_arg1 m ρ c)
theorem W3_arg2 (c : Dev nD) : W3 m ρ c (main_arg2 : DevRef τ sig) = m ((c : Thread nD τ).loc main_arg2) :=
  (keep1_arg2 (W2 m ρ c)).trans <| (W2_arg2 m ρ c)
theorem W3_arg8 (c : Dev nD) : W3 m ρ c (main_arg8 : DevRef τ sig) = m ((c : Thread nD τ).loc main_arg8) :=
  (keep1_arg8 (W2 m ρ c)).trans <| (W2_arg8 m ρ c)
theorem W3_arg10 (c : Dev nD) : W3 m ρ c (main_arg10 : DevRef τ sig) = m ((c : Thread nD τ).loc main_arg10) :=
  (keep1_arg10 (W2 m ρ c)).trans <| (W2_arg10 m ρ c)
theorem W4_arg3 (c : Dev nD) : W4 m ρ c (main_arg3 : DevRef τ sig) = m ((c : Thread nD τ).loc main_arg3) :=
  ((W4_arr m ρ c 1).trans (((dat1 (V3 m ρ) c).arrAt_in 1 rfl _).trans (A_eq1 (V3 m ρ) c 1))).trans <| (W3_arg3 m ρ c)
theorem W4_arg4 (c : Dev nD) : W4 m ρ c (main_arg4 : DevRef τ sig) = m ((c : Thread nD τ).loc main_arg4) :=
  ((W4_arr m ρ c 2).trans (((dat1 (V3 m ρ) c).arrAt_in 2 rfl _).trans (A_eq1 (V3 m ρ) c 2))).trans <| (W3_arg4 m ρ c)
theorem W4_arg1 (c : Dev nD) : W4 m ρ c (main_arg1 : DevRef τ sig) = m ((c : Thread nD τ).loc main_arg1) :=
  (W4_of_ne m ρ c main_arg1 (by decide)).trans <| (W3_arg1 m ρ c)
theorem W4_arg2 (c : Dev nD) : W4 m ρ c (main_arg2 : DevRef τ sig) = m ((c : Thread nD τ).loc main_arg2) :=
  (W4_of_ne m ρ c main_arg2 (by decide)).trans <| (W3_arg2 m ρ c)
theorem W4_arg8 (c : Dev nD) : W4 m ρ c (main_arg8 : DevRef τ sig) = m ((c : Thread nD τ).loc main_arg8) :=
  (W4_of_ne m ρ c main_arg8 (by decide)).trans <| (W3_arg8 m ρ c)
theorem W4_arg10 (c : Dev nD) : W4 m ρ c (main_arg10 : DevRef τ sig) = m ((c : Thread nD τ).loc main_arg10) :=
  (W4_of_ne m ρ c main_arg10 (by decide)).trans <| (W3_arg10 m ρ c)
theorem W5_arg3 (c : Dev nD) : W5 m ρ c (main_arg3 : DevRef τ sig) = m ((c : Thread nD τ).loc main_arg3) :=
  (keep2_arg3 (W4 m ρ c)).trans <| (W4_arg3 m ρ c)
theorem W5_arg4 (c : Dev nD) : W5 m ρ c (main_arg4 : DevRef τ sig) = m ((c : Thread nD τ).loc main_arg4) :=
  (keep2_arg4 (W4 m ρ c)).trans <| (W4_arg4 m ρ c)
theorem W5_arg1 (c : Dev nD) : W5 m ρ c (main_arg1 : DevRef τ sig) = m ((c : Thread nD τ).loc main_arg1) :=
  (keep2_arg1 (W4 m ρ c)).trans <| (W4_arg1 m ρ c)
theorem W5_arg2 (c : Dev nD) : W5 m ρ c (main_arg2 : DevRef τ sig) = m ((c : Thread nD τ).loc main_arg2) :=
  (keep2_arg2 (W4 m ρ c)).trans <| (W4_arg2 m ρ c)
theorem W5_arg8 (c : Dev nD) : W5 m ρ c (main_arg8 : DevRef τ sig) = m ((c : Thread nD τ).loc main_arg8) :=
  (keep2_arg8 (W4 m ρ c)).trans <| (W4_arg8 m ρ c)
theorem W7_arg1 (c : Dev nD) : W7 m ρ c (main_arg1 : DevRef τ sig) = m ((c : Thread nD τ).loc main_arg1) :=
  (keep3_arg1 (W6 m ρ c)).trans <| (W6_of_ne m ρ c main_arg1 (by decide)).trans <| (W5_arg1 m ρ c)
theorem W7_arg2 (c : Dev nD) : W7 m ρ c (main_arg2 : DevRef τ sig) = m ((c : Thread nD τ).loc main_arg2) :=
  (keep3_arg2 (W6 m ρ c)).trans <| (W6_of_ne m ρ c main_arg2 (by decide)).trans <| (W5_arg2 m ρ c)
theorem W7_arg8 (c : Dev nD) : W7 m ρ c (main_arg8 : DevRef τ sig) = m ((c : Thread nD τ).loc main_arg8) :=
  (keep3_arg8 (W6 m ρ c)).trans <| (W6_of_ne m ρ c main_arg8 (by decide)).trans <| (W5_arg8 m ρ c)
theorem W8_arg8 (c : Dev nD) : W8 m ρ c (main_arg8 : DevRef τ sig) = m ((c : Thread nD τ).loc main_arg8) :=
  (W8_of_ne m ρ c main_arg8 (by decide)).trans <| (W7_arg8 m ρ c)

/-! ## The arrays between the regions -/

/-- The fused projections, after region 0. -/
theorem W2_v4 (c : Dev nD) : W2 m ρ c (main_v4 : DevRef τ sig) = Glue.fusedProj (m ((c : Thread nD τ).loc main_arg0)) (m ((c : Thread nD τ).loc main_arg5)) (m ((c : Thread nD τ).loc main_arg6)) (m ((c : Thread nD τ).loc main_arg7)) := by
  refine ((W2_arr m ρ c 2).trans (qkv_prod (V1 m ρ) c)).trans ?_
  show prod0 (W1 m ρ c (main_v3 : DevRef τ sig)) (W1 m ρ c (main_v2 : DevRef τ sig)) = _
  rw [show W1 m ρ c (main_v3 : DevRef τ sig) = Glue.rowsIn (F := Ideal) (m ((c : Thread nD τ).loc main_arg0)) from Glue.s0_v3 (F := Ideal) (W0 m ρ c),
    show W1 m ρ c (main_v2 : DevRef τ sig) = Glue.stacked (F := Ideal) (m ((c : Thread nD τ).loc main_arg5)) (m ((c : Thread nD τ).loc main_arg6)) (m ((c : Thread nD τ).loc main_arg7)) from Glue.s0_v2 (F := Ideal) (W0 m ρ c)]
  rfl

/-- The three bands of heads, after the second stretch. -/
theorem W3_v12 (c : Dev nD) : W3 m ρ c (main_v12 : DevRef τ sig) = Glue.qHeads (F := Ideal) (Glue.fusedProj (m ((c : Thread nD τ).loc main_arg0)) (m ((c : Thread nD τ).loc main_arg5)) (m ((c : Thread nD τ).loc main_arg6)) (m ((c : Thread nD τ).loc main_arg7))) :=
  (Glue.s1_v12 (F := Ideal) (W2 m ρ c)).trans (congrArg (Glue.qHeads (F := Ideal)) (W2_v4 m ρ c))
theorem W3_v13 (c : Dev nD) : W3 m ρ c (main_v13 : DevRef τ sig) = Glue.kHeads (F := Ideal) (Glue.fusedProj (m ((c : Thread nD τ).loc main_arg0)) (m ((c : Thread nD τ).loc main_arg5)) (m ((c : Thread nD τ).loc main_arg6)) (m ((c : Thread nD τ).loc main_arg7))) :=
  (Glue.s1_v13 (F := Ideal) (W2 m ρ c)).trans (congrArg (Glue.kHeads (F := Ideal)) (W2_v4 m ρ c))
theorem W3_v14 (c : Dev nD) : W3 m ρ c (main_v14 : DevRef τ sig) = Glue.vHeads (F := Ideal) (Glue.fusedProj (m ((c : Thread nD τ).loc main_arg0)) (m ((c : Thread nD τ).loc main_arg5)) (m ((c : Thread nD τ).loc main_arg6)) (m ((c : Thread nD τ).loc main_arg7))) :=
  (Glue.s1_v14 (F := Ideal) (W2 m ρ c)).trans (congrArg (Glue.vHeads (F := Ideal)) (W2_v4 m ρ c))
theorem W3_v15 (c : Dev nD) : W3 m ρ c (main_v15 : DevRef τ sig) = Glue.asRow (F := Ideal) (m ((c : Thread nD τ).loc main_arg9)) :=
  (Glue.s1_v15 (F := Ideal) (W2 m ρ c)).trans (congrArg (Glue.asRow (F := Ideal)) (W2_arg9 m ρ c))

/-- The normalised, rotated query heads, after region 1. -/
theorem W4_v16 (c : Dev nD) : W4 m ρ c (main_v16 : DevRef τ sig) = Glue.qArr (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg9)) := by
  refine ((W4_arr m ρ c 4).trans (normQ_final (V3 m ρ) c)).trans ?_
  show normRegion (H := 32) (W3 m ρ c (main_v12 : DevRef τ sig)) (W3 m ρ c (main_arg3 : DevRef τ sig)) (W3 m ρ c (main_arg4 : DevRef τ sig))
    (W3 m ρ c (main_v15 : DevRef τ sig)) = _
  rw [W3_v12, W3_arg3, W3_arg4, W3_v15]
  rfl
theorem W5_v13 (c : Dev nD) : W5 m ρ c (main_v13 : DevRef τ sig) = Glue.kHeads (F := Ideal) (Glue.fusedProj (m ((c : Thread nD τ).loc main_arg0)) (m ((c : Thread nD τ).loc main_arg5)) (m ((c : Thread nD τ).loc main_arg6)) (m ((c : Thread nD τ).loc main_arg7))) :=
  (Glue.s2_keep_v13 (W4 m ρ c)).trans <| (W4_of_ne m ρ c main_v13 (by decide)).trans <| (W3_v13 m ρ c)
theorem W7_v14 (c : Dev nD) : W7 m ρ c (main_v14 : DevRef τ sig) = Glue.vHeads (F := Ideal) (Glue.fusedProj (m ((c : Thread nD τ).loc main_arg0)) (m ((c : Thread nD τ).loc main_arg5)) (m ((c : Thread nD τ).loc main_arg6)) (m ((c : Thread nD τ).loc main_arg7))) :=
  (Glue.s3_keep_v14 (W6 m ρ c)).trans <| (W6_of_ne m ρ c main_v14 (by decide)).trans <| (Glue.s2_keep_v14 (W4 m ρ c)).trans <| (W4_of_ne m ρ c main_v14 (by decide)).trans <| (W3_v14 m ρ c)
theorem W6_v16 (c : Dev nD) : W6 m ρ c (main_v16 : DevRef τ sig) = Glue.qArr (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg9)) :=
  (W6_of_ne m ρ c main_v16 (by decide)).trans <| (Glue.s2_keep_v16 (W4 m ρ c)).trans <| (W4_v16 m ρ c)
theorem W5_v17 (c : Dev nD) : W5 m ρ c (main_v17 : DevRef τ sig) = Glue.asRow (F := Ideal) (m ((c : Thread nD τ).loc main_arg10)) :=
  (Glue.s2_v17 (F := Ideal) (W4 m ρ c)).trans (congrArg (Glue.asRow (F := Ideal)) (W4_arg10 m ρ c))

/-- The normalised, rotated key heads, after region 2. -/
theorem W6_v18 (c : Dev nD) : W6 m ρ c (main_v18 : DevRef τ sig) = Glue.kArr (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg10)) := by
  refine ((W6_arr m ρ c 4).trans (normK_final (V5 m ρ) c)).trans ?_
  show normRegion (H := 8) (W5 m ρ c (main_v13 : DevRef τ sig)) (W5 m ρ c (main_arg3 : DevRef τ sig)) (W5 m ρ c (main_arg4 : DevRef τ sig))
    (W5 m ρ c (main_v17 : DevRef τ sig)) = _
  rw [W5_v13, W5_arg3, W5_arg4, W5_v17]
  rfl
theorem W7_v18 (c : Dev nD) : W7 m ρ c (main_v18 : DevRef τ sig) = Glue.kArr (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg10)) :=
  (Glue.s3_keep_v18 (W6 m ρ c)).trans <| (W6_v18 m ρ c)
theorem W7_v19 (c : Dev nD) : W7 m ρ c (main_v19 : DevRef τ sig) = Glue.grouped (F := Ideal) (Glue.qArr (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg9))) :=
  (Glue.s3_v19 (F := Ideal) (W6 m ρ c)).trans (congrArg (Glue.grouped (F := Ideal)) (W6_v16 m ρ c))

/-- The grouped attention outputs, after region 3. -/
theorem W8_v20 (c : Dev nD) : W8 m ρ c (main_v20 : DevRef τ sig) = Glue.oArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg9)) (m ((c : Thread nD τ).loc main_arg10)) := by
  refine ((W8_arr m ρ c 5).trans (Cert.KernelIdeal.AttnValue.attn_final (V7 m ρ) c)).trans ?_
  show attnRegion (W7 m ρ c (main_v19 : DevRef τ sig)) (W7 m ρ c (main_arg1 : DevRef τ sig)) (W7 m ρ c (main_arg2 : DevRef τ sig))
    (W7 m ρ c (main_v18 : DevRef τ sig)) (W7 m ρ c (main_v14 : DevRef τ sig)) = _
  rw [W7_v19, W7_arg1, W7_arg2, W7_v18, W7_v14]
  rfl

/-- The result rows, after region 4; and the result. -/
theorem W10_v25 (c : Dev nD) : W10 m ρ c (main_v25 : DevRef τ sig)
    = matmulT (M := 2048) (N := 2048) (K := 2048) (Glue.rowsOut (F := Ideal) (Glue.oArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg9)) (m ((c : Thread nD τ).loc main_arg10)))) (Glue.outW (F := Ideal) (m ((c : Thread nD τ).loc main_arg8))) := by
  refine ((W10_arr m ρ c 2).trans (outproj_prod (V9 m ρ) c)).trans ?_
  show prod4 (W9 m ρ c (main_v23 : DevRef τ sig)) (W9 m ρ c (main_v24 : DevRef τ sig)) = _
  rw [show W9 m ρ c (main_v23 : DevRef τ sig) = Glue.rowsOut (F := Ideal) (Glue.oArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg9)) (m ((c : Thread nD τ).loc main_arg10))) from
      (Glue.s4_v23 (F := Ideal) (W8 m ρ c)).trans (congrArg (Glue.rowsOut (F := Ideal)) (W8_v20 m ρ c)),
    show W9 m ρ c (main_v24 : DevRef τ sig) = Glue.outW (F := Ideal) (m ((c : Thread nD τ).loc main_arg8)) from
      (Glue.s4_v24 (F := Ideal) (W8 m ρ c)).trans (congrArg (Glue.outW (F := Ideal)) (W8_arg8 m ρ c))]
  rfl

/-- What the result array holds at the end: the specification of the arguments as launched. -/
theorem W11_v26 (c : Dev nD) : W11 m ρ c (main_v26 : DevRef τ sig)
    = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  ((Glue.s5_v26 (F := Ideal) (W10 m ρ c)).trans (congrArg (Glue.resultOf (F := Ideal)) (W10_v25 m ρ c))).trans
    (Glue.kvalue_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)))

end Cert.KernelIdeal.Frm

end
-- ==== Proof.RefProj.lean ====
/-
  The three projections of the reference, read at a head coordinate.

  The reference multiplies the activations with a weight matrix, splits the 2048 (or 512) output channels into heads of
  64 and moves the head axis in front of the row axis.  Read at (b, h, l, d) this is the product of row (b, l) of the
  activations with row h·64 + d of the weight matrix: the raw head vector of the specification.
-/
import proofs.«125955_j22462678958488_2_alg».proof.Proof.AttentionSpec
import proofs.«125955_j22462678958488_2_alg».proof.Proof.Gen.ReferenceIdeal.Read

noncomputable section

namespace Cert.RefValue

open Cert.ReferenceIdeal Cert.ReferenceIdeal.Gen Cert.ReferenceIdeal.Read Idealize.ShloMosaic Idealize.ShloMosaic.ValueIdx
open scoped BigOperators

/-- The query projection at (b, h, l, d). -/
theorem qRaw_read (x : FVec Ideal S2x1024x2048 .f32) (Wq : FVec Ideal S2048x2048 .f32)
    (b : Fin 2) (h : Fin 32) (l : Fin 1024) (d : Fin 64) :
    val_main_v2 (F := Ideal) x Wq (ix4 b h l d) = Cert.Spec.qRaw x Wq b h l d := by
  rw [val_main_v2_apply, val_main_v1_apply, val_main_v0_apply]
  unfold Cert.Spec.qRaw Cert.Spec.proj
  refine Finset.sum_congr rfl fun k _ => ?_
  have hb := b.isLt; have hh := h.isLt; have hl := l.isLt; have hd := d.isLt
  have e1 : lidx_main_v0 (idx_main_v1 (idx_main_v2 (ix4 b h l d))) k = ix3 b l k := funext fun a => Fin.ext (by
    match a with
    | ⟨0, _⟩ => show (((b.val * 1024 + l.val) * 32 + h.val) * 64 + d.val) / 2097152 = b.val; omega
    | ⟨1, _⟩ => show (((b.val * 1024 + l.val) * 32 + h.val) * 64 + d.val) / 2048 % 1024 = l.val; omega
    | ⟨2, _⟩ => rfl)
  have e2 : ridx_main_v0 (idx_main_v1 (idx_main_v2 (ix4 b h l d))) k = ix2 (Cert.Spec.chan h d) k := funext fun a => Fin.ext (by
    match a with
    | ⟨0, _⟩ => show (((b.val * 1024 + l.val) * 32 + h.val) * 64 + d.val) % 2048 = h.val * 64 + d.val; omega
    | ⟨1, _⟩ => rfl)
  rw [e1, e2]

/-- The key projection at (b, g, l, d). -/
theorem kRaw_read (x : FVec Ideal S2x1024x2048 .f32) (Wk : FVec Ideal S512x2048 .f32)
    (b : Fin 2) (g : Fin 8) (l : Fin 1024) (d : Fin 64) :
    val_main_v5 (F := Ideal) x Wk (ix4 b g l d) = Cert.Spec.kRaw x Wk b g l d := by
  rw [val_main_v5_apply, val_main_v4_apply, val_main_v3_apply]
  unfold Cert.Spec.kRaw Cert.Spec.proj
  refine Finset.sum_congr rfl fun k _ => ?_
  have hb := b.isLt; have hg := g.isLt; have hl := l.isLt; have hd := d.isLt
  have e1 : lidx_main_v3 (idx_main_v4 (idx_main_v5 (ix4 b g l d))) k = ix3 b l k := funext fun a => Fin.ext (by
    match a with
    | ⟨0, _⟩ => show (((b.val * 1024 + l.val) * 8 + g.val) * 64 + d.val) / 524288 = b.val; omega
    | ⟨1, _⟩ => show (((b.val * 1024 + l.val) * 8 + g.val) * 64 + d.val) / 512 % 1024 = l.val; omega
    | ⟨2, _⟩ => rfl)
  have e2 : ridx_main_v3 (idx_main_v4 (idx_main_v5 (ix4 b g l d))) k = ix2 (Cert.Spec.chan g d) k := funext fun a => Fin.ext (by
    match a with
    | ⟨0, _⟩ => show (((b.val * 1024 + l.val) * 8 + g.val) * 64 + d.val) % 512 = g.val * 64 + d.val; omega
    | ⟨1, _⟩ => rfl)
  rw [e1, e2]

/-- The value projection at (b, g, l, d). -/
theorem vRaw_read (x : FVec Ideal S2x1024x2048 .f32) (Wv : FVec Ideal S512x2048 .f32)
    (b : Fin 2) (g : Fin 8) (l : Fin 1024) (d : Fin 64) :
    val_main_v8 (F := Ideal) x Wv (ix4 b g l d) = Cert.Spec.vRaw x Wv b g l d := by
  rw [val_main_v8_apply, val_main_v7_apply, val_main_v6_apply]
  unfold Cert.Spec.vRaw Cert.Spec.proj
  refine Finset.sum_congr rfl fun k _ => ?_
  have hb := b.isLt; have hg := g.isLt; have hl := l.isLt; have hd := d.isLt
  have e1 : lidx_main_v6 (idx_main_v7 (idx_main_v8 (ix4 b g l d))) k = ix3 b l k := funext fun a => Fin.ext (by
    match a with
    | ⟨0, _⟩ => show (((b.val * 1024 + l.val) * 8 + g.val) * 64 + d.val) / 524288 = b.val; omega
    | ⟨1, _⟩ => show (((b.val * 1024 + l.val) * 8 + g.val) * 64 + d.val) / 512 % 1024 = l.val; omega
    | ⟨2, _⟩ => rfl)
  have e2 : ridx_main_v6 (idx_main_v7 (idx_main_v8 (ix4 b g l d))) k = ix2 (Cert.Spec.chan g d) k := funext fun a => Fin.ext (by
    match a with
    | ⟨0, _⟩ => show (((b.val * 1024 + l.val) * 8 + g.val) * 64 + d.val) % 512 = g.val * 64 + d.val; omega
    | ⟨1, _⟩ => rfl)
  rw [e1, e2]

end Cert.RefValue

end
-- ==== Proof.RefNorm.lean ====
/-
  The normalised head vectors of the reference, read at a head coordinate.

  The reference squares a head vector, sums the 64 squares (from the zero word, which is the real 0), divides by 64,
  adds ε, takes the reciprocal square root, and multiplies the vector first by that factor and then by the weight:
  t d · rsqrt((Σ t²) / 64 + ε) · w d, in this grouping — the specification's `normed`.
-/
import proofs.«125955_j22462678958488_2_alg».proof.Proof.RefProj

noncomputable section

namespace Cert.RefValue

open Cert.ReferenceIdeal Cert.ReferenceIdeal.Gen Cert.ReferenceIdeal.Read Idealize.ShloMosaic Idealize.ShloMosaic.ValueIdx
open scoped BigOperators

/-- The normalised query head at (b, h, l, d). -/
theorem qNormed_read (x : FVec Ideal S2x1024x2048 .f32) (Wq : FVec Ideal S2048x2048 .f32) (qw : FVec Ideal S64 .f32)
    (b : Fin 2) (h : Fin 32) (l : Fin 1024) (d : Fin 64) :
    val_main_v21 (F := Ideal) x Wq qw (ix4 b h l d)
      = Cert.Spec.normed (Cert.Spec.qRaw x Wq b h l) (fun e => qw (ix1 e)) d := by
  have hsum : ∑ k : Fin 64, val_main_v9 (F := Ideal) x Wq (idx_main_v10 (idx_main_v11 (idx_main_v17 (ix4 b h l d))) k)
      = ∑ k : Fin 64, Cert.Spec.qRaw x Wq b h l k * Cert.Spec.qRaw x Wq b h l k :=
    Finset.sum_congr rfl fun k _ => by
      have e : idx_main_v10 (idx_main_v11 (idx_main_v17 (ix4 b h l d))) k = ix4 b h l k := funext fun a => Fin.ext (by
        match a with
        | ⟨0, _⟩ => rfl
        | ⟨1, _⟩ => rfl
        | ⟨2, _⟩ => rfl
        | ⟨3, _⟩ => rfl)
      rw [e, val_main_v9_apply, qRaw_read]
      rfl
  have ew : idx_main_v19 (idx_main_v20 (ix4 b h l d)) = ix1 d := funext fun a => Fin.ext (by
    match a with
    | ⟨0, _⟩ => rfl)
  rw [val_main_v21_apply, val_main_v18_apply, val_main_v20_apply, val_main_v19_apply, val_main_v17_apply,
    val_main_v16_apply, val_main_v15_apply, val_main_v13_apply, val_main_v14_apply, val_main_cst_1_apply,
    val_main_v12_apply, val_main_cst_0_apply, val_main_v11_apply, val_main_v10_apply, val_main_cst_apply,
    hsum, qRaw_read, ew,
    show FloatOps.ofBits (F := Ideal) .f32 0x00000000#32 = (0 : EReal) from Ideal.ofBits_zero_f32, zero_add]
  unfold Cert.Spec.normed Cert.Spec.rmsScale Cert.Spec.c64 Cert.Spec.eps
  generalize Cert.Spec.qRaw x Wq b h l = t
  rfl

/-- The normalised key head at (b, g, l, d). -/
theorem kNormed_read (x : FVec Ideal S2x1024x2048 .f32) (Wk : FVec Ideal S512x2048 .f32) (kw : FVec Ideal S64 .f32)
    (b : Fin 2) (g : Fin 8) (l : Fin 1024) (d : Fin 64) :
    val_main_v34 (F := Ideal) x Wk kw (ix4 b g l d)
      = Cert.Spec.normed (Cert.Spec.kRaw x Wk b g l) (fun e => kw (ix1 e)) d := by
  have hsum : ∑ k : Fin 64, val_main_v22 (F := Ideal) x Wk (idx_main_v23 (idx_main_v24 (idx_main_v30 (ix4 b g l d))) k)
      = ∑ k : Fin 64, Cert.Spec.kRaw x Wk b g l k * Cert.Spec.kRaw x Wk b g l k :=
    Finset.sum_congr rfl fun k _ => by
      have e : idx_main_v23 (idx_main_v24 (idx_main_v30 (ix4 b g l d))) k = ix4 b g l k := funext fun a => Fin.ext (by
        match a with
        | ⟨0, _⟩ => rfl
        | ⟨1, _⟩ => rfl
        | ⟨2, _⟩ => rfl
        | ⟨3, _⟩ => rfl)
      rw [e, val_main_v22_apply, kRaw_read]
      rfl
  have ew : idx_main_v32 (idx_main_v33 (ix4 b g l d)) = ix1 d := funext fun a => Fin.ext (by
    match a with
    | ⟨0, _⟩ => rfl)
  rw [val_main_v34_apply, val_main_v31_apply, val_main_v33_apply, val_main_v32_apply, val_main_v30_apply,
    val_main_v29_apply, val_main_v28_apply, val_main_v26_apply, val_main_v27_apply, val_main_cst_4_apply,
    val_main_v25_apply, val_main_cst_3_apply, val_main_v24_apply, val_main_v23_apply, val_main_cst_2_apply,
    hsum, kRaw_read, ew,
    show FloatOps.ofBits (F := Ideal) .f32 0x00000000#32 = (0 : EReal) from Ideal.ofBits_zero_f32, zero_add]
  unfold Cert.Spec.normed Cert.Spec.rmsScale Cert.Spec.c64 Cert.Spec.eps
  generalize Cert.Spec.kRaw x Wk b g l = t
  rfl

end Cert.RefValue

end
-- ==== Proof.RefRope.lean ====
/-
  The rotated head vectors of the reference, read at a head coordinate.

  The reference cuts a normalised head vector into its lower and upper halves t₁, t₂ (32 entries each), forms
  t₁·cos − t₂·sin and t₁·sin + t₂·cos with the table rows of the position, and lays the two results side by side.
  Entry d of the result therefore comes from the first piece when d < 32 and from the second, at d − 32, otherwise —
  in both cases from entries d mod 32 and d mod 32 + 32 of the vector and column d mod 32 of the tables: the
  specification's `rope`.
-/
import proofs.«125955_j22462678958488_2_alg».proof.Proof.RefNorm

noncomputable section

namespace Cert.RefValue

open Cert.ReferenceIdeal Cert.ReferenceIdeal.Gen Cert.ReferenceIdeal.Read Idealize.ShloMosaic Idealize.ShloMosaic.ValueIdx
open scoped BigOperators

/-- The rotated query head at (b, h, l, d). -/
theorem qHead_read (x : FVec Ideal S2x1024x2048 .f32) (cos sin : FVec Ideal S1024x32 .f32) (Wq : FVec Ideal S2048x2048 .f32)
    (qw : FVec Ideal S64 .f32) (b : Fin 2) (h : Fin 32) (l : Fin 1024) (d : Fin 64) :
    val_main_v49 (F := Ideal) x cos sin Wq qw (ix4 b h l d) = Cert.Spec.qHead x cos sin Wq qw b h l d := by
  have hdlt := d.isLt
  unfold val_main_v49
  by_cases hd : d.val < 32
  · refine (concatenate_pair_apply_left (s₁ := S2x32x1024x32) (s₂ := S2x32x1024x32) _ _ _ _ (ix4 b h l d) rfl (ix4 b h l (⟨d.val, hd⟩ : Fin 32)) (fun a => by
      match a with
      | ⟨0, _⟩ => rfl
      | ⟨1, _⟩ => rfl
      | ⟨2, _⟩ => rfl
      | ⟨3, _⟩ => rfl)).trans ?_
    have e35 : idx_main_v35 (ix4 b h l (⟨d.val, hd⟩ : Fin 32)) = ix4 b h l (Cert.Spec.lo d) := funext fun a => Fin.ext (by
      match a with
      | ⟨0, _⟩ => rfl
      | ⟨1, _⟩ => rfl
      | ⟨2, _⟩ => rfl
      | ⟨3, _⟩ => show d.val = d.val % 32; omega)
    have e36 : idx_main_v36 (ix4 b h l (⟨d.val, hd⟩ : Fin 32)) = ix4 b h l (Cert.Spec.hi d) := funext fun a => Fin.ext (by
      match a with
      | ⟨0, _⟩ => rfl
      | ⟨1, _⟩ => rfl
      | ⟨2, _⟩ => rfl
      | ⟨3, _⟩ => show 32 + d.val = d.val % 32 + 32; omega)
    have ec : idx_main_v37 (idx_main_v39 (ix4 b h l (⟨d.val, hd⟩ : Fin 32))) = ix2 l (Cert.Spec.col d) := funext fun a => Fin.ext (by
      match a with
      | ⟨0, _⟩ => rfl
      | ⟨1, _⟩ => show d.val = d.val % 32; omega)
    have es : idx_main_v38 (idx_main_v41 (ix4 b h l (⟨d.val, hd⟩ : Fin 32))) = ix2 l (Cert.Spec.col d) := funext fun a => Fin.ext (by
      match a with
      | ⟨0, _⟩ => rfl
      | ⟨1, _⟩ => show d.val = d.val % 32; omega)
    rw [val_main_v43_apply, val_main_v40_apply, val_main_v42_apply, val_main_v35_apply, val_main_v36_apply, val_main_v39_apply, val_main_v37_apply,
      val_main_v41_apply, val_main_v38_apply, e35, e36, ec, es, qNormed_read, qNormed_read]
    unfold Cert.Spec.qHead Cert.Spec.rope
    rw [if_pos hd]
    generalize Cert.Spec.normed (Cert.Spec.qRaw x Wq b h l) (fun e => qw (ix1 e)) = t
    rfl
  · have hd' : d.val - 32 < 32 := by omega
    refine (concatenate_pair_apply_right (s₁ := S2x32x1024x32) (s₂ := S2x32x1024x32) _ _ _ _ (ix4 b h l d) rfl rfl (ix4 b h l (⟨d.val - 32, hd'⟩ : Fin 32)) (fun a => by
      match a with
      | ⟨0, _⟩ => exact fun _ => rfl
      | ⟨1, _⟩ => exact fun _ => rfl
      | ⟨2, _⟩ => exact fun _ => rfl
      | ⟨3, _⟩ => exact fun hne => absurd rfl hne) (by show (d.val - 32) + 32 = d.val; omega)).trans ?_
    have e35 : idx_main_v35 (ix4 b h l (⟨d.val - 32, hd'⟩ : Fin 32)) = ix4 b h l (Cert.Spec.lo d) := funext fun a => Fin.ext (by
      match a with
      | ⟨0, _⟩ => rfl
      | ⟨1, _⟩ => rfl
      | ⟨2, _⟩ => rfl
      | ⟨3, _⟩ => show d.val - 32 = d.val % 32; omega)
    have e36 : idx_main_v36 (ix4 b h l (⟨d.val - 32, hd'⟩ : Fin 32)) = ix4 b h l (Cert.Spec.hi d) := funext fun a => Fin.ext (by
      match a with
      | ⟨0, _⟩ => rfl
      | ⟨1, _⟩ => rfl
      | ⟨2, _⟩ => rfl
      | ⟨3, _⟩ => show 32 + (d.val - 32) = d.val % 32 + 32; omega)
    have es : idx_main_v38 (idx_main_v44 (ix4 b h l (⟨d.val - 32, hd'⟩ : Fin 32))) = ix2 l (Cert.Spec.col d) := funext fun a => Fin.ext (by
      match a with
      | ⟨0, _⟩ => rfl
      | ⟨1, _⟩ => show d.val - 32 = d.val % 32; omega)
    have ec : idx_main_v37 (idx_main_v46 (ix4 b h l (⟨d.val - 32, hd'⟩ : Fin 32))) = ix2 l (Cert.Spec.col d) := funext fun a => Fin.ext (by
      match a with
      | ⟨0, _⟩ => rfl
      | ⟨1, _⟩ => show d.val - 32 = d.val % 32; omega)
    rw [val_main_v48_apply, val_main_v45_apply, val_main_v47_apply, val_main_v35_apply, val_main_v36_apply, val_main_v44_apply, val_main_v38_apply,
      val_main_v46_apply, val_main_v37_apply, e35, e36, es, ec, qNormed_read, qNormed_read]
    unfold Cert.Spec.qHead Cert.Spec.rope
    rw [if_neg hd]
    generalize Cert.Spec.normed (Cert.Spec.qRaw x Wq b h l) (fun e => qw (ix1 e)) = t
    rfl

/-- The rotated key head at (b, g, l, d). -/
theorem kHead_read (x : FVec Ideal S2x1024x2048 .f32) (cos sin : FVec Ideal S1024x32 .f32) (Wk : FVec Ideal S512x2048 .f32)
    (kw : FVec Ideal S64 .f32) (b : Fin 2) (g : Fin 8) (l : Fin 1024) (d : Fin 64) :
    val_main_v64 (F := Ideal) x cos sin Wk kw (ix4 b g l d) = Cert.Spec.kHead x cos sin Wk kw b g l d := by
  have hdlt := d.isLt
  unfold val_main_v64
  by_cases hd : d.val < 32
  · refine (concatenate_pair_apply_left (s₁ := S2x8x1024x32) (s₂ := S2x8x1024x32) _ _ _ _ (ix4 b g l d) rfl (ix4 b g l (⟨d.val, hd⟩ : Fin 32)) (fun a => by
      match a with
      | ⟨0, _⟩ => rfl
      | ⟨1, _⟩ => rfl
      | ⟨2, _⟩ => rfl
      | ⟨3, _⟩ => rfl)).trans ?_
    have e35 : idx_main_v50 (ix4 b g l (⟨d.val, hd⟩ : Fin 32)) = ix4 b g l (Cert.Spec.lo d) := funext fun a => Fin.ext (by
      match a with
      | ⟨0, _⟩ => rfl
      | ⟨1, _⟩ => rfl
      | ⟨2, _⟩ => rfl
      | ⟨3, _⟩ => show d.val = d.val % 32; omega)
    have e36 : idx_main_v51 (ix4 b g l (⟨d.val, hd⟩ : Fin 32)) = ix4 b g l (Cert.Spec.hi d) := funext fun a => Fin.ext (by
      match a with
      | ⟨0, _⟩ => rfl
      | ⟨1, _⟩ => rfl
      | ⟨2, _⟩ => rfl
      | ⟨3, _⟩ => show 32 + d.val = d.val % 32 + 32; omega)
    have ec : idx_main_v52 (idx_main_v54 (ix4 b g l (⟨d.val, hd⟩ : Fin 32))) = ix2 l (Cert.Spec.col d) := funext fun a => Fin.ext (by
      match a with
      | ⟨0, _⟩ => rfl
      | ⟨1, _⟩ => show d.val = d.val % 32; omega)
    have es : idx_main_v53 (idx_main_v56 (ix4 b g l (⟨d.val, hd⟩ : Fin 32))) = ix2 l (Cert.Spec.col d) := funext fun a => Fin.ext (by
      match a with
      | ⟨0, _⟩ => rfl
      | ⟨1, _⟩ => show d.val = d.val % 32; omega)
    rw [val_main_v58_apply, val_main_v55_apply, val_main_v57_apply, val_main_v50_apply, val_main_v51_apply, val_main_v54_apply, val_main_v52_apply,
      val_main_v56_apply, val_main_v53_apply, e35, e36, ec, es, kNormed_read, kNormed_read]
    unfold Cert.Spec.kHead Cert.Spec.rope
    rw [if_pos hd]
    generalize Cert.Spec.normed (Cert.Spec.kRaw x Wk b g l) (fun e => kw (ix1 e)) = t
    rfl
  · have hd' : d.val - 32 < 32 := by omega
    refine (concatenate_pair_apply_right (s₁ := S2x8x1024x32) (s₂ := S2x8x1024x32) _ _ _ _ (ix4 b g l d) rfl rfl (ix4 b g l (⟨d.val - 32, hd'⟩ : Fin 32)) (fun a => by
      match a with
      | ⟨0, _⟩ => exact fun _ => rfl
      | ⟨1, _⟩ => exact fun _ => rfl
      | ⟨2, _⟩ => exact fun _ => rfl
      | ⟨3, _⟩ => exact fun hne => absurd rfl hne) (by show (d.val - 32) + 32 = d.val; omega)).trans ?_
    have e35 : idx_main_v50 (ix4 b g l (⟨d.val - 32, hd'⟩ : Fin 32)) = ix4 b g l (Cert.Spec.lo d) := funext fun a => Fin.ext (by
      match a with
      | ⟨0, _⟩ => rfl
      | ⟨1, _⟩ => rfl
      | ⟨2, _⟩ => rfl
      | ⟨3, _⟩ => show d.val - 32 = d.val % 32; omega)
    have e36 : idx_main_v51 (ix4 b g l (⟨d.val - 32, hd'⟩ : Fin 32)) = ix4 b g l (Cert.Spec.hi d) := funext fun a => Fin.ext (by
      match a with
      | ⟨0, _⟩ => rfl
      | ⟨1, _⟩ => rfl
      | ⟨2, _⟩ => rfl
      | ⟨3, _⟩ => show 32 + (d.val - 32) = d.val % 32 + 32; omega)
    have es : idx_main_v53 (idx_main_v59 (ix4 b g l (⟨d.val - 32, hd'⟩ : Fin 32))) = ix2 l (Cert.Spec.col d) := funext fun a => Fin.ext (by
      match a with
      | ⟨0, _⟩ => rfl
      | ⟨1, _⟩ => show d.val - 32 = d.val % 32; omega)
    have ec : idx_main_v52 (idx_main_v61 (ix4 b g l (⟨d.val - 32, hd'⟩ : Fin 32))) = ix2 l (Cert.Spec.col d) := funext fun a => Fin.ext (by
      match a with
      | ⟨0, _⟩ => rfl
      | ⟨1, _⟩ => show d.val - 32 = d.val % 32; omega)
    rw [val_main_v63_apply, val_main_v60_apply, val_main_v62_apply, val_main_v50_apply, val_main_v51_apply, val_main_v59_apply, val_main_v53_apply,
      val_main_v61_apply, val_main_v52_apply, e35, e36, es, ec, kNormed_read, kNormed_read]
    unfold Cert.Spec.kHead Cert.Spec.rope
    rw [if_neg hd]
    generalize Cert.Spec.normed (Cert.Spec.kRaw x Wk b g l) (fun e => kw (ix1 e)) = t
    rfl

end Cert.RefValue

end
-- ==== Proof.RefKV.lean ====
/-
  The keys and values of the reference, read at a row.

  The reference joins the 2048 cached rows of a key/value head with the 1024 current ones (the rotated key heads, the
  raw value heads) along the row axis, so row j < 2048 is the cached row j and row j ≥ 2048 the current row j − 2048:
  the specification's `keyRow` and `valRow`.  It then repeats every key/value head four times (a new axis of extent 4
  after the head axis, folded into it), so query head h reads key/value head h / 4.
-/
import proofs.«125955_j22462678958488_2_alg».proof.Proof.RefRope

noncomputable section

namespace Cert.RefValue

open Cert.ReferenceIdeal Cert.ReferenceIdeal.Gen Cert.ReferenceIdeal.Read Idealize.ShloMosaic Idealize.ShloMosaic.ValueIdx
open scoped BigOperators

/-- The joined keys at (b, g, j, d). -/
theorem keyCat_read (x : FVec Ideal S2x1024x2048 .f32) (ck : FVec Ideal S2x8x2048x64 .f32) (cos sin : FVec Ideal S1024x32 .f32)
    (Wk : FVec Ideal S512x2048 .f32) (kw : FVec Ideal S64 .f32)
    (b : Fin 2) (g : Fin 8) (j : Fin 3072) (d : Fin 64) :
    val_main_v65 (F := Ideal) x ck cos sin Wk kw (ix4 b g j d) = Cert.Spec.keyRow x ck cos sin Wk kw b g j d := by
  have hjlt := j.isLt
  unfold val_main_v65 Cert.Spec.keyRow
  by_cases hj : j.val < 2048
  · rw [dif_pos hj]
    exact concatenate_pair_apply_left (s₁ := S2x8x2048x64) (s₂ := S2x8x1024x64) _ _ _ _ (ix4 b g j d) rfl (ix4 b g (⟨j.val, hj⟩ : Fin 2048) d) (fun a => by
      match a with
      | ⟨0, _⟩ => rfl
      | ⟨1, _⟩ => rfl
      | ⟨2, _⟩ => rfl
      | ⟨3, _⟩ => rfl)
  · rw [dif_neg hj]
    have hj' : j.val - 2048 < 1024 := by omega
    refine (concatenate_pair_apply_right (s₁ := S2x8x2048x64) (s₂ := S2x8x1024x64) _ _ _ _ (ix4 b g j d) rfl rfl (ix4 b g (⟨j.val - 2048, hj'⟩ : Fin 1024) d) (fun a => by
      match a with
      | ⟨0, _⟩ => exact fun _ => rfl
      | ⟨1, _⟩ => exact fun _ => rfl
      | ⟨2, _⟩ => exact fun hne => absurd rfl hne
      | ⟨3, _⟩ => exact fun _ => rfl) (by show (j.val - 2048) + 2048 = j.val; omega)).trans ?_
    exact kHead_read x cos sin Wk kw b g ⟨j.val - 2048, hj'⟩ d

/-- The joined values at (b, g, j, d). -/
theorem valCat_read (x : FVec Ideal S2x1024x2048 .f32) (cv : FVec Ideal S2x8x2048x64 .f32) (Wv : FVec Ideal S512x2048 .f32)
    (b : Fin 2) (g : Fin 8) (j : Fin 3072) (d : Fin 64) :
    val_main_v66 (F := Ideal) x cv Wv (ix4 b g j d) = Cert.Spec.valRow x cv Wv b g j d := by
  have hjlt := j.isLt
  unfold val_main_v66 Cert.Spec.valRow
  by_cases hj : j.val < 2048
  · rw [dif_pos hj]
    exact concatenate_pair_apply_left (s₁ := S2x8x2048x64) (s₂ := S2x8x1024x64) _ _ _ _ (ix4 b g j d) rfl (ix4 b g (⟨j.val, hj⟩ : Fin 2048) d) (fun a => by
      match a with
      | ⟨0, _⟩ => rfl
      | ⟨1, _⟩ => rfl
      | ⟨2, _⟩ => rfl
      | ⟨3, _⟩ => rfl)
  · rw [dif_neg hj]
    have hj' : j.val - 2048 < 1024 := by omega
    refine (concatenate_pair_apply_right (s₁ := S2x8x2048x64) (s₂ := S2x8x1024x64) _ _ _ _ (ix4 b g j d) rfl rfl (ix4 b g (⟨j.val - 2048, hj'⟩ : Fin 1024) d) (fun a => by
      match a with
      | ⟨0, _⟩ => exact fun _ => rfl
      | ⟨1, _⟩ => exact fun _ => rfl
      | ⟨2, _⟩ => exact fun hne => absurd rfl hne
      | ⟨3, _⟩ => exact fun _ => rfl) (by show (j.val - 2048) + 2048 = j.val; omega)).trans ?_
    exact vRaw_read x Wv b g ⟨j.val - 2048, hj'⟩ d

/-- The repeated keys at (b, h, j, d): those of key/value head h / 4. -/
theorem keyRep_read (x : FVec Ideal S2x1024x2048 .f32) (ck : FVec Ideal S2x8x2048x64 .f32) (cos sin : FVec Ideal S1024x32 .f32)
    (Wk : FVec Ideal S512x2048 .f32) (kw : FVec Ideal S64 .f32)
    (b : Fin 2) (h : Fin 32) (j : Fin 3072) (d : Fin 64) :
    val_main_v68 (F := Ideal) x ck cos sin Wk kw (ix4 b h j d) = Cert.Spec.keyRow x ck cos sin Wk kw b (Cert.Spec.group h) j d := by
  have hb := b.isLt; have hh := h.isLt; have hj := j.isLt; have hd := d.isLt
  have e : idx_main_v67 (idx_main_v68 (ix4 b h j d)) = ix4 b (Cert.Spec.group h) j d := funext fun a => Fin.ext (by
    match a with
    | ⟨0, _⟩ => show (((b.val * 32 + h.val) * 3072 + j.val) * 64 + d.val) / 6291456 = b.val; omega
    | ⟨1, _⟩ => show (((b.val * 32 + h.val) * 3072 + j.val) * 64 + d.val) / 786432 % 8 = h.val / 4; omega
    | ⟨2, _⟩ => show (((b.val * 32 + h.val) * 3072 + j.val) * 64 + d.val) / 64 % 3072 = j.val; omega
    | ⟨3, _⟩ => show (((b.val * 32 + h.val) * 3072 + j.val) * 64 + d.val) % 64 = d.val; omega)
  rw [val_main_v68_apply, val_main_v67_apply, e, keyCat_read]

/-- The repeated values at (b, h, j, d): those of key/value head h / 4. -/
theorem valRep_read (x : FVec Ideal S2x1024x2048 .f32) (cv : FVec Ideal S2x8x2048x64 .f32) (Wv : FVec Ideal S512x2048 .f32)
    (b : Fin 2) (h : Fin 32) (j : Fin 3072) (d : Fin 64) :
    val_main_v70 (F := Ideal) x cv Wv (ix4 b h j d) = Cert.Spec.valRow x cv Wv b (Cert.Spec.group h) j d := by
  have hb := b.isLt; have hh := h.isLt; have hj := j.isLt; have hd := d.isLt
  have e : idx_main_v69 (idx_main_v70 (ix4 b h j d)) = ix4 b (Cert.Spec.group h) j d := funext fun a => Fin.ext (by
    match a with
    | ⟨0, _⟩ => show (((b.val * 32 + h.val) * 3072 + j.val) * 64 + d.val) / 6291456 = b.val; omega
    | ⟨1, _⟩ => show (((b.val * 32 + h.val) * 3072 + j.val) * 64 + d.val) / 786432 % 8 = h.val / 4; omega
    | ⟨2, _⟩ => show (((b.val * 32 + h.val) * 3072 + j.val) * 64 + d.val) / 64 % 3072 = j.val; omega
    | ⟨3, _⟩ => show (((b.val * 32 + h.val) * 3072 + j.val) * 64 + d.val) % 64 = d.val; omega)
  rw [val_main_v70_apply, val_main_v69_apply, e, valCat_read]

end Cert.RefValue

end
-- ==== Proof.RefScore.lean ====
/-
  The scaled scores of the reference, read at (b, h, q, j).

  The reference contracts the 64 entries of query row (b, h, q) with those of key row (b, h, j) of the repeated keys
  and multiplies the sum by the word 1/8: (Σ q·k)·(1/8), the specification's `score`.
-/
import proofs.«125955_j22462678958488_2_alg».proof.Proof.RefKV

noncomputable section

namespace Cert.RefValue

open Cert.ReferenceIdeal Cert.ReferenceIdeal.Gen Cert.ReferenceIdeal.Read Idealize.ShloMosaic Idealize.ShloMosaic.ValueIdx
open scoped BigOperators

/-- The scaled score at (b, h, q, j). -/
theorem score_read (x : FVec Ideal S2x1024x2048 .f32) (ck : FVec Ideal S2x8x2048x64 .f32) (cos sin : FVec Ideal S1024x32 .f32)
    (Wq : FVec Ideal S2048x2048 .f32) (Wk : FVec Ideal S512x2048 .f32) (qw kw : FVec Ideal S64 .f32)
    (b : Fin 2) (h : Fin 32) (q : Fin 1024) (j : Fin 3072) :
    val_main_v73 (F := Ideal) x ck cos sin Wq Wk qw kw (ix4 b h q j) = Cert.Spec.score x ck cos sin Wq Wk qw kw b h q j := by
  have hsum : ∑ k : Fin 64, val_main_v49 (F := Ideal) x cos sin Wq qw (lidx_main_v71 (ix4 b h q j) k)
        * val_main_v68 (F := Ideal) x ck cos sin Wk kw (ridx_main_v71 (ix4 b h q j) k)
      = ∑ d : Fin 64, Cert.Spec.qHead x cos sin Wq qw b h q d
        * Cert.Spec.keyRow x ck cos sin Wk kw b (Cert.Spec.group h) j d :=
    Finset.sum_congr rfl fun k _ => by
      have el : lidx_main_v71 (ix4 b h q j) k = ix4 b h q k := funext fun a => Fin.ext (by
      match a with
      | ⟨0, _⟩ => rfl
      | ⟨1, _⟩ => rfl
      | ⟨2, _⟩ => rfl
      | ⟨3, _⟩ => rfl)
      have er : ridx_main_v71 (ix4 b h q j) k = ix4 b h j k := funext fun a => Fin.ext (by
      match a with
      | ⟨0, _⟩ => rfl
      | ⟨1, _⟩ => rfl
      | ⟨2, _⟩ => rfl
      | ⟨3, _⟩ => rfl)
      rw [el, er, qHead_read, keyRep_read]
  rw [val_main_v73_apply, val_main_v72_apply, val_main_cst_5_apply, val_main_v71_apply, hsum]
  unfold Cert.Spec.score Cert.Spec.eighth
  generalize (∑ d : Fin 64, Cert.Spec.qHead x cos sin Wq qw b h q d
    * Cert.Spec.keyRow x ck cos sin Wk kw b (Cert.Spec.group h) j d) = S
  rfl

end Cert.RefValue

end
-- ==== Proof.RefSoftmax.lean ====
/-
  The softmax weights of the reference, read at (b, h, q, j).

  The reference takes the maximum of a row of scores as a fold of `max` from the word −∞ over the 3072 keys, takes the
  maximum of that with the word −∞ once more (which changes nothing: a fold of `max` from a value is at least that
  value), subtracts it from every score, exponentiates, sums the 3072 exponentials (from the zero word, the real 0)
  and divides each exponential by the sum: exp(s − max) / Σ exp(s − max), the specification's `softmaxRow`.
-/
import proofs.«125955_j22462678958488_2_alg».proof.Proof.RefScore

noncomputable section

namespace Cert.RefValue

open Cert.ReferenceIdeal Cert.ReferenceIdeal.Gen Cert.ReferenceIdeal.Read Idealize.ShloMosaic Idealize.ShloMosaic.ValueIdx
open scoped BigOperators

/-- The row maximum as the reference first computes it: the fold of `max` over the keys. -/
theorem rowMaxFold_read (x : FVec Ideal S2x1024x2048 .f32) (ck : FVec Ideal S2x8x2048x64 .f32) (cos sin : FVec Ideal S1024x32 .f32)
    (Wq : FVec Ideal S2048x2048 .f32) (Wk : FVec Ideal S512x2048 .f32) (qw kw : FVec Ideal S64 .f32)
    (b : Fin 2) (h : Fin 32) (q : Fin 1024) :
    val_main_v74 (F := Ideal) x ck cos sin Wq Wk qw kw (ix3 b h q) = Cert.Spec.rowMax (Cert.Spec.score x ck cos sin Wq Wk qw kw b h q) := by
  have hv : ∀ j : Fin 3072, val_main_v73 (F := Ideal) x ck cos sin Wq Wk qw kw (ix4 b h q j) = Cert.Spec.score x ck cos sin Wq Wk qw kw b h q j :=
    fun j => score_read x ck cos sin Wq Wk qw kw b h q j
  have hR : S2x32x1024x3072.Reduces [3] S2x32x1024 := by decide
  have hl : ∀ k : Fin 3072, hR.lift (ix3 b h q) k = ix4 b h q k := fun k => funext fun a => Fin.ext (by
      match a with
      | ⟨0, _⟩ => rfl
      | ⟨1, _⟩ => rfl
      | ⟨2, _⟩ => rfl
      | ⟨3, _⟩ => rfl)
  unfold val_main_v74
  generalize val_main_v73 (F := Ideal) x ck cos sin Wq Wk qw kw = y at hv ⊢
  generalize Cert.Spec.score x ck cos sin Wq Wk qw kw b h q = s at hv ⊢
  refine (Host.reduce_eq_fold_single (FloatOps.maximumf (F := Ideal) (φ := .f32)) y _
    reducesTo_S2x32x1024x3072_S2x32x1024_d3 hR h_S_ (ix3 b h q)).trans ?_
  unfold Cert.Spec.rowMax Cert.Spec.negInf
  show Finset.fold max (Ideal.ofBits .f32 0xFF800000#32) (fun k : Fin 3072 => y (hR.lift (ix3 b h q) k)) Finset.univ
    = Finset.fold max (Ideal.ofBits .f32 0xFF800000#32) s Finset.univ
  exact Finset.fold_congr (fun k _ => by rw [hl k, hv k])

/-- The row maximum the reference subtracts: the maximum of the word −∞ and the fold, which is the fold. -/
theorem rowMax_read (x : FVec Ideal S2x1024x2048 .f32) (ck : FVec Ideal S2x8x2048x64 .f32) (cos sin : FVec Ideal S1024x32 .f32)
    (Wq : FVec Ideal S2048x2048 .f32) (Wk : FVec Ideal S512x2048 .f32) (qw kw : FVec Ideal S64 .f32)
    (b : Fin 2) (h : Fin 32) (q : Fin 1024) :
    val_main_v76 (F := Ideal) x ck cos sin Wq Wk qw kw (ix3 b h q) = Cert.Spec.rowMax (Cert.Spec.score x ck cos sin Wq Wk qw kw b h q) := by
  rw [val_main_v76_apply, val_main_v75_apply, val_main_cst_7_apply, rowMaxFold_read]
  generalize Cert.Spec.score x ck cos sin Wq Wk qw kw b h q = s
  show max (Ideal.ofBits .f32 0xFF800000#32) (Cert.Spec.rowMax s) = Cert.Spec.rowMax s
  refine max_eq_right ?_
  unfold Cert.Spec.rowMax Cert.Spec.negInf
  exact (Finset.le_fold_max _).2 (Or.inl le_rfl)

/-- The exponential of a shifted score at (b, h, q, j). -/
theorem exp_read (x : FVec Ideal S2x1024x2048 .f32) (ck : FVec Ideal S2x8x2048x64 .f32) (cos sin : FVec Ideal S1024x32 .f32)
    (Wq : FVec Ideal S2048x2048 .f32) (Wk : FVec Ideal S512x2048 .f32) (qw kw : FVec Ideal S64 .f32)
    (b : Fin 2) (h : Fin 32) (q : Fin 1024) (j : Fin 3072) :
    val_main_v80 (F := Ideal) x ck cos sin Wq Wk qw kw (ix4 b h q j)
      = Ideal.exp (Cert.Spec.score x ck cos sin Wq Wk qw kw b h q j - Cert.Spec.rowMax (Cert.Spec.score x ck cos sin Wq Wk qw kw b h q)) := by
  have e : idx_main_v77 (idx_main_v78 (ix4 b h q j)) = ix3 b h q := funext fun a => Fin.ext (by
      match a with
      | ⟨0, _⟩ => rfl
      | ⟨1, _⟩ => rfl
      | ⟨2, _⟩ => rfl)
  rw [val_main_v80_apply, val_main_v79_apply, val_main_v78_apply, val_main_v77_apply, e, score_read, rowMax_read]
  generalize Cert.Spec.score x ck cos sin Wq Wk qw kw b h q = s
  rfl

/-- The softmax weight at (b, h, q, j). -/
theorem softmax_read (x : FVec Ideal S2x1024x2048 .f32) (ck : FVec Ideal S2x8x2048x64 .f32) (cos sin : FVec Ideal S1024x32 .f32)
    (Wq : FVec Ideal S2048x2048 .f32) (Wk : FVec Ideal S512x2048 .f32) (qw kw : FVec Ideal S64 .f32)
    (b : Fin 2) (h : Fin 32) (q : Fin 1024) (j : Fin 3072) :
    val_main_v84 (F := Ideal) x ck cos sin Wq Wk qw kw (ix4 b h q j)
      = Cert.Spec.softmaxRow (Cert.Spec.score x ck cos sin Wq Wk qw kw b h q) j := by
  have e : idx_main_v82 (idx_main_v83 (ix4 b h q j)) = ix3 b h q := funext fun a => Fin.ext (by
      match a with
      | ⟨0, _⟩ => rfl
      | ⟨1, _⟩ => rfl
      | ⟨2, _⟩ => rfl)
  have hsum : ∑ k : Fin 3072, val_main_v80 (F := Ideal) x ck cos sin Wq Wk qw kw (idx_main_v81 (ix3 b h q) k)
      = ∑ j' : Fin 3072, Ideal.exp (Cert.Spec.score x ck cos sin Wq Wk qw kw b h q j' - Cert.Spec.rowMax (Cert.Spec.score x ck cos sin Wq Wk qw kw b h q)) :=
    Finset.sum_congr rfl fun k _ => by
      have ek : idx_main_v81 (ix3 b h q) k = ix4 b h q k := funext fun a => Fin.ext (by
      match a with
      | ⟨0, _⟩ => rfl
      | ⟨1, _⟩ => rfl
      | ⟨2, _⟩ => rfl
      | ⟨3, _⟩ => rfl)
      rw [ek, exp_read]
  rw [val_main_v84_apply, val_main_v83_apply, val_main_v82_apply, e, val_main_v81_apply, val_main_cst_8_apply, hsum,
    exp_read, show FloatOps.ofBits (F := Ideal) .f32 0x00000000#32 = (0 : EReal) from Ideal.ofBits_zero_f32, zero_add]
  unfold Cert.Spec.softmaxRow
  generalize Cert.Spec.score x ck cos sin Wq Wk qw kw b h q = s
  rfl

end Cert.RefValue

end
-- ==== Proof.RefAttn.lean ====
/-
  The attention output of the reference, read at (b, h, q, d).

  The reference contracts the 3072 softmax weights of query row (b, h, q) with entry d of the 3072 repeated value rows
  of head h: Σ_j w_j · v_j, the specification's `attnOut`.
-/
import proofs.«125955_j22462678958488_2_alg».proof.Proof.RefSoftmax

noncomputable section

namespace Cert.RefValue

open Cert.ReferenceIdeal Cert.ReferenceIdeal.Gen Cert.ReferenceIdeal.Read Idealize.ShloMosaic Idealize.ShloMosaic.ValueIdx
open scoped BigOperators

/-- The attention output at (b, h, q, d). -/
theorem attn_read (x : FVec Ideal S2x1024x2048 .f32) (ck cv : FVec Ideal S2x8x2048x64 .f32) (cos sin : FVec Ideal S1024x32 .f32)
    (Wq : FVec Ideal S2048x2048 .f32) (Wk Wv : FVec Ideal S512x2048 .f32) (qw kw : FVec Ideal S64 .f32)
    (b : Fin 2) (h : Fin 32) (q : Fin 1024) (d : Fin 64) :
    val_main_v85 (F := Ideal) x ck cv cos sin Wq Wk Wv qw kw (ix4 b h q d) = Cert.Spec.attnOut x ck cv cos sin Wq Wk Wv qw kw b h q d := by
  rw [val_main_v85_apply]
  unfold Cert.Spec.attnOut
  refine Finset.sum_congr rfl fun k _ => ?_
  have el : lidx_main_v85 (ix4 b h q d) k = ix4 b h q k := funext fun a => Fin.ext (by
      match a with
      | ⟨0, _⟩ => rfl
      | ⟨1, _⟩ => rfl
      | ⟨2, _⟩ => rfl
      | ⟨3, _⟩ => rfl)
  have er : ridx_main_v85 (ix4 b h q d) k = ix4 b h k d := funext fun a => Fin.ext (by
      match a with
      | ⟨0, _⟩ => rfl
      | ⟨1, _⟩ => rfl
      | ⟨2, _⟩ => rfl
      | ⟨3, _⟩ => rfl)
  rw [el, er, softmax_read, valRep_read]

end Cert.RefValue

end
-- ==== Proof.RefIsSpec.lean ====
/-
  The reference computes the specification.

  The reference moves the head axis of the attention outputs back behind the row axis, folds head and entry into one
  axis of 2048 channels (channel e is entry e mod 64 of head e / 64) and contracts the channels with the rows of the
  output weights: Σ_e out(b, e / 64, l, e mod 64) · Wo(c, e) — the specification's `out`, hence its `result`.
-/
import proofs.«125955_j22462678958488_2_alg».proof.Proof.RefAttn

noncomputable section

namespace Cert.RefValue

open Cert.ReferenceIdeal Cert.ReferenceIdeal.Gen Cert.ReferenceIdeal.Read Idealize.ShloMosaic Idealize.ShloMosaic.ValueIdx
open scoped BigOperators

/-- The reference's result is the specification's, as arrays. -/
theorem ref_eq (x : FVec Ideal S2x1024x2048 .f32) (ck cv : FVec Ideal S2x8x2048x64 .f32) (cos sin : FVec Ideal S1024x32 .f32)
    (Wq : FVec Ideal S2048x2048 .f32) (Wk Wv : FVec Ideal S512x2048 .f32) (Wo : FVec Ideal S2048x2048 .f32)
    (qw kw : FVec Ideal S64 .f32) :
    val_main_v88 (F := Ideal) x ck cv cos sin Wq Wk Wv Wo qw kw = Cert.Spec.result x ck cv cos sin Wq Wk Wv Wo qw kw := by
  funext i
  obtain ⟨b, l, c, rfl⟩ : ∃ (b : Fin 2) (l : Fin 1024) (c : Fin 2048), i = ix3 b l c := ⟨i 0, i 1, i 2, eq_ix3 i⟩
  rw [val_main_v88_apply]
  show _ = Cert.Spec.out x ck cv cos sin Wq Wk Wv Wo qw kw b l c
  unfold Cert.Spec.out
  refine Finset.sum_congr rfl fun k _ => ?_
  have hb := b.isLt; have hl := l.isLt; have hk := k.isLt
  have el : idx_main_v86 (idx_main_v87 (lidx_main_v88 (ix3 b l c) k))
      = ix4 b (Cert.Spec.headOf k) l (Cert.Spec.entryOf k) := funext fun a => Fin.ext (by
    match a with
    | ⟨0, _⟩ => show ((b.val * 1024 + l.val) * 2048 + k.val) / 2097152 = b.val; omega
    | ⟨1, _⟩ => show ((b.val * 1024 + l.val) * 2048 + k.val) / 64 % 32 = k.val / 64; omega
    | ⟨2, _⟩ => show ((b.val * 1024 + l.val) * 2048 + k.val) / 2048 % 1024 = l.val; omega
    | ⟨3, _⟩ => show ((b.val * 1024 + l.val) * 2048 + k.val) % 64 = k.val % 64; omega)
  have er : ridx_main_v88 (ix3 b l c) k = ix2 c k := funext fun a => Fin.ext (by
    match a with
    | ⟨0, _⟩ => rfl
    | ⟨1, _⟩ => rfl)
  rw [val_main_v87_apply, val_main_v86_apply, el, er, attn_read]

end Cert.RefValue

end
-- ==== Proof.lean ====
/-
  The certificate's claim: three frames, the (empty) idealization ledger, and the equality of the idealized kernel
  program and the idealized reference at the ideal values.

  The kernel program — a fused projection, two normalise-and-rotate regions, a grouped attention region and an output
  projection, with re-layouts on the host between them — is run once as a list of segments, ending with every buffer at
  a fold of the launch memory; read at the argument arrays the fold gives them back as launched (the frames, at the word
  level and at the ideal values alike), and read at the result array, at the ideal values, it gives the attention block
  of the specification. The reference's generated run ends with its result at the composition of its operations, which
  read at an index is the same specification. Both results are therefore one function of arguments that agree.
-/
import proofs.«125955_j22462678958488_2_alg».proof.Defs
import proofs.«125955_j22462678958488_2_alg».proof.Proof.Gen.Kernel
import proofs.«125955_j22462678958488_2_alg».proof.Proof.Gen.KernelIdeal
import proofs.«125955_j22462678958488_2_alg».proof.Proof.Gen.ReferenceIdeal
import proofs.«125955_j22462678958488_2_alg».proof.Proof.Gen.ReferenceIdeal.Run
import proofs.«125955_j22462678958488_2_alg».proof.Proof.Gen.ReferenceIdeal.Read
import proofs.«125955_j22462678958488_2_alg».proof.Proof.Gen.Pre_finite_inputs
import proofs.«125955_j22462678958488_2_alg».proof.Proof.WordArgsKept
import proofs.«125955_j22462678958488_2_alg».proof.Proof.ArgsKept
import proofs.«125955_j22462678958488_2_alg».proof.Proof.KernelValue
import proofs.«125955_j22462678958488_2_alg».proof.Proof.RefIsSpec
import Idealize.ShloMosaic.Adequacy
import Idealize.ShloMosaic.Init

set_option maxRecDepth 16384

noncomputable section

namespace Cert.Proof

open Idealize.ShloMosaic Idealize.ShloMosaic.TcCoe Idealize.SL.Sem

/-- The word-level kernel program runs to its end with its arguments as launched. -/
theorem frame_kernel : Cert.frame_Kernel (hKernel := Cert.Kernel.Gen.facts) (hPre_finite_inputs := Cert.Pre_finite_inputs.Gen.facts) :=
  fun m g _ => (θ_run (Cert.Kernel.defs (F := Bits)) _ _).mono (fun r h c =>
    ⟨(h c _ (Cert.Kernel.Frm.mem_uc Cert.Kernel.main_arg0 (by decide))).trans (Cert.Kernel.Frm.W11_arg0 m g c),
      (h c _ (Cert.Kernel.Frm.mem_uc Cert.Kernel.main_arg1 (by decide))).trans (Cert.Kernel.Frm.W11_arg1 m g c),
      (h c _ (Cert.Kernel.Frm.mem_uc Cert.Kernel.main_arg2 (by decide))).trans (Cert.Kernel.Frm.W11_arg2 m g c),
      (h c _ (Cert.Kernel.Frm.mem_uc Cert.Kernel.main_arg3 (by decide))).trans (Cert.Kernel.Frm.W11_arg3 m g c),
      (h c _ (Cert.Kernel.Frm.mem_uc Cert.Kernel.main_arg4 (by decide))).trans (Cert.Kernel.Frm.W11_arg4 m g c),
      (h c _ (Cert.Kernel.Frm.mem_uc Cert.Kernel.main_arg5 (by decide))).trans (Cert.Kernel.Frm.W11_arg5 m g c),
      (h c _ (Cert.Kernel.Frm.mem_uc Cert.Kernel.main_arg6 (by decide))).trans (Cert.Kernel.Frm.W11_arg6 m g c),
      (h c _ (Cert.Kernel.Frm.mem_uc Cert.Kernel.main_arg7 (by decide))).trans (Cert.Kernel.Frm.W11_arg7 m g c),
      (h c _ (Cert.Kernel.Frm.mem_uc Cert.Kernel.main_arg8 (by decide))).trans (Cert.Kernel.Frm.W11_arg8 m g c),
      (h c _ (Cert.Kernel.Frm.mem_uc Cert.Kernel.main_arg9 (by decide))).trans (Cert.Kernel.Frm.W11_arg9 m g c),
      (h c _ (Cert.Kernel.Frm.mem_uc Cert.Kernel.main_arg10 (by decide))).trans (Cert.Kernel.Frm.W11_arg10 m g c)⟩)
    (Cert.Kernel.Frm.run_all (F := Bits) m g)

/-- So does the idealized kernel program, at the ideal values. -/
theorem frame_kernelIdeal : Cert.frame_KernelIdeal (hKernelIdeal := Cert.KernelIdeal.Gen.facts) (hPre_finite_inputs := Cert.Pre_finite_inputs.Gen.facts) :=
  fun m g _ => (θ_run (Cert.KernelIdeal.defs (F := Ideal)) _ _).mono (fun r h c =>
    ⟨(h c _ (Cert.KernelIdeal.Frm.mem_uc Cert.KernelIdeal.main_arg0 (by decide))).trans (Cert.KernelIdeal.Frm.W11_arg0 m g c),
      (h c _ (Cert.KernelIdeal.Frm.mem_uc Cert.KernelIdeal.main_arg1 (by decide))).trans (Cert.KernelIdeal.Frm.W11_arg1 m g c),
      (h c _ (Cert.KernelIdeal.Frm.mem_uc Cert.KernelIdeal.main_arg2 (by decide))).trans (Cert.KernelIdeal.Frm.W11_arg2 m g c),
      (h c _ (Cert.KernelIdeal.Frm.mem_uc Cert.KernelIdeal.main_arg3 (by decide))).trans (Cert.KernelIdeal.Frm.W11_arg3 m g c),
      (h c _ (Cert.KernelIdeal.Frm.mem_uc Cert.KernelIdeal.main_arg4 (by decide))).trans (Cert.KernelIdeal.Frm.W11_arg4 m g c),
      (h c _ (Cert.KernelIdeal.Frm.mem_uc Cert.KernelIdeal.main_arg5 (by decide))).trans (Cert.KernelIdeal.Frm.W11_arg5 m g c),
      (h c _ (Cert.KernelIdeal.Frm.mem_uc Cert.KernelIdeal.main_arg6 (by decide))).trans (Cert.KernelIdeal.Frm.W11_arg6 m g c),
      (h c _ (Cert.KernelIdeal.Frm.mem_uc Cert.KernelIdeal.main_arg7 (by decide))).trans (Cert.KernelIdeal.Frm.W11_arg7 m g c),
      (h c _ (Cert.KernelIdeal.Frm.mem_uc Cert.KernelIdeal.main_arg8 (by decide))).trans (Cert.KernelIdeal.Frm.W11_arg8 m g c),
      (h c _ (Cert.KernelIdeal.Frm.mem_uc Cert.KernelIdeal.main_arg9 (by decide))).trans (Cert.KernelIdeal.Frm.W11_arg9 m g c),
      (h c _ (Cert.KernelIdeal.Frm.mem_uc Cert.KernelIdeal.main_arg10 (by decide))).trans (Cert.KernelIdeal.Frm.W11_arg10 m g c)⟩)
    (Cert.KernelIdeal.Frm.run_all (F := Ideal) m g)

/-- The reference's frame is its run with the result dropped. -/
theorem frame_reference : Cert.frame_ReferenceIdeal (hReferenceIdeal := Cert.ReferenceIdeal.Gen.facts) (hPre_finite_inputs := Cert.Pre_finite_inputs.Gen.facts) :=
  fun m g _ => (θ_run Cert.ReferenceIdeal.defs _ _).mono (fun _ h c => (h c).2) (Cert.ReferenceIdeal.Value.run (F := Ideal) m g)

/-- The idealization rewrote nothing. -/
theorem preserves : Cert.preserves_Kernel_KernelIdeal := trivial

/-- At the ideal values both programs end with the specification's attention block of their (agreeing) arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m g m' g' _ hagree
  refine ⟨fun c => Cert.Spec.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run (Cert.KernelIdeal.defs (F := Ideal)) _ _).mono (fun r h c =>
      ⟨(h c _ (Cert.KernelIdeal.Frm.mem_uc Cert.KernelIdeal.main_v26 (by decide))).trans (Cert.KernelIdeal.Frm.W11_v26 m g c),
        (h c _ (Cert.KernelIdeal.Frm.mem_uc Cert.KernelIdeal.main_arg0 (by decide))).trans (Cert.KernelIdeal.Frm.W11_arg0 m g c),
        (h c _ (Cert.KernelIdeal.Frm.mem_uc Cert.KernelIdeal.main_arg1 (by decide))).trans (Cert.KernelIdeal.Frm.W11_arg1 m g c),
        (h c _ (Cert.KernelIdeal.Frm.mem_uc Cert.KernelIdeal.main_arg2 (by decide))).trans (Cert.KernelIdeal.Frm.W11_arg2 m g c),
        (h c _ (Cert.KernelIdeal.Frm.mem_uc Cert.KernelIdeal.main_arg3 (by decide))).trans (Cert.KernelIdeal.Frm.W11_arg3 m g c),
        (h c _ (Cert.KernelIdeal.Frm.mem_uc Cert.KernelIdeal.main_arg4 (by decide))).trans (Cert.KernelIdeal.Frm.W11_arg4 m g c),
        (h c _ (Cert.KernelIdeal.Frm.mem_uc Cert.KernelIdeal.main_arg5 (by decide))).trans (Cert.KernelIdeal.Frm.W11_arg5 m g c),
        (h c _ (Cert.KernelIdeal.Frm.mem_uc Cert.KernelIdeal.main_arg6 (by decide))).trans (Cert.KernelIdeal.Frm.W11_arg6 m g c),
        (h c _ (Cert.KernelIdeal.Frm.mem_uc Cert.KernelIdeal.main_arg7 (by decide))).trans (Cert.KernelIdeal.Frm.W11_arg7 m g c),
        (h c _ (Cert.KernelIdeal.Frm.mem_uc Cert.KernelIdeal.main_arg8 (by decide))).trans (Cert.KernelIdeal.Frm.W11_arg8 m g c),
        (h c _ (Cert.KernelIdeal.Frm.mem_uc Cert.KernelIdeal.main_arg9 (by decide))).trans (Cert.KernelIdeal.Frm.W11_arg9 m g c),
        (h c _ (Cert.KernelIdeal.Frm.mem_uc Cert.KernelIdeal.main_arg10 (by decide))).trans (Cert.KernelIdeal.Frm.W11_arg10 m g c)⟩)
      (Cert.KernelIdeal.Frm.run_all (F := Ideal) m g)
  · refine (θ_run Cert.ReferenceIdeal.defs _ _).mono (fun _ h c => ⟨(h c).1.trans ?_, (h c).2⟩)
      (Cert.ReferenceIdeal.Value.run (F := Ideal) m' g')
    rw [Cert.ReferenceIdeal.Read.val_main_v88_eq, Cert.RefValue.ref_eq,
      (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
